-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S256x1024 : Shape := ⟨2, ![256, 1024]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S64x128 : Shape := ⟨2, ![64, 128]⟩
abbrev S1x512x64 : Shape := ⟨3, ![1, 512, 64]⟩
abbrev S8x128 : Shape := ⟨2, ![8, 128]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩
abbrev S512x1024 : Shape := ⟨2, ![512, 1024]⟩

abbrev nBuf : Space → Nat
  | .hbm => 30
  | .vmem => 33
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S4x2048x16x64, .f32⟩
  | .hbm, ⟨12, _⟩ => ⟨S4x16x2048x64, .f32⟩
  | .hbm, ⟨13, _⟩ => ⟨S64x2048x64, .f32⟩
  | .hbm, ⟨14, _⟩ => ⟨S4x2048x16x64, .f32⟩
  | .hbm, ⟨15, _⟩ => ⟨S4x16x2048x64, .f32⟩
  | .hbm, ⟨16, _⟩ => ⟨S64x2048x64, .f32⟩
  | .hbm, ⟨17, _⟩ => ⟨S4x2048x16x64, .bf16⟩
  | .hbm, ⟨18, _⟩ => ⟨S4x16x2048x64, .bf16⟩
  | .hbm, ⟨19, _⟩ => ⟨S64x2048x64, .bf16⟩
  | .hbm, ⟨20, _⟩ => ⟨S64x128, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S64x2048x64, .bf16⟩
  | .hbm, ⟨25, _⟩ => ⟨S4x16x2048x64, .bf16⟩
  | .hbm, ⟨26, _⟩ => ⟨S4x2048x16x64, .bf16⟩
  | .hbm, ⟨27, _⟩ => ⟨S8192x1024, .bf16⟩
  | .hbm, ⟨28, _⟩ => ⟨S8192x1024, .f32⟩
  | .hbm, ⟨29, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x512x64, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S8x128, .f32⟩
  | .local _ .vmem, ⟨16, _⟩ => ⟨S8x128, .f32⟩
  | .local _ .vmem, ⟨17, _⟩ => ⟨S1x1, .f32⟩
  | .local _ .vmem, ⟨18, _⟩ => ⟨S1x512x64, .f32⟩
  | .local _ .vmem, ⟨19, _⟩ => ⟨S1x512x64, .f32⟩
  | .local _ .vmem, ⟨20, _⟩ => ⟨S1x512x64, .f32⟩
  | .local _ .vmem, ⟨21, _⟩ => ⟨S1x512x64, .f32⟩
  | .local _ .vmem, ⟨22, _⟩ => ⟨S1x512x64, .bf16⟩
  | .local _ .vmem, ⟨23, _⟩ => ⟨S1x512x64, .bf16⟩
  | .local _ .vmem, ⟨24, _⟩ => ⟨S1x512x64, .bf16⟩
  | .local _ .vmem, ⟨25, _⟩ => ⟨S1x512x64, .bf16⟩
  | .local _ .vmem, ⟨26, _⟩ => ⟨S512x64, .f32⟩
  | .local _ .vmem, ⟨27, _⟩ => ⟨S512x1, .f32⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S512x1024, .f32⟩
  | .local _ .vmem, ⟨32, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![64, 4, 4], ![false, false, false]⟩

def k1_cond1 (i : grid1.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let arg2 : BitVec 32 := BitVec.ofNat 32 (i 2).val
  let c0_i32_5 : BitVec 32 := 0#32
  let v13 : BitVec 1 := Scalar.cmpi .eq arg2 c0_i32_5
  let v14 : BitVec 1 := Scalar.andi v12 v13
  let v15 : BitVec 32 := Scalar.extui v14
  let c0_i32_6 : BitVec 32 := 0#32
  let v16 : BitVec 1 := Scalar.cmpi .ne v15 c0_i32_6
  v16

def k1_cond2 (i : grid1.Coords) : BitVec 1 :=
  let arg2 : BitVec 32 := BitVec.ofNat 32 (i 2).val
  let arg1 : BitVec 32 := BitVec.ofNat 32 (i 1).val
  let v17 : BitVec 1 := Scalar.cmpi .sle arg2 arg1
  let v18 : BitVec 32 := Scalar.extui v17
  let c0_i32_7 : BitVec 32 := 0#32
  let v19 : BitVec 1 := Scalar.cmpi .ne v18 c0_i32_7
  v19

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev grid2 : Pipeline.Grid := ⟨3, ![64, 4, 4], ![false, false, false]⟩

def k2_cond3 (i : grid2.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false]

abbrev stage2_1 : Fin 2 → Memref sig .tc .vmem S1x512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x512x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S4x2048x1024_S8192x1024 : S4x2048x1024.ShapeCasts S8192x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S256x1024_S256x1024_0_0 : (Rect.unit (s := S256x1024) ![0, 0] S256x1024.size inb_S256x1024_S256x1024_0_0).PackedRows (EltTy.packing .bf16)
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S8x128_S8x128_0_0 : ∀ a, (![0, 0] : Fin 2 → Nat) a + S8x128.size a ≤ S8x128.size a
  h_S8x128 : 0 < S8x128.numel
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  shapeCasts_S1x1_S1x1 : S1x1.ShapeCasts S1x1
  broadcasts_S1x1_S8x128 : S1x1.Broadcasts S8x128
  shapeCasts_S8x128_S8x128 : S8x128.ShapeCasts S8x128
  reducesTo_S64x128_S_d0_1 : S64x128.ReducesTo [0, 1] S_
  h_S_ : 0 < S_.numel
  shapeCasts_S_S1x1 : S_.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S8192x1024_S4x2048x1024 : S8192x1024.ShapeCasts S4x2048x1024
  dot_S256x1024_S1024x1024_S256x1024_1_1_0_0_n_n_wf : DotDims.WF S256x1024 S1024x1024 S256x1024 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .bf16 = 32 ∨ (Rect.block (s := S8192x1024) S256x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S64x2048x64.size a
  hwx1_0 : ∀ i : grid1.Coords, EltTy.bits .f32 = 32 ∨ (Rect.block (s := S64x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S64x2048x64.size a
  hwx1_1 : ∀ i : grid1.Coords, EltTy.bits .f32 = 32 ∨ (Rect.block (s := S64x2048x64) S1x512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S64x128.size a
  hwx1_2 : ∀ i : grid1.Coords, EltTy.bits .f32 = 32 ∨ (Rect.block (s := S64x128) S8x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x64.size a ≤ S64x2048x64.size a
  hwx2_1 : ∀ i : grid2.Coords, EltTy.bits .f32 = 32 ∨ (Rect.block (s := S64x2048x64) S1x512x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x64.size a ≤ S64x2048x64.size a
  hwx2_2 : ∀ i : grid2.Coords, EltTy.bits .f32 = 32 ∨ (Rect.block (s := S64x2048x64) S1x512x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x64.size a ≤ S64x2048x64.size a
  hwx2_3 : ∀ i : grid2.Coords, EltTy.bits .bf16 = 32 ∨ (Rect.block (s := S64x2048x64) S1x512x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x64.size a ≤ S64x2048x64.size a
  hwx2_4 : ∀ i : grid2.Coords, EltTy.bits .bf16 = 32 ∨ (Rect.block (s := S64x2048x64) S1x512x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .bf16 = 32 ∨ (Rect.block (s := S8192x1024) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S8192x1024.size a
  hwx3_2 : ∀ i : grid3.Coords, EltTy.bits .f32 = 32 ∨ (Rect.block (s := S8192x1024) S512x1024.size (cc3_transform_2 i) (hinb3_2 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

abbrev win2_0 : Pipeline.Window sig grid2 :=
  Pipeline.Window.ofSpec (Memref.whole main_v15) S1x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x512x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x512x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x512x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

abbrev win3_0 : Pipeline.Window sig grid3 :=
  Pipeline.Window.ofSpec (Memref.whole main_v19) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S512x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S4x16x2048 : Shape := ⟨3, ![4, 16, 2048]⟩
abbrev S4x16x2048x1 : Shape := ⟨4, ![4, 16, 2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x16x64, .f32⟩
  | .hbm, ⟨7, _⟩ => ⟨S4x16x2048x64, .f32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .i1⟩
  | .hbm, ⟨20, _⟩ => ⟨S2048x2048, .i1⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .i1⟩
  | .hbm, ⟨28, _⟩ => ⟨S2048x2048, .i1⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x16x2048x2048, .i1⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S_, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v14 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  reducesTo_S4x16x2048x2048_S_d0_1_2_3 : S4x16x2048x2048.ReducesTo [0, 1, 2, 3] S_
  h_S_ : 0 < S_.numel
  reducesTo_S4x16x2048x2048_S4x16x2048_d3 : S4x16x2048x2048.ReducesTo [3] S4x16x2048
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.SmallClaims.lean ====
/-
  Two of the five conjuncts that need no reasoning about the kernel's regions.

  * The idealized kernel differs from the printed one only in the mask value: the finite word
    `0xFF333332` (about -2.38e38), which the kernel writes where a key position lies after the query
    position, is read at the ideal instance as the extended real `⊥`, the value the reference masks
    with.  Both occurrences (the global-maximum pass and the attention pass) are the same table entry.
  * The reference is a straight line of host operations, so every execution of it ends and leaves its
    five argument arrays as they were: this is its run with the statement about the result dropped.
-/
import proofs.«157401_j56521769615696_2_alg».proof.Defs
import proofs.«157401_j56521769615696_2_alg».proof.Proof.Gen.ReferenceIdeal.Run
import proofs.«157401_j56521769615696_2_alg».proof.Proof.Gen.Pre_finite_inputs

noncomputable section

open Idealize.ShloMosaic Idealize.ShloMosaic.TcCoe Idealize.SL.Sem

namespace Cert.Proof.SmallClaims

/-- The mask constant is the table's `⊥` at the ideal instance, at both of its sites. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- The reference terminates, faults nowhere and keeps its arguments. -/
theorem frame_reference : Cert.frame_ReferenceIdeal := fun m ρ _ =>
  (θ_run Cert.ReferenceIdeal.defs _ _).mono (fun _ h c => (h c).2)
    (Cert.ReferenceIdeal.Value.run (F := Ideal) m ρ)

end Cert.Proof.SmallClaims

end
-- ==== Proof.QkvProjWord.lean ====
/-
  The fused query / key / value projection, the first of the program's four pipelined calls, at any
  float instance.

  Its grid has 32 points; point t takes rows [256 t, 256 t + 256) of the flattened input (a
  [256, 1024] block) and the three whole [1024, 1024] weights, and writes the same rows of three
  results: the row block times each transposed weight, accumulated into zero (the third through a
  narrowing of the rows and of its product).  Nothing is carried from one point to the next.  Stated
  here, at an arbitrary valuation V of the buffers on entry: what each block is, what the body's three
  stores leave in the outputs' staging buffers, that the body runs from blocks to those contents, and
  the pipeline's per-point obligation.
-/
import proofs.«157401_j56521769615696_2_alg».proof.Proof.Gen.Kernel.Launch
import proofs.«157401_j56521769615696_2_alg».proof.Proof.Gen.Kernel.Skeleton
import proofs.«157401_j56521769615696_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.QkvProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds rows [256 t, 256 t + 256) at every point. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each weight's staging buffer holds the whole weight at every point (fetched once, never moved). -/
theorem before_wq_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_wk_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_wv_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body's access rectangles: all of a row block, all of a weight. -/
abbrev rRows : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0

/-- What the body leaves in the three outputs' staging buffers: one store each, of the row block's
    product with the query, key and value weight. -/
def qBlock (x0 : Vec F S256x1024 .f32) (x1 : Vec F S1024x1024 .f32) : Vec F S256x1024 .f32 :=
  View.canon [⟨rRows, k0_pay2 (View.ld x0 rRows) (View.ld x1 rW)⟩]
def kBlock (x0 : Vec F S256x1024 .f32) (x2 : Vec F S1024x1024 .f32) : Vec F S256x1024 .f32 :=
  View.canon [⟨rRows, k0_pay3 (View.ld x0 rRows) (View.ld x2 rW)⟩]
def vBlock (x0 : Vec F S256x1024 .f32) (x3 : Vec F S1024x1024 .bf16) : Vec F S256x1024 .bf16 :=
  View.canon [⟨rRows, k0_pay4 (View.ld x0 rRows) (View.ld x3 rW)⟩]

/-- Each store covers its buffer. -/
theorem cover_f32 (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y
theorem cover_bf16 (p0 : Vec F S256x1024 .bf16) (y : S256x1024.Idx) :
    ∃ pc ∈ ([⟨rRows, p0⟩] : List (View.Piece (Elt F) S256x1024 .bf16)), y ∈ pc.1.set :=
  View.cover_of_tiled [⟨rRows, p0⟩] S256x1024.size (by rfl) y

set_option maxHeartbeats 1000000 in
/-- The body on whole staging memrefs, the four inputs at read contents and the outputs at anything,
    runs to the continuation with the inputs as they were and the outputs at the three products. -/
theorem sound_kernel (c : Dev nD) (E : Set ℕ) (i : grid0.Coords)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .bf16) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .bf16) (harg7 : arg7.IsWhole)
    (x0 : Vec F S256x1024 .f32) (x1 : Vec F S1024x1024 .f32) (x2 : Vec F S1024x1024 .f32) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (qBlock x0 x1) ∗ owns (c : Thread nD τ) arg6 fullShare (kBlock x0 x2) ∗ owns (c : Thread nD τ) arg7 fullShare (vBlock x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_f32 _)
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-- The proof data of this call on core c: the arrays as found; after the body at point t each
    input's buffer at its block and each output's at its product; the invariant the scoped rest and
    the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => qBlock (iblk V c 0 t) (iblk V c 1 t)
    | ⟨5, _⟩ => kBlock (iblk V c 0 t) (iblk V c 2 t)
    | ⟨6, _⟩ => vBlock (iblk V c 0 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = qBlock (iblk V c 0 t) (iblk V c 1 t) := by dsimp only [dat]
theorem after_5 (c : Dev nD) (t : Fin cfg0.N) : (dat V c).after 5 t = kBlock (iblk V c 0 t) (iblk V c 2 t) := by dsimp only [dat]
theorem after_6 (c : Dev nD) (t : Fin cfg0.N) : (dat V c).after 6 t = vBlock (iblk V c 0 t) (iblk V c 3 t) := by dsimp only [dat]

theorem before_0 (c : Dev nD) (t : Fin cfg0.N) (d) : (dat V c).before 0 t d = iblk V c 0 t :=
  before_rows_of V (dat V c) (A_eq V c 0) (after_0 V c) t d
theorem before_1 (c : Dev nD) (t : Fin cfg0.N) (d) : (dat V c).before 1 t d = iblk V c 1 t :=
  before_wq_of V (dat V c) (A_eq V c 1) (after_1 V c) t d
theorem before_2 (c : Dev nD) (t : Fin cfg0.N) (d) : (dat V c).before 2 t d = iblk V c 2 t :=
  before_wk_of V (dat V c) (A_eq V c 2) (after_2 V c) t d
theorem before_3 (c : Dev nD) (t : Fin cfg0.N) (d) : (dat V c).before 3 t d = iblk V c 3 t :=
  before_wv_of V (dat V c) (A_eq V c 3) (after_3 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so `sound_kernel` applies; the
    invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.QkvProj

end
-- ==== Proof.GlobalMaxRunWord.lean ====
/-
  The global-maximum pass, the second of the program's four pipelined calls, at any float instance.

  Its grid has 64 x 4 x 4 points (head bh, query tile i, key tile j; j runs fastest), so point t has
  j = t % 4, i = t / 4 % 4, bh = t / 16.  The output is a [64, 128] array cut into [8, 128] blocks, one
  per group of eight heads: a block is visited at 128 consecutive points and written back after the
  last of them.  At the first point of a block's run the body fills the block with the least value;
  at every point with j <= i it raises row bh % 8 of the block to at least the largest masked scaled
  score of the tile (query rows 512 i .., key rows 512 j ..); where j > i it touches nothing.

  Stated here, at an arbitrary valuation V of the buffers on entry: the three cases and where on the
  grid each holds, that the body runs in each case, what the block's staging buffer holds after each
  point (a recursion on the point: reset, raised, or left alone), that the buffer the body finds is
  what the previous point left, and the pipeline's per-point obligation.
-/
import proofs.«157401_j56521769615696_2_alg».proof.Proof.Gen.Kernel.Launch
import proofs.«157401_j56521769615696_2_alg».proof.Proof.Gen.Kernel.Skeleton
import proofs.«157401_j56521769615696_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GlobalMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds rows [512 i, 512 i + 512) of head bh at every point. -/
theorem before_q_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key tile's staging buffer holds rows [512 min(j,i), ..) of head bh at every point: where the
    tile index did not move since the point before, the block there is this point's. -/
theorem before_k_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, and where on the grid they hold -/

/-- "First point of a block's run": bh % 8 = 0, i = 0, j = 0. -/
abbrev condReset (i : grid1.Coords) : Prop := k1_cond1 i = 1#1
/-- "The key tile is not after the query tile": j <= i. -/
abbrev condCausal (i : grid1.Coords) : Prop := k1_cond2 i = 1#1

theorem hReset : ∀ t : Fin cfg1.N, condReset (grid1.coords t) ↔ t.val % 128 = 0 :=
  (by decide +kernel : ∀ t : Fin grid1.N, condReset (grid1.coords t) ↔ t.val % 128 = 0)
theorem hCausal : ∀ t : Fin cfg1.N, condCausal (grid1.coords t) ↔ t.val % 4 ≤ t.val / 4 % 4 :=
  (by decide +kernel : ∀ t : Fin grid1.N, condCausal (grid1.coords t) ↔ t.val % 4 ≤ t.val / 4 % 4)

/-- Where neither holds the block is idle and is not written back; where the second holds it is live. -/
theorem idle_of_skip : ∀ t : Fin cfg1.N, ¬condReset (grid1.coords t) → ¬condCausal (grid1.coords t) → cfg1.idle 2 (grid1.coords t) = true := by decide +kernel
theorem noFlush_of_skip : ∀ t : Fin cfg1.N, ¬condReset (grid1.coords t) → ¬condCausal (grid1.coords t) → (cfg1.win 2).flush t = false := by decide +kernel
theorem live_of_causal : ∀ t : Fin cfg1.N, condCausal (grid1.coords t) → cfg1.idle 2 (grid1.coords t) = false := by decide +kernel

/-! ## The body on any staging memrefs -/

/-- One staging buffer of the output window, through which its contents are stated. -/
abbrev VOut : View sig .tc .vmem S8x128 .f32 := (Memref.whole cc1_stg2_0 : Memref sig .tc .vmem S8x128 .f32).view
abbrev msQ (t : Fin cfg1.N) : Memref sig .tc .vmem S1x512x64 .f32 := win1_0.stage (cfg1.slots t 0)
abbrev hsQ (t : Fin cfg1.N) : (msQ t).IsWhole := hstage1_0 ((cfg1.slots t 0).cast nbuf1_0)
abbrev msK (t : Fin cfg1.N) : Memref sig .tc .vmem S1x512x64 .f32 := win1_1.stage (cfg1.slots t 1)
abbrev hsK (t : Fin cfg1.N) : (msK t).IsWhole := hstage1_1 ((cfg1.slots t 1).cast nbuf1_1)
abbrev msM (t : Fin cfg1.N) : Memref sig .tc .vmem S8x128 .f32 := win1_2.stage (cfg1.slots t 2)
abbrev hsM (t : Fin cfg1.N) : (msM t).IsWhole := hstage1_2 ((cfg1.slots t 2).cast nbuf1_2)

set_option maxHeartbeats 2000000 in
/-- First point of a block's run: whatever the block's buffer held, the body fills it and then raises
    one row; the pieces it ends with are found by running it. -/
noncomputable def runReset (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : condReset i) (hc2 : condCausal i) (x0 x1 : Vec F S1x512x64 .f32) :
    { L : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L)) -∗ K ⟨⟩))
          ⊢ wp frame (wpE (defs₀ (F := F)) Variants.none c none) E (cc1__gmax_kernel i arg3 harg3 arg4 harg4 arg5 harg5) K } := by
  refine ⟨?_, fun E K => ?run⟩
  case run =>
    simp only [cc1__gmax_kernel_eq_skeleton]; unfold cc1__gmax_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 2000000 in
/-- A later point with j <= i: the body reads the block's running contents xo and stores them raised. -/
noncomputable def runRaise (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : ¬condReset i) (hc2 : condCausal i) (x0 x1 : Vec F S1x512x64 .f32) (xo : Vec F S8x128 .f32) :
    { L : List (View.Piece (Elt F) S8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L)) -∗ K ⟨⟩))
          ⊢ wp frame (wpE (defs₀ (F := F)) Variants.none c none) E (cc1__gmax_kernel i arg3 harg3 arg4 harg4 arg5 harg5) K } := by
  refine ⟨?_, fun E K => ?run⟩
  case run =>
    simp only [cc1__gmax_kernel_eq_skeleton]; unfold cc1__gmax_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 2000000 in
/-- A point with j > i: the body touches nothing and every buffer is handed back as given. -/
theorem runSkip (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : ¬condReset i) (hc2 : ¬condCausal i) (x0 x1 : Vec F S1x512x64 .f32) (xi : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare xi
        ∗ (iprop(owns (c : Thread nD τ) arg3 fullShare x0 ∗ owns (c : Thread nD τ) arg4 fullShare x1 ∗ owns (c : Thread nD τ) arg5 fullShare xi) -∗ K ⟨⟩))
      ⊢ wp frame (wpE (defs₀ (F := F)) Variants.none c none) E (cc1__gmax_kernel i arg3 harg3 arg4 harg4 arg5 harg5) K := by
  simp only [cc1__gmax_kernel_eq_skeleton]; unfold cc1__gmax_kernel_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  iexists _; isplitr; · ipureintro; exact harg5.read_unread _
  iexact H2

end Cert.Kernel.GlobalMax

end
-- ==== Proof.GlobalMaxWord.lean ====
/-
  The global-maximum pass, continued: what the output block's staging buffer holds after each point,
  the pipeline's proof data, and the per-point obligation.

  After point t the block holds: at the first point of its run the reset-and-raised contents; at a
  later point with j <= i the previous contents raised by this tile; at a point with j > i the
  previous contents unchanged.  The buffer the body finds at a point that is not the first of a run
  is what the point before left, also when a stretch of untouched points lies between (the pipeline
  does not move the buffer while the block index stands still and no write-back intervenes).
-/
import proofs.«157401_j56521769615696_2_alg».proof.Proof.GlobalMaxRunWord

set_option maxRecDepth 16384

noncomputable section

namespace Cert.Kernel.GlobalMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces of the first-point case tile the block, so they cover it. -/
theorem cover_reset (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : condReset i) (hc2 : condCausal i) (x0 x1 : Vec F S1x512x64 .f32) (y : S8x128.Idx) :
    ∃ pc ∈ (runReset (F := F) c i arg3 harg3 arg4 harg4 arg5 harg5 hc1 hc2 x0 x1).1, y ∈ pc.1.set :=
  View.cover_of_tiledL (runReset (F := F) c i arg3 harg3 arg4 harg4 arg5 harg5 hc1 hc2 x0 x1).1 S8x128.size (by sl_kernel_rfl) y

/-- What the first-point case leaves in the block's buffer: its pieces read back. -/
def outReset (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : condReset i) (hc2 : condCausal i) (x0 x1 : Vec F S1x512x64 .f32) : Vec F S8x128 .f32 :=
  VOut.read (Elt F) (VOut.writes (Elt F) VOut.junk (runReset (F := F) c i arg3 harg3 arg4 harg4 arg5 harg5 hc1 hc2 x0 x1).1)

/-- The pieces of the raising case tile the block, so they cover it. -/
theorem cover_raise (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : ¬condReset i) (hc2 : condCausal i) (x0 x1 : Vec F S1x512x64 .f32) (xo : Vec F S8x128 .f32) (y : S8x128.Idx) :
    ∃ pc ∈ (runRaise (F := F) c i arg3 harg3 arg4 harg4 arg5 harg5 hc1 hc2 x0 x1 xo).1, y ∈ pc.1.set :=
  View.cover_of_tiledL (runRaise (F := F) c i arg3 harg3 arg4 harg4 arg5 harg5 hc1 hc2 x0 x1 xo).1 S8x128.size (by sl_kernel_rfl) y

/-- What the raising case leaves in the block's buffer. -/
def outRaise (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : ¬condReset i) (hc2 : condCausal i) (x0 x1 : Vec F S1x512x64 .f32) (xo : Vec F S8x128 .f32) : Vec F S8x128 .f32 :=
  VOut.read (Elt F) (VOut.writes (Elt F) VOut.junk (runRaise (F := F) c i arg3 harg3 arg4 harg4 arg5 harg5 hc1 hc2 x0 x1 xo).1)

/-! ## What the block's buffer holds after each point -/

/-- The running contents of the block's staging buffer after position n. -/
def outsAt (c : Dev nD) : (n : ℕ) → n < cfg1.N → Vec F S8x128 .f32
  | 0, hn => outReset c (grid1.coords ⟨0, hn⟩) (msQ ⟨0, hn⟩) (hsQ ⟨0, hn⟩) (msK ⟨0, hn⟩) (hsK ⟨0, hn⟩) (msM ⟨0, hn⟩) (hsM ⟨0, hn⟩)
      ((hReset ⟨0, hn⟩).mpr (Nat.zero_mod _)) ((hCausal ⟨0, hn⟩).mpr (Nat.zero_le _)) (iblk V c 0 ⟨0, hn⟩) (iblk V c 1 ⟨0, hn⟩)
  | n + 1, hn =>
    if h0 : (n + 1) % 128 = 0 then
      outReset c (grid1.coords ⟨n + 1, hn⟩) (msQ ⟨n + 1, hn⟩) (hsQ ⟨n + 1, hn⟩) (msK ⟨n + 1, hn⟩) (hsK ⟨n + 1, hn⟩) (msM ⟨n + 1, hn⟩) (hsM ⟨n + 1, hn⟩)
        ((hReset ⟨n + 1, hn⟩).mpr h0) ((hCausal ⟨n + 1, hn⟩).mpr (by (try dsimp only); omega)) (iblk V c 0 ⟨n + 1, hn⟩) (iblk V c 1 ⟨n + 1, hn⟩)
    else if h1 : (n + 1) % 4 ≤ (n + 1) / 4 % 4 then
      outRaise c (grid1.coords ⟨n + 1, hn⟩) (msQ ⟨n + 1, hn⟩) (hsQ ⟨n + 1, hn⟩) (msK ⟨n + 1, hn⟩) (hsK ⟨n + 1, hn⟩) (msM ⟨n + 1, hn⟩) (hsM ⟨n + 1, hn⟩)
        (fun h => h0 ((hReset ⟨n + 1, hn⟩).mp h)) ((hCausal ⟨n + 1, hn⟩).mpr h1) (iblk V c 0 ⟨n + 1, hn⟩) (iblk V c 1 ⟨n + 1, hn⟩) (outsAt c n (Nat.lt_of_succ_lt hn))
    else outsAt c n (Nat.lt_of_succ_lt hn)

theorem outsAt_reset (c : Dev nD) (t : Fin cfg1.N) (h0 : t.val % 128 = 0) (h1 : t.val % 4 ≤ t.val / 4 % 4) :
    outsAt V c t.val t.isLt = outReset c (grid1.coords t) (msQ t) (hsQ t) (msK t) (hsK t) (msM t) (hsM t) ((hReset t).mpr h0) ((hCausal t).mpr h1) (iblk V c 0 t) (iblk V c 1 t) := by
  obtain ⟨n, hn⟩ := t
  cases n with
  | zero => exact rfl
  | succ n => exact (dif_pos h0).trans rfl

theorem outsAt_raise (c : Dev nD) (t : Fin cfg1.N) (h0 : ¬t.val % 128 = 0) (h1 : t.val % 4 ≤ t.val / 4 % 4) :
    outsAt V c t.val t.isLt = outRaise c (grid1.coords t) (msQ t) (hsQ t) (msK t) (hsK t) (msM t) (hsM t) (fun h => h0 ((hReset t).mp h)) ((hCausal t).mpr h1) (iblk V c 0 t) (iblk V c 1 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem outsAt_skip (c : Dev nD) (t : Fin cfg1.N) (h0 : ¬t.val % 128 = 0) (h1 : ¬t.val % 4 ≤ t.val / 4 % 4) :
    outsAt V c t.val t.isLt = outsAt V c (t.val - 1) (Nat.lt_of_le_of_lt (Nat.sub_le _ _) t.isLt) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The proof data of this call on core c: the arrays as found; after the body at point t each
    input's buffer at its tile and the output block's at its running contents; the invariant the
    scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outsAt V c t.val t.isLt
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outsAt V c t.val t.isLt := by dsimp only [dat]

theorem before_0 (c : Dev nD) (t : Fin cfg1.N) (d) : (dat V c).before 0 t d = iblk V c 0 t :=
  before_q_of V (dat V c) (A_eq V c 0) (after_0 V c) t d
theorem before_1 (c : Dev nD) (t : Fin cfg1.N) (d) : (dat V c).before 1 t d = iblk V c 1 t :=
  before_k_of V (dat V c) (A_eq V c 1) (after_1 V c) t d

/-- At a point that is not the first of a block's run the block's buffer holds what the point before
    left: by induction on the point, looking back through points that touch nothing. -/
theorem before_2_aux (c : Dev nD) : ∀ (n : ℕ) (hn : n < cfg1.N), n % 128 ≠ 0 → ∀ d,
    (dat V c).before 2 ⟨n, hn⟩ d = outsAt V c (n - 1) (Nat.lt_of_le_of_lt (Nat.sub_le _ _) hn)
  | 0, _, h, _ => absurd (Nat.zero_mod _) h
  | n + 1, hn, h, d => by
    have hn' : n < cfg1.N := Nat.lt_of_succ_lt hn
    rw [Dat.before_of_pos _ 2 ⟨n + 1, hn⟩ (Nat.succ_ne_zero n) ((cfg1.win 2).fetch_out rfl _) d]
    have hfl : (cfg1.win 2).flush ⟨(⟨n + 1, hn⟩ : Fin cfg1.N).val - 1, Nat.lt_of_le_of_lt (Nat.sub_le _ _) hn⟩ = false :=
      Bool.eq_false_iff.mpr fun hf => by
        have := (flush1_2 _).mp hf
        dsimp only at this
        omega
    rw [hfl, if_neg Bool.false_ne_true]
    show (dat V c).left 2 ⟨n, hn'⟩ d = outsAt V c n hn'
    unfold Dat.left
    by_cases hr : n % 128 = 0
    · have hc : n % 4 ≤ n / 4 % 4 := by omega
      rw [live_of_causal ⟨n, hn'⟩ ((hCausal ⟨n, hn'⟩).mpr hc)]
      exact after_2 V c ⟨n, hn'⟩
    · by_cases hc : n % 4 ≤ n / 4 % 4
      · rw [live_of_causal ⟨n, hn'⟩ ((hCausal ⟨n, hn'⟩).mpr hc)]
        exact after_2 V c ⟨n, hn'⟩
      · rw [idle_of_skip ⟨n, hn'⟩ (fun h => hr ((hReset ⟨n, hn'⟩).mp h)) (fun h => hc ((hCausal ⟨n, hn'⟩).mp h))]
        show (dat V c).before 2 ⟨n, hn'⟩ d = _
        rw [before_2_aux c n hn' hr d]
        exact (outsAt_skip V c ⟨n, hn'⟩ hr hc).symm

theorem before_2 (c : Dev nD) (t : Fin cfg1.N) (h0 : ¬t.val % 128 = 0) (d) :
    (dat V c).before 2 t d = outsAt V c (t.val - 1) (Nat.lt_of_le_of_lt (Nat.sub_le _ _) t.isLt) :=
  before_2_aux V c t.val t.isLt h0 d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (msQ t) fullShare ((dat V c).before 0 t d))
    ∗ (∃ d, owns (c : Thread nD τ) (msK t) fullShare ((dat V c).before 1 t d))
    ∗ (∃ d, owns (c : Thread nD τ) (msM t) fullShare ((dat V c).before 2 t d)))

/-- and what it returns: each input's buffer at what the body leaves, the block's buffer at its
    running contents where the point stores into it and as found where it does not. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg1.N) : (dat V c).leavesExact 0 t = owns (c : Thread nD τ) (msQ t) fullShare (iblk V c 0 t) := by
  unfold Dat.leavesExact; rw [show cfg1.idle 0 (cfg1.grid.coords t) = false from rfl, after_0]
theorem leaves_1 (c : Dev nD) (t : Fin cfg1.N) : (dat V c).leavesExact 1 t = owns (c : Thread nD τ) (msK t) fullShare (iblk V c 1 t) := by
  unfold Dat.leavesExact; rw [show cfg1.idle 1 (cfg1.grid.coords t) = false from rfl, after_1]
theorem leaves_2_live (c : Dev nD) (t : Fin cfg1.N) (hc : condCausal (grid1.coords t)) :
    (dat V c).leavesExact 2 t = owns (c : Thread nD τ) (msM t) fullShare (outsAt V c t.val t.isLt) := by
  unfold Dat.leavesExact; rw [live_of_causal t hc, after_2]

set_option maxHeartbeats 2000000 in
/-- The body at any point, by the three cases. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    leaves_0, leaves_1]
  by_cases h0 : t.val % 128 = 0
  · have h1 : t.val % 4 ≤ t.val / 4 % 4 := by omega
    rw [leaves_2_live V c t ((hCausal t).mpr h1), outsAt_reset V c t h0 h1]
    unfold outReset
    iintro ⟨HΦ, Ho, ⟨%d0, H0⟩, ⟨%d1, H1⟩, ⟨%d2, H2⟩⟩
    iapply ((runReset c (grid1.coords t) _ _ _ _ _ _ ((hReset t).mpr h0) ((hCausal t).mpr h1) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_reset c _ _ _ _ _ _ _ _ _ _ _)
  · by_cases h1 : t.val % 4 ≤ t.val / 4 % 4
    · rw [leaves_2_live V c t ((hCausal t).mpr h1), outsAt_raise V c t h0 h1]
      simp only [before_2 V c t h0]
      unfold outRaise
      iintro ⟨HΦ, Ho, ⟨%d0, H0⟩, ⟨%d1, H1⟩, ⟨%d2, H2⟩⟩
      iapply ((runRaise c (grid1.coords t) _ _ _ _ _ _ (fun h => h0 ((hReset t).mp h)) ((hCausal t).mpr h1) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_raise c _ _ _ _ _ _ _ _ _ _ _ _)
    · rw [Dat.leavesExact_idle (dat V c) 2 t (idle_of_skip t (fun h => h0 ((hReset t).mp h)) (fun h => h1 ((hCausal t).mp h)))
        (noFlush_of_skip t (fun h => h0 ((hReset t).mp h)) (fun h => h1 ((hCausal t).mp h)))]
      iintro ⟨HΦ, Ho, ⟨%d0, H0⟩, ⟨%d1, H1⟩, ⟨%d2, H2⟩⟩
      iapply (runSkip c (grid1.coords t) _ _ _ _ _ _ (fun h => h0 ((hReset t).mp h)) (fun h => h1 ((hCausal t).mp h)) (iblk V c 0 t) (iblk V c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexists _; iexact H2

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.GlobalMax

end
-- ==== Proof.AttentionRunWord.lean ====
/-
  The attention pass, the third of the program's four pipelined calls, at any float instance: the
  body's five cases.

  Its grid has 64 x 4 x 4 points (head bh, query tile i, key tile j; j fastest): point t has j = t % 4
  and i = t / 4 % 4.  Two scratch buffers live across the four key tiles of one query tile: a
  [512, 64] accumulator of weight-times-value sums and a [512, 1] accumulator of weight sums.  At
  j = 0 both are zeroed; at every j <= i the tile's weights exp(masked scaled score - global maximum)
  are formed and both accumulators advanced; at j = 3 the quotient of the two is stored into the
  output tile, which is written back there and nowhere else.  The three conditions meet in five
  combinations: j = 0 (zero, then advance); 0 < j < 3 with j <= i (advance); 0 < j < 3 with j > i
  (nothing); j = 3 = i (advance, then store); j = 3 > i (store only).
-/
import proofs.«157401_j56521769615696_2_alg».proof.Proof.Gen.Kernel.Launch
import proofs.«157401_j56521769615696_2_alg».proof.Proof.Gen.Kernel.Skeleton
import proofs.«157401_j56521769615696_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attention

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds its block at every point (the global maximum's one word; the
    query tile; the key and value tiles at index min(j, i)), fetched there or not. -/
theorem before_m_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_q_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_v_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, and where on the grid they hold -/

/-- "First key tile": j = 0. -/
abbrev condInit (i : grid2.Coords) : Prop := (Scalar.cmpi .ne (Scalar.extui (Scalar.cmpi .eq (BitVec.ofNat 32 (i 2).val) 0#32)) 0#32) = 1#1
/-- "The key tile is not after the query tile": j <= i. -/
abbrev condCausal (i : grid2.Coords) : Prop := (Scalar.cmpi .ne (Scalar.extui (Scalar.cmpi .sle (BitVec.ofNat 32 (i 2).val) (BitVec.ofNat 32 (i 1).val))) 0#32) = 1#1
/-- "Last key tile": j = 3. -/
abbrev condLast (i : grid2.Coords) : Prop := k2_cond3 i = 1#1

theorem hInit : ∀ t : Fin cfg2.N, condInit (grid2.coords t) ↔ t.val % 4 = 0 :=
  (by decide +kernel : ∀ t : Fin grid2.N, condInit (grid2.coords t) ↔ t.val % 4 = 0)
theorem hCausal : ∀ t : Fin cfg2.N, condCausal (grid2.coords t) ↔ t.val % 4 ≤ t.val / 4 % 4 :=
  (by decide +kernel : ∀ t : Fin grid2.N, condCausal (grid2.coords t) ↔ t.val % 4 ≤ t.val / 4 % 4)
theorem hLast : ∀ t : Fin cfg2.N, condLast (grid2.coords t) ↔ t.val % 4 = 3 :=
  (by decide +kernel : ∀ t : Fin grid2.N, condLast (grid2.coords t) ↔ t.val % 4 = 3)

/-- Off the last key tile the output tile is idle and is not written back; on it it is live. -/
theorem idle_of_notLast : ∀ t : Fin cfg2.N, ¬condLast (grid2.coords t) → cfg2.idle 4 (grid2.coords t) = true := by decide +kernel
theorem noFlush_of_notLast : ∀ t : Fin cfg2.N, ¬condLast (grid2.coords t) → (cfg2.win 4).flush t = false := by decide +kernel
theorem live_of_last : ∀ t : Fin cfg2.N, condLast (grid2.coords t) → cfg2.idle 4 (grid2.coords t) = false := by decide +kernel

/-! ## The memrefs -/

abbrev VOut : View sig .tc .vmem S1x512x64 .bf16 := (Memref.whole cc2_stg4_0 : Memref sig .tc .vmem S1x512x64 .bf16).view
abbrev msM (t : Fin cfg2.N) : Memref sig .tc .vmem S1x1 .f32 := win2_0.stage (cfg2.slots t 0)
abbrev hsM (t : Fin cfg2.N) : (msM t).IsWhole := hstage2_0 ((cfg2.slots t 0).cast nbuf2_0)
abbrev msQ (t : Fin cfg2.N) : Memref sig .tc .vmem S1x512x64 .f32 := win2_1.stage (cfg2.slots t 1)
abbrev hsQ (t : Fin cfg2.N) : (msQ t).IsWhole := hstage2_1 ((cfg2.slots t 1).cast nbuf2_1)
abbrev msK (t : Fin cfg2.N) : Memref sig .tc .vmem S1x512x64 .f32 := win2_2.stage (cfg2.slots t 2)
abbrev hsK (t : Fin cfg2.N) : (msK t).IsWhole := hstage2_2 ((cfg2.slots t 2).cast nbuf2_2)
abbrev msV (t : Fin cfg2.N) : Memref sig .tc .vmem S1x512x64 .bf16 := win2_3.stage (cfg2.slots t 3)
abbrev hsV (t : Fin cfg2.N) : (msV t).IsWhole := hstage2_3 ((cfg2.slots t 3).cast nbuf2_3)
abbrev msO (t : Fin cfg2.N) : Memref sig .tc .vmem S1x512x64 .bf16 := win2_4.stage (cfg2.slots t 4)
abbrev hsO (t : Fin cfg2.N) : (msO t).IsWhole := hstage2_4 ((cfg2.slots t 4).cast nbuf2_4)
/-- The two scratch accumulators: whole scoped buffers of the call's own. -/
abbrev scAcc : Memref sig .tc .vmem S512x64 .f32 := Memref.whole cc2_scratch0
abbrev scL : Memref sig .tc .vmem S512x1 .f32 := Memref.whole cc2_scratch1
abbrev VAcc : View sig .tc .vmem S512x64 .f32 := scAcc.view
abbrev VL : View sig .tc .vmem S512x1 .f32 := scL.view

/-! ## The five cases -/

set_option maxHeartbeats 4000000 in
/-- j = 0: whatever the accumulators held, they are zeroed and advanced by the first key tile; the
    output tile is handed back untouched. -/
noncomputable def runFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : condInit i) (hc1 : condCausal i) (hc2 : ¬condLast i) (xm : Vec F S1x1 .f32) (xq xk : Vec F S1x512x64 .f32) (xv : Vec F S1x512x64 .bf16) :
    Σ' (LA : List (View.Piece (Elt F) S512x64 .f32)), { LL : List (View.Piece (Elt F) S512x1 .f32) //
      ∀ (xo : Vec F S1x512x64 .bf16) (E : Set ℕ) (K : PUnit → sProp 𝕄),
        iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ (∃ d, owns (c : Thread nD τ) arg8 fullShare d) ∗ (∃ d, owns (c : Thread nD τ) arg9 fullShare d)
            ∗ (iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LL)) -∗ K ⟨⟩))
          ⊢ wp frame (wpE (defs₀ (F := F)) Variants.none c none) E (cc2__attn_kernel i arg3 harg3 arg4 harg4 arg5 harg5 arg6 harg6 arg7 harg7 arg8 harg8 arg9 harg9) K } := by
  refine ⟨?_, ?_, fun xo E K => ?run⟩
  case run =>
    simp only [cc2__attn_kernel_eq_skeleton]; unfold cc2__attn_kernel_skel
    simp only [k2_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- 0 < j < 3 and j <= i: the accumulators, at their running contents, are advanced by this key tile. -/
noncomputable def runAdvance (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) :
    Σ' (LA : List (View.Piece (Elt F) S512x64 .f32)), { LL : List (View.Piece (Elt F) S512x1 .f32) //
      ∀ (xo : Vec F S1x512x64 .bf16) (E : Set ℕ) (K : PUnit → sProp 𝕄),
        iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xa ∗ owns (c : Thread nD τ) arg9 fullShare xl
            ∗ (iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LL)) -∗ K ⟨⟩))
          ⊢ wp frame (wpE (defs₀ (F := F)) Variants.none c none) E (cc2__attn_kernel i arg3 harg3 arg4 harg4 arg5 harg5 arg6 harg6 arg7 harg7 arg8 harg8 arg9 harg9) K } := by
  refine ⟨?_, ?_, fun xo E K => ?run⟩
  case run =>
    simp only [cc2__attn_kernel_eq_skeleton]; unfold cc2__attn_kernel_skel
    simp only [k2_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6; obtain rfl := harg7.eq_unread hf7
    obtain rfl := harg8.eq_unread hf8; obtain rfl := harg9.eq_unread hf9
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- 0 < j < 3 and j > i: nothing is touched; every buffer is handed back as given. -/
theorem runIdle (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : ¬condCausal i) (hc2 : ¬condLast i) (xm : Vec F S1x1 .f32) (xq xk : Vec F S1x512x64 .f32) (xv : Vec F S1x512x64 .bf16) (xa : Vec F S512x64 .f32) (xl : Vec F S512x1 .f32)
    (xo : Vec F S1x512x64 .bf16) (E : Set ℕ) (K : PUnit → sProp 𝕄) :
    iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xa ∗ owns (c : Thread nD τ) arg9 fullShare xl
        ∗ (iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xa ∗ owns (c : Thread nD τ) arg9 fullShare xl) -∗ K ⟨⟩))
      ⊢ wp frame (wpE (defs₀ (F := F)) Variants.none c none) E (cc2__attn_kernel i arg3 harg3 arg4 harg4 arg5 harg5 arg6 harg6 arg7 harg7 arg8 harg8 arg9 harg9) K := by
  simp only [cc2__attn_kernel_eq_skeleton]; unfold cc2__attn_kernel_skel
  simp only [k2_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- j = 3 = i: the accumulators are advanced by the last key tile and their quotient is stored into
    the output tile, whatever it held. -/
noncomputable def runLastAdvance (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) :
    Σ' (LO : List (View.Piece (Elt F) S1x512x64 .bf16)) (LA : List (View.Piece (Elt F) S512x64 .f32)), { LL : List (View.Piece (Elt F) S512x1 .f32) //
      ∀ (E : Set ℕ) (K : PUnit → sProp 𝕄),
        iprop(owns (c : Thread nD τ) arg3 fullShare xm ∗ owns (c : Thread nD τ) arg4 fullShare xq ∗ owns (c : Thread nD τ) arg5 fullShare xk ∗ owns (c : Thread nD τ) arg6 fullShare xv ∗ (∃ d, owns (c : Thread nD τ) arg7 fullShare d) ∗ owns (c : Thread nD τ) arg8 fullShare xa ∗ owns (c : Thread nD τ) arg9 fullShare xl
            ∗ (iprop(owns (c : Thread nD τ) arg3 fullShare xm ∗ owns (c : Thread nD τ) arg4 fullShare xq ∗ owns (c : Thread nD τ) arg5 fullShare xk ∗ owns (c : Thread nD τ) arg6 fullShare xv ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LL)) -∗ K ⟨⟩))
          ⊢ wp frame (wpE (defs₀ (F := F)) Variants.none c none) E (cc2__attn_kernel i arg3 harg3 arg4 harg4 arg5 harg5 arg6 harg6 arg7 harg7 arg8 harg8 arg9 harg9) K } := by
  refine ⟨?_, ?_, ?_, fun E K => ?run⟩
  case run =>
    simp only [cc2__attn_kernel_eq_skeleton]; unfold cc2__attn_kernel_skel
    simp only [k2_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6
    obtain rfl := harg8.eq_unread hf8; obtain rfl := harg9.eq_unread hf9
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 4000000 in
/-- j = 3 > i: the accumulators are only read; their quotient is stored into the output tile. -/
noncomputable def runLastStore (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : ¬condCausal i) (hc2 : condLast i) (xm : Vec F S1x1 .f32) (xq xk : Vec F S1x512x64 .f32) (xv : Vec F S1x512x64 .bf16) (xa : Vec F S512x64 .f32) (xl : Vec F S512x1 .f32) :
    { LO : List (View.Piece (Elt F) S1x512x64 .bf16) //
      ∀ (E : Set ℕ) (K : PUnit → sProp 𝕄),
        iprop(owns (c : Thread nD τ) arg3 fullShare xm ∗ owns (c : Thread nD τ) arg4 fullShare xq ∗ owns (c : Thread nD τ) arg5 fullShare xk ∗ owns (c : Thread nD τ) arg6 fullShare xv ∗ (∃ d, owns (c : Thread nD τ) arg7 fullShare d) ∗ owns (c : Thread nD τ) arg8 fullShare xa ∗ owns (c : Thread nD τ) arg9 fullShare xl
            ∗ (iprop(owns (c : Thread nD τ) arg3 fullShare xm ∗ owns (c : Thread nD τ) arg4 fullShare xq ∗ owns (c : Thread nD τ) arg5 fullShare xk ∗ owns (c : Thread nD τ) arg6 fullShare xv ∗ (∃ f, arg7.view.loc (c : Thread nD τ) ↦[arg7.view.set]{fullShare} arg7.view.writes (Elt F) f LO) ∗ owns (c : Thread nD τ) arg8 fullShare xa ∗ owns (c : Thread nD τ) arg9 fullShare xl) -∗ K ⟨⟩))
          ⊢ wp frame (wpE (defs₀ (F := F)) Variants.none c none) E (cc2__attn_kernel i arg3 harg3 arg4 harg4 arg5 harg5 arg6 harg6 arg7 harg7 arg8 harg8 arg9 harg9) K } := by
  refine ⟨?_, fun E K => ?run⟩
  case run =>
    simp only [cc2__attn_kernel_eq_skeleton]; unfold cc2__attn_kernel_skel
    simp only [k2_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6
    obtain rfl := harg8.eq_unread hf8; obtain rfl := harg9.eq_unread hf9
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    iexists _; isplitr; · ipureintro; exact harg9.read_unread _
    iexact H9

end Cert.Kernel.Attention

end
-- ==== Proof.AttentionWord.lean ====
/-
  The attention pass, continued: what the output tile and the two accumulators hold after each point,
  the invariant that carries the accumulators from point to point, the pipeline's proof data and the
  per-point obligation.

  Between points the call's invariant holds its two scratch buffers at the contents the point before
  left (before the first point: at anything), every other scoped buffer of the core unopened, and the
  generator register.  The output tile's staging buffer is handed to the body as the pipeline left it
  and taken back untouched except at the last key tile, where the body stores the quotient of the two
  accumulators into all of it.
-/
import proofs.«157401_j56521769615696_2_alg».proof.Proof.AttentionRunWord

set_option maxRecDepth 16384

noncomputable section

namespace Cert.Kernel.Attention

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The accumulator after the first key tile: the pieces tile the buffer, -/
theorem cover_accFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : condInit i) (hc1 : condCausal i) (hc2 : ¬condLast i) (xm : Vec F S1x1 .f32) (xq xk : Vec F S1x512x64 .f32) (xv : Vec F S1x512x64 .bf16)  (y : S512x64.Idx) :
    ∃ pc ∈ (runFirst (F := F) c i arg3 harg3 arg4 harg4 arg5 harg5 arg6 harg6 arg7 harg7 arg8 harg8 arg9 harg9 hc0 hc1 hc2 xm xq xk xv).1, y ∈ pc.1.set :=
  View.cover_of_tiledL (runFirst (F := F) c i arg3 harg3 arg4 harg4 arg5 harg5 arg6 harg6 arg7 harg7 arg8 harg8 arg9 harg9 hc0 hc1 hc2 xm xq xk xv).1 S512x64.size (by sl_kernel_rfl) y
/-- and read back they are its contents. -/
def accFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : condInit i) (hc1 : condCausal i) (hc2 : ¬condLast i) (xm : Vec F S1x1 .f32) (xq xk : Vec F S1x512x64 .f32) (xv : Vec F S1x512x64 .bf16)  : Vec F S512x64 .f32 :=
  VAcc.read (Elt F) (VAcc.writes (Elt F) VAcc.junk (runFirst (F := F) c i arg3 harg3 arg4 harg4 arg5 harg5 arg6 harg6 arg7 harg7 arg8 harg8 arg9 harg9 hc0 hc1 hc2 xm xq xk xv).1)

/-- The weight sums after the first key tile: the pieces tile the buffer, -/
theorem cover_lFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : condInit i) (hc1 : condCausal i) (hc2 : ¬condLast i) (xm : Vec F S1x1 .f32) (xq xk : Vec F S1x512x64 .f32) (xv : Vec F S1x512x64 .bf16)  (y : S512x1.Idx) :
    ∃ pc ∈ (runFirst (F := F) c i arg3 harg3 arg4 harg4 arg5 harg5 arg6 harg6 arg7 harg7 arg8 harg8 arg9 harg9 hc0 hc1 hc2 xm xq xk xv).2.1, y ∈ pc.1.set :=
  View.cover_of_tiledL (runFirst (F := F) c i arg3 harg3 arg4 harg4 arg5 harg5 arg6 harg6 arg7 harg7 arg8 harg8 arg9 harg9 hc0 hc1 hc2 xm xq xk xv).2.1 S512x1.size (by sl_kernel_rfl) y
/-- and read back they are its contents. -/
def lFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : condInit i) (hc1 : condCausal i) (hc2 : ¬condLast i) (xm : Vec F S1x1 .f32) (xq xk : Vec F S1x512x64 .f32) (xv : Vec F S1x512x64 .bf16)  : Vec F S512x1 .f32 :=
  VL.read (Elt F) (VL.writes (Elt F) VL.junk (runFirst (F := F) c i arg3 harg3 arg4 harg4 arg5 harg5 arg6 harg6 arg7 harg7 arg8 harg8 arg9 harg9 hc0 hc1 hc2 xm xq xk xv).2.1)

/-- The accumulator advanced by a middle key tile: the pieces tile the buffer, -/
theorem cover_accAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) (y : S512x64.Idx) :
    ∃ pc ∈ (runAdvance (F := F) c i arg3 harg3 arg4 harg4 arg5 harg5 arg6 harg6 arg7 harg7 arg8 harg8 arg9 harg9 hc0 hc1 hc2 xm xq xk xv xa xl).1, y ∈ pc.1.set :=
  View.cover_of_tiledL (runAdvance (F := F) c i arg3 harg3 arg4 harg4 arg5 harg5 arg6 harg6 arg7 harg7 arg8 harg8 arg9 harg9 hc0 hc1 hc2 xm xq xk xv xa xl).1 S512x64.size (by sl_kernel_rfl) y
/-- and read back they are its contents. -/
def accAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) : Vec F S512x64 .f32 :=
  VAcc.read (Elt F) (VAcc.writes (Elt F) VAcc.junk (runAdvance (F := F) c i arg3 harg3 arg4 harg4 arg5 harg5 arg6 harg6 arg7 harg7 arg8 harg8 arg9 harg9 hc0 hc1 hc2 xm xq xk xv xa xl).1)

/-- The weight sums advanced by a middle key tile: the pieces tile the buffer, -/
theorem cover_lAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) (y : S512x1.Idx) :
    ∃ pc ∈ (runAdvance (F := F) c i arg3 harg3 arg4 harg4 arg5 harg5 arg6 harg6 arg7 harg7 arg8 harg8 arg9 harg9 hc0 hc1 hc2 xm xq xk xv xa xl).2.1, y ∈ pc.1.set :=
  View.cover_of_tiledL (runAdvance (F := F) c i arg3 harg3 arg4 harg4 arg5 harg5 arg6 harg6 arg7 harg7 arg8 harg8 arg9 harg9 hc0 hc1 hc2 xm xq xk xv xa xl).2.1 S512x1.size (by sl_kernel_rfl) y
/-- and read back they are its contents. -/
def lAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) : Vec F S512x1 .f32 :=
  VL.read (Elt F) (VL.writes (Elt F) VL.junk (runAdvance (F := F) c i arg3 harg3 arg4 harg4 arg5 harg5 arg6 harg6 arg7 harg7 arg8 harg8 arg9 harg9 hc0 hc1 hc2 xm xq xk xv xa xl).2.1)

/-- The output tile stored at the diagonal's last key tile: the pieces tile the buffer, -/
theorem cover_outLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) (y : S1x512x64.Idx) :
    ∃ pc ∈ (runLastAdvance (F := F) c i arg3 harg3 arg4 harg4 arg5 harg5 arg6 harg6 arg7 harg7 arg8 harg8 arg9 harg9 hc0 hc1 hc2 xm xq xk xv xa xl).1, y ∈ pc.1.set :=
  View.cover_of_tiledL (runLastAdvance (F := F) c i arg3 harg3 arg4 harg4 arg5 harg5 arg6 harg6 arg7 harg7 arg8 harg8 arg9 harg9 hc0 hc1 hc2 xm xq xk xv xa xl).1 S1x512x64.size (by sl_kernel_rfl) y
/-- and read back they are its contents. -/
def outLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) : Vec F S1x512x64 .bf16 :=
  VOut.read (Elt F) (VOut.writes (Elt F) VOut.junk (runLastAdvance (F := F) c i arg3 harg3 arg4 harg4 arg5 harg5 arg6 harg6 arg7 harg7 arg8 harg8 arg9 harg9 hc0 hc1 hc2 xm xq xk xv xa xl).1)

/-- The accumulator advanced by the last key tile: the pieces tile the buffer, -/
theorem cover_accLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) (y : S512x64.Idx) :
    ∃ pc ∈ (runLastAdvance (F := F) c i arg3 harg3 arg4 harg4 arg5 harg5 arg6 harg6 arg7 harg7 arg8 harg8 arg9 harg9 hc0 hc1 hc2 xm xq xk xv xa xl).2.1, y ∈ pc.1.set :=
  View.cover_of_tiledL (runLastAdvance (F := F) c i arg3 harg3 arg4 harg4 arg5 harg5 arg6 harg6 arg7 harg7 arg8 harg8 arg9 harg9 hc0 hc1 hc2 xm xq xk xv xa xl).2.1 S512x64.size (by sl_kernel_rfl) y
/-- and read back they are its contents. -/
def accLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) : Vec F S512x64 .f32 :=
  VAcc.read (Elt F) (VAcc.writes (Elt F) VAcc.junk (runLastAdvance (F := F) c i arg3 harg3 arg4 harg4 arg5 harg5 arg6 harg6 arg7 harg7 arg8 harg8 arg9 harg9 hc0 hc1 hc2 xm xq xk xv xa xl).2.1)

/-- The weight sums advanced by the last key tile: the pieces tile the buffer, -/
theorem cover_lLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) (y : S512x1.Idx) :
    ∃ pc ∈ (runLastAdvance (F := F) c i arg3 harg3 arg4 harg4 arg5 harg5 arg6 harg6 arg7 harg7 arg8 harg8 arg9 harg9 hc0 hc1 hc2 xm xq xk xv xa xl).2.2.1, y ∈ pc.1.set :=
  View.cover_of_tiledL (runLastAdvance (F := F) c i arg3 harg3 arg4 harg4 arg5 harg5 arg6 harg6 arg7 harg7 arg8 harg8 arg9 harg9 hc0 hc1 hc2 xm xq xk xv xa xl).2.2.1 S512x1.size (by sl_kernel_rfl) y
/-- and read back they are its contents. -/
def lLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) : Vec F S512x1 .f32 :=
  VL.read (Elt F) (VL.writes (Elt F) VL.junk (runLastAdvance (F := F) c i arg3 harg3 arg4 harg4 arg5 harg5 arg6 harg6 arg7 harg7 arg8 harg8 arg9 harg9 hc0 hc1 hc2 xm xq xk xv xa xl).2.2.1)

/-- The output tile stored at a last key tile above the diagonal: the pieces tile the buffer, -/
theorem cover_outLastStore (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : ¬condCausal i) (hc2 : condLast i) (xm : Vec F S1x1 .f32) (xq xk : Vec F S1x512x64 .f32) (xv : Vec F S1x512x64 .bf16) (xa : Vec F S512x64 .f32) (xl : Vec F S512x1 .f32) (y : S1x512x64.Idx) :
    ∃ pc ∈ (runLastStore (F := F) c i arg3 harg3 arg4 harg4 arg5 harg5 arg6 harg6 arg7 harg7 arg8 harg8 arg9 harg9 hc0 hc1 hc2 xm xq xk xv xa xl).1, y ∈ pc.1.set :=
  View.cover_of_tiledL (runLastStore (F := F) c i arg3 harg3 arg4 harg4 arg5 harg5 arg6 harg6 arg7 harg7 arg8 harg8 arg9 harg9 hc0 hc1 hc2 xm xq xk xv xa xl).1 S1x512x64.size (by sl_kernel_rfl) y
/-- and read back they are its contents. -/
def outLastStore (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : ¬condCausal i) (hc2 : condLast i) (xm : Vec F S1x1 .f32) (xq xk : Vec F S1x512x64 .f32) (xv : Vec F S1x512x64 .bf16) (xa : Vec F S512x64 .f32) (xl : Vec F S512x1 .f32) : Vec F S1x512x64 .bf16 :=
  VOut.read (Elt F) (VOut.writes (Elt F) VOut.junk (runLastStore (F := F) c i arg3 harg3 arg4 harg4 arg5 harg5 arg6 harg6 arg7 harg7 arg8 harg8 arg9 harg9 hc0 hc1 hc2 xm xq xk xv xa xl).1)

/-! ## After each point -/

/-- What nothing consults: the output tile's entry at a point that does not store it. -/
def outNone : Vec F S1x512x64 .bf16 := VOut.read (Elt F) VOut.junk

/-- After position n: the output tile's staging buffer (where the point stores it), the accumulator
    and the weight sums. -/
def outsAt (c : Dev nD) : (n : ℕ) → n < cfg2.N → Vec F S1x512x64 .bf16 × Vec F S512x64 .f32 × Vec F S512x1 .f32
  | 0, hn => (outNone,
      accFirst c (grid2.coords ⟨0, hn⟩) (msM ⟨0, hn⟩) (hsM ⟨0, hn⟩) (msQ ⟨0, hn⟩) (hsQ ⟨0, hn⟩) (msK ⟨0, hn⟩) (hsK ⟨0, hn⟩) (msV ⟨0, hn⟩) (hsV ⟨0, hn⟩) (msO ⟨0, hn⟩) (hsO ⟨0, hn⟩) scAcc (Memref.isWhole_whole _) scL (Memref.isWhole_whole _) ((hInit ⟨0, hn⟩).mpr (Nat.zero_mod _)) ((hCausal ⟨0, hn⟩).mpr (Nat.zero_le _)) (fun h => absurd ((hLast ⟨0, hn⟩).mp h) (by (try dsimp only); omega)) (iblk V c 0 ⟨0, hn⟩) (iblk V c 1 ⟨0, hn⟩) (iblk V c 2 ⟨0, hn⟩) (iblk V c 3 ⟨0, hn⟩),
      lFirst c (grid2.coords ⟨0, hn⟩) (msM ⟨0, hn⟩) (hsM ⟨0, hn⟩) (msQ ⟨0, hn⟩) (hsQ ⟨0, hn⟩) (msK ⟨0, hn⟩) (hsK ⟨0, hn⟩) (msV ⟨0, hn⟩) (hsV ⟨0, hn⟩) (msO ⟨0, hn⟩) (hsO ⟨0, hn⟩) scAcc (Memref.isWhole_whole _) scL (Memref.isWhole_whole _) ((hInit ⟨0, hn⟩).mpr (Nat.zero_mod _)) ((hCausal ⟨0, hn⟩).mpr (Nat.zero_le _)) (fun h => absurd ((hLast ⟨0, hn⟩).mp h) (by (try dsimp only); omega)) (iblk V c 0 ⟨0, hn⟩) (iblk V c 1 ⟨0, hn⟩) (iblk V c 2 ⟨0, hn⟩) (iblk V c 3 ⟨0, hn⟩))
  | n + 1, hn =>
    if h0 : (n + 1) % 4 = 0 then
      (outNone,
        accFirst c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) ((hInit ⟨n + 1, hn⟩).mpr h0) ((hCausal ⟨n + 1, hn⟩).mpr (by (try dsimp only); omega)) (fun h => absurd ((hLast ⟨n + 1, hn⟩).mp h) (by (try dsimp only); omega)) (iblk V c 0 ⟨n + 1, hn⟩) (iblk V c 1 ⟨n + 1, hn⟩) (iblk V c 2 ⟨n + 1, hn⟩) (iblk V c 3 ⟨n + 1, hn⟩),
        lFirst c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) ((hInit ⟨n + 1, hn⟩).mpr h0) ((hCausal ⟨n + 1, hn⟩).mpr (by (try dsimp only); omega)) (fun h => absurd ((hLast ⟨n + 1, hn⟩).mp h) (by (try dsimp only); omega)) (iblk V c 0 ⟨n + 1, hn⟩) (iblk V c 1 ⟨n + 1, hn⟩) (iblk V c 2 ⟨n + 1, hn⟩) (iblk V c 3 ⟨n + 1, hn⟩))
    else if h3 : (n + 1) % 4 = 3 then
      if hc : (n + 1) % 4 ≤ (n + 1) / 4 % 4 then
        (outLastAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) ((hLast ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
          accLastAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) ((hLast ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
          lLastAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) ((hLast ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)
      else
        (outLastStore c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) (fun h => hc ((hCausal ⟨n + 1, hn⟩).mp h)) ((hLast ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
          (outsAt c n (Nat.lt_of_succ_lt hn)).2.1, (outsAt c n (Nat.lt_of_succ_lt hn)).2.2)
    else if hc : (n + 1) % 4 ≤ (n + 1) / 4 % 4 then
      (outNone,
        accAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) (fun h => h3 ((hLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
        lAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) (fun h => h3 ((hLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)
    else (outNone, (outsAt c n (Nat.lt_of_succ_lt hn)).2.1, (outsAt c n (Nat.lt_of_succ_lt hn)).2.2)

theorem outsAt_first (c : Dev nD) (t : Fin cfg2.N) (h0 : t.val % 4 = 0) (hc : t.val % 4 ≤ t.val / 4 % 4) (h3 : ¬t.val % 4 = 3) :
    outsAt V c t.val t.isLt = (outNone,
      accFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t),
      lFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t)) := by
  obtain ⟨n, hn⟩ := t
  cases n with
  | zero => exact rfl
  | succ n => exact (dif_pos h0).trans rfl

theorem outsAt_advance (c : Dev nD) (t : Fin cfg2.N) (h0 : ¬t.val % 4 = 0) (hc : t.val % 4 ≤ t.val / 4 % 4) (h3 : ¬t.val % 4 = 3) :
    outsAt V c t.val t.isLt = (outNone,
      accAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
      lAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h3).trans ((dif_pos hc).trans rfl))

theorem outsAt_idle (c : Dev nD) (t : Fin cfg2.N) (h0 : ¬t.val % 4 = 0) (hc : ¬t.val % 4 ≤ t.val / 4 % 4) (h3 : ¬t.val % 4 = 3) :
    outsAt V c t.val t.isLt = (outNone, (outsAt V c (t.val - 1) (Nat.lt_of_le_of_lt (Nat.sub_le _ _) t.isLt)).2.1, (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h3).trans ((dif_neg hc).trans rfl))

theorem outsAt_lastAdvance (c : Dev nD) (t : Fin cfg2.N) (h0 : ¬t.val % 4 = 0) (hc : t.val % 4 ≤ t.val / 4 % 4) (h3 : t.val % 4 = 3) :
    outsAt V c t.val t.isLt = (
      outLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
      accLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
      lLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h3).trans ((dif_pos hc).trans rfl))

theorem outsAt_lastStore (c : Dev nD) (t : Fin cfg2.N) (h0 : ¬t.val % 4 = 0) (hc : ¬t.val % 4 ≤ t.val / 4 % 4) (h3 : t.val % 4 = 3) :
    outsAt V c t.val t.isLt = (
      outLastStore c (grid2.coords t) (msM t) (hsM t) (msQ t) (hsQ t) (msK t) (hsK t) (msV t) (hsV t) (msO t) (hsO t) scAcc (Memref.isWhole_whole _) scL (Memref.isWhole_whole _) (fun h => h0 ((hInit t).mp h)) (fun h => hc ((hCausal t).mp h)) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
      (outsAt V c (t.val - 1) (Nat.lt_of_le_of_lt (Nat.sub_le _ _) t.isLt)).2.1, (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h3).trans ((dif_neg hc).trans rfl))

/-! ## The invariant -/

/-- The core's scoped buffers that are no staging buffer of this call, split at its two scratch
    buffers; the others stay unopened. -/
theorem scopedRest_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The other scoped buffers, unopened. -/
abbrev others (c : Dev nD) : sProp 𝕄 :=
  Pipeline.scopedRestBut (Ix := Unit) (Name := ℕ) (U := UR sig nD τ) (Lvl := ℕ) (Val := Elt F) spec2 c [cc2_scratch0, cc2_scratch1]

/-- The class's invariant with the two scratch buffers as memrefs owned at some contents. -/
theorem PhiA_eq (c : Dev nD) :
    (Pipeline.ΦA spec2 c : sProp 𝕄)
      = iprop(iprop(iprop((∃ d, owns (c : Thread nD τ) scAcc fullShare d) ∗ (∃ d, owns (c : Thread nD τ) scL fullShare d)) ∗ others (F := F) c) ∗ (∃ r, prngReg c r)) := by
  unfold Pipeline.ΦA; rw [scopedRest_split]; simp only [scAcc, scL, owns_whole]; try rfl

/-- The invariant before position n: at the start the class's; afterwards the two scratch buffers at
    what the point before left, the others unopened, the generator register at some state. -/
def PhiS (c : Dev nD) : (n : ℕ) → n ≤ cfg2.N → sProp 𝕄
  | 0, _ => Pipeline.ΦA spec2 c
  | n + 1, hn => iprop(iprop(iprop(owns (c : Thread nD τ) scAcc fullShare ((outsAt V c n hn).2.1) ∗ owns (c : Thread nD τ) scL fullShare ((outsAt V c n hn).2.2)) ∗ others (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scAcc fullShare ((outsAt V c n hn).2.1) ∗ owns (c : Thread nD τ) scL fullShare ((outsAt V c n hn).2.2)) ∗ others (F := F) c) ∗ (∃ r, prngReg c r)) := rfl

theorem PhiS_pos (c : Dev nD) (n : ℕ) (h : n ≤ cfg2.N) (hz : n ≠ 0) :
    PhiS V c n h = iprop(iprop(iprop(owns (c : Thread nD τ) scAcc fullShare ((outsAt V c (n - 1) (by omega)).2.1) ∗ owns (c : Thread nD τ) scL fullShare ((outsAt V c (n - 1) (by omega)).2.2)) ∗ others (F := F) c) ∗ (∃ r, prngReg c r)) := by
  cases n with
  | zero => exact absurd rfl hz
  | succ n => rfl

/-! ## The pipeline's proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (outsAt V c t.val t.isLt).1 := by dsimp only [dat]

theorem before_0 (c : Dev nD) (t : Fin cfg2.N) (d) : (dat V c).before 0 t d = iblk V c 0 t :=
  before_m_of V (dat V c) (A_eq V c 0) (after_0 V c) t d
theorem before_1 (c : Dev nD) (t : Fin cfg2.N) (d) : (dat V c).before 1 t d = iblk V c 1 t :=
  before_q_of V (dat V c) (A_eq V c 1) (after_1 V c) t d
theorem before_2 (c : Dev nD) (t : Fin cfg2.N) (d) : (dat V c).before 2 t d = iblk V c 2 t :=
  before_k_of V (dat V c) (A_eq V c 2) (after_2 V c) t d
theorem before_3 (c : Dev nD) (t : Fin cfg2.N) (d) : (dat V c).before 3 t d = iblk V c 3 t :=
  before_v_of V (dat V c) (A_eq V c 3) (after_3 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (msM t) fullShare ((dat V c).before 0 t d))
    ∗ (∃ d, owns (c : Thread nD τ) (msQ t) fullShare ((dat V c).before 1 t d))
    ∗ (∃ d, owns (c : Thread nD τ) (msK t) fullShare ((dat V c).before 2 t d))
    ∗ (∃ d, owns (c : Thread nD τ) (msV t) fullShare ((dat V c).before 3 t d))
    ∗ (∃ d, owns (c : Thread nD τ) (msO t) fullShare ((dat V c).before 4 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_0 (c : Dev nD) (t : Fin cfg2.N) : (dat V c).leavesExact 0 t = owns (c : Thread nD τ) (msM t) fullShare (iblk V c 0 t) := by
  unfold Dat.leavesExact; rw [show cfg2.idle 0 (cfg2.grid.coords t) = false from rfl, after_0]
theorem leaves_1 (c : Dev nD) (t : Fin cfg2.N) : (dat V c).leavesExact 1 t = owns (c : Thread nD τ) (msQ t) fullShare (iblk V c 1 t) := by
  unfold Dat.leavesExact; rw [show cfg2.idle 1 (cfg2.grid.coords t) = false from rfl, after_1]
theorem leaves_2 (c : Dev nD) (t : Fin cfg2.N) : (dat V c).leavesExact 2 t = owns (c : Thread nD τ) (msK t) fullShare (iblk V c 2 t) := by
  unfold Dat.leavesExact; rw [show cfg2.idle 2 (cfg2.grid.coords t) = false from rfl, after_2]
theorem leaves_3 (c : Dev nD) (t : Fin cfg2.N) : (dat V c).leavesExact 3 t = owns (c : Thread nD τ) (msV t) fullShare (iblk V c 3 t) := by
  unfold Dat.leavesExact; rw [show cfg2.idle 3 (cfg2.grid.coords t) = false from rfl, after_3]
theorem leaves_4_live (c : Dev nD) (t : Fin cfg2.N) (hl : condLast (grid2.coords t)) :
    (dat V c).leavesExact 4 t = owns (c : Thread nD τ) (msO t) fullShare ((outsAt V c t.val t.isLt).1) := by
  unfold Dat.leavesExact; rw [live_of_last t hl, after_4]

set_option maxHeartbeats 8000000 in
/-- The body at any point, by the five cases. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  by_cases h0 : t.val % 4 = 0
  · have hc : t.val % 4 ≤ t.val / 4 % 4 := by omega
    have h3 : ¬t.val % 4 = 3 := by omega
    rw [Dat.leavesExact_idle (dat V c) 4 t (idle_of_notLast t (fun h => h3 ((hLast t).mp h))) (noFlush_of_notLast t (fun h => h3 ((hLast t).mp h)))]
    rw [outsAt_first V c t h0 hc h3]
    dsimp only
    unfold accFirst lFirst
    by_cases hz : t.val = 0
    · rw [PhiS_castSucc V c t, PhiS_zero V c _ _ hz, PhiA_eq]
      iintro ⟨⟨⟨⟨HA, HL⟩, Hbut⟩, Hg⟩, Ho, ⟨%d0, H0⟩, ⟨%d1, H1⟩, ⟨%d2, H2⟩, ⟨%d3, H3⟩, ⟨%d4, H4⟩⟩
      iapply ((runFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HA]; · iexact HA
      isplitl [HL]; · iexact HL
      iintro ⟨H0, H1, H2, H3, H4, ⟨%ea, HA⟩, ⟨%el, HL⟩⟩
      isplitl [HA HL Hbut Hg]
      · isplitr [Hg]
        · isplitr [Hbut]
          · isplitl [HA]
            · unfold owns; iexists _; isplitr
              swap; · iexact HA
              ipureintro; exact View.read_writes_of_cover _ _ _ _ _ (cover_accFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t))
            · unfold owns; iexists _; isplitr
              swap; · iexact HL
              ipureintro; exact View.read_writes_of_cover _ _ _ _ _ (cover_lFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t))
          · iexact Hbut
        · iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨⟨HA, HL⟩, Hbut⟩, Hg⟩, Ho, ⟨%d0, H0⟩, ⟨%d1, H1⟩, ⟨%d2, H2⟩, ⟨%d3, H3⟩, ⟨%d4, H4⟩⟩
      iapply ((runFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HA]; · iexists _; iexact HA
      isplitl [HL]; · iexists _; iexact HL
      iintro ⟨H0, H1, H2, H3, H4, ⟨%ea, HA⟩, ⟨%el, HL⟩⟩
      isplitl [HA HL Hbut Hg]
      · isplitr [Hg]
        · isplitr [Hbut]
          · isplitl [HA]
            · unfold owns; iexists _; isplitr
              swap; · iexact HA
              ipureintro; exact View.read_writes_of_cover _ _ _ _ _ (cover_accFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t))
            · unfold owns; iexists _; isplitr
              swap; · iexact HL
              ipureintro; exact View.read_writes_of_cover _ _ _ _ _ (cover_lFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t))
          · iexact Hbut
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h3 : t.val % 4 = 3
    · by_cases hc : t.val % 4 ≤ t.val / 4 % 4
      · rw [leaves_4_live V c t ((hLast t).mpr h3), outsAt_lastAdvance V c t h0 hc h3]
        dsimp only
        unfold outLastAdv accLastAdv lLastAdv
        rw [PhiS_castSucc V c t, PhiS_pos V c _ _ hz]
        iintro ⟨⟨⟨⟨HA, HL⟩, Hbut⟩, Hg⟩, Ho, ⟨%d0, H0⟩, ⟨%d1, H1⟩, ⟨%d2, H2⟩, ⟨%d3, H3⟩, ⟨%d4, H4⟩⟩
        iapply ((runLastAdvance c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) _ _).2.2.2 Set.univ _)
        isplitl [H0]; · iexact H0
        isplitl [H1]; · iexact H1
        isplitl [H2]; · iexact H2
        isplitl [H3]; · iexact H3
        isplitl [H4]; · iexists _; iexact H4
        isplitl [HA]; · iexact HA
        isplitl [HL]; · iexact HL
        iintro ⟨H0, H1, H2, H3, ⟨%eo, H4⟩, ⟨%ea, HA⟩, ⟨%el, HL⟩⟩
        isplitl [HA HL Hbut Hg]
        · isplitr [Hg]
          · isplitr [Hbut]
            · isplitl [HA]
              · unfold owns; iexists _; isplitr
                swap; · iexact HA
                ipureintro; exact View.read_writes_of_cover _ _ _ _ _ (cover_accLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
              · unfold owns; iexists _; isplitr
                swap; · iexact HL
                ipureintro; exact View.read_writes_of_cover _ _ _ _ _ (cover_lLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
            · iexact Hbut
          · iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_outLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
      · rw [leaves_4_live V c t ((hLast t).mpr h3), outsAt_lastStore V c t h0 hc h3]
        dsimp only
        unfold outLastStore
        rw [PhiS_castSucc V c t, PhiS_pos V c _ _ hz]
        iintro ⟨⟨⟨⟨HA, HL⟩, Hbut⟩, Hg⟩, Ho, ⟨%d0, H0⟩, ⟨%d1, H1⟩, ⟨%d2, H2⟩, ⟨%d3, H3⟩, ⟨%d4, H4⟩⟩
        iapply ((runLastStore c (grid2.coords t) (msM t) (hsM t) (msQ t) (hsQ t) (msK t) (hsK t) (msV t) (hsV t) (msO t) (hsO t) scAcc (Memref.isWhole_whole _) scL (Memref.isWhole_whole _) (fun h => h0 ((hInit t).mp h)) (fun h => hc ((hCausal t).mp h)) ((hLast t).mpr h3) (iblk V c 0 t) (iblk V c 1 t) (iblk V c 2 t) (iblk V c 3 t) _ _).2 Set.univ _)
        isplitl [H0]; · iexact H0
        isplitl [H1]; · iexact H1
        isplitl [H2]; · iexact H2
        isplitl [H3]; · iexact H3
        isplitl [H4]; · iexists _; iexact H4
        isplitl [HA]; · iexact HA
        isplitl [HL]; · iexact HL
        iintro ⟨H0, H1, H2, H3, ⟨%eo, H4⟩, HA, HL⟩
        isplitl [HA HL Hbut Hg]
        · isplitr [Hg]
          · isplitr [Hbut]
            · isplitl [HA]; · iexact HA
              iexact HL
            · iexact Hbut
          · iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_outLastStore c (grid2.coords t) (msM t) (hsM t) (msQ t) (hsQ t) (msK t) (hsK t) (msV t) (hsV t) (msO t) (hsO t) scAcc (Memref.isWhole_whole _) scL (Memref.isWhole_whole _) (fun h => h0 ((hInit t).mp h)) (fun h => hc ((hCausal t).mp h)) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
    · rw [Dat.leavesExact_idle (dat V c) 4 t (idle_of_notLast t (fun h => h3 ((hLast t).mp h))) (noFlush_of_notLast t (fun h => h3 ((hLast t).mp h)))]
      by_cases hc : t.val % 4 ≤ t.val / 4 % 4
      · rw [outsAt_advance V c t h0 hc h3]
        dsimp only
        unfold accAdv lAdv
        rw [PhiS_castSucc V c t, PhiS_pos V c _ _ hz]
        iintro ⟨⟨⟨⟨HA, HL⟩, Hbut⟩, Hg⟩, Ho, ⟨%d0, H0⟩, ⟨%d1, H1⟩, ⟨%d2, H2⟩, ⟨%d3, H3⟩, ⟨%d4, H4⟩⟩
        iapply ((runAdvance c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) _ _).2.2 _ Set.univ _)
        isplitl [H0]; · iexact H0
        isplitl [H1]; · iexact H1
        isplitl [H2]; · iexact H2
        isplitl [H3]; · iexact H3
        isplitl [H4]; · iexact H4
        isplitl [HA]; · iexact HA
        isplitl [HL]; · iexact HL
        iintro ⟨H0, H1, H2, H3, H4, ⟨%ea, HA⟩, ⟨%el, HL⟩⟩
        isplitl [HA HL Hbut Hg]
        · isplitr [Hg]
          · isplitr [Hbut]
            · isplitl [HA]
              · unfold owns; iexists _; isplitr
                swap; · iexact HA
                ipureintro; exact View.read_writes_of_cover _ _ _ _ _ (cover_accAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
              · unfold owns; iexists _; isplitr
                swap; · iexact HL
                ipureintro; exact View.read_writes_of_cover _ _ _ _ _ (cover_lAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
            · iexact Hbut
          · iexact Hg
        isplitl [Ho]; · iexact Ho
        isplitl [H0]; · iexact H0
        isplitl [H1]; · iexact H1
        isplitl [H2]; · iexact H2
        isplitl [H3]; · iexact H3
        iexists _; iexact H4
      · rw [outsAt_idle V c t h0 hc h3]
        dsimp only
        rw [PhiS_castSucc V c t, PhiS_pos V c _ _ hz]
        iintro ⟨⟨⟨⟨HA, HL⟩, Hbut⟩, Hg⟩, Ho, ⟨%d0, H0⟩, ⟨%d1, H1⟩, ⟨%d2, H2⟩, ⟨%d3, H3⟩, ⟨%d4, H4⟩⟩
        iapply (runIdle c (grid2.coords t) (msM t) (hsM t) (msQ t) (hsQ t) (msK t) (hsK t) (msV t) (hsV t) (msO t) (hsO t) scAcc (Memref.isWhole_whole _) scL (Memref.isWhole_whole _) (fun h => h0 ((hInit t).mp h)) (fun h => hc ((hCausal t).mp h)) (fun h => h3 ((hLast t).mp h)) (iblk V c 0 t) (iblk V c 1 t) (iblk V c 2 t) (iblk V c 3 t) _ _ _ Set.univ _)
        isplitl [H0]; · iexact H0
        isplitl [H1]; · iexact H1
        isplitl [H2]; · iexact H2
        isplitl [H3]; · iexact H3
        isplitl [H4]; · iexact H4
        isplitl [HA]; · iexact HA
        isplitl [HL]; · iexact HL
        iintro ⟨H0, H1, H2, H3, H4, HA, HL⟩
        isplitl [HA HL Hbut Hg]
        · isplitr [Hg]
          · isplitr [Hbut]
            · isplitl [HA]; · iexact HA
              iexact HL
            · iexact Hbut
          · iexact Hg
        isplitl [Ho]; · iexact Ho
        isplitl [H0]; · iexact H0
        isplitl [H1]; · iexact H1
        isplitl [H2]; · iexact H2
        isplitl [H3]; · iexact H3
        iexists _; iexact H4

/-- The pipeline's body obligation, at every point. -/
theorem body_obligation (c : Dev nD) : BodyObligation (dat (F := F) V c) (defs₀ (F := F)) Variants.none () Set.univ := fun t => by
  rw [bigSep_W2, bigSep_W2]
  exact sound_body V c t

/-- What the call is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulators' named
    contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨⟨HA, HL⟩, Hbut⟩, Hg⟩
  isplitr [Hg]
  · isplitr [Hbut]
    · isplitl [HA]
      · iexists _; iexact HA
      · iexists _; iexact HL
    · iexact Hbut
  · iexact Hg

theorem hout (c : Dev nD) : (dat V c).Φ (Fin.last cfg2.N) ⊢ Pipeline.ΦA spec2 c :=
  Phi_out V c _ (by rw [Fin.val_last]; have : cfg2.N = 1024 := N_2; omega)

end Cert.Kernel.Attention

end
-- ==== Proof.OutProjWord.lean ====
/-
  The output projection, the last of the program's four pipelined calls, at any float instance.

  Its grid has 16 points; point t takes rows [512 t, 512 t + 512) of the attention result (a
  [512, 1024] block), the whole [1024, 1024] weight, and writes the [512, 1024] block of the same
  rows of the result: the product of the row block with the transposed weight, accumulated into
  zero.  Nothing is carried from one point to the next.  Stated here, at an arbitrary valuation V of
  the buffers on entry: what each block is, what the body's one store leaves in the output's staging
  buffer, that the body runs from blocks to that contents, and the pipeline's per-point obligation.
-/
import proofs.«157401_j56521769615696_2_alg».proof.Proof.Gen.Kernel.Launch
import proofs.«157401_j56521769615696_2_alg».proof.Proof.Gen.Kernel.Skeleton
import proofs.«157401_j56521769615696_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds rows [512 t, 512 t + 512) at every point. -/
theorem before_rows_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's staging buffer holds the whole weight at every point (fetched once, never moved). -/
theorem before_weight_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's one access rectangle on the output block: all of it. -/
abbrev rOut : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the output's staging buffer: its one store, of the product of the two
    loaded blocks. -/
def outBlock (x0 : Vec F S512x1024 .bf16) (x1 : Vec F S1024x1024 .bf16) : Vec F S512x1024 .f32 :=
  View.canon [⟨rOut, k3_pay1 (View.ld x0 rOut) (View.ld x1 rW)⟩]

/-- That store covers the buffer. -/
theorem cover_out (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

set_option maxHeartbeats 1000000 in
/-- The body on whole staging memrefs, the two inputs at read contents and the output at anything,
    runs to the continuation with the inputs as they were and the output at `outBlock` of them. -/
theorem sound_kernel (c : Dev nD) (E : Set ℕ) (i : grid3.Coords)
    (arg1 : Memref sig .tc .vmem S512x1024 .bf16) (harg1 : arg1.IsWhole)
    (arg2 : Memref sig .tc .vmem S1024x1024 .bf16) (harg2 : arg2.IsWhole)
    (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc3__outproj_kernel i arg1 harg1 arg2 harg2 arg3 harg3) K := by
  simp only [cc3__outproj_kernel_eq_skeleton]; unfold cc3__outproj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The proof data of this call on core c: the arrays as found; after the body at point t each
    input's buffer at its block and the output's at the product of the two blocks; the invariant the
    scoped rest and the generator register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => outBlock (iblk V c 0 t) (iblk V c 1 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = outBlock (iblk V c 0 t) (iblk V c 1 t) := by dsimp only [dat]

theorem before_0 (c : Dev nD) (t : Fin cfg3.N) (d) : (dat V c).before 0 t d = iblk V c 0 t :=
  before_rows_of V (dat V c) (A_eq V c 0) (after_0 V c) t d
theorem before_1 (c : Dev nD) (t : Fin cfg3.N) (d) : (dat V c).before 1 t d = iblk V c 1 t :=
  before_weight_of V (dat V c) (A_eq V c 1) (after_1 V c) t d

/-- What the body is called with at point t, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' memrefs hold their blocks, so `sound_kernel` applies; the
    invariant and what the core owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W3, bigSep_W3]
  exact sound_body V c t

end Cert.Kernel.OutProj

end
-- ==== Proof.RunWord.lean ====
/-
  The whole program as a sequence of nine items: a stretch of host operations, the projection call,
  a stretch, the global-maximum call, a stretch, the attention call, a stretch, the output
  projection, a last stretch.  The contents of every buffer at each boundary are a fold from the
  launch memory: a stretch applies its operations, a call replaces its arrays by what its
  write-backs leave and keeps everything else.  Every execution runs through the nine items and ends
  with every buffer at the fold's last stage; the five arguments, which nothing writes, are there as
  launched.
-/
import proofs.«157401_j56521769615696_2_alg».proof.Proof.QkvProjWord
import proofs.«157401_j56521769615696_2_alg».proof.Proof.GlobalMaxWord
import proofs.«157401_j56521769615696_2_alg».proof.Proof.AttentionWord
import proofs.«157401_j56521769615696_2_alg».proof.Proof.OutProjWord
import proofs.«157401_j56521769615696_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)

/-- After the host stretch before call 0: what it is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what its write-backs leave, every other buffer as entered. -/
def W2 (c : Dev nD) : Valuation τ sig (Elt F) :=
  Pipeline.withArrays spec0 c (W1 m ρ c) fun w => (QkvProj.dat (V1 m ρ) c).arrAt w cfg0.N
theorem W2_arr (c : Dev nD) (w : Fin cfg0.W) :
    W2 m ρ c (Proc.devRef .tc (Pipeline.arrRef spec0 w)) = (QkvProj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (QkvProj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before call 1: what it is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At call 1's exit: its arrays at what its write-backs leave, every other buffer as entered. -/
def W4 (c : Dev nD) : Valuation τ sig (Elt F) :=
  Pipeline.withArrays spec1 c (W3 m ρ c) fun w => (GlobalMax.dat (V3 m ρ) c).arrAt w cfg1.N
theorem W4_arr (c : Dev nD) (w : Fin cfg1.W) :
    W4 m ρ c (Proc.devRef .tc (Pipeline.arrRef spec1 w)) = (GlobalMax.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (GlobalMax.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before call 2: what it is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At call 2's exit: its arrays at what its write-backs leave, every other buffer as entered. -/
def W6 (c : Dev nD) : Valuation τ sig (Elt F) :=
  Pipeline.withArrays spec2 c (W5 m ρ c) fun w => (Attention.dat (V5 m ρ) c).arrAt w cfg2.N
theorem W6_arr (c : Dev nD) (w : Fin cfg2.W) :
    W6 m ρ c (Proc.devRef .tc (Pipeline.arrRef spec2 w)) = (Attention.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Attention.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before call 3: what it is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At call 3's exit: its arrays at what its write-backs leave, every other buffer as entered. -/
def W8 (c : Dev nD) : Valuation τ sig (Elt F) :=
  Pipeline.withArrays spec3 c (W7 m ρ c) fun w => (OutProj.dat (V7 m ρ) c).arrAt w cfg3.N
theorem W8_arr (c : Dev nD) (w : Fin cfg3.W) :
    W8 m ρ c (Proc.devRef .tc (Pipeline.arrRef spec3 w)) = (OutProj.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (OutProj.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch: what the program ends with. -/
abbrev W9 : Dev nD → Valuation τ sig (Elt F) := fun c => StableHlo.after hostOps4 (W8 m ρ c)

/-! ## The arguments end as launched -/

/-- Argument 0 ends as launched: no host operation writes it and no call changes it. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps4 _ hostOps4_writes (show main_arg0 ∉ hostOps4_W by decide)
    _ = W7 m ρ c (Proc.devRef .tc main_arg0) := W8_of_ne m ρ c main_arg0 (by decide)
    _ = W6 m ρ c (Proc.devRef .tc main_arg0) := StableHlo.after_of_writes_sub hostOps3 _ hostOps3_writes (show main_arg0 ∉ hostOps3_W by decide)
    _ = W5 m ρ c (Proc.devRef .tc main_arg0) := W6_of_ne m ρ c main_arg0 (by decide)
    _ = W4 m ρ c (Proc.devRef .tc main_arg0) := StableHlo.after_of_writes_sub hostOps2 _ hostOps2_writes (show main_arg0 ∉ hostOps2_W by decide)
    _ = W3 m ρ c (Proc.devRef .tc main_arg0) := W4_of_ne m ρ c main_arg0 (by decide)
    _ = W2 m ρ c (Proc.devRef .tc main_arg0) := StableHlo.after_of_writes_sub hostOps1 _ hostOps1_writes (show main_arg0 ∉ hostOps1_W by decide)
    _ = W1 m ρ c (Proc.devRef .tc main_arg0) := W2_of_ne m ρ c main_arg0 (by decide)
    _ = W0 m ρ c (Proc.devRef .tc main_arg0) := StableHlo.after_of_writes_sub hostOps0 _ hostOps0_writes (show main_arg0 ∉ hostOps0_W by decide)
    _ = m ((c : Thread nD τ).loc main_arg0) := rfl

/-- Argument 1 ends as launched: no host operation writes it and no call changes it. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps4 _ hostOps4_writes (show main_arg1 ∉ hostOps4_W by decide)
    _ = W7 m ρ c (Proc.devRef .tc main_arg1) := W8_of_ne m ρ c main_arg1 (by decide)
    _ = W6 m ρ c (Proc.devRef .tc main_arg1) := StableHlo.after_of_writes_sub hostOps3 _ hostOps3_writes (show main_arg1 ∉ hostOps3_W by decide)
    _ = W5 m ρ c (Proc.devRef .tc main_arg1) := W6_of_ne m ρ c main_arg1 (by decide)
    _ = W4 m ρ c (Proc.devRef .tc main_arg1) := StableHlo.after_of_writes_sub hostOps2 _ hostOps2_writes (show main_arg1 ∉ hostOps2_W by decide)
    _ = W3 m ρ c (Proc.devRef .tc main_arg1) := W4_of_ne m ρ c main_arg1 (by decide)
    _ = W2 m ρ c (Proc.devRef .tc main_arg1) := StableHlo.after_of_writes_sub hostOps1 _ hostOps1_writes (show main_arg1 ∉ hostOps1_W by decide)
    _ = W1 m ρ c (Proc.devRef .tc main_arg1) := (W2_arr m ρ c 1).trans (((QkvProj.dat (V1 m ρ) c).arrAt_in 1 rfl _).trans (QkvProj.A_eq (V1 m ρ) c 1))
    _ = W0 m ρ c (Proc.devRef .tc main_arg1) := StableHlo.after_of_writes_sub hostOps0 _ hostOps0_writes (show main_arg1 ∉ hostOps0_W by decide)
    _ = m ((c : Thread nD τ).loc main_arg1) := rfl

/-- Argument 2 ends as launched: no host operation writes it and no call changes it. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps4 _ hostOps4_writes (show main_arg2 ∉ hostOps4_W by decide)
    _ = W7 m ρ c (Proc.devRef .tc main_arg2) := W8_of_ne m ρ c main_arg2 (by decide)
    _ = W6 m ρ c (Proc.devRef .tc main_arg2) := StableHlo.after_of_writes_sub hostOps3 _ hostOps3_writes (show main_arg2 ∉ hostOps3_W by decide)
    _ = W5 m ρ c (Proc.devRef .tc main_arg2) := W6_of_ne m ρ c main_arg2 (by decide)
    _ = W4 m ρ c (Proc.devRef .tc main_arg2) := StableHlo.after_of_writes_sub hostOps2 _ hostOps2_writes (show main_arg2 ∉ hostOps2_W by decide)
    _ = W3 m ρ c (Proc.devRef .tc main_arg2) := W4_of_ne m ρ c main_arg2 (by decide)
    _ = W2 m ρ c (Proc.devRef .tc main_arg2) := StableHlo.after_of_writes_sub hostOps1 _ hostOps1_writes (show main_arg2 ∉ hostOps1_W by decide)
    _ = W1 m ρ c (Proc.devRef .tc main_arg2) := (W2_arr m ρ c 2).trans (((QkvProj.dat (V1 m ρ) c).arrAt_in 2 rfl _).trans (QkvProj.A_eq (V1 m ρ) c 2))
    _ = W0 m ρ c (Proc.devRef .tc main_arg2) := StableHlo.after_of_writes_sub hostOps0 _ hostOps0_writes (show main_arg2 ∉ hostOps0_W by decide)
    _ = m ((c : Thread nD τ).loc main_arg2) := rfl

/-- Argument 3 ends as launched: no host operation writes it and no call changes it. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps4 _ hostOps4_writes (show main_arg3 ∉ hostOps4_W by decide)
    _ = W7 m ρ c (Proc.devRef .tc main_arg3) := W8_of_ne m ρ c main_arg3 (by decide)
    _ = W6 m ρ c (Proc.devRef .tc main_arg3) := StableHlo.after_of_writes_sub hostOps3 _ hostOps3_writes (show main_arg3 ∉ hostOps3_W by decide)
    _ = W5 m ρ c (Proc.devRef .tc main_arg3) := W6_of_ne m ρ c main_arg3 (by decide)
    _ = W4 m ρ c (Proc.devRef .tc main_arg3) := StableHlo.after_of_writes_sub hostOps2 _ hostOps2_writes (show main_arg3 ∉ hostOps2_W by decide)
    _ = W3 m ρ c (Proc.devRef .tc main_arg3) := W4_of_ne m ρ c main_arg3 (by decide)
    _ = W2 m ρ c (Proc.devRef .tc main_arg3) := StableHlo.after_of_writes_sub hostOps1 _ hostOps1_writes (show main_arg3 ∉ hostOps1_W by decide)
    _ = W1 m ρ c (Proc.devRef .tc main_arg3) := W2_of_ne m ρ c main_arg3 (by decide)
    _ = W0 m ρ c (Proc.devRef .tc main_arg3) := StableHlo.after_of_writes_sub hostOps0 _ hostOps0_writes (show main_arg3 ∉ hostOps0_W by decide)
    _ = m ((c : Thread nD τ).loc main_arg3) := rfl

/-- Argument 4 ends as launched: no host operation writes it and no call changes it. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps4 _ hostOps4_writes (show main_arg4 ∉ hostOps4_W by decide)
    _ = W7 m ρ c (Proc.devRef .tc main_arg4) := W8_of_ne m ρ c main_arg4 (by decide)
    _ = W6 m ρ c (Proc.devRef .tc main_arg4) := StableHlo.after_of_writes_sub hostOps3 _ hostOps3_writes (show main_arg4 ∉ hostOps3_W by decide)
    _ = W5 m ρ c (Proc.devRef .tc main_arg4) := W6_of_ne m ρ c main_arg4 (by decide)
    _ = W4 m ρ c (Proc.devRef .tc main_arg4) := StableHlo.after_of_writes_sub hostOps2 _ hostOps2_writes (show main_arg4 ∉ hostOps2_W by decide)
    _ = W3 m ρ c (Proc.devRef .tc main_arg4) := W4_of_ne m ρ c main_arg4 (by decide)
    _ = W2 m ρ c (Proc.devRef .tc main_arg4) := StableHlo.after_of_writes_sub hostOps1 _ hostOps1_writes (show main_arg4 ∉ hostOps1_W by decide)
    _ = W1 m ρ c (Proc.devRef .tc main_arg4) := W2_of_ne m ρ c main_arg4 (by decide)
    _ = W0 m ρ c (Proc.devRef .tc main_arg4) := StableHlo.after_of_writes_sub hostOps0 _ hostOps0_writes (show main_arg4 ∉ hostOps0_W by decide)
    _ = m ((c : Thread nD τ).loc main_arg4) := rfl

/-! ## The proof data of the four calls, and the thread state -/

/-- Every call's proof data, each at the contents its call is entered from. -/
def pdats : (p : Fin 4) → (c : Dev nD) → Dat τ (Elt F) Unit ℕ (UR sig nD τ) ℕ (Pipeline.pin (pcfgs (F := F)) adm p) c
  | ⟨0, _⟩ => fun c => QkvProj.dat (V1 m ρ) c
  | ⟨1, _⟩ => fun c => GlobalMax.dat (V3 m ρ) c
  | ⟨2, _⟩ => fun c => Attention.dat (V5 m ρ) c
  | ⟨3, _⟩ => fun c => OutProj.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the
    core owing nothing. -/
abbrev R (c : Dev nD) : sProp 𝕄 := iprop((∃ r, prngReg c r) ∗ ∃ W, owes (c : Thread nD τ) (0 : CellTallies nD τ sig Unit) W)
/-- A host stretch as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W9 m ρ c) ∗ ∃ r, prngReg c r)

/-! ## The four calls as items -/

set_option backward.isDefEq.respectTransparency.types false in
/-- Call 0 over the thread state: entered with every unscoped buffer at W1, left with them at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (QkvProj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at W3, left with them at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (GlobalMax.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at W5, left with them at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Attention.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attention.hin (V5 m ρ) c)
    unfold Pipeline.ΦA
    iintro ⟨Hp, -, Hr⟩
    isplitl [Hr]; · iexact Hr
    iexact Hp
  hout c := by
    rw [Pipeline.ownSems0_none]
    refine (Attention.hout (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered with every unscoped buffer at W7, left with them at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (OutProj.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its nine items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

theorem main_run (c : Dev nD) : main (F := F) c = Pipeline.Seg.run (segs m ρ) := (main_chain c).trans (by chain_rfl)

set_option backward.isDefEq.respectTransparency.types false in
/-- Every weakly fair execution from memory m with zero counters terminates, nothing faulting, and
    every final memory holds every unscoped buffer at the last stage of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c) ⊢ _
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run m ρ)

end Cert.Kernel.Run

end
-- ==== Proof.QkvProjIdeal.lean ====
/-
  The fused query / key / value projection, the first of the program's four pipelined calls, at any
  float instance.

  Its grid has 32 points; point t takes rows [256 t, 256 t + 256) of the flattened input (a
  [256, 1024] block) and the three whole [1024, 1024] weights, and writes the same rows of three
  results: the row block times each transposed weight, accumulated into zero (the third through a
  narrowing of the rows and of its product).  Nothing is carried from one point to the next.  Stated
  here, at an arbitrary valuation V of the buffers on entry: what each block is, what the body's three
  stores leave in the outputs' staging buffers, that the body runs from blocks to those contents, and
  the pipeline's per-point obligation.
-/
import proofs.«157401_j56521769615696_2_alg».proof.Proof.Gen.KernelIdeal.Launch
import proofs.«157401_j56521769615696_2_alg».proof.Proof.Gen.KernelIdeal.Skeleton
import proofs.«157401_j56521769615696_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.QkvProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds rows [256 t, 256 t + 256) at every point. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each weight's staging buffer holds the whole weight at every point (fetched once, never moved). -/
theorem before_wq_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_wk_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_wv_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body's access rectangles: all of a row block, all of a weight. -/
abbrev rRows : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0

/-- What the body leaves in the three outputs' staging buffers: one store each, of the row block's
    product with the query, key and value weight. -/
def qBlock (x0 : Vec F S256x1024 .f32) (x1 : Vec F S1024x1024 .f32) : Vec F S256x1024 .f32 :=
  View.canon [⟨rRows, k0_pay2 (View.ld x0 rRows) (View.ld x1 rW)⟩]
def kBlock (x0 : Vec F S256x1024 .f32) (x2 : Vec F S1024x1024 .f32) : Vec F S256x1024 .f32 :=
  View.canon [⟨rRows, k0_pay3 (View.ld x0 rRows) (View.ld x2 rW)⟩]
def vBlock (x0 : Vec F S256x1024 .f32) (x3 : Vec F S1024x1024 .bf16) : Vec F S256x1024 .bf16 :=
  View.canon [⟨rRows, k0_pay4 (View.ld x0 rRows) (View.ld x3 rW)⟩]

/-- Each store covers its buffer. -/
theorem cover_f32 (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y
theorem cover_bf16 (p0 : Vec F S256x1024 .bf16) (y : S256x1024.Idx) :
    ∃ pc ∈ ([⟨rRows, p0⟩] : List (View.Piece (Elt F) S256x1024 .bf16)), y ∈ pc.1.set :=
  View.cover_of_tiled [⟨rRows, p0⟩] S256x1024.size (by rfl) y

set_option maxHeartbeats 1000000 in
/-- The body on whole staging memrefs, the four inputs at read contents and the outputs at anything,
    runs to the continuation with the inputs as they were and the outputs at the three products. -/
theorem sound_kernel (c : Dev nD) (E : Set ℕ) (i : grid0.Coords)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .bf16) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .bf16) (harg7 : arg7.IsWhole)
    (x0 : Vec F S256x1024 .f32) (x1 : Vec F S1024x1024 .f32) (x2 : Vec F S1024x1024 .f32) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (qBlock x0 x1) ∗ owns (c : Thread nD τ) arg6 fullShare (kBlock x0 x2) ∗ owns (c : Thread nD τ) arg7 fullShare (vBlock x0 x3)) -∗ K ⟨⟩))
      ⊢ wp frame (wpE (defs₀ (F := F)) Variants.none c none) E (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_f32 _)
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-- The proof data of this call on core c: the arrays as found; after the body at point t each
    input's buffer at its block and each output's at its product; the invariant the scoped rest and
    the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => qBlock (iblk V c 0 t) (iblk V c 1 t)
    | ⟨5, _⟩ => kBlock (iblk V c 0 t) (iblk V c 2 t)
    | ⟨6, _⟩ => vBlock (iblk V c 0 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = qBlock (iblk V c 0 t) (iblk V c 1 t) := by dsimp only [dat]
theorem after_5 (c : Dev nD) (t : Fin cfg0.N) : (dat V c).after 5 t = kBlock (iblk V c 0 t) (iblk V c 2 t) := by dsimp only [dat]
theorem after_6 (c : Dev nD) (t : Fin cfg0.N) : (dat V c).after 6 t = vBlock (iblk V c 0 t) (iblk V c 3 t) := by dsimp only [dat]

theorem before_0 (c : Dev nD) (t : Fin cfg0.N) (d) : (dat V c).before 0 t d = iblk V c 0 t :=
  before_rows_of V (dat V c) (A_eq V c 0) (after_0 V c) t d
theorem before_1 (c : Dev nD) (t : Fin cfg0.N) (d) : (dat V c).before 1 t d = iblk V c 1 t :=
  before_wq_of V (dat V c) (A_eq V c 1) (after_1 V c) t d
theorem before_2 (c : Dev nD) (t : Fin cfg0.N) (d) : (dat V c).before 2 t d = iblk V c 2 t :=
  before_wk_of V (dat V c) (A_eq V c 2) (after_2 V c) t d
theorem before_3 (c : Dev nD) (t : Fin cfg0.N) (d) : (dat V c).before 3 t d = iblk V c 3 t :=
  before_wv_of V (dat V c) (A_eq V c 3) (after_3 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so `sound_kernel` applies; the
    invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.QkvProj

end
-- ==== Proof.GlobalMaxRunIdeal.lean ====
/-
  The global-maximum pass, the second of the program's four pipelined calls, at any float instance.

  Its grid has 64 x 4 x 4 points (head bh, query tile i, key tile j; j runs fastest), so point t has
  j = t % 4, i = t / 4 % 4, bh = t / 16.  The output is a [64, 128] array cut into [8, 128] blocks, one
  per group of eight heads: a block is visited at 128 consecutive points and written back after the
  last of them.  At the first point of a block's run the body fills the block with the least value;
  at every point with j <= i it raises row bh % 8 of the block to at least the largest masked scaled
  score of the tile (query rows 512 i .., key rows 512 j ..); where j > i it touches nothing.

  Stated here, at an arbitrary valuation V of the buffers on entry: the three cases and where on the
  grid each holds, that the body runs in each case, what the block's staging buffer holds after each
  point (a recursion on the point: reset, raised, or left alone), that the buffer the body finds is
  what the previous point left, and the pipeline's per-point obligation.
-/
import proofs.«157401_j56521769615696_2_alg».proof.Proof.Gen.KernelIdeal.Launch
import proofs.«157401_j56521769615696_2_alg».proof.Proof.Gen.KernelIdeal.Skeleton
import proofs.«157401_j56521769615696_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GlobalMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's staging buffer holds rows [512 i, 512 i + 512) of head bh at every point. -/
theorem before_q_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key tile's staging buffer holds rows [512 min(j,i), ..) of head bh at every point: where the
    tile index did not move since the point before, the block there is this point's. -/
theorem before_k_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, and where on the grid they hold -/

/-- "First point of a block's run": bh % 8 = 0, i = 0, j = 0. -/
abbrev condReset (i : grid1.Coords) : Prop := k1_cond1 i = 1#1
/-- "The key tile is not after the query tile": j <= i. -/
abbrev condCausal (i : grid1.Coords) : Prop := k1_cond2 i = 1#1

theorem hReset : ∀ t : Fin cfg1.N, condReset (grid1.coords t) ↔ t.val % 128 = 0 :=
  (by decide +kernel : ∀ t : Fin grid1.N, condReset (grid1.coords t) ↔ t.val % 128 = 0)
theorem hCausal : ∀ t : Fin cfg1.N, condCausal (grid1.coords t) ↔ t.val % 4 ≤ t.val / 4 % 4 :=
  (by decide +kernel : ∀ t : Fin grid1.N, condCausal (grid1.coords t) ↔ t.val % 4 ≤ t.val / 4 % 4)

/-- Where neither holds the block is idle and is not written back; where the second holds it is live. -/
theorem idle_of_skip : ∀ t : Fin cfg1.N, ¬condReset (grid1.coords t) → ¬condCausal (grid1.coords t) → cfg1.idle 2 (grid1.coords t) = true := by decide +kernel
theorem noFlush_of_skip : ∀ t : Fin cfg1.N, ¬condReset (grid1.coords t) → ¬condCausal (grid1.coords t) → (cfg1.win 2).flush t = false := by decide +kernel
theorem live_of_causal : ∀ t : Fin cfg1.N, condCausal (grid1.coords t) → cfg1.idle 2 (grid1.coords t) = false := by decide +kernel

/-! ## The body on any staging memrefs -/

/-- One staging buffer of the output window, through which its contents are stated. -/
abbrev VOut : View sig .tc .vmem S8x128 .f32 := (Memref.whole cc1_stg2_0 : Memref sig .tc .vmem S8x128 .f32).view
abbrev msQ (t : Fin cfg1.N) : Memref sig .tc .vmem S1x512x64 .f32 := win1_0.stage (cfg1.slots t 0)
abbrev hsQ (t : Fin cfg1.N) : (msQ t).IsWhole := hstage1_0 ((cfg1.slots t 0).cast nbuf1_0)
abbrev msK (t : Fin cfg1.N) : Memref sig .tc .vmem S1x512x64 .f32 := win1_1.stage (cfg1.slots t 1)
abbrev hsK (t : Fin cfg1.N) : (msK t).IsWhole := hstage1_1 ((cfg1.slots t 1).cast nbuf1_1)
abbrev msM (t : Fin cfg1.N) : Memref sig .tc .vmem S8x128 .f32 := win1_2.stage (cfg1.slots t 2)
abbrev hsM (t : Fin cfg1.N) : (msM t).IsWhole := hstage1_2 ((cfg1.slots t 2).cast nbuf1_2)

set_option maxHeartbeats 2000000 in
/-- First point of a block's run: whatever the block's buffer held, the body fills it and then raises
    one row; the pieces it ends with are found by running it. -/
noncomputable def runReset (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : condReset i) (hc2 : condCausal i) (x0 x1 : Vec F S1x512x64 .f32) :
    { L : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L)) -∗ K ⟨⟩))
          ⊢ wp frame (wpE (defs₀ (F := F)) Variants.none c none) E (cc1__gmax_kernel i arg3 harg3 arg4 harg4 arg5 harg5) K } := by
  refine ⟨?_, fun E K => ?run⟩
  case run =>
    simp only [cc1__gmax_kernel_eq_skeleton]; unfold cc1__gmax_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 2000000 in
/-- A later point with j <= i: the body reads the block's running contents xo and stores them raised. -/
noncomputable def runRaise (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : ¬condReset i) (hc2 : condCausal i) (x0 x1 : Vec F S1x512x64 .f32) (xo : Vec F S8x128 .f32) :
    { L : List (View.Piece (Elt F) S8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L)) -∗ K ⟨⟩))
          ⊢ wp frame (wpE (defs₀ (F := F)) Variants.none c none) E (cc1__gmax_kernel i arg3 harg3 arg4 harg4 arg5 harg5) K } := by
  refine ⟨?_, fun E K => ?run⟩
  case run =>
    simp only [cc1__gmax_kernel_eq_skeleton]; unfold cc1__gmax_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 2000000 in
/-- A point with j > i: the body touches nothing and every buffer is handed back as given. -/
theorem runSkip (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : ¬condReset i) (hc2 : ¬condCausal i) (x0 x1 : Vec F S1x512x64 .f32) (xi : Vec F S8x128 .f32) (E : Set ℕ) (K : PUnit → sProp 𝕄) :
    iprop(owns (c : Thread nD τ) arg3 fullShare x0 ∗ owns (c : Thread nD τ) arg4 fullShare x1 ∗ owns (c : Thread nD τ) arg5 fullShare xi
        ∗ (iprop(owns (c : Thread nD τ) arg3 fullShare x0 ∗ owns (c : Thread nD τ) arg4 fullShare x1 ∗ owns (c : Thread nD τ) arg5 fullShare xi) -∗ K ⟨⟩))
      ⊢ wp frame (wpE (defs₀ (F := F)) Variants.none c none) E (cc1__gmax_kernel i arg3 harg3 arg4 harg4 arg5 harg5) K := by
  simp only [cc1__gmax_kernel_eq_skeleton]; unfold cc1__gmax_kernel_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg5.eq_unread hf2
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  iexists _; isplitr; · ipureintro; exact harg5.read_unread _
  iexact H2

end Cert.KernelIdeal.GlobalMax

end
-- ==== Proof.GlobalMaxIdeal.lean ====
/-
  The global-maximum pass, continued: what the output block's staging buffer holds after each point,
  the pipeline's proof data, and the per-point obligation.

  After point t the block holds: at the first point of its run the reset-and-raised contents; at a
  later point with j <= i the previous contents raised by this tile; at a point with j > i the
  previous contents unchanged.  The buffer the body finds at a point that is not the first of a run
  is what the point before left, also when a stretch of untouched points lies between (the pipeline
  does not move the buffer while the block index stands still and no write-back intervenes).
-/
import proofs.«157401_j56521769615696_2_alg».proof.Proof.GlobalMaxRunIdeal

set_option maxRecDepth 16384

noncomputable section

namespace Cert.KernelIdeal.GlobalMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The pieces of the first-point case tile the block, so they cover it. -/
theorem cover_reset (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : condReset i) (hc2 : condCausal i) (x0 x1 : Vec F S1x512x64 .f32) (y : S8x128.Idx) :
    ∃ pc ∈ (runReset (F := F) c i arg3 harg3 arg4 harg4 arg5 harg5 hc1 hc2 x0 x1).1, y ∈ pc.1.set :=
  View.cover_of_tiledL (runReset (F := F) c i arg3 harg3 arg4 harg4 arg5 harg5 hc1 hc2 x0 x1).1 S8x128.size (by sl_kernel_rfl) y

/-- What the first-point case leaves in the block's buffer: its pieces read back. -/
def outReset (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : condReset i) (hc2 : condCausal i) (x0 x1 : Vec F S1x512x64 .f32) : Vec F S8x128 .f32 :=
  VOut.read (Elt F) (VOut.writes (Elt F) VOut.junk (runReset (F := F) c i arg3 harg3 arg4 harg4 arg5 harg5 hc1 hc2 x0 x1).1)

/-- The pieces of the raising case tile the block, so they cover it. -/
theorem cover_raise (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : ¬condReset i) (hc2 : condCausal i) (x0 x1 : Vec F S1x512x64 .f32) (xo : Vec F S8x128 .f32) (y : S8x128.Idx) :
    ∃ pc ∈ (runRaise (F := F) c i arg3 harg3 arg4 harg4 arg5 harg5 hc1 hc2 x0 x1 xo).1, y ∈ pc.1.set :=
  View.cover_of_tiledL (runRaise (F := F) c i arg3 harg3 arg4 harg4 arg5 harg5 hc1 hc2 x0 x1 xo).1 S8x128.size (by sl_kernel_rfl) y

/-- What the raising case leaves in the block's buffer. -/
def outRaise (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S8x128 .f32) (harg5 : arg5.IsWhole)
    (hc1 : ¬condReset i) (hc2 : condCausal i) (x0 x1 : Vec F S1x512x64 .f32) (xo : Vec F S8x128 .f32) : Vec F S8x128 .f32 :=
  VOut.read (Elt F) (VOut.writes (Elt F) VOut.junk (runRaise (F := F) c i arg3 harg3 arg4 harg4 arg5 harg5 hc1 hc2 x0 x1 xo).1)

/-! ## What the block's buffer holds after each point -/

/-- The running contents of the block's staging buffer after position n. -/
def outsAt (c : Dev nD) : (n : ℕ) → n < cfg1.N → Vec F S8x128 .f32
  | 0, hn => outReset c (grid1.coords ⟨0, hn⟩) (msQ ⟨0, hn⟩) (hsQ ⟨0, hn⟩) (msK ⟨0, hn⟩) (hsK ⟨0, hn⟩) (msM ⟨0, hn⟩) (hsM ⟨0, hn⟩)
      ((hReset ⟨0, hn⟩).mpr (Nat.zero_mod _)) ((hCausal ⟨0, hn⟩).mpr (Nat.zero_le _)) (iblk V c 0 ⟨0, hn⟩) (iblk V c 1 ⟨0, hn⟩)
  | n + 1, hn =>
    if h0 : (n + 1) % 128 = 0 then
      outReset c (grid1.coords ⟨n + 1, hn⟩) (msQ ⟨n + 1, hn⟩) (hsQ ⟨n + 1, hn⟩) (msK ⟨n + 1, hn⟩) (hsK ⟨n + 1, hn⟩) (msM ⟨n + 1, hn⟩) (hsM ⟨n + 1, hn⟩)
        ((hReset ⟨n + 1, hn⟩).mpr h0) ((hCausal ⟨n + 1, hn⟩).mpr (by (try dsimp only); omega)) (iblk V c 0 ⟨n + 1, hn⟩) (iblk V c 1 ⟨n + 1, hn⟩)
    else if h1 : (n + 1) % 4 ≤ (n + 1) / 4 % 4 then
      outRaise c (grid1.coords ⟨n + 1, hn⟩) (msQ ⟨n + 1, hn⟩) (hsQ ⟨n + 1, hn⟩) (msK ⟨n + 1, hn⟩) (hsK ⟨n + 1, hn⟩) (msM ⟨n + 1, hn⟩) (hsM ⟨n + 1, hn⟩)
        (fun h => h0 ((hReset ⟨n + 1, hn⟩).mp h)) ((hCausal ⟨n + 1, hn⟩).mpr h1) (iblk V c 0 ⟨n + 1, hn⟩) (iblk V c 1 ⟨n + 1, hn⟩) (outsAt c n (Nat.lt_of_succ_lt hn))
    else outsAt c n (Nat.lt_of_succ_lt hn)

theorem outsAt_reset (c : Dev nD) (t : Fin cfg1.N) (h0 : t.val % 128 = 0) (h1 : t.val % 4 ≤ t.val / 4 % 4) :
    outsAt V c t.val t.isLt = outReset c (grid1.coords t) (msQ t) (hsQ t) (msK t) (hsK t) (msM t) (hsM t) ((hReset t).mpr h0) ((hCausal t).mpr h1) (iblk V c 0 t) (iblk V c 1 t) := by
  obtain ⟨n, hn⟩ := t
  cases n with
  | zero => exact rfl
  | succ n => exact (dif_pos h0).trans rfl

theorem outsAt_raise (c : Dev nD) (t : Fin cfg1.N) (h0 : ¬t.val % 128 = 0) (h1 : t.val % 4 ≤ t.val / 4 % 4) :
    outsAt V c t.val t.isLt = outRaise c (grid1.coords t) (msQ t) (hsQ t) (msK t) (hsK t) (msM t) (hsM t) (fun h => h0 ((hReset t).mp h)) ((hCausal t).mpr h1) (iblk V c 0 t) (iblk V c 1 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem outsAt_skip (c : Dev nD) (t : Fin cfg1.N) (h0 : ¬t.val % 128 = 0) (h1 : ¬t.val % 4 ≤ t.val / 4 % 4) :
    outsAt V c t.val t.isLt = outsAt V c (t.val - 1) (Nat.lt_of_le_of_lt (Nat.sub_le _ _) t.isLt) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The proof data of this call on core c: the arrays as found; after the body at point t each
    input's buffer at its tile and the output block's at its running contents; the invariant the
    scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outsAt V c t.val t.isLt
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outsAt V c t.val t.isLt := by dsimp only [dat]

theorem before_0 (c : Dev nD) (t : Fin cfg1.N) (d) : (dat V c).before 0 t d = iblk V c 0 t :=
  before_q_of V (dat V c) (A_eq V c 0) (after_0 V c) t d
theorem before_1 (c : Dev nD) (t : Fin cfg1.N) (d) : (dat V c).before 1 t d = iblk V c 1 t :=
  before_k_of V (dat V c) (A_eq V c 1) (after_1 V c) t d

/-- At a point that is not the first of a block's run the block's buffer holds what the point before
    left: by induction on the point, looking back through points that touch nothing. -/
theorem before_2_aux (c : Dev nD) : ∀ (n : ℕ) (hn : n < cfg1.N), n % 128 ≠ 0 → ∀ d,
    (dat V c).before 2 ⟨n, hn⟩ d = outsAt V c (n - 1) (Nat.lt_of_le_of_lt (Nat.sub_le _ _) hn)
  | 0, _, h, _ => absurd (Nat.zero_mod _) h
  | n + 1, hn, h, d => by
    have hn' : n < cfg1.N := Nat.lt_of_succ_lt hn
    rw [Dat.before_of_pos _ 2 ⟨n + 1, hn⟩ (Nat.succ_ne_zero n) ((cfg1.win 2).fetch_out rfl _) d]
    have hfl : (cfg1.win 2).flush ⟨(⟨n + 1, hn⟩ : Fin cfg1.N).val - 1, Nat.lt_of_le_of_lt (Nat.sub_le _ _) hn⟩ = false :=
      Bool.eq_false_iff.mpr fun hf => by
        have := (flush1_2 _).mp hf
        dsimp only at this
        omega
    rw [hfl, if_neg Bool.false_ne_true]
    show (dat V c).left 2 ⟨n, hn'⟩ d = outsAt V c n hn'
    unfold Dat.left
    by_cases hr : n % 128 = 0
    · have hc : n % 4 ≤ n / 4 % 4 := by omega
      rw [live_of_causal ⟨n, hn'⟩ ((hCausal ⟨n, hn'⟩).mpr hc)]
      exact after_2 V c ⟨n, hn'⟩
    · by_cases hc : n % 4 ≤ n / 4 % 4
      · rw [live_of_causal ⟨n, hn'⟩ ((hCausal ⟨n, hn'⟩).mpr hc)]
        exact after_2 V c ⟨n, hn'⟩
      · rw [idle_of_skip ⟨n, hn'⟩ (fun h => hr ((hReset ⟨n, hn'⟩).mp h)) (fun h => hc ((hCausal ⟨n, hn'⟩).mp h))]
        show (dat V c).before 2 ⟨n, hn'⟩ d = _
        rw [before_2_aux c n hn' hr d]
        exact (outsAt_skip V c ⟨n, hn'⟩ hr hc).symm

theorem before_2 (c : Dev nD) (t : Fin cfg1.N) (h0 : ¬t.val % 128 = 0) (d) :
    (dat V c).before 2 t d = outsAt V c (t.val - 1) (Nat.lt_of_le_of_lt (Nat.sub_le _ _) t.isLt) :=
  before_2_aux V c t.val t.isLt h0 d

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (msQ t) fullShare ((dat V c).before 0 t d))
    ∗ (∃ d, owns (c : Thread nD τ) (msK t) fullShare ((dat V c).before 1 t d))
    ∗ (∃ d, owns (c : Thread nD τ) (msM t) fullShare ((dat V c).before 2 t d)))

/-- and what it returns: each input's buffer at what the body leaves, the block's buffer at its
    running contents where the point stores into it and as found where it does not. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg1.N) : (dat V c).leavesExact 0 t = owns (c : Thread nD τ) (msQ t) fullShare (iblk V c 0 t) := by
  unfold Dat.leavesExact; rw [show cfg1.idle 0 (cfg1.grid.coords t) = false from rfl, after_0]
theorem leaves_1 (c : Dev nD) (t : Fin cfg1.N) : (dat V c).leavesExact 1 t = owns (c : Thread nD τ) (msK t) fullShare (iblk V c 1 t) := by
  unfold Dat.leavesExact; rw [show cfg1.idle 1 (cfg1.grid.coords t) = false from rfl, after_1]
theorem leaves_2_live (c : Dev nD) (t : Fin cfg1.N) (hc : condCausal (grid1.coords t)) :
    (dat V c).leavesExact 2 t = owns (c : Thread nD τ) (msM t) fullShare (outsAt V c t.val t.isLt) := by
  unfold Dat.leavesExact; rw [live_of_causal t hc, after_2]

set_option maxHeartbeats 2000000 in
/-- The body at any point, by the three cases. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    leaves_0, leaves_1]
  by_cases h0 : t.val % 128 = 0
  · have h1 : t.val % 4 ≤ t.val / 4 % 4 := by omega
    rw [leaves_2_live V c t ((hCausal t).mpr h1), outsAt_reset V c t h0 h1]
    unfold outReset
    iintro ⟨HΦ, Ho, ⟨%d0, H0⟩, ⟨%d1, H1⟩, ⟨%d2, H2⟩⟩
    iapply ((runReset c (grid1.coords t) _ _ _ _ _ _ ((hReset t).mpr h0) ((hCausal t).mpr h1) (iblk V c 0 t) (iblk V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover_reset c _ _ _ _ _ _ _ _ _ _ _)
  · by_cases h1 : t.val % 4 ≤ t.val / 4 % 4
    · rw [leaves_2_live V c t ((hCausal t).mpr h1), outsAt_raise V c t h0 h1]
      simp only [before_2 V c t h0]
      unfold outRaise
      iintro ⟨HΦ, Ho, ⟨%d0, H0⟩, ⟨%d1, H1⟩, ⟨%d2, H2⟩⟩
      iapply ((runRaise c (grid1.coords t) _ _ _ _ _ _ (fun h => h0 ((hReset t).mp h)) ((hCausal t).mpr h1) (iblk V c 0 t) (iblk V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover_raise c _ _ _ _ _ _ _ _ _ _ _ _)
    · rw [Dat.leavesExact_idle (dat V c) 2 t (idle_of_skip t (fun h => h0 ((hReset t).mp h)) (fun h => h1 ((hCausal t).mp h)))
        (noFlush_of_skip t (fun h => h0 ((hReset t).mp h)) (fun h => h1 ((hCausal t).mp h)))]
      iintro ⟨HΦ, Ho, ⟨%d0, H0⟩, ⟨%d1, H1⟩, ⟨%d2, H2⟩⟩
      iapply (runSkip c (grid1.coords t) _ _ _ _ _ _ (fun h => h0 ((hReset t).mp h)) (fun h => h1 ((hCausal t).mp h)) (iblk V c 0 t) (iblk V c 1 t) _ Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexists _; iexact H2

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.GlobalMax

end
-- ==== Proof.AttentionRunIdeal.lean ====
/-
  The attention pass, the third of the program's four pipelined calls, at any float instance: the
  body's five cases.

  Its grid has 64 x 4 x 4 points (head bh, query tile i, key tile j; j fastest): point t has j = t % 4
  and i = t / 4 % 4.  Two scratch buffers live across the four key tiles of one query tile: a
  [512, 64] accumulator of weight-times-value sums and a [512, 1] accumulator of weight sums.  At
  j = 0 both are zeroed; at every j <= i the tile's weights exp(masked scaled score - global maximum)
  are formed and both accumulators advanced; at j = 3 the quotient of the two is stored into the
  output tile, which is written back there and nowhere else.  The three conditions meet in five
  combinations: j = 0 (zero, then advance); 0 < j < 3 with j <= i (advance); 0 < j < 3 with j > i
  (nothing); j = 3 = i (advance, then store); j = 3 > i (store only).
-/
import proofs.«157401_j56521769615696_2_alg».proof.Proof.Gen.KernelIdeal.Launch
import proofs.«157401_j56521769615696_2_alg».proof.Proof.Gen.KernelIdeal.Skeleton
import proofs.«157401_j56521769615696_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds its block at every point (the global maximum's one word; the
    query tile; the key and value tiles at index min(j, i)), fetched there or not. -/
theorem before_m_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_q_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_v_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, and where on the grid they hold -/

/-- "First key tile": j = 0. -/
abbrev condInit (i : grid2.Coords) : Prop := (Scalar.cmpi .ne (Scalar.extui (Scalar.cmpi .eq (BitVec.ofNat 32 (i 2).val) 0#32)) 0#32) = 1#1
/-- "The key tile is not after the query tile": j <= i. -/
abbrev condCausal (i : grid2.Coords) : Prop := (Scalar.cmpi .ne (Scalar.extui (Scalar.cmpi .sle (BitVec.ofNat 32 (i 2).val) (BitVec.ofNat 32 (i 1).val))) 0#32) = 1#1
/-- "Last key tile": j = 3. -/
abbrev condLast (i : grid2.Coords) : Prop := k2_cond3 i = 1#1

theorem hInit : ∀ t : Fin cfg2.N, condInit (grid2.coords t) ↔ t.val % 4 = 0 :=
  (by decide +kernel : ∀ t : Fin grid2.N, condInit (grid2.coords t) ↔ t.val % 4 = 0)
theorem hCausal : ∀ t : Fin cfg2.N, condCausal (grid2.coords t) ↔ t.val % 4 ≤ t.val / 4 % 4 :=
  (by decide +kernel : ∀ t : Fin grid2.N, condCausal (grid2.coords t) ↔ t.val % 4 ≤ t.val / 4 % 4)
theorem hLast : ∀ t : Fin cfg2.N, condLast (grid2.coords t) ↔ t.val % 4 = 3 :=
  (by decide +kernel : ∀ t : Fin grid2.N, condLast (grid2.coords t) ↔ t.val % 4 = 3)

/-- Off the last key tile the output tile is idle and is not written back; on it it is live. -/
theorem idle_of_notLast : ∀ t : Fin cfg2.N, ¬condLast (grid2.coords t) → cfg2.idle 4 (grid2.coords t) = true := by decide +kernel
theorem noFlush_of_notLast : ∀ t : Fin cfg2.N, ¬condLast (grid2.coords t) → (cfg2.win 4).flush t = false := by decide +kernel
theorem live_of_last : ∀ t : Fin cfg2.N, condLast (grid2.coords t) → cfg2.idle 4 (grid2.coords t) = false := by decide +kernel

/-! ## The memrefs -/

abbrev VOut : View sig .tc .vmem S1x512x64 .bf16 := (Memref.whole cc2_stg4_0 : Memref sig .tc .vmem S1x512x64 .bf16).view
abbrev msM (t : Fin cfg2.N) : Memref sig .tc .vmem S1x1 .f32 := win2_0.stage (cfg2.slots t 0)
abbrev hsM (t : Fin cfg2.N) : (msM t).IsWhole := hstage2_0 ((cfg2.slots t 0).cast nbuf2_0)
abbrev msQ (t : Fin cfg2.N) : Memref sig .tc .vmem S1x512x64 .f32 := win2_1.stage (cfg2.slots t 1)
abbrev hsQ (t : Fin cfg2.N) : (msQ t).IsWhole := hstage2_1 ((cfg2.slots t 1).cast nbuf2_1)
abbrev msK (t : Fin cfg2.N) : Memref sig .tc .vmem S1x512x64 .f32 := win2_2.stage (cfg2.slots t 2)
abbrev hsK (t : Fin cfg2.N) : (msK t).IsWhole := hstage2_2 ((cfg2.slots t 2).cast nbuf2_2)
abbrev msV (t : Fin cfg2.N) : Memref sig .tc .vmem S1x512x64 .bf16 := win2_3.stage (cfg2.slots t 3)
abbrev hsV (t : Fin cfg2.N) : (msV t).IsWhole := hstage2_3 ((cfg2.slots t 3).cast nbuf2_3)
abbrev msO (t : Fin cfg2.N) : Memref sig .tc .vmem S1x512x64 .bf16 := win2_4.stage (cfg2.slots t 4)
abbrev hsO (t : Fin cfg2.N) : (msO t).IsWhole := hstage2_4 ((cfg2.slots t 4).cast nbuf2_4)
/-- The two scratch accumulators: whole scoped buffers of the call's own. -/
abbrev scAcc : Memref sig .tc .vmem S512x64 .f32 := Memref.whole cc2_scratch0
abbrev scL : Memref sig .tc .vmem S512x1 .f32 := Memref.whole cc2_scratch1
abbrev VAcc : View sig .tc .vmem S512x64 .f32 := scAcc.view
abbrev VL : View sig .tc .vmem S512x1 .f32 := scL.view

/-! ## The five cases -/

set_option maxHeartbeats 4000000 in
/-- j = 0: whatever the accumulators held, they are zeroed and advanced by the first key tile; the
    output tile is handed back untouched. -/
noncomputable def runFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : condInit i) (hc1 : condCausal i) (hc2 : ¬condLast i) (xm : Vec F S1x1 .f32) (xq xk : Vec F S1x512x64 .f32) (xv : Vec F S1x512x64 .bf16) :
    Σ' (LA : List (View.Piece (Elt F) S512x64 .f32)), { LL : List (View.Piece (Elt F) S512x1 .f32) //
      ∀ (xo : Vec F S1x512x64 .bf16) (E : Set ℕ) (K : PUnit → sProp 𝕄),
        iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ (∃ d, owns (c : Thread nD τ) arg8 fullShare d) ∗ (∃ d, owns (c : Thread nD τ) arg9 fullShare d)
            ∗ (iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LL)) -∗ K ⟨⟩))
          ⊢ wp frame (wpE (defs₀ (F := F)) Variants.none c none) E (cc2__attn_kernel i arg3 harg3 arg4 harg4 arg5 harg5 arg6 harg6 arg7 harg7 arg8 harg8 arg9 harg9) K } := by
  refine ⟨?_, ?_, fun xo E K => ?run⟩
  case run =>
    simp only [cc2__attn_kernel_eq_skeleton]; unfold cc2__attn_kernel_skel
    simp only [k2_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6; obtain rfl := harg7.eq_unread hf7
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- 0 < j < 3 and j <= i: the accumulators, at their running contents, are advanced by this key tile. -/
noncomputable def runAdvance (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) :
    Σ' (LA : List (View.Piece (Elt F) S512x64 .f32)), { LL : List (View.Piece (Elt F) S512x1 .f32) //
      ∀ (xo : Vec F S1x512x64 .bf16) (E : Set ℕ) (K : PUnit → sProp 𝕄),
        iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xa ∗ owns (c : Thread nD τ) arg9 fullShare xl
            ∗ (iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LL)) -∗ K ⟨⟩))
          ⊢ wp frame (wpE (defs₀ (F := F)) Variants.none c none) E (cc2__attn_kernel i arg3 harg3 arg4 harg4 arg5 harg5 arg6 harg6 arg7 harg7 arg8 harg8 arg9 harg9) K } := by
  refine ⟨?_, ?_, fun xo E K => ?run⟩
  case run =>
    simp only [cc2__attn_kernel_eq_skeleton]; unfold cc2__attn_kernel_skel
    simp only [k2_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6; obtain rfl := harg7.eq_unread hf7
    obtain rfl := harg8.eq_unread hf8; obtain rfl := harg9.eq_unread hf9
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- 0 < j < 3 and j > i: nothing is touched; every buffer is handed back as given. -/
theorem runIdle (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : ¬condCausal i) (hc2 : ¬condLast i) (xm : Vec F S1x1 .f32) (xq xk : Vec F S1x512x64 .f32) (xv : Vec F S1x512x64 .bf16) (xa : Vec F S512x64 .f32) (xl : Vec F S512x1 .f32)
    (xo : Vec F S1x512x64 .bf16) (E : Set ℕ) (K : PUnit → sProp 𝕄) :
    iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xa ∗ owns (c : Thread nD τ) arg9 fullShare xl
        ∗ (iprop(owns (c : Thread nD τ) arg3 fullShare xm ∗ owns (c : Thread nD τ) arg4 fullShare xq ∗ owns (c : Thread nD τ) arg5 fullShare xk ∗ owns (c : Thread nD τ) arg6 fullShare xv ∗ owns (c : Thread nD τ) arg7 fullShare xo ∗ owns (c : Thread nD τ) arg8 fullShare xa ∗ owns (c : Thread nD τ) arg9 fullShare xl) -∗ K ⟨⟩))
      ⊢ wp frame (wpE (defs₀ (F := F)) Variants.none c none) E (cc2__attn_kernel i arg3 harg3 arg4 harg4 arg5 harg5 arg6 harg6 arg7 harg7 arg8 harg8 arg9 harg9) K := by
  simp only [cc2__attn_kernel_eq_skeleton]; unfold cc2__attn_kernel_skel
  simp only [k2_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 4000000 in
/-- j = 3 = i: the accumulators are advanced by the last key tile and their quotient is stored into
    the output tile, whatever it held. -/
noncomputable def runLastAdvance (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) :
    Σ' (LO : List (View.Piece (Elt F) S1x512x64 .bf16)) (LA : List (View.Piece (Elt F) S512x64 .f32)), { LL : List (View.Piece (Elt F) S512x1 .f32) //
      ∀ (E : Set ℕ) (K : PUnit → sProp 𝕄),
        iprop(owns (c : Thread nD τ) arg3 fullShare xm ∗ owns (c : Thread nD τ) arg4 fullShare xq ∗ owns (c : Thread nD τ) arg5 fullShare xk ∗ owns (c : Thread nD τ) arg6 fullShare xv ∗ (∃ d, owns (c : Thread nD τ) arg7 fullShare d) ∗ owns (c : Thread nD τ) arg8 fullShare xa ∗ owns (c : Thread nD τ) arg9 fullShare xl
            ∗ (iprop(owns (c : Thread nD τ) arg3 fullShare xm ∗ owns (c : Thread nD τ) arg4 fullShare xq ∗ owns (c : Thread nD τ) arg5 fullShare xk ∗ owns (c : Thread nD τ) arg6 fullShare xv ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LL)) -∗ K ⟨⟩))
          ⊢ wp frame (wpE (defs₀ (F := F)) Variants.none c none) E (cc2__attn_kernel i arg3 harg3 arg4 harg4 arg5 harg5 arg6 harg6 arg7 harg7 arg8 harg8 arg9 harg9) K } := by
  refine ⟨?_, ?_, ?_, fun E K => ?run⟩
  case run =>
    simp only [cc2__attn_kernel_eq_skeleton]; unfold cc2__attn_kernel_skel
    simp only [k2_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6
    obtain rfl := harg8.eq_unread hf8; obtain rfl := harg9.eq_unread hf9
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 4000000 in
/-- j = 3 > i: the accumulators are only read; their quotient is stored into the output tile. -/
noncomputable def runLastStore (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : ¬condCausal i) (hc2 : condLast i) (xm : Vec F S1x1 .f32) (xq xk : Vec F S1x512x64 .f32) (xv : Vec F S1x512x64 .bf16) (xa : Vec F S512x64 .f32) (xl : Vec F S512x1 .f32) :
    { LO : List (View.Piece (Elt F) S1x512x64 .bf16) //
      ∀ (E : Set ℕ) (K : PUnit → sProp 𝕄),
        iprop(owns (c : Thread nD τ) arg3 fullShare xm ∗ owns (c : Thread nD τ) arg4 fullShare xq ∗ owns (c : Thread nD τ) arg5 fullShare xk ∗ owns (c : Thread nD τ) arg6 fullShare xv ∗ (∃ d, owns (c : Thread nD τ) arg7 fullShare d) ∗ owns (c : Thread nD τ) arg8 fullShare xa ∗ owns (c : Thread nD τ) arg9 fullShare xl
            ∗ (iprop(owns (c : Thread nD τ) arg3 fullShare xm ∗ owns (c : Thread nD τ) arg4 fullShare xq ∗ owns (c : Thread nD τ) arg5 fullShare xk ∗ owns (c : Thread nD τ) arg6 fullShare xv ∗ (∃ f, arg7.view.loc (c : Thread nD τ) ↦[arg7.view.set]{fullShare} arg7.view.writes (Elt F) f LO) ∗ owns (c : Thread nD τ) arg8 fullShare xa ∗ owns (c : Thread nD τ) arg9 fullShare xl) -∗ K ⟨⟩))
          ⊢ wp frame (wpE (defs₀ (F := F)) Variants.none c none) E (cc2__attn_kernel i arg3 harg3 arg4 harg4 arg5 harg5 arg6 harg6 arg7 harg7 arg8 harg8 arg9 harg9) K } := by
  refine ⟨?_, fun E K => ?run⟩
  case run =>
    simp only [cc2__attn_kernel_eq_skeleton]; unfold cc2__attn_kernel_skel
    simp only [k2_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg3.eq_unread hf3; obtain rfl := harg4.eq_unread hf4; obtain rfl := harg5.eq_unread hf5; obtain rfl := harg6.eq_unread hf6
    obtain rfl := harg8.eq_unread hf8; obtain rfl := harg9.eq_unread hf9
    sl_exec (disch := first | exact hc0 | exact hc1 | exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    iexists _; isplitr; · ipureintro; exact harg9.read_unread _
    iexact H9

end Cert.KernelIdeal.Attention

end
-- ==== Proof.AttentionIdeal.lean ====
/-
  The attention pass, continued: what the output tile and the two accumulators hold after each point,
  the invariant that carries the accumulators from point to point, the pipeline's proof data and the
  per-point obligation.

  Between points the call's invariant holds its two scratch buffers at the contents the point before
  left (before the first point: at anything), every other scoped buffer of the core unopened, and the
  generator register.  The output tile's staging buffer is handed to the body as the pipeline left it
  and taken back untouched except at the last key tile, where the body stores the quotient of the two
  accumulators into all of it.
-/
import proofs.«157401_j56521769615696_2_alg».proof.Proof.AttentionRunIdeal

set_option maxRecDepth 16384

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each case leaves -/

/-- The accumulator after the first key tile: the pieces tile the buffer, -/
theorem cover_accFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : condInit i) (hc1 : condCausal i) (hc2 : ¬condLast i) (xm : Vec F S1x1 .f32) (xq xk : Vec F S1x512x64 .f32) (xv : Vec F S1x512x64 .bf16)  (y : S512x64.Idx) :
    ∃ pc ∈ (runFirst (F := F) c i arg3 harg3 arg4 harg4 arg5 harg5 arg6 harg6 arg7 harg7 arg8 harg8 arg9 harg9 hc0 hc1 hc2 xm xq xk xv).1, y ∈ pc.1.set :=
  View.cover_of_tiledL (runFirst (F := F) c i arg3 harg3 arg4 harg4 arg5 harg5 arg6 harg6 arg7 harg7 arg8 harg8 arg9 harg9 hc0 hc1 hc2 xm xq xk xv).1 S512x64.size (by sl_kernel_rfl) y
/-- and read back they are its contents. -/
def accFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : condInit i) (hc1 : condCausal i) (hc2 : ¬condLast i) (xm : Vec F S1x1 .f32) (xq xk : Vec F S1x512x64 .f32) (xv : Vec F S1x512x64 .bf16)  : Vec F S512x64 .f32 :=
  VAcc.read (Elt F) (VAcc.writes (Elt F) VAcc.junk (runFirst (F := F) c i arg3 harg3 arg4 harg4 arg5 harg5 arg6 harg6 arg7 harg7 arg8 harg8 arg9 harg9 hc0 hc1 hc2 xm xq xk xv).1)

/-- The weight sums after the first key tile: the pieces tile the buffer, -/
theorem cover_lFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : condInit i) (hc1 : condCausal i) (hc2 : ¬condLast i) (xm : Vec F S1x1 .f32) (xq xk : Vec F S1x512x64 .f32) (xv : Vec F S1x512x64 .bf16)  (y : S512x1.Idx) :
    ∃ pc ∈ (runFirst (F := F) c i arg3 harg3 arg4 harg4 arg5 harg5 arg6 harg6 arg7 harg7 arg8 harg8 arg9 harg9 hc0 hc1 hc2 xm xq xk xv).2.1, y ∈ pc.1.set :=
  View.cover_of_tiledL (runFirst (F := F) c i arg3 harg3 arg4 harg4 arg5 harg5 arg6 harg6 arg7 harg7 arg8 harg8 arg9 harg9 hc0 hc1 hc2 xm xq xk xv).2.1 S512x1.size (by sl_kernel_rfl) y
/-- and read back they are its contents. -/
def lFirst (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : condInit i) (hc1 : condCausal i) (hc2 : ¬condLast i) (xm : Vec F S1x1 .f32) (xq xk : Vec F S1x512x64 .f32) (xv : Vec F S1x512x64 .bf16)  : Vec F S512x1 .f32 :=
  VL.read (Elt F) (VL.writes (Elt F) VL.junk (runFirst (F := F) c i arg3 harg3 arg4 harg4 arg5 harg5 arg6 harg6 arg7 harg7 arg8 harg8 arg9 harg9 hc0 hc1 hc2 xm xq xk xv).2.1)

/-- The accumulator advanced by a middle key tile: the pieces tile the buffer, -/
theorem cover_accAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) (y : S512x64.Idx) :
    ∃ pc ∈ (runAdvance (F := F) c i arg3 harg3 arg4 harg4 arg5 harg5 arg6 harg6 arg7 harg7 arg8 harg8 arg9 harg9 hc0 hc1 hc2 xm xq xk xv xa xl).1, y ∈ pc.1.set :=
  View.cover_of_tiledL (runAdvance (F := F) c i arg3 harg3 arg4 harg4 arg5 harg5 arg6 harg6 arg7 harg7 arg8 harg8 arg9 harg9 hc0 hc1 hc2 xm xq xk xv xa xl).1 S512x64.size (by sl_kernel_rfl) y
/-- and read back they are its contents. -/
def accAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) : Vec F S512x64 .f32 :=
  VAcc.read (Elt F) (VAcc.writes (Elt F) VAcc.junk (runAdvance (F := F) c i arg3 harg3 arg4 harg4 arg5 harg5 arg6 harg6 arg7 harg7 arg8 harg8 arg9 harg9 hc0 hc1 hc2 xm xq xk xv xa xl).1)

/-- The weight sums advanced by a middle key tile: the pieces tile the buffer, -/
theorem cover_lAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) (y : S512x1.Idx) :
    ∃ pc ∈ (runAdvance (F := F) c i arg3 harg3 arg4 harg4 arg5 harg5 arg6 harg6 arg7 harg7 arg8 harg8 arg9 harg9 hc0 hc1 hc2 xm xq xk xv xa xl).2.1, y ∈ pc.1.set :=
  View.cover_of_tiledL (runAdvance (F := F) c i arg3 harg3 arg4 harg4 arg5 harg5 arg6 harg6 arg7 harg7 arg8 harg8 arg9 harg9 hc0 hc1 hc2 xm xq xk xv xa xl).2.1 S512x1.size (by sl_kernel_rfl) y
/-- and read back they are its contents. -/
def lAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) : Vec F S512x1 .f32 :=
  VL.read (Elt F) (VL.writes (Elt F) VL.junk (runAdvance (F := F) c i arg3 harg3 arg4 harg4 arg5 harg5 arg6 harg6 arg7 harg7 arg8 harg8 arg9 harg9 hc0 hc1 hc2 xm xq xk xv xa xl).2.1)

/-- The output tile stored at the diagonal's last key tile: the pieces tile the buffer, -/
theorem cover_outLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) (y : S1x512x64.Idx) :
    ∃ pc ∈ (runLastAdvance (F := F) c i arg3 harg3 arg4 harg4 arg5 harg5 arg6 harg6 arg7 harg7 arg8 harg8 arg9 harg9 hc0 hc1 hc2 xm xq xk xv xa xl).1, y ∈ pc.1.set :=
  View.cover_of_tiledL (runLastAdvance (F := F) c i arg3 harg3 arg4 harg4 arg5 harg5 arg6 harg6 arg7 harg7 arg8 harg8 arg9 harg9 hc0 hc1 hc2 xm xq xk xv xa xl).1 S1x512x64.size (by sl_kernel_rfl) y
/-- and read back they are its contents. -/
def outLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) : Vec F S1x512x64 .bf16 :=
  VOut.read (Elt F) (VOut.writes (Elt F) VOut.junk (runLastAdvance (F := F) c i arg3 harg3 arg4 harg4 arg5 harg5 arg6 harg6 arg7 harg7 arg8 harg8 arg9 harg9 hc0 hc1 hc2 xm xq xk xv xa xl).1)

/-- The accumulator advanced by the last key tile: the pieces tile the buffer, -/
theorem cover_accLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) (y : S512x64.Idx) :
    ∃ pc ∈ (runLastAdvance (F := F) c i arg3 harg3 arg4 harg4 arg5 harg5 arg6 harg6 arg7 harg7 arg8 harg8 arg9 harg9 hc0 hc1 hc2 xm xq xk xv xa xl).2.1, y ∈ pc.1.set :=
  View.cover_of_tiledL (runLastAdvance (F := F) c i arg3 harg3 arg4 harg4 arg5 harg5 arg6 harg6 arg7 harg7 arg8 harg8 arg9 harg9 hc0 hc1 hc2 xm xq xk xv xa xl).2.1 S512x64.size (by sl_kernel_rfl) y
/-- and read back they are its contents. -/
def accLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) : Vec F S512x64 .f32 :=
  VAcc.read (Elt F) (VAcc.writes (Elt F) VAcc.junk (runLastAdvance (F := F) c i arg3 harg3 arg4 harg4 arg5 harg5 arg6 harg6 arg7 harg7 arg8 harg8 arg9 harg9 hc0 hc1 hc2 xm xq xk xv xa xl).2.1)

/-- The weight sums advanced by the last key tile: the pieces tile the buffer, -/
theorem cover_lLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) (y : S512x1.Idx) :
    ∃ pc ∈ (runLastAdvance (F := F) c i arg3 harg3 arg4 harg4 arg5 harg5 arg6 harg6 arg7 harg7 arg8 harg8 arg9 harg9 hc0 hc1 hc2 xm xq xk xv xa xl).2.2.1, y ∈ pc.1.set :=
  View.cover_of_tiledL (runLastAdvance (F := F) c i arg3 harg3 arg4 harg4 arg5 harg5 arg6 harg6 arg7 harg7 arg8 harg8 arg9 harg9 hc0 hc1 hc2 xm xq xk xv xa xl).2.2.1 S512x1.size (by sl_kernel_rfl) y
/-- and read back they are its contents. -/
def lLastAdv (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) : Vec F S512x1 .f32 :=
  VL.read (Elt F) (VL.writes (Elt F) VL.junk (runLastAdvance (F := F) c i arg3 harg3 arg4 harg4 arg5 harg5 arg6 harg6 arg7 harg7 arg8 harg8 arg9 harg9 hc0 hc1 hc2 xm xq xk xv xa xl).2.2.1)

/-- The output tile stored at a last key tile above the diagonal: the pieces tile the buffer, -/
theorem cover_outLastStore (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : ¬condCausal i) (hc2 : condLast i) (xm : Vec F S1x1 .f32) (xq xk : Vec F S1x512x64 .f32) (xv : Vec F S1x512x64 .bf16) (xa : Vec F S512x64 .f32) (xl : Vec F S512x1 .f32) (y : S1x512x64.Idx) :
    ∃ pc ∈ (runLastStore (F := F) c i arg3 harg3 arg4 harg4 arg5 harg5 arg6 harg6 arg7 harg7 arg8 harg8 arg9 harg9 hc0 hc1 hc2 xm xq xk xv xa xl).1, y ∈ pc.1.set :=
  View.cover_of_tiledL (runLastStore (F := F) c i arg3 harg3 arg4 harg4 arg5 harg5 arg6 harg6 arg7 harg7 arg8 harg8 arg9 harg9 hc0 hc1 hc2 xm xq xk xv xa xl).1 S1x512x64.size (by sl_kernel_rfl) y
/-- and read back they are its contents. -/
def outLastStore (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole) (hc0 : ¬condInit i) (hc1 : ¬condCausal i) (hc2 : condLast i) (xm : Vec F S1x1 .f32) (xq xk : Vec F S1x512x64 .f32) (xv : Vec F S1x512x64 .bf16) (xa : Vec F S512x64 .f32) (xl : Vec F S512x1 .f32) : Vec F S1x512x64 .bf16 :=
  VOut.read (Elt F) (VOut.writes (Elt F) VOut.junk (runLastStore (F := F) c i arg3 harg3 arg4 harg4 arg5 harg5 arg6 harg6 arg7 harg7 arg8 harg8 arg9 harg9 hc0 hc1 hc2 xm xq xk xv xa xl).1)

/-! ## After each point -/

/-- What nothing consults: the output tile's entry at a point that does not store it. -/
def outNone : Vec F S1x512x64 .bf16 := VOut.read (Elt F) VOut.junk

/-- After position n: the output tile's staging buffer (where the point stores it), the accumulator
    and the weight sums. -/
def outsAt (c : Dev nD) : (n : ℕ) → n < cfg2.N → Vec F S1x512x64 .bf16 × Vec F S512x64 .f32 × Vec F S512x1 .f32
  | 0, hn => (outNone,
      accFirst c (grid2.coords ⟨0, hn⟩) (msM ⟨0, hn⟩) (hsM ⟨0, hn⟩) (msQ ⟨0, hn⟩) (hsQ ⟨0, hn⟩) (msK ⟨0, hn⟩) (hsK ⟨0, hn⟩) (msV ⟨0, hn⟩) (hsV ⟨0, hn⟩) (msO ⟨0, hn⟩) (hsO ⟨0, hn⟩) scAcc (Memref.isWhole_whole _) scL (Memref.isWhole_whole _) ((hInit ⟨0, hn⟩).mpr (Nat.zero_mod _)) ((hCausal ⟨0, hn⟩).mpr (Nat.zero_le _)) (fun h => absurd ((hLast ⟨0, hn⟩).mp h) (by (try dsimp only); omega)) (iblk V c 0 ⟨0, hn⟩) (iblk V c 1 ⟨0, hn⟩) (iblk V c 2 ⟨0, hn⟩) (iblk V c 3 ⟨0, hn⟩),
      lFirst c (grid2.coords ⟨0, hn⟩) (msM ⟨0, hn⟩) (hsM ⟨0, hn⟩) (msQ ⟨0, hn⟩) (hsQ ⟨0, hn⟩) (msK ⟨0, hn⟩) (hsK ⟨0, hn⟩) (msV ⟨0, hn⟩) (hsV ⟨0, hn⟩) (msO ⟨0, hn⟩) (hsO ⟨0, hn⟩) scAcc (Memref.isWhole_whole _) scL (Memref.isWhole_whole _) ((hInit ⟨0, hn⟩).mpr (Nat.zero_mod _)) ((hCausal ⟨0, hn⟩).mpr (Nat.zero_le _)) (fun h => absurd ((hLast ⟨0, hn⟩).mp h) (by (try dsimp only); omega)) (iblk V c 0 ⟨0, hn⟩) (iblk V c 1 ⟨0, hn⟩) (iblk V c 2 ⟨0, hn⟩) (iblk V c 3 ⟨0, hn⟩))
  | n + 1, hn =>
    if h0 : (n + 1) % 4 = 0 then
      (outNone,
        accFirst c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) ((hInit ⟨n + 1, hn⟩).mpr h0) ((hCausal ⟨n + 1, hn⟩).mpr (by (try dsimp only); omega)) (fun h => absurd ((hLast ⟨n + 1, hn⟩).mp h) (by (try dsimp only); omega)) (iblk V c 0 ⟨n + 1, hn⟩) (iblk V c 1 ⟨n + 1, hn⟩) (iblk V c 2 ⟨n + 1, hn⟩) (iblk V c 3 ⟨n + 1, hn⟩),
        lFirst c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) ((hInit ⟨n + 1, hn⟩).mpr h0) ((hCausal ⟨n + 1, hn⟩).mpr (by (try dsimp only); omega)) (fun h => absurd ((hLast ⟨n + 1, hn⟩).mp h) (by (try dsimp only); omega)) (iblk V c 0 ⟨n + 1, hn⟩) (iblk V c 1 ⟨n + 1, hn⟩) (iblk V c 2 ⟨n + 1, hn⟩) (iblk V c 3 ⟨n + 1, hn⟩))
    else if h3 : (n + 1) % 4 = 3 then
      if hc : (n + 1) % 4 ≤ (n + 1) / 4 % 4 then
        (outLastAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) ((hLast ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
          accLastAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) ((hLast ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
          lLastAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) ((hLast ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)
      else
        (outLastStore c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) (fun h => hc ((hCausal ⟨n + 1, hn⟩).mp h)) ((hLast ⟨n + 1, hn⟩).mpr h3) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
          (outsAt c n (Nat.lt_of_succ_lt hn)).2.1, (outsAt c n (Nat.lt_of_succ_lt hn)).2.2)
    else if hc : (n + 1) % 4 ≤ (n + 1) / 4 % 4 then
      (outNone,
        accAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) (fun h => h3 ((hLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
        lAdv c (grid2.coords ⟨n + 1, hn⟩) (msM ⟨n + 1, hn⟩) (hsM ⟨n + 1, hn⟩) (msQ ⟨n + 1, hn⟩) (hsQ ⟨n + 1, hn⟩) (msK ⟨n + 1, hn⟩) (hsK ⟨n + 1, hn⟩) (msV ⟨n + 1, hn⟩) (hsV ⟨n + 1, hn⟩) (msO ⟨n + 1, hn⟩) (hsO ⟨n + 1, hn⟩) scAcc (Memref.isWhole_whole _) scL (Memref.isWhole_whole _) (fun h => h0 ((hInit ⟨n + 1, hn⟩).mp h)) ((hCausal ⟨n + 1, hn⟩).mpr hc) (fun h => h3 ((hLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)
    else (outNone, (outsAt c n (Nat.lt_of_succ_lt hn)).2.1, (outsAt c n (Nat.lt_of_succ_lt hn)).2.2)

theorem outsAt_first (c : Dev nD) (t : Fin cfg2.N) (h0 : t.val % 4 = 0) (hc : t.val % 4 ≤ t.val / 4 % 4) (h3 : ¬t.val % 4 = 3) :
    outsAt V c t.val t.isLt = (outNone,
      accFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t),
      lFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t)) := by
  obtain ⟨n, hn⟩ := t
  cases n with
  | zero => exact rfl
  | succ n => exact (dif_pos h0).trans rfl

theorem outsAt_advance (c : Dev nD) (t : Fin cfg2.N) (h0 : ¬t.val % 4 = 0) (hc : t.val % 4 ≤ t.val / 4 % 4) (h3 : ¬t.val % 4 = 3) :
    outsAt V c t.val t.isLt = (outNone,
      accAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
      lAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h3).trans ((dif_pos hc).trans rfl))

theorem outsAt_idle (c : Dev nD) (t : Fin cfg2.N) (h0 : ¬t.val % 4 = 0) (hc : ¬t.val % 4 ≤ t.val / 4 % 4) (h3 : ¬t.val % 4 = 3) :
    outsAt V c t.val t.isLt = (outNone, (outsAt V c (t.val - 1) (Nat.lt_of_le_of_lt (Nat.sub_le _ _) t.isLt)).2.1, (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h3).trans ((dif_neg hc).trans rfl))

theorem outsAt_lastAdvance (c : Dev nD) (t : Fin cfg2.N) (h0 : ¬t.val % 4 = 0) (hc : t.val % 4 ≤ t.val / 4 % 4) (h3 : t.val % 4 = 3) :
    outsAt V c t.val t.isLt = (
      outLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
      accLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
      lLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h3).trans ((dif_pos hc).trans rfl))

theorem outsAt_lastStore (c : Dev nD) (t : Fin cfg2.N) (h0 : ¬t.val % 4 = 0) (hc : ¬t.val % 4 ≤ t.val / 4 % 4) (h3 : t.val % 4 = 3) :
    outsAt V c t.val t.isLt = (
      outLastStore c (grid2.coords t) (msM t) (hsM t) (msQ t) (hsQ t) (msK t) (hsK t) (msV t) (hsV t) (msO t) (hsO t) scAcc (Memref.isWhole_whole _) scL (Memref.isWhole_whole _) (fun h => h0 ((hInit t).mp h)) (fun h => hc ((hCausal t).mp h)) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
      (outsAt V c (t.val - 1) (Nat.lt_of_le_of_lt (Nat.sub_le _ _) t.isLt)).2.1, (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h3).trans ((dif_neg hc).trans rfl))

/-! ## The invariant -/

/-- The core's scoped buffers that are no staging buffer of this call, split at its two scratch
    buffers; the others stay unopened. -/
theorem scopedRest_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The other scoped buffers, unopened. -/
abbrev others (c : Dev nD) : sProp 𝕄 :=
  Pipeline.scopedRestBut (Ix := Unit) (Name := ℕ) (U := UR sig nD τ) (Lvl := ℕ) (Val := Elt F) spec2 c [cc2_scratch0, cc2_scratch1]

/-- The class's invariant with the two scratch buffers as memrefs owned at some contents. -/
theorem PhiA_eq (c : Dev nD) :
    (Pipeline.ΦA spec2 c : sProp 𝕄)
      = iprop(iprop(iprop((∃ d, owns (c : Thread nD τ) scAcc fullShare d) ∗ (∃ d, owns (c : Thread nD τ) scL fullShare d)) ∗ others (F := F) c) ∗ (∃ r, prngReg c r)) := by
  unfold Pipeline.ΦA; rw [scopedRest_split]; simp only [scAcc, scL, owns_whole]; try rfl

/-- The invariant before position n: at the start the class's; afterwards the two scratch buffers at
    what the point before left, the others unopened, the generator register at some state. -/
def PhiS (c : Dev nD) : (n : ℕ) → n ≤ cfg2.N → sProp 𝕄
  | 0, _ => Pipeline.ΦA spec2 c
  | n + 1, hn => iprop(iprop(iprop(owns (c : Thread nD τ) scAcc fullShare ((outsAt V c n hn).2.1) ∗ owns (c : Thread nD τ) scL fullShare ((outsAt V c n hn).2.2)) ∗ others (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scAcc fullShare ((outsAt V c n hn).2.1) ∗ owns (c : Thread nD τ) scL fullShare ((outsAt V c n hn).2.2)) ∗ others (F := F) c) ∗ (∃ r, prngReg c r)) := rfl

theorem PhiS_pos (c : Dev nD) (n : ℕ) (h : n ≤ cfg2.N) (hz : n ≠ 0) :
    PhiS V c n h = iprop(iprop(iprop(owns (c : Thread nD τ) scAcc fullShare ((outsAt V c (n - 1) (by omega)).2.1) ∗ owns (c : Thread nD τ) scL fullShare ((outsAt V c (n - 1) (by omega)).2.2)) ∗ others (F := F) c) ∗ (∃ r, prngReg c r)) := by
  cases n with
  | zero => exact absurd rfl hz
  | succ n => rfl

/-! ## The pipeline's proof data -/

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (outsAt V c t.val t.isLt).1 := by dsimp only [dat]

theorem before_0 (c : Dev nD) (t : Fin cfg2.N) (d) : (dat V c).before 0 t d = iblk V c 0 t :=
  before_m_of V (dat V c) (A_eq V c 0) (after_0 V c) t d
theorem before_1 (c : Dev nD) (t : Fin cfg2.N) (d) : (dat V c).before 1 t d = iblk V c 1 t :=
  before_q_of V (dat V c) (A_eq V c 1) (after_1 V c) t d
theorem before_2 (c : Dev nD) (t : Fin cfg2.N) (d) : (dat V c).before 2 t d = iblk V c 2 t :=
  before_k_of V (dat V c) (A_eq V c 2) (after_2 V c) t d
theorem before_3 (c : Dev nD) (t : Fin cfg2.N) (d) : (dat V c).before 3 t d = iblk V c 3 t :=
  before_v_of V (dat V c) (A_eq V c 3) (after_3 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (msM t) fullShare ((dat V c).before 0 t d))
    ∗ (∃ d, owns (c : Thread nD τ) (msQ t) fullShare ((dat V c).before 1 t d))
    ∗ (∃ d, owns (c : Thread nD τ) (msK t) fullShare ((dat V c).before 2 t d))
    ∗ (∃ d, owns (c : Thread nD τ) (msV t) fullShare ((dat V c).before 3 t d))
    ∗ (∃ d, owns (c : Thread nD τ) (msO t) fullShare ((dat V c).before 4 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_0 (c : Dev nD) (t : Fin cfg2.N) : (dat V c).leavesExact 0 t = owns (c : Thread nD τ) (msM t) fullShare (iblk V c 0 t) := by
  unfold Dat.leavesExact; rw [show cfg2.idle 0 (cfg2.grid.coords t) = false from rfl, after_0]
theorem leaves_1 (c : Dev nD) (t : Fin cfg2.N) : (dat V c).leavesExact 1 t = owns (c : Thread nD τ) (msQ t) fullShare (iblk V c 1 t) := by
  unfold Dat.leavesExact; rw [show cfg2.idle 1 (cfg2.grid.coords t) = false from rfl, after_1]
theorem leaves_2 (c : Dev nD) (t : Fin cfg2.N) : (dat V c).leavesExact 2 t = owns (c : Thread nD τ) (msK t) fullShare (iblk V c 2 t) := by
  unfold Dat.leavesExact; rw [show cfg2.idle 2 (cfg2.grid.coords t) = false from rfl, after_2]
theorem leaves_3 (c : Dev nD) (t : Fin cfg2.N) : (dat V c).leavesExact 3 t = owns (c : Thread nD τ) (msV t) fullShare (iblk V c 3 t) := by
  unfold Dat.leavesExact; rw [show cfg2.idle 3 (cfg2.grid.coords t) = false from rfl, after_3]
theorem leaves_4_live (c : Dev nD) (t : Fin cfg2.N) (hl : condLast (grid2.coords t)) :
    (dat V c).leavesExact 4 t = owns (c : Thread nD τ) (msO t) fullShare ((outsAt V c t.val t.isLt).1) := by
  unfold Dat.leavesExact; rw [live_of_last t hl, after_4]

set_option maxHeartbeats 8000000 in
/-- The body at any point, by the five cases. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  by_cases h0 : t.val % 4 = 0
  · have hc : t.val % 4 ≤ t.val / 4 % 4 := by omega
    have h3 : ¬t.val % 4 = 3 := by omega
    rw [Dat.leavesExact_idle (dat V c) 4 t (idle_of_notLast t (fun h => h3 ((hLast t).mp h))) (noFlush_of_notLast t (fun h => h3 ((hLast t).mp h)))]
    rw [outsAt_first V c t h0 hc h3]
    dsimp only
    unfold accFirst lFirst
    by_cases hz : t.val = 0
    · rw [PhiS_castSucc V c t, PhiS_zero V c _ _ hz, PhiA_eq]
      iintro ⟨⟨⟨⟨HA, HL⟩, Hbut⟩, Hg⟩, Ho, ⟨%d0, H0⟩, ⟨%d1, H1⟩, ⟨%d2, H2⟩, ⟨%d3, H3⟩, ⟨%d4, H4⟩⟩
      iapply ((runFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HA]; · iexact HA
      isplitl [HL]; · iexact HL
      iintro ⟨H0, H1, H2, H3, H4, ⟨%ea, HA⟩, ⟨%el, HL⟩⟩
      isplitl [HA HL Hbut Hg]
      · isplitr [Hg]
        · isplitr [Hbut]
          · isplitl [HA]
            · unfold owns; iexists _; isplitr
              swap; · iexact HA
              ipureintro; exact View.read_writes_of_cover _ _ _ _ _ (cover_accFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t))
            · unfold owns; iexists _; isplitr
              swap; · iexact HL
              ipureintro; exact View.read_writes_of_cover _ _ _ _ _ (cover_lFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t))
          · iexact Hbut
        · iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨⟨HA, HL⟩, Hbut⟩, Hg⟩, Ho, ⟨%d0, H0⟩, ⟨%d1, H1⟩, ⟨%d2, H2⟩, ⟨%d3, H3⟩, ⟨%d4, H4⟩⟩
      iapply ((runFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HA]; · iexists _; iexact HA
      isplitl [HL]; · iexists _; iexact HL
      iintro ⟨H0, H1, H2, H3, H4, ⟨%ea, HA⟩, ⟨%el, HL⟩⟩
      isplitl [HA HL Hbut Hg]
      · isplitr [Hg]
        · isplitr [Hbut]
          · isplitl [HA]
            · unfold owns; iexists _; isplitr
              swap; · iexact HA
              ipureintro; exact View.read_writes_of_cover _ _ _ _ _ (cover_accFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t))
            · unfold owns; iexists _; isplitr
              swap; · iexact HL
              ipureintro; exact View.read_writes_of_cover _ _ _ _ _ (cover_lFirst c (grid2.coords t) (msM t) (hsM t) (msQ t) (hsQ t) (msK t) (hsK t) (msV t) (hsV t) (msO t) (hsO t) scAcc (Memref.isWhole_whole _) scL (Memref.isWhole_whole _) ((hInit t).mpr h0) ((hCausal t).mpr hc) (fun h => h3 ((hLast t).mp h)) (iblk V c 0 t) (iblk V c 1 t) (iblk V c 2 t) (iblk V c 3 t))
          · iexact Hbut
        · iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h3 : t.val % 4 = 3
    · by_cases hc : t.val % 4 ≤ t.val / 4 % 4
      · rw [leaves_4_live V c t ((hLast t).mpr h3), outsAt_lastAdvance V c t h0 hc h3]
        dsimp only
        unfold outLastAdv accLastAdv lLastAdv
        rw [PhiS_castSucc V c t, PhiS_pos V c _ _ hz]
        iintro ⟨⟨⟨⟨HA, HL⟩, Hbut⟩, Hg⟩, Ho, ⟨%d0, H0⟩, ⟨%d1, H1⟩, ⟨%d2, H2⟩, ⟨%d3, H3⟩, ⟨%d4, H4⟩⟩
        iapply ((runLastAdvance c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) _ _).2.2.2 Set.univ _)
        isplitl [H0]; · iexact H0
        isplitl [H1]; · iexact H1
        isplitl [H2]; · iexact H2
        isplitl [H3]; · iexact H3
        isplitl [H4]; · iexists _; iexact H4
        isplitl [HA]; · iexact HA
        isplitl [HL]; · iexact HL
        iintro ⟨H0, H1, H2, H3, ⟨%eo, H4⟩, ⟨%ea, HA⟩, ⟨%el, HL⟩⟩
        isplitl [HA HL Hbut Hg]
        · isplitr [Hg]
          · isplitr [Hbut]
            · isplitl [HA]
              · unfold owns; iexists _; isplitr
                swap; · iexact HA
                ipureintro; exact View.read_writes_of_cover _ _ _ _ _ (cover_accLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
              · unfold owns; iexists _; isplitr
                swap; · iexact HL
                ipureintro; exact View.read_writes_of_cover _ _ _ _ _ (cover_lLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
            · iexact Hbut
          · iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_outLastAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
      · rw [leaves_4_live V c t ((hLast t).mpr h3), outsAt_lastStore V c t h0 hc h3]
        dsimp only
        unfold outLastStore
        rw [PhiS_castSucc V c t, PhiS_pos V c _ _ hz]
        iintro ⟨⟨⟨⟨HA, HL⟩, Hbut⟩, Hg⟩, Ho, ⟨%d0, H0⟩, ⟨%d1, H1⟩, ⟨%d2, H2⟩, ⟨%d3, H3⟩, ⟨%d4, H4⟩⟩
        iapply ((runLastStore c (grid2.coords t) (msM t) (hsM t) (msQ t) (hsQ t) (msK t) (hsK t) (msV t) (hsV t) (msO t) (hsO t) scAcc (Memref.isWhole_whole _) scL (Memref.isWhole_whole _) (fun h => h0 ((hInit t).mp h)) (fun h => hc ((hCausal t).mp h)) ((hLast t).mpr h3) (iblk V c 0 t) (iblk V c 1 t) (iblk V c 2 t) (iblk V c 3 t) _ _).2 Set.univ _)
        isplitl [H0]; · iexact H0
        isplitl [H1]; · iexact H1
        isplitl [H2]; · iexact H2
        isplitl [H3]; · iexact H3
        isplitl [H4]; · iexists _; iexact H4
        isplitl [HA]; · iexact HA
        isplitl [HL]; · iexact HL
        iintro ⟨H0, H1, H2, H3, ⟨%eo, H4⟩, HA, HL⟩
        isplitl [HA HL Hbut Hg]
        · isplitr [Hg]
          · isplitr [Hbut]
            · isplitl [HA]; · iexact HA
              iexact HL
            · iexact Hbut
          · iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover_outLastStore c (grid2.coords t) (msM t) (hsM t) (msQ t) (hsQ t) (msK t) (hsK t) (msV t) (hsV t) (msO t) (hsO t) scAcc (Memref.isWhole_whole _) scL (Memref.isWhole_whole _) (fun h => h0 ((hInit t).mp h)) (fun h => hc ((hCausal t).mp h)) ((hLast t).mpr h3) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
    · rw [Dat.leavesExact_idle (dat V c) 4 t (idle_of_notLast t (fun h => h3 ((hLast t).mp h))) (noFlush_of_notLast t (fun h => h3 ((hLast t).mp h)))]
      by_cases hc : t.val % 4 ≤ t.val / 4 % 4
      · rw [outsAt_advance V c t h0 hc h3]
        dsimp only
        unfold accAdv lAdv
        rw [PhiS_castSucc V c t, PhiS_pos V c _ _ hz]
        iintro ⟨⟨⟨⟨HA, HL⟩, Hbut⟩, Hg⟩, Ho, ⟨%d0, H0⟩, ⟨%d1, H1⟩, ⟨%d2, H2⟩, ⟨%d3, H3⟩, ⟨%d4, H4⟩⟩
        iapply ((runAdvance c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) _ _).2.2 _ Set.univ _)
        isplitl [H0]; · iexact H0
        isplitl [H1]; · iexact H1
        isplitl [H2]; · iexact H2
        isplitl [H3]; · iexact H3
        isplitl [H4]; · iexact H4
        isplitl [HA]; · iexact HA
        isplitl [HL]; · iexact HL
        iintro ⟨H0, H1, H2, H3, H4, ⟨%ea, HA⟩, ⟨%el, HL⟩⟩
        isplitl [HA HL Hbut Hg]
        · isplitr [Hg]
          · isplitr [Hbut]
            · isplitl [HA]
              · unfold owns; iexists _; isplitr
                swap; · iexact HA
                ipureintro; exact View.read_writes_of_cover _ _ _ _ _ (cover_accAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
              · unfold owns; iexists _; isplitr
                swap; · iexact HL
                ipureintro; exact View.read_writes_of_cover _ _ _ _ _ (cover_lAdv c (grid2.coords t) (msM t) (hsM t) (msQ t) (hsQ t) (msK t) (hsK t) (msV t) (hsV t) (msO t) (hsO t) scAcc (Memref.isWhole_whole _) scL (Memref.isWhole_whole _) (fun h => h0 ((hInit t).mp h)) ((hCausal t).mpr hc) (fun h => h3 ((hLast t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2)
            · iexact Hbut
          · iexact Hg
        isplitl [Ho]; · iexact Ho
        isplitl [H0]; · iexact H0
        isplitl [H1]; · iexact H1
        isplitl [H2]; · iexact H2
        isplitl [H3]; · iexact H3
        iexists _; iexact H4
      · rw [outsAt_idle V c t h0 hc h3]
        dsimp only
        rw [PhiS_castSucc V c t, PhiS_pos V c _ _ hz]
        iintro ⟨⟨⟨⟨HA, HL⟩, Hbut⟩, Hg⟩, Ho, ⟨%d0, H0⟩, ⟨%d1, H1⟩, ⟨%d2, H2⟩, ⟨%d3, H3⟩, ⟨%d4, H4⟩⟩
        iapply (runIdle c (grid2.coords t) (msM t) (hsM t) (msQ t) (hsQ t) (msK t) (hsK t) (msV t) (hsV t) (msO t) (hsO t) scAcc (Memref.isWhole_whole _) scL (Memref.isWhole_whole _) (fun h => h0 ((hInit t).mp h)) (fun h => hc ((hCausal t).mp h)) (fun h => h3 ((hLast t).mp h)) (iblk V c 0 t) (iblk V c 1 t) (iblk V c 2 t) (iblk V c 3 t) _ _ _ Set.univ _)
        isplitl [H0]; · iexact H0
        isplitl [H1]; · iexact H1
        isplitl [H2]; · iexact H2
        isplitl [H3]; · iexact H3
        isplitl [H4]; · iexact H4
        isplitl [HA]; · iexact HA
        isplitl [HL]; · iexact HL
        iintro ⟨H0, H1, H2, H3, H4, HA, HL⟩
        isplitl [HA HL Hbut Hg]
        · isplitr [Hg]
          · isplitr [Hbut]
            · isplitl [HA]; · iexact HA
              iexact HL
            · iexact Hbut
          · iexact Hg
        isplitl [Ho]; · iexact Ho
        isplitl [H0]; · iexact H0
        isplitl [H1]; · iexact H1
        isplitl [H2]; · iexact H2
        isplitl [H3]; · iexact H3
        iexists _; iexact H4

/-- The pipeline's body obligation, at every point. -/
theorem body_obligation (c : Dev nD) : BodyObligation (dat (F := F) V c) (defs₀ (F := F)) Variants.none () Set.univ := fun t => by
  rw [bigSep_W2, bigSep_W2]
  exact sound_body V c t

/-- What the call is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulators' named
    contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨⟨HA, HL⟩, Hbut⟩, Hg⟩
  isplitr [Hg]
  · isplitr [Hbut]
    · isplitl [HA]
      · iexists _; iexact HA
      · iexists _; iexact HL
    · iexact Hbut
  · iexact Hg

theorem hout (c : Dev nD) : (dat V c).Φ (Fin.last cfg2.N) ⊢ Pipeline.ΦA spec2 c :=
  Phi_out V c _ (by rw [Fin.val_last]; have : cfg2.N = 1024 := N_2; omega)

end Cert.KernelIdeal.Attention

end
-- ==== Proof.OutProjIdeal.lean ====
/-
  The output projection, the last of the program's four pipelined calls, at any float instance.

  Its grid has 16 points; point t takes rows [512 t, 512 t + 512) of the attention result (a
  [512, 1024] block), the whole [1024, 1024] weight, and writes the [512, 1024] block of the same
  rows of the result: the product of the row block with the transposed weight, accumulated into
  zero.  Nothing is carried from one point to the next.  Stated here, at an arbitrary valuation V of
  the buffers on entry: what each block is, what the body's one store leaves in the output's staging
  buffer, that the body runs from blocks to that contents, and the pipeline's per-point obligation.
-/
import proofs.«157401_j56521769615696_2_alg».proof.Proof.Gen.KernelIdeal.Launch
import proofs.«157401_j56521769615696_2_alg».proof.Proof.Gen.KernelIdeal.Skeleton
import proofs.«157401_j56521769615696_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block's staging buffer holds rows [512 t, 512 t + 512) at every point. -/
theorem before_rows_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's staging buffer holds the whole weight at every point (fetched once, never moved). -/
theorem before_weight_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's one access rectangle on the output block: all of it. -/
abbrev rOut : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the output's staging buffer: its one store, of the product of the two
    loaded blocks. -/
def outBlock (x0 : Vec F S512x1024 .bf16) (x1 : Vec F S1024x1024 .bf16) : Vec F S512x1024 .f32 :=
  View.canon [⟨rOut, k3_pay1 (View.ld x0 rOut) (View.ld x1 rW)⟩]

/-- That store covers the buffer. -/
theorem cover_out (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

set_option maxHeartbeats 1000000 in
/-- The body on whole staging memrefs, the two inputs at read contents and the output at anything,
    runs to the continuation with the inputs as they were and the output at `outBlock` of them. -/
theorem sound_kernel (c : Dev nD) (E : Set ℕ) (i : grid3.Coords)
    (arg1 : Memref sig .tc .vmem S512x1024 .bf16) (harg1 : arg1.IsWhole)
    (arg2 : Memref sig .tc .vmem S1024x1024 .bf16) (harg2 : arg2.IsWhole)
    (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc3__outproj_kernel i arg1 harg1 arg2 harg2 arg3 harg3) K := by
  simp only [cc3__outproj_kernel_eq_skeleton]; unfold cc3__outproj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The proof data of this call on core c: the arrays as found; after the body at point t each
    input's buffer at its block and the output's at the product of the two blocks; the invariant the
    scoped rest and the generator register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => outBlock (iblk V c 0 t) (iblk V c 1 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = outBlock (iblk V c 0 t) (iblk V c 1 t) := by dsimp only [dat]

theorem before_0 (c : Dev nD) (t : Fin cfg3.N) (d) : (dat V c).before 0 t d = iblk V c 0 t :=
  before_rows_of V (dat V c) (A_eq V c 0) (after_0 V c) t d
theorem before_1 (c : Dev nD) (t : Fin cfg3.N) (d) : (dat V c).before 1 t d = iblk V c 1 t :=
  before_weight_of V (dat V c) (A_eq V c 1) (after_1 V c) t d

/-- What the body is called with at point t, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' memrefs hold their blocks, so `sound_kernel` applies; the
    invariant and what the core owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W3, bigSep_W3]
  exact sound_body V c t

end Cert.KernelIdeal.OutProj

end
-- ==== Proof.RunIdeal.lean ====
/-
  The whole program as a sequence of nine items: a stretch of host operations, the projection call,
  a stretch, the global-maximum call, a stretch, the attention call, a stretch, the output
  projection, a last stretch.  The contents of every buffer at each boundary are a fold from the
  launch memory: a stretch applies its operations, a call replaces its arrays by what its
  write-backs leave and keeps everything else.  Every execution runs through the nine items and ends
  with every buffer at the fold's last stage; the five arguments, which nothing writes, are there as
  launched.
-/
import proofs.«157401_j56521769615696_2_alg».proof.Proof.QkvProjIdeal
import proofs.«157401_j56521769615696_2_alg».proof.Proof.GlobalMaxIdeal
import proofs.«157401_j56521769615696_2_alg».proof.Proof.AttentionIdeal
import proofs.«157401_j56521769615696_2_alg».proof.Proof.OutProjIdeal
import proofs.«157401_j56521769615696_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)

/-- After the host stretch before call 0: what it is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what its write-backs leave, every other buffer as entered. -/
def W2 (c : Dev nD) : Valuation τ sig (Elt F) :=
  Pipeline.withArrays spec0 c (W1 m ρ c) fun w => (QkvProj.dat (V1 m ρ) c).arrAt w cfg0.N
theorem W2_arr (c : Dev nD) (w : Fin cfg0.W) :
    W2 m ρ c (Proc.devRef .tc (Pipeline.arrRef spec0 w)) = (QkvProj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (QkvProj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before call 1: what it is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At call 1's exit: its arrays at what its write-backs leave, every other buffer as entered. -/
def W4 (c : Dev nD) : Valuation τ sig (Elt F) :=
  Pipeline.withArrays spec1 c (W3 m ρ c) fun w => (GlobalMax.dat (V3 m ρ) c).arrAt w cfg1.N
theorem W4_arr (c : Dev nD) (w : Fin cfg1.W) :
    W4 m ρ c (Proc.devRef .tc (Pipeline.arrRef spec1 w)) = (GlobalMax.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (GlobalMax.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before call 2: what it is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At call 2's exit: its arrays at what its write-backs leave, every other buffer as entered. -/
def W6 (c : Dev nD) : Valuation τ sig (Elt F) :=
  Pipeline.withArrays spec2 c (W5 m ρ c) fun w => (Attention.dat (V5 m ρ) c).arrAt w cfg2.N
theorem W6_arr (c : Dev nD) (w : Fin cfg2.W) :
    W6 m ρ c (Proc.devRef .tc (Pipeline.arrRef spec2 w)) = (Attention.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Attention.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before call 3: what it is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At call 3's exit: its arrays at what its write-backs leave, every other buffer as entered. -/
def W8 (c : Dev nD) : Valuation τ sig (Elt F) :=
  Pipeline.withArrays spec3 c (W7 m ρ c) fun w => (OutProj.dat (V7 m ρ) c).arrAt w cfg3.N
theorem W8_arr (c : Dev nD) (w : Fin cfg3.W) :
    W8 m ρ c (Proc.devRef .tc (Pipeline.arrRef spec3 w)) = (OutProj.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (OutProj.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch: what the program ends with. -/
abbrev W9 : Dev nD → Valuation τ sig (Elt F) := fun c => StableHlo.after hostOps4 (W8 m ρ c)

/-! ## The arguments end as launched -/

/-- Argument 0 ends as launched: no host operation writes it and no call changes it. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps4 _ hostOps4_writes (show main_arg0 ∉ hostOps4_W by decide)
    _ = W7 m ρ c (Proc.devRef .tc main_arg0) := W8_of_ne m ρ c main_arg0 (by decide)
    _ = W6 m ρ c (Proc.devRef .tc main_arg0) := StableHlo.after_of_writes_sub hostOps3 _ hostOps3_writes (show main_arg0 ∉ hostOps3_W by decide)
    _ = W5 m ρ c (Proc.devRef .tc main_arg0) := W6_of_ne m ρ c main_arg0 (by decide)
    _ = W4 m ρ c (Proc.devRef .tc main_arg0) := StableHlo.after_of_writes_sub hostOps2 _ hostOps2_writes (show main_arg0 ∉ hostOps2_W by decide)
    _ = W3 m ρ c (Proc.devRef .tc main_arg0) := W4_of_ne m ρ c main_arg0 (by decide)
    _ = W2 m ρ c (Proc.devRef .tc main_arg0) := StableHlo.after_of_writes_sub hostOps1 _ hostOps1_writes (show main_arg0 ∉ hostOps1_W by decide)
    _ = W1 m ρ c (Proc.devRef .tc main_arg0) := W2_of_ne m ρ c main_arg0 (by decide)
    _ = W0 m ρ c (Proc.devRef .tc main_arg0) := StableHlo.after_of_writes_sub hostOps0 _ hostOps0_writes (show main_arg0 ∉ hostOps0_W by decide)
    _ = m ((c : Thread nD τ).loc main_arg0) := rfl

/-- Argument 1 ends as launched: no host operation writes it and no call changes it. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps4 _ hostOps4_writes (show main_arg1 ∉ hostOps4_W by decide)
    _ = W7 m ρ c (Proc.devRef .tc main_arg1) := W8_of_ne m ρ c main_arg1 (by decide)
    _ = W6 m ρ c (Proc.devRef .tc main_arg1) := StableHlo.after_of_writes_sub hostOps3 _ hostOps3_writes (show main_arg1 ∉ hostOps3_W by decide)
    _ = W5 m ρ c (Proc.devRef .tc main_arg1) := W6_of_ne m ρ c main_arg1 (by decide)
    _ = W4 m ρ c (Proc.devRef .tc main_arg1) := StableHlo.after_of_writes_sub hostOps2 _ hostOps2_writes (show main_arg1 ∉ hostOps2_W by decide)
    _ = W3 m ρ c (Proc.devRef .tc main_arg1) := W4_of_ne m ρ c main_arg1 (by decide)
    _ = W2 m ρ c (Proc.devRef .tc main_arg1) := StableHlo.after_of_writes_sub hostOps1 _ hostOps1_writes (show main_arg1 ∉ hostOps1_W by decide)
    _ = W1 m ρ c (Proc.devRef .tc main_arg1) := (W2_arr m ρ c 1).trans (((QkvProj.dat (V1 m ρ) c).arrAt_in 1 rfl _).trans (QkvProj.A_eq (V1 m ρ) c 1))
    _ = W0 m ρ c (Proc.devRef .tc main_arg1) := StableHlo.after_of_writes_sub hostOps0 _ hostOps0_writes (show main_arg1 ∉ hostOps0_W by decide)
    _ = m ((c : Thread nD τ).loc main_arg1) := rfl

/-- Argument 2 ends as launched: no host operation writes it and no call changes it. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps4 _ hostOps4_writes (show main_arg2 ∉ hostOps4_W by decide)
    _ = W7 m ρ c (Proc.devRef .tc main_arg2) := W8_of_ne m ρ c main_arg2 (by decide)
    _ = W6 m ρ c (Proc.devRef .tc main_arg2) := StableHlo.after_of_writes_sub hostOps3 _ hostOps3_writes (show main_arg2 ∉ hostOps3_W by decide)
    _ = W5 m ρ c (Proc.devRef .tc main_arg2) := W6_of_ne m ρ c main_arg2 (by decide)
    _ = W4 m ρ c (Proc.devRef .tc main_arg2) := StableHlo.after_of_writes_sub hostOps2 _ hostOps2_writes (show main_arg2 ∉ hostOps2_W by decide)
    _ = W3 m ρ c (Proc.devRef .tc main_arg2) := W4_of_ne m ρ c main_arg2 (by decide)
    _ = W2 m ρ c (Proc.devRef .tc main_arg2) := StableHlo.after_of_writes_sub hostOps1 _ hostOps1_writes (show main_arg2 ∉ hostOps1_W by decide)
    _ = W1 m ρ c (Proc.devRef .tc main_arg2) := (W2_arr m ρ c 2).trans (((QkvProj.dat (V1 m ρ) c).arrAt_in 2 rfl _).trans (QkvProj.A_eq (V1 m ρ) c 2))
    _ = W0 m ρ c (Proc.devRef .tc main_arg2) := StableHlo.after_of_writes_sub hostOps0 _ hostOps0_writes (show main_arg2 ∉ hostOps0_W by decide)
    _ = m ((c : Thread nD τ).loc main_arg2) := rfl

/-- Argument 3 ends as launched: no host operation writes it and no call changes it. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps4 _ hostOps4_writes (show main_arg3 ∉ hostOps4_W by decide)
    _ = W7 m ρ c (Proc.devRef .tc main_arg3) := W8_of_ne m ρ c main_arg3 (by decide)
    _ = W6 m ρ c (Proc.devRef .tc main_arg3) := StableHlo.after_of_writes_sub hostOps3 _ hostOps3_writes (show main_arg3 ∉ hostOps3_W by decide)
    _ = W5 m ρ c (Proc.devRef .tc main_arg3) := W6_of_ne m ρ c main_arg3 (by decide)
    _ = W4 m ρ c (Proc.devRef .tc main_arg3) := StableHlo.after_of_writes_sub hostOps2 _ hostOps2_writes (show main_arg3 ∉ hostOps2_W by decide)
    _ = W3 m ρ c (Proc.devRef .tc main_arg3) := W4_of_ne m ρ c main_arg3 (by decide)
    _ = W2 m ρ c (Proc.devRef .tc main_arg3) := StableHlo.after_of_writes_sub hostOps1 _ hostOps1_writes (show main_arg3 ∉ hostOps1_W by decide)
    _ = W1 m ρ c (Proc.devRef .tc main_arg3) := W2_of_ne m ρ c main_arg3 (by decide)
    _ = W0 m ρ c (Proc.devRef .tc main_arg3) := StableHlo.after_of_writes_sub hostOps0 _ hostOps0_writes (show main_arg3 ∉ hostOps0_W by decide)
    _ = m ((c : Thread nD τ).loc main_arg3) := rfl

/-- Argument 4 ends as launched: no host operation writes it and no call changes it. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps4 _ hostOps4_writes (show main_arg4 ∉ hostOps4_W by decide)
    _ = W7 m ρ c (Proc.devRef .tc main_arg4) := W8_of_ne m ρ c main_arg4 (by decide)
    _ = W6 m ρ c (Proc.devRef .tc main_arg4) := StableHlo.after_of_writes_sub hostOps3 _ hostOps3_writes (show main_arg4 ∉ hostOps3_W by decide)
    _ = W5 m ρ c (Proc.devRef .tc main_arg4) := W6_of_ne m ρ c main_arg4 (by decide)
    _ = W4 m ρ c (Proc.devRef .tc main_arg4) := StableHlo.after_of_writes_sub hostOps2 _ hostOps2_writes (show main_arg4 ∉ hostOps2_W by decide)
    _ = W3 m ρ c (Proc.devRef .tc main_arg4) := W4_of_ne m ρ c main_arg4 (by decide)
    _ = W2 m ρ c (Proc.devRef .tc main_arg4) := StableHlo.after_of_writes_sub hostOps1 _ hostOps1_writes (show main_arg4 ∉ hostOps1_W by decide)
    _ = W1 m ρ c (Proc.devRef .tc main_arg4) := W2_of_ne m ρ c main_arg4 (by decide)
    _ = W0 m ρ c (Proc.devRef .tc main_arg4) := StableHlo.after_of_writes_sub hostOps0 _ hostOps0_writes (show main_arg4 ∉ hostOps0_W by decide)
    _ = m ((c : Thread nD τ).loc main_arg4) := rfl

/-! ## The proof data of the four calls, and the thread state -/

/-- Every call's proof data, each at the contents its call is entered from. -/
def pdats : (p : Fin 4) → (c : Dev nD) → Dat τ (Elt F) Unit ℕ (UR sig nD τ) ℕ (Pipeline.pin (pcfgs (F := F)) adm p) c
  | ⟨0, _⟩ => fun c => QkvProj.dat (V1 m ρ) c
  | ⟨1, _⟩ => fun c => GlobalMax.dat (V3 m ρ) c
  | ⟨2, _⟩ => fun c => Attention.dat (V5 m ρ) c
  | ⟨3, _⟩ => fun c => OutProj.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the
    core owing nothing. -/
abbrev R (c : Dev nD) : sProp 𝕄 := iprop((∃ r, prngReg c r) ∗ ∃ W, owes (c : Thread nD τ) (0 : CellTallies nD τ sig Unit) W)
/-- A host stretch as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tₙ (c : Dev nD) : sProp 𝕄 := iprop(StableHlo.held (c : Thread nD τ) (Pipeline.ucRefs τ sig) (W9 m ρ c) ∗ ∃ r, prngReg c r)

/-! ## The four calls as items -/

set_option backward.isDefEq.respectTransparency.types false in
/-- Call 0 over the thread state: entered with every unscoped buffer at W1, left with them at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (QkvProj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at W3, left with them at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (GlobalMax.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at W5, left with them at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Attention.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attention.hin (V5 m ρ) c)
    unfold Pipeline.ΦA
    iintro ⟨Hp, -, Hr⟩
    isplitl [Hr]; · iexact Hr
    iexact Hp
  hout c := by
    rw [Pipeline.ownSems0_none]
    refine (Attention.hout (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered with every unscoped buffer at W7, left with them at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (OutProj.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its nine items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

theorem main_run (c : Dev nD) : main (F := F) c = Pipeline.Seg.run (segs m ρ) := (main_chain c).trans (by chain_rfl)

set_option backward.isDefEq.respectTransparency.types false in
/-- Every weakly fair execution from memory m with zero counters terminates, nothing faulting, and
    every final memory holds every unscoped buffer at the last stage of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c) ⊢ _
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run m ρ)

end Cert.KernelIdeal.Run

end
-- ==== Proof.HeadLayout.lean ====
/-
  The four re-layouts @main performs around its calls, read at an index.

  A [4, 2048, 1024] array flattened to [8192, 1024] has row 2048 b + s; flattened rows split into
  heads, [8192, 1024] to [4, 2048, 16, 64], with the two middle axes exchanged and the first two
  merged, give [64, 2048, 64] with head index 16 b + h reading column 64 h + d of row 2048 b + n; the
  inverse merges heads back into columns.  Each is a row-major re-indexing or an exchange of axes.
-/
import proofs.«157401_j56521769615696_2_alg».proof.KernelIdeal
import Idealize.ShloMosaic.Lib.Pipeline.Value
import Idealize.ShloMosaic.Lib.ValueIdx

noncomputable section

namespace Cert.KernelIdeal.HeadLayout

open Cert.KernelIdeal Idealize.ShloMosaic Idealize.ShloMosaic.ValueIdx

variable {α : Type}

/-- Flattening [4, 2048, 1024] to [8192, 1024]: row r is (r / 2048, r % 2048). -/
theorem flat_apply (X : S4x2048x1024.Idx → α) (h : S4x2048x1024.ShapeCasts S8192x1024) (r : Fin 8192) (k : Fin 1024) :
    shapeCast S8192x1024 X h (ix2 r k) = X (ix3 ⟨r.val / 2048, by omega⟩ ⟨r.val % 2048, Nat.mod_lt _ (by decide)⟩ k) :=
  shapeCast_apply X h _ _ (by
    rw [Shape.rowMajor_val_three, Shape.rowMajor_val_two]
    show (r.val / 2048 * 2048 + r.val % 2048) * 1024 + k.val = r.val * 1024 + k.val
    have := Nat.div_add_mod r.val 2048
    omega)

/-- Unflattening [8192, 1024] to [4, 2048, 1024]: (b, s) is row 2048 b + s. -/
theorem unflat_apply (A : S8192x1024.Idx → α) (h : S8192x1024.ShapeCasts S4x2048x1024) (b : Fin 4) (s : Fin 2048) (j : Fin 1024) :
    shapeCast S4x2048x1024 A h (ix3 b s j) = A (ix2 ⟨2048 * b.val + s.val, by omega⟩ j) :=
  shapeCast_apply A h _ _ (by
    rw [Shape.rowMajor_val_two, Shape.rowMajor_val_three]
    show (2048 * b.val + s.val) * 1024 + j.val = (b.val * 2048 + s.val) * 1024 + j.val
    omega)

/-- Splitting flattened rows into heads: head 16 b + h, position n, lane d reads row 2048 b + n,
    column 64 h + d. -/
theorem heads_apply (A : S8192x1024.Idx → α) (h1 : S8192x1024.ShapeCasts S4x2048x16x64)
    (h2 : S4x2048x16x64.Transposes [0, 2, 1, 3] S4x16x2048x64) (h3 : S4x16x2048x64.ShapeCasts S64x2048x64)
    (bh : Fin 64) (n : Fin 2048) (d : Fin 64) :
    shapeCast S64x2048x64 (transpose S4x16x2048x64 [0, 2, 1, 3] (shapeCast S4x2048x16x64 A h1) h2) h3 (ix3 bh n d)
      = A (ix2 ⟨2048 * (bh.val / 16) + n.val, by omega⟩ ⟨64 * (bh.val % 16) + d.val, by omega⟩) := by
  rw [shapeCast_apply _ h3 (ix3 bh n d) (ix4 ⟨bh.val / 16, by omega⟩ ⟨bh.val % 16, Nat.mod_lt _ (by decide)⟩ n d) (by
    rw [Shape.rowMajor_val_four, Shape.rowMajor_val_three]
    show ((bh.val / 16 * 16 + bh.val % 16) * 2048 + n.val) * 64 + d.val = (bh.val * 2048 + n.val) * 64 + d.val
    have := Nat.div_add_mod bh.val 16
    omega)]
  rw [transpose_apply [0, 2, 1, 3] _ h2 (ix4 ⟨bh.val / 16, by omega⟩ ⟨bh.val % 16, Nat.mod_lt _ (by decide)⟩ n d)
    (ix4 ⟨bh.val / 16, by omega⟩ n ⟨bh.val % 16, Nat.mod_lt _ (by decide)⟩ d) (fun b => match b with
      | ⟨0, _⟩ => rfl
      | ⟨1, _⟩ => rfl
      | ⟨2, _⟩ => rfl
      | ⟨3, _⟩ => rfl)]
  exact shapeCast_apply A h1 _ _ (by
    rw [Shape.rowMajor_val_two, Shape.rowMajor_val_four]
    show (2048 * (bh.val / 16) + n.val) * 1024 + (64 * (bh.val % 16) + d.val) = ((bh.val / 16 * 2048 + n.val) * 16 + bh.val % 16) * 64 + d.val
    omega)

/-- Merging heads back into columns: row r, column col reads head 16 (r / 2048) + col / 64, position
    r % 2048, lane col % 64. -/
theorem unheads_apply (B : S64x2048x64.Idx → α) (g1 : S64x2048x64.ShapeCasts S4x16x2048x64)
    (g2 : S4x16x2048x64.Transposes [0, 2, 1, 3] S4x2048x16x64) (g3 : S4x2048x16x64.ShapeCasts S8192x1024)
    (r : Fin 8192) (col : Fin 1024) :
    shapeCast S8192x1024 (transpose S4x2048x16x64 [0, 2, 1, 3] (shapeCast S4x16x2048x64 B g1) g2) g3 (ix2 r col)
      = B (ix3 ⟨16 * (r.val / 2048) + col.val / 64, by omega⟩ ⟨r.val % 2048, Nat.mod_lt _ (by decide)⟩ ⟨col.val % 64, Nat.mod_lt _ (by decide)⟩) := by
  rw [shapeCast_apply _ g3 (ix2 r col)
    (ix4 ⟨r.val / 2048, by omega⟩ ⟨r.val % 2048, Nat.mod_lt _ (by decide)⟩ ⟨col.val / 64, by omega⟩ ⟨col.val % 64, Nat.mod_lt _ (by decide)⟩) (by
    rw [Shape.rowMajor_val_four, Shape.rowMajor_val_two]
    show ((r.val / 2048 * 2048 + r.val % 2048) * 16 + col.val / 64) * 64 + col.val % 64 = r.val * 1024 + col.val
    have := Nat.div_add_mod r.val 2048
    have := Nat.div_add_mod col.val 64
    omega)]
  rw [transpose_apply [0, 2, 1, 3] _ g2
    (ix4 ⟨r.val / 2048, by omega⟩ ⟨r.val % 2048, Nat.mod_lt _ (by decide)⟩ ⟨col.val / 64, by omega⟩ ⟨col.val % 64, Nat.mod_lt _ (by decide)⟩)
    (ix4 ⟨r.val / 2048, by omega⟩ ⟨col.val / 64, by omega⟩ ⟨r.val % 2048, Nat.mod_lt _ (by decide)⟩ ⟨col.val % 64, Nat.mod_lt _ (by decide)⟩) (fun b => match b with
      | ⟨0, _⟩ => rfl
      | ⟨1, _⟩ => rfl
      | ⟨2, _⟩ => rfl
      | ⟨3, _⟩ => rfl)]
  exact shapeCast_apply B g1 _ _ (by
    rw [Shape.rowMajor_val_three, Shape.rowMajor_val_four]
    show ((16 * (r.val / 2048) + col.val / 64) * 2048 + r.val % 2048) * 64 + col.val % 64
      = ((r.val / 2048 * 16 + col.val / 64) * 2048 + r.val % 2048) * 64 + col.val % 64
    omega)

end Cert.KernelIdeal.HeadLayout

end
-- ==== Proof.QkvProjValue.lean ====
/-
  The fused query / key / value projection's value. The call's grid has 32 points; point t multiplies rows
  [256 t, 256 t + 256) of the flattened input by each of three transposed 1024 x 1024 weights, into zero, and writes the
  same rows of three results (the third through a narrowing of the rows and of the product, which is the identity at the
  ideal values). At the ideal values a matrix product read at an index is the sum over the contracted axis of the
  products; every row of a result lies in exactly the block of the point (row / 256); so each result array ends holding,
  at (r, o), the sum over k of X[r, k] · W[o, k] for its weight W, and the four input arrays end unchanged.
-/
import proofs.«157401_j56521769615696_2_alg».proof.Proof.QkvProjIdeal
import Idealize.ShloMosaic.Lib.Pipeline.Value
import Idealize.ShloMosaic.Lib.ValueIdx
import Idealize.ShloMosaic.PureOps.Ideal.Laws

set_option maxRecDepth 16384

noncomputable section

namespace Cert.KernelIdeal.QkvProjValue

open Cert.KernelIdeal Cert.KernelIdeal.Gen Cert.KernelIdeal.QkvProj
open Idealize.ShloMosaic Idealize.ShloMosaic.TcCoe Idealize.ShloMosaic.ValueIdx Idealize.SL.Sem
open Idealize.ShloMosaic.Pipeline (Dat)
open scoped BigOperators

/-! ## The product read at an index -/

theorem hz : (![0, 0] : Fin 2 → Nat) = fun _ => 0 := funext fun a => by fin_cases a <;> rfl

theorem lhs_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The row-block product into zero, at (r, o): the row r of the left block against the row o of the right, summed
    over the contracted axis; whatever the operands' formats and the precision attribute. -/
theorem matmul_zero_apply {φ₁ φ₂ : FTy} (prec : Option ContractPrecision) (lhs : FVec Ideal S256x1024 φ₁)
    (rhs : FVec Ideal S1024x1024 φ₂) (r : Fin 256) (o : Fin 1024) :
    FloatOps.matmul dot_S256x1024_S1024x1024_S256x1024_1_1_0_0_n_n prec lhs rhs (constant S256x1024 .f32 0x00000000#32) (ix2 r o)
      = ∑ k : Fin 1024, lhs (ix2 r k) * rhs (ix2 o k) := by
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r o) ((contrEquiv1 dot_S256x1024_S1024x1024_S256x1024_1_1_0_0_n_n 1024 rfl rfl).symm k) = ix2 r k := funext fun a => Fin.ext (by
    match a with
    | ⟨0, _⟩ => exact lhs_0 _ _
    | ⟨1, _⟩ => exact (lhs_1 _ _).trans hk)
  have er : dot_S256x1024_S1024x1024_S256x1024_1_1_0_0_n_n.rhsIdx (ix2 r o) ((contrEquiv1 dot_S256x1024_S1024x1024_S256x1024_1_1_0_0_n_n 1024 rfl rfl).symm k) = ix2 o k := funext fun a => Fin.ext (by
    match a with
    | ⟨0, _⟩ => exact rhs_0 _ _
    | ⟨1, _⟩ => exact (rhs_1 _ _).trans hk)
  rw [el, er]

/-- The query payload at (r, o). -/
theorem k0_pay2_apply (x0 : Vec Ideal S256x1024 .f32) (x1 : Vec Ideal S1024x1024 .f32) (r : Fin 256) (o : Fin 1024) :
    k0_pay2 (F := Ideal) x0 x1 (ix2 r o) = ∑ k : Fin 1024, x0 (ix2 r k) * x1 (ix2 o k) := by
  unfold k0_pay2 k0_pay1
  simp only [shapeCast_self, matmul]
  exact matmul_zero_apply _ _ _ r o
/-- The key payload at (r, o). -/
theorem k0_pay3_apply (x0 : Vec Ideal S256x1024 .f32) (x2 : Vec Ideal S1024x1024 .f32) (r : Fin 256) (o : Fin 1024) :
    k0_pay3 (F := Ideal) x0 x2 (ix2 r o) = ∑ k : Fin 1024, x0 (ix2 r k) * x2 (ix2 o k) := by
  unfold k0_pay3 k0_pay1
  simp only [shapeCast_self, matmul]
  exact matmul_zero_apply _ _ _ r o
/-- The value payload at (r, o): the two narrowings are the identity at the ideal values. -/
theorem k0_pay4_apply (x0 : Vec Ideal S256x1024 .f32) (x3 : Vec Ideal S1024x1024 .bf16) (r : Fin 256) (o : Fin 1024) :
    k0_pay4 (F := Ideal) x0 x3 (ix2 r o) = ∑ k : Fin 1024, x0 (ix2 r k) * x3 (ix2 o k) := by
  unfold k0_pay4 k0_pay1
  simp only [shapeCast_self, matmul]
  rw [truncf_apply, matmul_zero_apply]
  exact Finset.sum_congr rfl fun k _ => by rw [truncf_apply]

/-! ## From blocks to the arrays -/

variable (V : (c : Dev nD) → (b : Ref sig .tc) → Buf (Elt Ideal) ((c : Thread nD τ).loc b))

/-- The call's first array as it finds it: the flattened input, 8192 rows of width 1024, as extended reals. -/
abbrev arrX (c : Dev nD) : S8192x1024.Idx → EReal := V c main_v0
/-- The three weights as the call finds them. -/
abbrev arrWq (c : Dev nD) : S1024x1024.Idx → EReal := V c main_arg1
abbrev arrWk (c : Dev nD) : S1024x1024.Idx → EReal := V c main_arg2
abbrev arrWv (c : Dev nD) : S1024x1024.Idx → EReal := V c main_v1

/-- Row r of X against row o of W. -/
def prodAt (X : S8192x1024.Idx → EReal) (W : S1024x1024.Idx → EReal) (r : Fin 8192) (o : Fin 1024) : EReal :=
  ∑ k : Fin 1024, X (ix2 r k) * W (ix2 o k)

/-- The product X · Wᵀ as one array. -/
def prod (X : S8192x1024.Idx → EReal) (W : S1024x1024.Idx → EReal) : S8192x1024.Idx → EReal :=
  fun idx => prodAt X W (idx 0) (idx 1)

theorem prod_ix2 (X : S8192x1024.Idx → EReal) (W : S1024x1024.Idx → EReal) (r : Fin 8192) (o : Fin 1024) :
    prod X W (ix2 r o) = prodAt X W r o := rfl

/-- The printed index maps, decided over the grid: the row blocks of the input and of the three results move with the
    point, each weight's one block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back into output window 4 is block t of the product. -/
theorem flushed_4_eq (c : Dev nD) (t : Fin cfg0.N) :
    (dat (F := Ideal) V c).flushed 4 t = ((cfg0.win 4).blk t).view.read (Elt Ideal) (prod (arrX V c) (arrWq V c)) := by
  show (cfg0.win 4).cut (grid0.coords t) ((dat (F := Ideal) V c).after 4 t) = _
  rw [after_4]
  unfold qBlock
  rw [View.canon_unit_zero hz]
  simp only [View.ld_unit_zero (S := S256x1024) hz, View.ld_unit_zero (S := S1024x1024) hz]
  obtain ⟨e00, e01, e10, e11, e20, e21, e30, e31, e40, e41, e50, e51, e60, e61⟩ := idx_facts t
  funext j
  obtain ⟨r, o, rfl⟩ : ∃ (r : Fin 256) (o : Fin 1024), j = ix2 r o := ⟨j 0, j 1, eq_ix2 j⟩
  show k0_pay2 (F := Ideal) (iblk V c 0 t) (iblk V c 1 t) (ix2 r o)
    = prod (arrX V c) (arrWq V c) (((cfg0.win 4).blk t).view.emb (ix2 r o))
  rw [k0_pay2_apply]
  unfold prod prodAt
  refine Finset.sum_congr rfl fun k _ => ?_
  congr 1
  · show V c main_v0 (((cfg0.win 0).blk t).view.emb (ix2 r k)) = V c main_v0 _
    congr 1
    funext a; apply Fin.ext
    match a with
    | ⟨0, _⟩ => show win0_0.index t (0 : Fin 2) * 256 + 1 * r.val = win0_4.index t (0 : Fin 2) * 256 + 1 * r.val; omega
    | ⟨1, _⟩ => show win0_0.index t (1 : Fin 2) * 1024 + 1 * k.val = k.val; omega
  · show V c main_arg1 (((cfg0.win 1).blk t).view.emb (ix2 o k)) = V c main_arg1 _
    congr 1
    funext a; apply Fin.ext
    match a with
    | ⟨0, _⟩ => show win0_1.index t (0 : Fin 2) * 1024 + 1 * o.val = win0_4.index t (1 : Fin 2) * 1024 + 1 * o.val; omega
    | ⟨1, _⟩ => show win0_1.index t (1 : Fin 2) * 1024 + 1 * k.val = k.val; omega

/-- An index of the array of output window 4 is in point t's block iff each coordinate is in the block's range. -/
theorem mem_blk_4 (t : Fin cfg0.N) (i : S8192x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v3_0).slice (win0_4.rect t)).set ↔ _
  rw [View.set_slice_whole, Rect.mem_set_unit]
  exact Iff.rfl

/-- Every index of that array lies in the block of the point (row / 256), which writes back. -/
theorem cover_4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨e00, e01, e10, e11, e20, e21, e30, e31, e40, e41, e50, e51, e60, e61⟩ := idx_facts t
  refine ⟨t, flush0_4 t, ?_⟩
  rw [mem_blk_4]
  intro a
  match a with
  | ⟨0, _⟩ =>
    show win0_4.index t (0 : Fin 2) * 256 ≤ (i 0).val ∧ (i 0).val < win0_4.index t (0 : Fin 2) * 256 + 256
    rw [e40, ht]; omega
  | ⟨1, _⟩ =>
    show win0_4.index t (1 : Fin 2) * 1024 ≤ (i 1).val ∧ (i 1).val < win0_4.index t (1 : Fin 2) * 1024 + 1024
    rw [e41]; omega

/-- What point t writes back into output window 5 is block t of the product. -/
theorem flushed_5_eq (c : Dev nD) (t : Fin cfg0.N) :
    (dat (F := Ideal) V c).flushed 5 t = ((cfg0.win 5).blk t).view.read (Elt Ideal) (prod (arrX V c) (arrWk V c)) := by
  show (cfg0.win 5).cut (grid0.coords t) ((dat (F := Ideal) V c).after 5 t) = _
  rw [after_5]
  unfold kBlock
  rw [View.canon_unit_zero hz]
  simp only [View.ld_unit_zero (S := S256x1024) hz, View.ld_unit_zero (S := S1024x1024) hz]
  obtain ⟨e00, e01, e10, e11, e20, e21, e30, e31, e40, e41, e50, e51, e60, e61⟩ := idx_facts t
  funext j
  obtain ⟨r, o, rfl⟩ : ∃ (r : Fin 256) (o : Fin 1024), j = ix2 r o := ⟨j 0, j 1, eq_ix2 j⟩
  show k0_pay3 (F := Ideal) (iblk V c 0 t) (iblk V c 2 t) (ix2 r o)
    = prod (arrX V c) (arrWk V c) (((cfg0.win 5).blk t).view.emb (ix2 r o))
  rw [k0_pay3_apply]
  unfold prod prodAt
  refine Finset.sum_congr rfl fun k _ => ?_
  congr 1
  · show V c main_v0 (((cfg0.win 0).blk t).view.emb (ix2 r k)) = V c main_v0 _
    congr 1
    funext a; apply Fin.ext
    match a with
    | ⟨0, _⟩ => show win0_0.index t (0 : Fin 2) * 256 + 1 * r.val = win0_5.index t (0 : Fin 2) * 256 + 1 * r.val; omega
    | ⟨1, _⟩ => show win0_0.index t (1 : Fin 2) * 1024 + 1 * k.val = k.val; omega
  · show V c main_arg2 (((cfg0.win 2).blk t).view.emb (ix2 o k)) = V c main_arg2 _
    congr 1
    funext a; apply Fin.ext
    match a with
    | ⟨0, _⟩ => show win0_2.index t (0 : Fin 2) * 1024 + 1 * o.val = win0_5.index t (1 : Fin 2) * 1024 + 1 * o.val; omega
    | ⟨1, _⟩ => show win0_2.index t (1 : Fin 2) * 1024 + 1 * k.val = k.val; omega

/-- An index of the array of output window 5 is in point t's block iff each coordinate is in the block's range. -/
theorem mem_blk_5 (t : Fin cfg0.N) (i : S8192x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v3_1).slice (win0_5.rect t)).set ↔ _
  rw [View.set_slice_whole, Rect.mem_set_unit]
  exact Iff.rfl

/-- Every index of that array lies in the block of the point (row / 256), which writes back. -/
theorem cover_5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨e00, e01, e10, e11, e20, e21, e30, e31, e40, e41, e50, e51, e60, e61⟩ := idx_facts t
  refine ⟨t, flush0_5 t, ?_⟩
  rw [mem_blk_5]
  intro a
  match a with
  | ⟨0, _⟩ =>
    show win0_5.index t (0 : Fin 2) * 256 ≤ (i 0).val ∧ (i 0).val < win0_5.index t (0 : Fin 2) * 256 + 256
    rw [e50, ht]; omega
  | ⟨1, _⟩ =>
    show win0_5.index t (1 : Fin 2) * 1024 ≤ (i 1).val ∧ (i 1).val < win0_5.index t (1 : Fin 2) * 1024 + 1024
    rw [e51]; omega

/-- What point t writes back into output window 6 is block t of the product. -/
theorem flushed_6_eq (c : Dev nD) (t : Fin cfg0.N) :
    (dat (F := Ideal) V c).flushed 6 t = ((cfg0.win 6).blk t).view.read (Elt Ideal) (prod (arrX V c) (arrWv V c)) := by
  show (cfg0.win 6).cut (grid0.coords t) ((dat (F := Ideal) V c).after 6 t) = _
  rw [after_6]
  unfold vBlock
  rw [View.canon_unit_zero hz]
  simp only [View.ld_unit_zero (S := S256x1024) hz, View.ld_unit_zero (S := S1024x1024) hz]
  obtain ⟨e00, e01, e10, e11, e20, e21, e30, e31, e40, e41, e50, e51, e60, e61⟩ := idx_facts t
  funext j
  obtain ⟨r, o, rfl⟩ : ∃ (r : Fin 256) (o : Fin 1024), j = ix2 r o := ⟨j 0, j 1, eq_ix2 j⟩
  show k0_pay4 (F := Ideal) (iblk V c 0 t) (iblk V c 3 t) (ix2 r o)
    = prod (arrX V c) (arrWv V c) (((cfg0.win 6).blk t).view.emb (ix2 r o))
  rw [k0_pay4_apply]
  unfold prod prodAt
  refine Finset.sum_congr rfl fun k _ => ?_
  congr 1
  · show V c main_v0 (((cfg0.win 0).blk t).view.emb (ix2 r k)) = V c main_v0 _
    congr 1
    funext a; apply Fin.ext
    match a with
    | ⟨0, _⟩ => show win0_0.index t (0 : Fin 2) * 256 + 1 * r.val = win0_6.index t (0 : Fin 2) * 256 + 1 * r.val; omega
    | ⟨1, _⟩ => show win0_0.index t (1 : Fin 2) * 1024 + 1 * k.val = k.val; omega
  · show V c main_v1 (((cfg0.win 3).blk t).view.emb (ix2 o k)) = V c main_v1 _
    congr 1
    funext a; apply Fin.ext
    match a with
    | ⟨0, _⟩ => show win0_3.index t (0 : Fin 2) * 1024 + 1 * o.val = win0_6.index t (1 : Fin 2) * 1024 + 1 * o.val; omega
    | ⟨1, _⟩ => show win0_3.index t (1 : Fin 2) * 1024 + 1 * k.val = k.val; omega

/-- An index of the array of output window 6 is in point t's block iff each coordinate is in the block's range. -/
theorem mem_blk_6 (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v3_2).slice (win0_6.rect t)).set ↔ _
  rw [View.set_slice_whole, Rect.mem_set_unit]
  exact Iff.rfl

/-- Every index of that array lies in the block of the point (row / 256), which writes back. -/
theorem cover_6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨e00, e01, e10, e11, e20, e21, e30, e31, e40, e41, e50, e51, e60, e61⟩ := idx_facts t
  refine ⟨t, flush0_6 t, ?_⟩
  rw [mem_blk_6]
  intro a
  match a with
  | ⟨0, _⟩ =>
    show win0_6.index t (0 : Fin 2) * 256 ≤ (i 0).val ∧ (i 0).val < win0_6.index t (0 : Fin 2) * 256 + 256
    rw [e60, ht]; omega
  | ⟨1, _⟩ =>
    show win0_6.index t (1 : Fin 2) * 1024 ≤ (i 1).val ∧ (i 1).val < win0_6.index t (1 : Fin 2) * 1024 + 1024
    rw [e61]; omega

/-- THE QUERY ARRAY after the call: at (r, o) the sum over k of X(r, k) times Wq(o, k). -/
theorem final_q (c : Dev nD) : (dat (F := Ideal) V c).arrAt 4 cfg0.N = prod (arrX V c) (arrWq V c) :=
  (dat (F := Ideal) V c).arrAt_eq_of_cover 4 (prod (arrX V c) (arrWq V c)) (fun t _ => flushed_4_eq V c t) cover_4
/-- THE KEY ARRAY after the call. -/
theorem final_k (c : Dev nD) : (dat (F := Ideal) V c).arrAt 5 cfg0.N = prod (arrX V c) (arrWk V c) :=
  (dat (F := Ideal) V c).arrAt_eq_of_cover 5 (prod (arrX V c) (arrWk V c)) (fun t _ => flushed_5_eq V c t) cover_5
/-- THE VALUE ARRAY after the call. -/
theorem final_v (c : Dev nD) : (dat (F := Ideal) V c).arrAt 6 cfg0.N = prod (arrX V c) (arrWv V c) :=
  (dat (F := Ideal) V c).arrAt_eq_of_cover 6 (prod (arrX V c) (arrWv V c)) (fun t _ => flushed_6_eq V c t) cover_6

/-- The four input arrays are unchanged by the call. -/
theorem kept_0 (c : Dev nD) : (dat (F := Ideal) V c).arrAt 0 cfg0.N = V c main_v0 :=
  ((dat (F := Ideal) V c).arrAt_in 0 rfl _).trans (A_eq V c 0)
theorem kept_1 (c : Dev nD) : (dat (F := Ideal) V c).arrAt 1 cfg0.N = V c main_arg1 :=
  ((dat (F := Ideal) V c).arrAt_in 1 rfl _).trans (A_eq V c 1)
theorem kept_2 (c : Dev nD) : (dat (F := Ideal) V c).arrAt 2 cfg0.N = V c main_arg2 :=
  ((dat (F := Ideal) V c).arrAt_in 2 rfl _).trans (A_eq V c 2)
theorem kept_3 (c : Dev nD) : (dat (F := Ideal) V c).arrAt 3 cfg0.N = V c main_v1 :=
  ((dat (F := Ideal) V c).arrAt_in 3 rfl _).trans (A_eq V c 3)

end Cert.KernelIdeal.QkvProjValue

end
-- ==== Proof.AttnSpec.lean ====
/-
  The specification of causal multi-head attention with a GLOBAL-maximum softmax, as one function of the
  five argument arrays on the extended reals (the ideal float instance: every operation exact). Shapes: a batch of 4
  sequences of 2048 positions of width 1024; 16 heads of width 64; four 1024 x 1024 weight matrices applied as
  y = x · Wᵀ. Written in the arrangement of the plain jnp reference:

    proj W (b, h, n, d)      = Σ_i x(b, n, i) · W(64 h + d, i)                    (queries, keys and values)
    score (b, h, n, m)       = (Σ_d q(b, h, n, d) · k(b, h, m, d)) / sqrt 64
    masked (b, h, n, m)      = score (b, h, n, m) if m ≤ n, else -inf              (the causal mask)
    gmax                     = the maximum of masked over ALL (b, h, n, m)         (one number for the whole array)
    weight (b, h, n, m)      = exp (masked (b, h, n, m) - gmax)
    denom (b, h, n)          = Σ_m weight (b, h, n, m)
    attn (b, h, n, m)        = weight (b, h, n, m) / denom (b, h, n)
    ctx (b, h, n, d)         = Σ_m attn (b, h, n, m) · v(b, h, m, d)
    out (b, s, j)            = Σ_c ctx (b, c / 64, s, c % 64) · Wo(j, c)

  No program is mentioned: the module imports the ideal instance and the index constructors only. The divisor
  sqrt 64 is spelt with the f32 pattern of 64 so that a program's own spelling of it meets this one unevaluated.
-/
import Idealize.ShloMosaic.PureOps.Ideal
import Idealize.ShloMosaic.Lib.ValueIdx

noncomputable section

namespace Cert.AttnSpec

open Idealize.ShloMosaic Idealize.ShloMosaic.ValueIdx
open scoped BigOperators

/-- The shape of the activations and of the result: 4 x 2048 x 1024. -/
abbrev XS : Shape := ⟨3, ![4, 2048, 1024]⟩
/-- The shape of each weight matrix: 1024 x 1024, rows the outputs and columns the inputs. -/
abbrev WS : Shape := ⟨2, ![1024, 1024]⟩

/-- Column 64 h + d of a projection: coordinate d of head h. -/
abbrev headCol (h : Fin 16) (d : Fin 64) : Fin 1024 := ⟨h.val * 64 + d.val, by omega⟩
/-- The head a column of width 1024 belongs to. -/
abbrev colHead (c : Fin 1024) : Fin 16 := ⟨c.val / 64, by omega⟩
/-- A column's coordinate inside its head. -/
abbrev colLane (c : Fin 1024) : Fin 64 := ⟨c.val % 64, by omega⟩

variable (x : XS.Idx → EReal) (wq wk wv wo : WS.Idx → EReal)

/-- A linear projection split into heads: x · Wᵀ at batch b, position n, column 64 h + d. -/
def proj (w : WS.Idx → EReal) (b : Fin 4) (h : Fin 16) (n : Fin 2048) (d : Fin 64) : EReal :=
  ∑ i : Fin 1024, x (ix3 b n i) * w (ix2 (headCol h d) i)

/-- The scaled score of query position n against key position m, in head h of batch b. -/
def score (b : Fin 4) (h : Fin 16) (n m : Fin 2048) : EReal :=
  Ideal.div (∑ d : Fin 64, proj x wq b h n d * proj x wk b h m d) (Ideal.sqrt (Ideal.ofBits .f32 0x42800000#32))

/-- The causal mask: a key after the query scores minus infinity. -/
def masked (b : Fin 4) (h : Fin 16) (n m : Fin 2048) : EReal :=
  if m.val ≤ n.val then score x wq wk b h n m else ⊥

/-- The maximum of the masked scores over the whole array: every batch, head, query and key. -/
def gmax : EReal :=
  ⨆ (b : Fin 4) (h : Fin 16) (n : Fin 2048) (m : Fin 2048), masked x wq wk b h n m

/-- The softmax weight before normalisation. -/
def weight (b : Fin 4) (h : Fin 16) (n m : Fin 2048) : EReal :=
  Ideal.exp (masked x wq wk b h n m - gmax x wq wk)

/-- The softmax denominator of query position n: the sum of its weights over the keys. -/
def denom (b : Fin 4) (h : Fin 16) (n : Fin 2048) : EReal :=
  ∑ m : Fin 2048, weight x wq wk b h n m

/-- The attention probability. -/
def attn (b : Fin 4) (h : Fin 16) (n m : Fin 2048) : EReal :=
  Ideal.div (weight x wq wk b h n m) (denom x wq wk b h n)

/-- The context vector: the probabilities applied to the values. -/
def ctx (b : Fin 4) (h : Fin 16) (n : Fin 2048) (d : Fin 64) : EReal :=
  ∑ m : Fin 2048, attn x wq wk b h n m * proj x wv b h m d

/-- The result at batch b, position s, output column j: the heads' contexts side by side, times Woᵀ. -/
def outAt (b : Fin 4) (s : Fin 2048) (j : Fin 1024) : EReal :=
  ∑ c : Fin 1024, ctx x wq wk wv b (colHead c) s (colLane c) * wo (ix2 j c)

/-- THE SPECIFICATION: the result array as a function of the five argument arrays. -/
def out : XS.Idx → EReal := fun i => outAt x wq wk wv wo (i 0) (i 1) (i 2)

/-- The specification read at an index given by its coordinates. -/
theorem out_ix3 (b : Fin 4) (s : Fin 2048) (j : Fin 1024) :
    out x wq wk wv wo (ix3 b s j) = outAt x wq wk wv wo b s j := rfl

end Cert.AttnSpec

end
-- ==== Proof.BridgeHeads.lean ====
/-
  From the launch to the entry of the global-maximum call, at the ideal values.

  The first host stretch flattens x and narrows two weights (the identity at the ideal values); the
  projection call leaves, at row r and column o, the sum over k of x2[r, k] times the weight's [o, k];
  the second stretch splits the flattened rows into heads.  So the three [64, 2048, 64] arrays the
  later calls read hold, at head 16 b + h, position n and lane d, the specification's projections of
  x by the query, key and value weights.
-/
import proofs.«157401_j56521769615696_2_alg».proof.Proof.RunIdeal
import proofs.«157401_j56521769615696_2_alg».proof.Proof.HeadLayout
import proofs.«157401_j56521769615696_2_alg».proof.Proof.QkvProjValue
import proofs.«157401_j56521769615696_2_alg».proof.Proof.AttnSpec
import Idealize.ShloMosaic.Lib.StableHlo.Run

set_option maxRecDepth 16384

noncomputable section

namespace Cert.KernelIdeal.Bridge

open Cert.KernelIdeal Cert.KernelIdeal.Gen Cert.KernelIdeal.Run
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg) (c : Dev nD)

/-- The five arguments as launched. -/
abbrev aX : S4x2048x1024.Idx → EReal := m ((c : Thread nD τ).loc main_arg0)
abbrev aWq : S1024x1024.Idx → EReal := m ((c : Thread nD τ).loc main_arg1)
abbrev aWk : S1024x1024.Idx → EReal := m ((c : Thread nD τ).loc main_arg2)
abbrev aWv : S1024x1024.Idx → EReal := m ((c : Thread nD τ).loc main_arg3)
abbrev aWo : S1024x1024.Idx → EReal := m ((c : Thread nD τ).loc main_arg4)

/-! ## After the first stretch -/

theorem W1_v0 : (W1 m ρ c (Proc.devRef .tc main_v0) : S8192x1024.Idx → EReal)
    = shapeCast S8192x1024 (aX m c) shapeCasts_S4x2048x1024_S8192x1024 := by
  show StableHlo.after hostOps0 (W0 m ρ c) (Proc.devRef .tc main_v0) = _
  after_results
  rfl

theorem W1_v1 : (W1 m ρ c (Proc.devRef .tc main_v1) : S1024x1024.Idx → EReal) = aWv m c := by
  show StableHlo.after hostOps0 (W0 m ρ c) (Proc.devRef .tc main_v1) = _
  after_results
  rfl

theorem W1_v2 : (W1 m ρ c (Proc.devRef .tc main_v2) : S1024x1024.Idx → EReal) = aWo m c := by
  show StableHlo.after hostOps0 (W0 m ρ c) (Proc.devRef .tc main_v2) = _
  after_results
  rfl

theorem W1_arg1 : (W1 m ρ c (Proc.devRef .tc main_arg1) : S1024x1024.Idx → EReal) = aWq m c :=
  (StableHlo.after_of_writes_sub hostOps0 _ hostOps0_writes (show main_arg1 ∉ hostOps0_W by decide)).trans rfl
theorem W1_arg2 : (W1 m ρ c (Proc.devRef .tc main_arg2) : S1024x1024.Idx → EReal) = aWk m c :=
  (StableHlo.after_of_writes_sub hostOps0 _ hostOps0_writes (show main_arg2 ∉ hostOps0_W by decide)).trans rfl

/-! ## After the projection call -/

/-- A projection's flattened result at row 2048 b + n, column 64 h + d is the specification's. -/
theorem prod_heads (W : S1024x1024.Idx → EReal) (bh : Fin 64) (n : Fin 2048) (d : Fin 64) :
    QkvProjValue.prod (W1 m ρ c (Proc.devRef .tc main_v0)) W
        (ix2 ⟨2048 * (bh.val / 16) + n.val, by omega⟩ ⟨64 * (bh.val % 16) + d.val, by omega⟩)
      = AttnSpec.proj (aX m c) W ⟨bh.val / 16, by omega⟩ ⟨bh.val % 16, Nat.mod_lt _ (by decide)⟩ n d := by
  rw [QkvProjValue.prod_ix2]
  unfold QkvProjValue.prodAt AttnSpec.proj
  refine Finset.sum_congr rfl fun k _ => ?_
  rw [W1_v0, HeadLayout.flat_apply]
  congr 1
  · refine congrArg (aX m c) (funext fun a => Fin.ext ?_)
    match a with
    | ⟨0, _⟩ => show (2048 * (bh.val / 16) + n.val) / 2048 = bh.val / 16; omega
    | ⟨1, _⟩ => show (2048 * (bh.val / 16) + n.val) % 2048 = n.val; omega
    | ⟨2, _⟩ => rfl
  · refine congrArg W (funext fun a => Fin.ext ?_)
    match a with
    | ⟨0, _⟩ => show 64 * (bh.val % 16) + d.val = bh.val % 16 * 64 + d.val; omega
    | ⟨1, _⟩ => rfl

theorem W2_q : (W2 m ρ c (Proc.devRef .tc main_v3_0) : S8192x1024.Idx → EReal)
    = QkvProjValue.prod (W1 m ρ c (Proc.devRef .tc main_v0)) (aWq m c) :=
  (W2_arr m ρ c 4).trans ((QkvProjValue.final_q (V1 m ρ) c).trans (by
    show QkvProjValue.prod (W1 m ρ c (Proc.devRef .tc main_v0)) (W1 m ρ c (Proc.devRef .tc main_arg1)) = _
    rw [W1_arg1]))
theorem W2_k : (W2 m ρ c (Proc.devRef .tc main_v3_1) : S8192x1024.Idx → EReal)
    = QkvProjValue.prod (W1 m ρ c (Proc.devRef .tc main_v0)) (aWk m c) :=
  (W2_arr m ρ c 5).trans ((QkvProjValue.final_k (V1 m ρ) c).trans (by
    show QkvProjValue.prod (W1 m ρ c (Proc.devRef .tc main_v0)) (W1 m ρ c (Proc.devRef .tc main_arg2)) = _
    rw [W1_arg2]))
theorem W2_v : (W2 m ρ c (Proc.devRef .tc main_v3_2) : S8192x1024.Idx → EReal)
    = QkvProjValue.prod (W1 m ρ c (Proc.devRef .tc main_v0)) (aWv m c) :=
  (W2_arr m ρ c 6).trans ((QkvProjValue.final_v (V1 m ρ) c).trans (by
    show QkvProjValue.prod (W1 m ρ c (Proc.devRef .tc main_v0)) (W1 m ρ c (Proc.devRef .tc main_v1)) = _
    rw [W1_v1]))

/-! ## After the second stretch: the three head arrays -/

theorem W3_v6 : (W3 m ρ c (Proc.devRef .tc main_v6) : S64x2048x64.Idx → EReal)
    = shapeCast S64x2048x64 (transpose S4x16x2048x64 [0, 2, 1, 3]
        (shapeCast S4x2048x16x64 (W2 m ρ c (Proc.devRef .tc main_v3_0) : S8192x1024.Idx → EReal) shapeCasts_S8192x1024_S4x2048x16x64)
        transposes_S4x2048x16x64_S4x16x2048x64_0_2_1_3) shapeCasts_S4x16x2048x64_S64x2048x64 := by
  show StableHlo.after hostOps1 (W2 m ρ c) (Proc.devRef .tc main_v6) = _
  after_results
  rfl
theorem W3_v9 : (W3 m ρ c (Proc.devRef .tc main_v9) : S64x2048x64.Idx → EReal)
    = shapeCast S64x2048x64 (transpose S4x16x2048x64 [0, 2, 1, 3]
        (shapeCast S4x2048x16x64 (W2 m ρ c (Proc.devRef .tc main_v3_1) : S8192x1024.Idx → EReal) shapeCasts_S8192x1024_S4x2048x16x64)
        transposes_S4x2048x16x64_S4x16x2048x64_0_2_1_3) shapeCasts_S4x16x2048x64_S64x2048x64 := by
  show StableHlo.after hostOps1 (W2 m ρ c) (Proc.devRef .tc main_v9) = _
  after_results
  rfl
theorem W3_v12 : (W3 m ρ c (Proc.devRef .tc main_v12) : S64x2048x64.Idx → EReal)
    = shapeCast S64x2048x64 (transpose S4x16x2048x64 [0, 2, 1, 3]
        (shapeCast S4x2048x16x64 (W2 m ρ c (Proc.devRef .tc main_v3_2) : S8192x1024.Idx → EReal) shapeCasts_S8192x1024_S4x2048x16x64)
        transposes_S4x2048x16x64_S4x16x2048x64_0_2_1_3) shapeCasts_S4x16x2048x64_S64x2048x64 := by
  show StableHlo.after hostOps1 (W2 m ρ c) (Proc.devRef .tc main_v12) = _
  after_results
  rfl

/-- The query heads: head 16 b + h at (n, d) is the projection of x by the query weight. -/
theorem q_heads (bh : Fin 64) (n : Fin 2048) (d : Fin 64) :
    (W3 m ρ c (Proc.devRef .tc main_v6) : S64x2048x64.Idx → EReal) (ix3 bh n d)
      = AttnSpec.proj (aX m c) (aWq m c) ⟨bh.val / 16, by omega⟩ ⟨bh.val % 16, Nat.mod_lt _ (by decide)⟩ n d := by
  rw [W3_v6, HeadLayout.heads_apply, W2_q]; exact prod_heads m ρ c _ bh n d
theorem k_heads (bh : Fin 64) (n : Fin 2048) (d : Fin 64) :
    (W3 m ρ c (Proc.devRef .tc main_v9) : S64x2048x64.Idx → EReal) (ix3 bh n d)
      = AttnSpec.proj (aX m c) (aWk m c) ⟨bh.val / 16, by omega⟩ ⟨bh.val % 16, Nat.mod_lt _ (by decide)⟩ n d := by
  rw [W3_v9, HeadLayout.heads_apply, W2_k]; exact prod_heads m ρ c _ bh n d
theorem v_heads (bh : Fin 64) (n : Fin 2048) (d : Fin 64) :
    (W3 m ρ c (Proc.devRef .tc main_v12) : S64x2048x64.Idx → EReal) (ix3 bh n d)
      = AttnSpec.proj (aX m c) (aWv m c) ⟨bh.val / 16, by omega⟩ ⟨bh.val % 16, Nat.mod_lt _ (by decide)⟩ n d := by
  rw [W3_v12, HeadLayout.heads_apply, W2_v]; exact prod_heads m ρ c _ bh n d

end Cert.KernelIdeal.Bridge

end
-- ==== Proof.GlobalMaxPieces.lean ====
/-
  The global-maximum pass's two stores, read back as values. At a raising point the body's one covering store holds
  the payload of the three loaded buffers (the query tile, the key tile, the block's running contents); at the first
  point of a block's run the body first fills the block with the least value, reads that back, and stores the payload
  of the two tiles and the filled block. Both are the found pieces of the runs, opened once here.
-/
import proofs.«157401_j56521769615696_2_alg».proof.Proof.GlobalMaxIdeal
import Idealize.ShloMosaic.Lib.Pipeline.Value
import Idealize.ShloMosaic.Lib.Tactic

set_option maxRecDepth 16384

noncomputable section

namespace Cert.KernelIdeal.GlobalMaxPieces

open Cert.KernelIdeal Cert.KernelIdeal.Gen Cert.KernelIdeal.GlobalMax
open Idealize.ShloMosaic Idealize.ShloMosaic.TcCoe Idealize.ShloMosaic.Tactic Idealize.SL.Sem

variable {F : FTy → Type} [FloatOps F] [Named F]

theorem hz : (![0, 0] : Fin 2 → Nat) = fun _ => 0 := funext fun a => by fin_cases a <;> rfl
theorem hz3 : (![0, 0, 0] : Fin 3 → Nat) = fun _ => 0 := funext fun a => by fin_cases a <;> rfl

/-- A raising point leaves in the block's buffer the payload of the two tiles and of what the buffer held. -/
theorem outRaise_eq (c : Dev nD) (i : grid1.Coords) (a3 : Memref sig .tc .vmem S1x512x64 .f32) (h3 : a3.IsWhole)
    (a4 : Memref sig .tc .vmem S1x512x64 .f32) (h4 : a4.IsWhole) (a5 : Memref sig .tc .vmem S8x128 .f32) (h5 : a5.IsWhole)
    (hc1 : ¬condReset i) (hc2 : condCausal i) (x0 x1 : Vec F S1x512x64 .f32) (xo : Vec F S8x128 .f32) :
    outRaise (F := F) c i a3 h3 a4 h4 a5 h5 hc1 hc2 x0 x1 xo = k1_pay2 i x0 x1 xo := by
  unfold outRaise
  rw [View.read_writes_eq_canon _ _ _ (cover_raise c i a3 h3 a4 h4 a5 h5 hc1 hc2 x0 x1 xo)]
  unfold runRaise
  dsimp only
  rw [View.canon_unit_zero hz]
  simp only [View.readAt_eq_ld, h3.read_unread, h4.read_unread, h5.read_unread,
    View.ld_unit_zero (S := S1x512x64) hz3, View.ld_unit_zero (S := S8x128) hz]

/-- The first point of a block's run leaves the payload of the two tiles and of the block filled with the least
    value. -/
theorem outReset_eq (c : Dev nD) (i : grid1.Coords) (a3 : Memref sig .tc .vmem S1x512x64 .f32) (h3 : a3.IsWhole)
    (a4 : Memref sig .tc .vmem S1x512x64 .f32) (h4 : a4.IsWhole) (a5 : Memref sig .tc .vmem S8x128 .f32) (h5 : a5.IsWhole)
    (hc1 : condReset i) (hc2 : condCausal i) (x0 x1 : Vec F S1x512x64 .f32) :
    outReset (F := F) c i a3 h3 a4 h4 a5 h5 hc1 hc2 x0 x1 = k1_pay2 i x0 x1 (k1_pay1 (F := F)) := by
  unfold outReset
  rw [View.read_writes_eq_canon _ _ _ (cover_reset c i a3 h3 a4 h4 a5 h5 hc1 hc2 x0 x1)]
  unfold runReset
  dsimp only
  sl_unfold_words
  rw [View.canon_cons_unit_zero (S := S8x128) hz, View.readCov_unit_zero (S := S8x128) _ hz]
  simp only [View.readAt_eq_ld, h3.read_unread, h4.read_unread,
    View.ld_unit_zero (S := S1x512x64) hz3, View.ld_unit_zero (S := S8x128) hz]

end Cert.KernelIdeal.GlobalMaxPieces

end
-- ==== Proof.MaskedTile.lean ====
/-
  The masked, scaled score tile that two of the program's kernels compute from a [1, 512, 64] query tile and a
  [1, 512, 64] key tile: the 512 x 512 products of query rows with key rows over the head's width, times the exact
  dyadic one eighth, kept where the key position 512 a2 + q is at or before the query position 512 a1 + p and
  replaced by the named constant "neg_big" (minus infinity at the ideal values) elsewhere. Stated as the printed
  sub-term, so that each kernel's payload contains it syntactically, and read at an index at the ideal values.
-/
import proofs.«157401_j56521769615696_2_alg».proof.Proof.Gen.KernelIdeal.Skeleton
import Idealize.ShloMosaic.Lib.Pipeline.Value
import Idealize.ShloMosaic.Lib.ValueIdx
import Idealize.ShloMosaic.Lib.Affine
import Idealize.ShloMosaic.PureOps.Ideal.Laws

set_option maxRecDepth 16384

noncomputable section

namespace Cert.KernelIdeal.MaskedTile

open Cert.KernelIdeal Cert.KernelIdeal.Gen
open Idealize.ShloMosaic Idealize.ShloMosaic.ValueIdx
open scoped BigOperators

/-- The masked, scaled score tile, as the kernels print it: a1 and a2 are the query and key tile numbers as words. -/
def maskedTile {F : FTy → Type} [FloatOps F] [Named F] (a1 a2 : BitVec 32) (xq xk : Vec F S1x512x64 .f32) :
    FVec F S512x512 .f32 :=
  select
    (cmpi .sge (addi (broadcast S512x512 (Scalar.muli a1 512#32)) (iota .tc S512x512 32 [0] iota_S512x512_d0_w32))
      (addi (broadcast S512x512 (Scalar.muli a2 512#32)) (iota .tc S512x512 32 [1] iota_S512x512_d1_w32)))
    (mulf (matmul dot_S512x64_S512x64_S512x512_1_1_0_0_n_n (some .fp32) (shapeCast S512x64 xq shapeCasts_S1x512x64_S512x64)
        (shapeCast S512x64 xk shapeCasts_S1x512x64_S512x64) (constant S512x512 .f32 0x00000000#32))
      (broadcast S512x512 (Scalar.ofBits .f32 0x3E000000#32)))
    (broadcast S512x512 (Named.named κ "neg_big" 0xFF333332#32))

/-! ## The pieces, read at an index -/

/-- A number below 2^31, as a 32-bit word read signed, is the number. -/
theorem toInt_ofNat_lt (n : ℕ) (hn : n < 2147483648) : (BitVec.ofNat 32 n).toInt = (n : ℤ) := by
  have h1 : (BitVec.ofNat 32 n).toNat = n := by rw [BitVec.toNat_ofNat]; omega
  rw [BitVec.toInt_eq_toNat_of_lt (by rw [h1]; omega), h1]

/-- The causal comparison on words: tile number times 512 plus the offset, compared signed, is the comparison of the
    positions. -/
theorem tile_cmp (i j p q : ℕ) (hi : i < 4) (hj : j < 4) (hp : p < 512) (hq : q < 512) :
    IntOp.cmpi .sge (IntOp.addi (Scalar.muli (BitVec.ofNat 32 i) 512#32) (BitVec.ofNat 32 p))
        (IntOp.addi (Scalar.muli (BitVec.ofNat 32 j) 512#32) (BitVec.ofNat 32 q)) = 1#1
      ↔ 512 * j + q ≤ 512 * i + p := by
  show IntOp.cmpi .sge (BitVec.ofNat 32 i * BitVec.ofNat 32 512 + BitVec.ofNat 32 p)
      (BitVec.ofNat 32 j * BitVec.ofNat 32 512 + BitVec.ofNat 32 q) = 1#1 ↔ _
  rw [← BitVec.ofNat_mul, ← BitVec.ofNat_add, ← BitVec.ofNat_mul, ← BitVec.ofNat_add, IntOp.cmpi_sge,
    toInt_ofNat_lt _ (by omega), toInt_ofNat_lt _ (by omega)]
  omega

theorem lhs_0 (i : S512x512.Idx) (q : dot_S512x64_S512x64_S512x512_1_1_0_0_n_n.contr.Idx) : (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem lhs_1 (i : S512x512.Idx) (q : dot_S512x64_S512x64_S512x512_1_1_0_0_n_n.contr.Idx) : (dot_S512x64_S512x64_S512x512_1_1_0_0_n_n.lhsIdx i q 1).val = (q ⟨0, by decide⟩).val :=
  dot_S512x64_S512x64_S512x512_1_1_0_0_n_n.lhsIdx_val_of_single rfl i q
theorem rhs_0 (i : S512x512.Idx) (q : dot_S512x64_S512x64_S512x512_1_1_0_0_n_n.contr.Idx) : (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem rhs_1 (i : S512x512.Idx) (q : dot_S512x64_S512x64_S512x512_1_1_0_0_n_n.contr.Idx) : (dot_S512x64_S512x64_S512x512_1_1_0_0_n_n.rhsIdx i q 1).val = (q ⟨0, by decide⟩).val :=
  dot_S512x64_S512x64_S512x512_1_1_0_0_n_n.rhsIdx_val_of_single rfl i q

/-- The tile product into zero, at (p, q): query row p against key row q, summed over the head's width. -/
theorem matmul_zero_apply {φ₁ φ₂ : FTy} (prec : Option ContractPrecision) (lhs : FVec Ideal S512x64 φ₁)
    (rhs : FVec Ideal S512x64 φ₂) (p q : Fin 512) :
    FloatOps.matmul dot_S512x64_S512x64_S512x512_1_1_0_0_n_n prec lhs rhs (constant S512x512 .f32 0x00000000#32) (ix2 p q)
      = ∑ d : Fin 64, lhs (ix2 p d) * rhs (ix2 q d) := by
  rw [Ideal.matmul_constant_zero_apply, ← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx (ix2 p q) ((contrEquiv1 dot_S512x64_S512x64_S512x512_1_1_0_0_n_n 64 rfl rfl).symm k) = ix2 p k := funext fun a => Fin.ext (by
    match a with
    | ⟨0, _⟩ => exact lhs_0 _ _
    | ⟨1, _⟩ => exact (lhs_1 _ _).trans hk)
  have er : dot_S512x64_S512x64_S512x512_1_1_0_0_n_n.rhsIdx (ix2 p q) ((contrEquiv1 dot_S512x64_S512x64_S512x512_1_1_0_0_n_n 64 rfl rfl).symm k) = ix2 q k := funext fun a => Fin.ext (by
    match a with
    | ⟨0, _⟩ => exact rhs_0 _ _
    | ⟨1, _⟩ => exact (rhs_1 _ _).trans hk)
  rw [el, er]

/-- A [1, 512, 64] tile viewed as [512, 64] reads (0, p, d) at (p, d). -/
theorem dropUnit_apply {α : Type} (x : S1x512x64.Idx → α) (p : Fin 512) (d : Fin 64) :
    shapeCast S512x64 x shapeCasts_S1x512x64_S512x64 (ix2 p d) = x (ix3 0 p d) :=
  shapeCast_apply x shapeCasts_S1x512x64_S512x64 (ix2 p d) (ix3 0 p d) (by
    rw [Shape.rowMajor_val_three, Shape.rowMajor_val_two]
    show ((0 : ℕ) * 512 + p.val) * 64 + d.val = p.val * 64 + d.val
    omega)

/-- The named mask constant is minus infinity at the ideal values, by the table of named constants. -/
theorem neg_big : Named.named (F := Ideal) κ "neg_big" (φ := .f32) 0xFF333332#32 = ⊥ :=
  IdealRules.named_const.ideal_named_scalar _ _ _ _ rfl

/-- THE TILE AT (p, q), at the ideal values: the scaled product where the key position 512 j + q is at or before the
    query position 512 i + p, minus infinity elsewhere. -/
theorem maskedTile_apply (i j : Fin 4) (xq xk : Vec Ideal S1x512x64 .f32) (p q : Fin 512) :
    maskedTile (F := Ideal) (BitVec.ofNat 32 i.val) (BitVec.ofNat 32 j.val) xq xk (ix2 p q)
      = if 512 * j.val + q.val ≤ 512 * i.val + p.val then
          (∑ d : Fin 64, xq (ix3 0 p d) * xk (ix3 0 q d)) * Ideal.ofBits .f32 0x3E000000#32
        else ⊥ := by
  unfold maskedTile
  simp only [select, cmpi, addi, mulf, broadcast, matmul]
  rw [iota_single_apply, iota_single_apply, matmul_zero_apply, neg_big]
  simp only [dropUnit_apply, Ideal.mulf_def, Ideal.ofBits_def]
  unfold Scalar.select
  have hc := tile_cmp i.val j.val p.val q.val i.isLt j.isLt p.isLt q.isLt
  by_cases h : 512 * j.val + q.val ≤ 512 * i.val + p.val
  · rw [if_pos h]; exact if_pos (hc.mpr h)
  · rw [if_neg h]; exact if_neg (fun hh => h (hc.mp hh))

end Cert.KernelIdeal.MaskedTile

end
-- ==== Proof.LibAttnNormalize.lean ====
/-
  General facts about the extended reals (the real line with both infinities: the values of the ideal float instance) that
  relate two arrangements of a softmax attention: scaling a score by an exact reciprocal instead of dividing by a
  square root; normalising after the product with the values instead of before it; summing only the terms that are not
  zero; and taking a maximum from minus infinity over any grouping of a finite family. Nothing here mentions a program:
  every lemma is stated over abstract finite index types.

  Contents
  * the coercion of the reals into the extended reals commutes with finite sums (coe_finset_sum), and a finite sum of
    products of reals is a real (sum_coe_mul_coe);
  * three f32 patterns as extended reals: 64, one eighth and minus infinity; the square root of 64 is 8; the product
    with one eighth is the quotient by the square root of 64 on EVERY extended real (mul_eighth_eq_div_sqrt_64);
  * for real terms and a real divisor that is not zero, dividing a sum of products equals the sum of the products of
    the quotients (div_sum_mul_eq_sum_div_mul), also stated for extended-real terms known to be finite;
  * a sum whose terms vanish off a set is the sum over the set (sum_eq_sum_filter_of_zero_off), a sum over
    Fin (a * b) is the sum over a blocks of b terms (sum_fin_mul), and a term whose weight is exp (-inf) vanishes;
  * a fold of max from minus infinity is the supremum (fold_max_bot_eq_sup, fold_max_bot_univ_eq_iSup); a supremum of
    terms masked to minus infinity off a set is the supremum over the set (iSup_ite_bot); suprema regroup along a
    product, an equivalence, a map's fibres, and blocks of Fin (a * b);
  * finiteness: a supremum over a finite family of extended reals none of which is plus infinity and one of which is
    not minus infinity is a real (iSup_real_of_finite); exp of a difference of reals is a positive real; exp of minus
    infinity less a real is zero; a sum of reals that are not negative, one of them positive, is positive.
-/
import Idealize.ShloMosaic.PureOps.Ideal

noncomputable section

namespace AttnNormalize

open Idealize.ShloMosaic
open scoped BigOperators

/-! ## The coercion ℝ → EReal and finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, formed in the extended reals, is the real sum of the real products. -/
theorem sum_coe_mul_coe {ι : Type*} (s : Finset ι) (a b : ι → ℝ) :
    ∑ i ∈ s, (a i : EReal) * (b i : EReal) = ((∑ i ∈ s, a i * b i : ℝ) : EReal) := by
  rw [coe_finset_sum]; exact Finset.sum_congr rfl fun i _ => (EReal.coe_mul _ _).symm

/-- An extended real that is neither infinity is the coercion of a real. -/
theorem exists_real_of_finite {z : EReal} (hb : z ≠ ⊥) (ht : z ≠ ⊤) : ∃ r : ℝ, z = (r : EReal) :=
  ⟨z.toReal, (EReal.coe_toReal ht hb).symm⟩

/-! ## Three f32 patterns, and scaling by one eighth against dividing by the square root of 64 -/

/-- The f32 pattern 0x42800000 denotes the real 64. -/
theorem ofBits_f32_64 : Ideal.ofBits .f32 0x42800000#32 = ((64 : ℝ) : EReal) := by
  simp [Ideal.ofBits, Ideal.ieee, -EReal.coe_mul]; norm_num

/-- The f32 pattern 0x3E000000 denotes the real one eighth (an exact dyadic). -/
theorem ofBits_f32_eighth : Ideal.ofBits .f32 0x3E000000#32 = ((1 / 8 : ℝ) : EReal) := by
  simp [Ideal.ofBits, Ideal.ieee, -EReal.coe_mul]; norm_num

/-- The f32 pattern 0xFF800000 denotes minus infinity, the bottom of the extended reals. -/
theorem ofBits_f32_neg_inf : Ideal.ofBits .f32 0xFF800000#32 = ⊥ := by
  simp [Ideal.ofBits, Ideal.ieee]

/-- The square root of 64 is 8, on the extended reals. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]; exact Real.sqrt_sq (by norm_num)
  rw [h]

/-- Multiplying by one eighth is dividing by the square root of 64, on every extended real (the infinities included:
    both sides are the product with the real 1/8). -/
theorem mul_eighth_eq_div_sqrt_64 (z : EReal) :
    z * Ideal.ofBits .f32 0x3E000000#32 = Ideal.div z (Ideal.sqrt (Ideal.ofBits .f32 0x42800000#32)) := by
  rw [ofBits_f32_64, sqrt_64, ofBits_f32_eighth, Ideal.div_coe (by norm_num : (8 : ℝ) ≠ 0)]

/-! ## Normalising after the product with the values -/

/-- For real weights e, real values v and a real divisor L that is not zero, dividing the sum of the products by L
    is summing the products of the quotients: (Σ e·v) / L = Σ (e / L)·v. Both sides are real, so the identity is the
    distributive law of the reals. -/
theorem div_sum_mul_eq_sum_div_mul {ι : Type*} (s : Finset ι) (e v : ι → ℝ) {L : ℝ} (hL : L ≠ 0) :
    Ideal.div (∑ m ∈ s, (e m : EReal) * (v m : EReal)) (L : EReal)
      = ∑ m ∈ s, Ideal.div (e m : EReal) (L : EReal) * (v m : EReal) := by
  simp only [Ideal.div_coe hL, ← EReal.coe_mul, ← coe_finset_sum]
  rw [Finset.sum_mul]
  exact congrArg _ (Finset.sum_congr rfl fun m _ => by ring)

/-- The same law for extended-real weights, values and divisor that are known to be finite (neither infinity), the
    divisor not zero. -/
theorem div_sum_mul_eq_sum_div_mul_of_finite {ι : Type*} (s : Finset ι) (e v : ι → EReal) (L : EReal)
    (he : ∀ m ∈ s, e m ≠ ⊥ ∧ e m ≠ ⊤) (hv : ∀ m ∈ s, v m ≠ ⊥ ∧ v m ≠ ⊤) (hLb : L ≠ ⊥) (hLt : L ≠ ⊤) (hL0 : L ≠ 0) :
    Ideal.div (∑ m ∈ s, e m * v m) L = ∑ m ∈ s, Ideal.div (e m) L * v m := by
  obtain ⟨l, rfl⟩ := exists_real_of_finite hLb hLt
  have hl : l ≠ 0 := fun h => hL0 (by rw [h]; rfl)
  have e1 : ∑ m ∈ s, e m * v m = ∑ m ∈ s, (((e m).toReal : ℝ) : EReal) * (((v m).toReal : ℝ) : EReal) :=
    Finset.sum_congr rfl fun m hm => by
      rw [EReal.coe_toReal (he m hm).2 (he m hm).1, EReal.coe_toReal (hv m hm).2 (hv m hm).1]
  have e2 : ∑ m ∈ s, Ideal.div (e m) (l : EReal) * v m
      = ∑ m ∈ s, Ideal.div (((e m).toReal : ℝ) : EReal) (l : EReal) * (((v m).toReal : ℝ) : EReal) :=
    Finset.sum_congr rfl fun m hm => by
      rw [EReal.coe_toReal (he m hm).2 (he m hm).1, EReal.coe_toReal (hv m hm).2 (hv m hm).1]
  rw [e1, e2]
  exact div_sum_mul_eq_sum_div_mul s _ _ hl

/-! ## Summing only the terms that are not zero -/

/-- A sum over a finite type whose terms vanish off a set is the sum over the set. -/
theorem sum_eq_sum_filter_of_zero_off {ι M : Type*} [AddCommMonoid M] [Fintype ι] (p : ι → Prop) [DecidablePred p]
    (f : ι → M) (h : ∀ i, ¬p i → f i = 0) : ∑ i, f i = ∑ i ∈ Finset.univ.filter p, f i :=
  (Finset.sum_filter_of_ne fun i _ hi => by_contra fun hp => hi (h i hp)).symm

/-- A sum over Fin (a * b) is the sum over a blocks of b consecutive terms. -/
theorem sum_fin_mul {M : Type*} [AddCommMonoid M] (a b : ℕ) (f : Fin (a * b) → M) :
    ∑ m, f m = ∑ j : Fin a, ∑ t : Fin b, f (finProdFinEquiv (j, t)) := by
  rw [← Equiv.sum_comp finProdFinEquiv f, Fintype.sum_prod_type]

/-- The block decomposition's element: block j, offset t is the index t + b * j. -/
theorem finProdFinEquiv_val (a b : ℕ) (j : Fin a) (t : Fin b) :
    (finProdFinEquiv (j, t) : Fin (a * b)).val = t.val + b * j.val := rfl

/-- A weight exp (-inf) is zero, so its term vanishes whatever the value is (0 · v = 0 on the extended reals, at the
    infinities too). -/
theorem exp_bot_mul (v : EReal) : Ideal.exp ⊥ * v = 0 := by rw [Ideal.exp_bot, zero_mul]

/-- The quotient of the weight exp (-inf) by a divisor that is not zero is zero, and so is its product with any
    value. -/
theorem div_exp_bot_mul {L : EReal} (hL : L ≠ 0) (v : EReal) : Ideal.div (Ideal.exp ⊥) L * v = 0 := by
  rw [Ideal.exp_bot, Ideal.div, if_neg hL, zero_mul, zero_mul]

/-! ## A maximum from minus infinity, over any grouping -/

/-- A fold of max from minus infinity over a finite set is the supremum of the family over the set. -/
theorem fold_max_bot_eq_sup {ι : Type*} (s : Finset ι) (f : ι → EReal) : s.fold max ⊥ f = s.sup f := rfl

/-- A fold of max from minus infinity over a whole finite type is the supremum of the family. -/
theorem fold_max_bot_univ_eq_iSup {ι : Type*} [Fintype ι] (f : ι → EReal) :
    Finset.univ.fold max ⊥ f = ⨆ i, f i := by
  rw [fold_max_bot_eq_sup, Finset.sup_univ_eq_iSup]

/-- The supremum of a family masked to minus infinity off a set is the supremum over the set. -/
theorem iSup_ite_bot {ι : Type*} (p : ι → Prop) [DecidablePred p] (f : ι → EReal) :
    (⨆ i, if p i then f i else ⊥) = ⨆ i, ⨆ (_ : p i), f i := by
  refine iSup_congr fun i => ?_
  by_cases h : p i
  · rw [if_pos h, iSup_pos h]
  · rw [if_neg h, iSup_neg h]

/-- A supremum over pairs is the iterated supremum. -/
theorem iSup_pair {ι κ : Type*} (f : ι × κ → EReal) : (⨆ x, f x) = ⨆ i, ⨆ j, f (i, j) := iSup_prod

/-- A supremum is unchanged by re-indexing along an equivalence. -/
theorem iSup_equiv {ι κ : Type*} (e : ι ≃ κ) (f : κ → EReal) : (⨆ i, f (e i)) = ⨆ k, f k :=
  e.iSup_comp (g := f)

/-- A supremum regroups along the fibres of any map: first over the fibre of each k, then over k. -/
theorem iSup_fiberwise {ι κ : Type*} (g : ι → κ) (f : ι → EReal) :
    (⨆ i, f i) = ⨆ k, ⨆ i, ⨆ (_ : g i = k), f i := by
  apply le_antisymm
  · exact iSup_le fun i => le_iSup_of_le (g i) (le_iSup_of_le i (le_iSup_of_le rfl le_rfl))
  · exact iSup_le fun k => iSup_le fun i => iSup_le fun _ => le_iSup f i

/-- A supremum over Fin (a * b) is the supremum over a blocks of b consecutive terms. -/
theorem iSup_fin_mul (a b : ℕ) (f : Fin (a * b) → EReal) :
    (⨆ m, f m) = ⨆ j : Fin a, ⨆ t : Fin b, f (finProdFinEquiv (j, t)) := by
  rw [← iSup_equiv finProdFinEquiv f, iSup_prod]

/-- The order of two suprema may be exchanged. -/
theorem iSup_swap {ι κ : Type*} (f : ι → κ → EReal) : (⨆ i, ⨆ k, f i k) = ⨆ k, ⨆ i, f i k := iSup_comm

/-! ## Finiteness -/

/-- Over a finite family of extended reals none of which is plus infinity and one of which is not minus infinity,
    the supremum is a real: it is attained, so it is not plus infinity, and it is at least the member that is not
    minus infinity. -/
theorem iSup_real_of_finite {ι : Type*} [Finite ι] (f : ι → EReal) (ht : ∀ i, f i ≠ ⊤) (i₀ : ι) (h₀ : f i₀ ≠ ⊥) :
    ∃ r : ℝ, (⨆ i, f i) = (r : EReal) := by
  haveI : Nonempty ι := ⟨i₀⟩
  obtain ⟨i, hi⟩ := exists_eq_ciSup_of_finite (f := f)
  refine exists_real_of_finite ?_ ?_
  · exact fun h => h₀ (le_bot_iff.mp (h ▸ le_iSup f i₀))
  · rw [← hi]; exact ht i

/-- exp of a difference of reals is the real exponential, a positive real. -/
theorem exp_coe_sub_coe (a b : ℝ) : Ideal.exp ((a : EReal) - (b : EReal)) = ((Real.exp (a - b) : ℝ) : EReal) := by
  rw [← EReal.coe_sub, Ideal.exp_coe]

/-- exp of minus infinity less a real is zero. -/
theorem exp_bot_sub_coe (b : ℝ) : Ideal.exp (⊥ - (b : EReal)) = 0 := by
  rw [EReal.bot_sub, Ideal.exp_bot]

/-- A finite sum of reals that are not negative, one of them positive, is positive. -/
theorem sum_pos_of_nonneg_of_pos {ι : Type*} (s : Finset ι) (f : ι → ℝ) (h : ∀ i ∈ s, 0 ≤ f i) {i₀ : ι} (hi : i₀ ∈ s)
    (h₀ : 0 < f i₀) : 0 < ∑ i ∈ s, f i :=
  Finset.sum_pos' h ⟨i₀, hi, h₀⟩

end AttnNormalize

end
-- ==== Proof.GlobalMaxTile.lean ====
/-
  The global-maximum pass's payload, read at an index at the ideal values. The payload raises row (head mod 8) of the
  running [8, 128] block to at least the largest entry of the masked, scaled 512 x 512 score tile, and leaves the other
  rows as they were: the tile's largest entry is taken by two reductions by maximum from minus infinity (over the
  keys, then over the queries), which at the ideal values are suprema; the row is selected by comparing a row iota with
  the head number reduced modulo 8 (a floor-modulus spelt with a signed remainder and a correction that never fires
  for a head number that is not negative).
-/
import proofs.«157401_j56521769615696_2_alg».proof.Proof.MaskedTile
import proofs.«157401_j56521769615696_2_alg».proof.Proof.LibAttnNormalize

set_option maxRecDepth 16384

noncomputable section

namespace Cert.KernelIdeal.GlobalMaxTile

open Cert.KernelIdeal Cert.KernelIdeal.Gen Cert.KernelIdeal.MaskedTile
open Idealize.ShloMosaic Idealize.ShloMosaic.ValueIdx
open scoped BigOperators

/-! ## The payload's parts, named -/

/-- The head number reduced modulo 8, as the kernel computes it on words. -/
def headRow (arg0 : BitVec 32) : BitVec 32 :=
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

/-- The largest entry of a 512 x 512 tile, as a [1, 1] vector: the maximum over the columns, then over the rows. -/
def tileTop {F : FTy → Type} [FloatOps F] (T : FVec F S512x512 .f32) : FVec F S1x1 .f32 :=
  shapeCast S1x1 (shapeCast S1x1 (multiReduction .maximumf [0] S1
      (shapeCast S512x1 (multiReduction .maximumf [1] S512 T 0xFF800000#32 reduces_S512x512_S512 (.inl rfl) rfl)
        shapeCasts_S512_S512x1)
      0xFF800000#32 reduces_S512x1_S1 (.inl rfl) rfl) shapeCasts_S1_S1x1) shapeCasts_S1x1_S1x1

/-- The payload is the running block raised, on the selected row, to the tile's largest entry. -/
theorem k1_pay2_eq {F : FTy → Type} [FloatOps F] [Named F] (i : grid1.Coords) (x0 x1 : Vec F S1x512x64 .f32)
    (xo : Vec F S8x128 .f32) :
    k1_pay2 i x0 x1 xo
      = maximumf (shapeCast S8x128 xo shapeCasts_S8x128_S8x128)
          (select (cmpi .eq (iota .tc S8x128 32 [0] iota_S8x128_d0_w32) (broadcast S8x128 (headRow (BitVec.ofNat 32 (i 0).val))))
            (broadcastTo S8x128 (tileTop (maskedTile (BitVec.ofNat 32 (i 1).val) (BitVec.ofNat 32 (i 2).val) x0 x1))
              broadcasts_S1x1_S8x128)
            (broadcast S8x128 (Scalar.ofBits .f32 0xFF800000#32))) := rfl

/-! ## Read at the ideal values -/

/-- On a head number below 64 the word computation is the remainder modulo 8. -/
theorem headRow_eq : ∀ a : Fin 64, headRow (BitVec.ofNat 32 a.val) = BitVec.ofNat 32 (a.val % 8) := by decide +kernel

theorem headRow_eq' (a : ℕ) (ha : a < 64) : headRow (BitVec.ofNat 32 a) = BitVec.ofNat 32 (a % 8) := headRow_eq ⟨a, ha⟩

/-- Two numbers below 2^32 are the same word only if they are the same number. -/
theorem ofNat_inj_small (r s : ℕ) (hr : r < 4294967296) (hs : s < 4294967296) :
    BitVec.ofNat 32 r = BitVec.ofNat 32 s ↔ r = s := by
  constructor
  · intro h
    have := congrArg BitVec.toNat h
    rw [BitVec.toNat_ofNat, BitVec.toNat_ofNat] at this
    omega
  · rintro rfl; rfl

instance : Subsingleton S1.Idx := ⟨fun a b => funext fun d => Fin.ext (by
  match d with
  | ⟨0, _⟩ => have ha : (a 0).val < 1 := (a 0).isLt; have hb : (b 0).val < 1 := (b 0).isLt; show (a 0).val = (b 0).val; omega)⟩

/-- The supremum over the indices of a rank-2 array is the iterated supremum over its two coordinates. -/
theorem iSup_idx2 {n0 n1 : ℕ} (y : (⟨2, ![n0, n1]⟩ : Shape).Idx → EReal) :
    (⨆ i, y i) = ⨆ (a : Fin n0) (b : Fin n1), y (ix2 a b) := by
  apply le_antisymm
  · refine iSup_le fun i => ?_
    rw [eq_ix2 i]
    exact le_iSup_of_le (i 0) (le_iSup_of_le (i 1) le_rfl)
  · exact iSup_le fun a => iSup_le fun b => le_iSup y (ix2 a b)

/-- At the ideal values the tile's largest entry is the supremum of its entries. -/
theorem tileTop_apply (T : FVec Ideal S512x512 .f32) (j : S1x1.Idx) :
    tileTop (F := Ideal) T j = ⨆ (p : Fin 512) (q : Fin 512), T (ix2 p q) := by
  unfold tileTop
  rw [shapeCast_self]
  have hj0 : (j 0).val < 1 := (j 0).isLt
  have hj1 : (j 1).val < 1 := (j 1).isLt
  rw [shapeCast_apply _ shapeCasts_S1_S1x1 j (ix1 (0 : Fin 1)) (by
    rw [Shape.rowMajor_val_one, Shape.rowMajor_val_two]
    show (0 : ℕ) = (j 0).val * 1 + (j 1).val
    omega)]
  refine (multiReduction_maximumf_eq_fold _ _ reduces_S512x1_S1 _ _ (ix1 (0 : Fin 1))).trans ?_
  rw [Finset.filter_true_of_mem (fun i _ => Subsingleton.elim _ _), Ideal.ofBits_def, AttnNormalize.ofBits_f32_neg_inf]
  refine (AttnNormalize.fold_max_bot_univ_eq_iSup _).trans ?_
  rw [iSup_idx2]
  refine iSup_congr fun p => ?_
  rw [iSup_unique]
  rw [shapeCast_apply _ shapeCasts_S512_S512x1 (ix2 p (default : Fin 1)) (ix1 p) (by
    rw [Shape.rowMajor_val_one, Shape.rowMajor_val_two]
    show p.val = p.val * 1 + 0
    omega)]
  refine (Ideal.multiReduction_maximumf_single T _ reduces_S512x512_S512 _ _ (ix1 p)).trans ?_
  rw [Ideal.ofBits_def, AttnNormalize.ofBits_f32_neg_inf]
  refine (AttnNormalize.fold_max_bot_univ_eq_iSup _).trans ?_
  refine iSup_congr fun q => ?_
  show T (reduces_S512x512_S512.lift (ix1 p) q) = T (ix2 p q)
  congr 1
  funext a; apply Fin.ext
  match a with
  | ⟨0, _⟩ => rfl
  | ⟨1, _⟩ => rfl

/-- The largest masked, scaled score of the tile pair (query tile i, key tile j), as a supremum. -/
def tileMax (i j : Fin 4) (xq xk : Vec Ideal S1x512x64 .f32) : EReal :=
  ⨆ (p : Fin 512) (q : Fin 512),
    if 512 * j.val + q.val ≤ 512 * i.val + p.val then
      (∑ d : Fin 64, xq (ix3 0 p d) * xk (ix3 0 q d)) * Ideal.ofBits .f32 0x3E000000#32
    else ⊥

/-- THE PAYLOAD AT (r, lane), at the ideal values: the running block's entry, raised on row (head mod 8) to the
    tile pair's largest masked, scaled score. -/
theorem k1_pay2_apply (i : grid1.Coords) (x0 x1 : Vec Ideal S1x512x64 .f32) (xo : Vec Ideal S8x128 .f32)
    (r : Fin 8) (lane : Fin 128) :
    k1_pay2 (F := Ideal) i x0 x1 xo (ix2 r lane)
      = max (xo (ix2 r lane))
          (if r.val = (i 0).val % 8 then tileMax ⟨(i 1).val, (i 1).isLt⟩ ⟨(i 2).val, (i 2).isLt⟩ x0 x1 else ⊥) := by
  rw [k1_pay2_eq]
  simp only [maximumf, select, cmpi, broadcast]
  rw [shapeCast_self, iota_single_apply, headRow_eq' _ (i 0).isLt,
    broadcastTo_apply _ broadcasts_S1x1_S8x128 (ix2 r lane) (ix2 (0 : Fin 1) (0 : Fin 1)) (fun a => by
      match a with
      | ⟨0, _⟩ => rfl
      | ⟨1, _⟩ => rfl),
    tileTop_apply, Ideal.maximumf_def, Ideal.ofBits_def, AttnNormalize.ofBits_f32_neg_inf]
  have hT : (⨆ (p : Fin 512) (q : Fin 512),
        maskedTile (F := Ideal) (BitVec.ofNat 32 (i 1).val) (BitVec.ofNat 32 (i 2).val) x0 x1 (ix2 p q))
      = tileMax ⟨(i 1).val, (i 1).isLt⟩ ⟨(i 2).val, (i 2).isLt⟩ x0 x1 :=
    iSup_congr fun p => iSup_congr fun q => maskedTile_apply ⟨(i 1).val, (i 1).isLt⟩ ⟨(i 2).val, (i 2).isLt⟩ x0 x1 p q
  rw [hT]
  have hr : r.val < 8 := r.isLt
  have hc : IntOp.cmpi .eq (BitVec.ofNat 32 r.val) (BitVec.ofNat 32 ((i 0).val % 8)) = 1#1 ↔ r.val = (i 0).val % 8 :=
    IntOp.cmpi_eq.trans (ofNat_inj_small _ _ (by omega) (by omega))
  unfold Scalar.select
  by_cases h : r.val = (i 0).val % 8
  · rw [if_pos h]; exact congrArg _ (if_pos (hc.mpr h))
  · rw [if_neg h]; exact congrArg _ (if_neg (fun hh => h (hc.mp hh)))

end Cert.KernelIdeal.GlobalMaxTile

end
-- ==== Proof.AttnSpecFinite.lean ====
/-
  What finiteness of the inputs gives the attention specification (Cert.AttnSpec), and the arrangement of
  the specification that a blockwise kernel computes. When every entry of the activations and of the three projection
  matrices is a real number:
  * the projections and the scores are reals (finite sums of products of reals, scaled by 1/8);
  * the maximum of the masked scores is a real: no score is plus infinity, and the diagonal pair (key = query) is
    always unmasked, so one member of the family is not minus infinity;
  * a weight is a positive real where the key is at or before the query, and zero after it (exp of minus infinity);
  * each denominator is a positive real (its diagonal weight is positive, none is negative);
  * hence the context may be normalised AFTER the product with the values:
      ctx = (Σ_m weight_m · v_m) / denom,
    the distributive law of the reals, which needs exactly this finiteness.
  Two facts need no finiteness and are stated first: the score is the product with one eighth, and the maximum may be
  taken over the unmasked pairs only.
-/
import proofs.«157401_j56521769615696_2_alg».proof.Proof.LibAttnNormalize
import proofs.«157401_j56521769615696_2_alg».proof.Proof.AttnSpec

noncomputable section

namespace Cert.AttnSpec

open Idealize.ShloMosaic Idealize.ShloMosaic.ValueIdx AttnNormalize
open scoped BigOperators

/-! ## Without finiteness -/

section Any
variable (x : XS.Idx → EReal) (wq wk wv wo : WS.Idx → EReal) (b : Fin 4) (h : Fin 16) (n m : Fin 2048)

/-- The score is the query-key product scaled by the exact dyadic one eighth (the f32 pattern 0x3E000000), on every
    extended real. -/
theorem score_eq_mul_eighth :
    score x wq wk b h n m
      = (∑ d : Fin 64, proj x wq b h n d * proj x wk b h m d) * Ideal.ofBits .f32 0x3E000000#32 :=
  (mul_eighth_eq_div_sqrt_64 _).symm

/-- A masked score at a key at or before the query is the score. -/
theorem masked_of_le (hmn : m.val ≤ n.val) : masked x wq wk b h n m = score x wq wk b h n m := if_pos hmn

/-- A masked score at a key after the query is minus infinity. -/
theorem masked_of_not_le (hmn : ¬m.val ≤ n.val) : masked x wq wk b h n m = ⊥ := if_neg hmn

/-- The maximum over the whole array is the maximum of the scores over the unmasked pairs only: the masked pairs hold
    minus infinity, the identity of the maximum. -/
theorem gmax_eq_causal :
    gmax x wq wk
      = ⨆ (b : Fin 4) (h : Fin 16) (n : Fin 2048) (m : Fin 2048) (_ : m.val ≤ n.val), score x wq wk b h n m :=
  iSup_congr fun b => iSup_congr fun h => iSup_congr fun n =>
    iSup_ite_bot (fun m : Fin 2048 => m.val ≤ n.val) (fun m => score x wq wk b h n m)

end Any

/-! ## Real inputs: the specification's stages as reals -/

/-- A real array read in the extended reals. -/
abbrev up {ι : Type} (f : ι → ℝ) : ι → EReal := fun i => (f i : EReal)

/-- An array of extended reals every entry of which is a real is the coercion of a real array. -/
theorem exists_up {ι : Type} (f : ι → EReal) (hf : ∀ i, ∃ r : ℝ, f i = (r : EReal)) : ∃ fr : ι → ℝ, f = up fr := by
  choose fr h using hf
  exact ⟨fr, funext h⟩

section Real
variable (xr : XS.Idx → ℝ) (wqr wkr wvr : WS.Idx → ℝ) (b : Fin 4) (h : Fin 16) (n m : Fin 2048) (d : Fin 64)

/-- The projection of real arrays, in the reals. -/
def projR (wr : WS.Idx → ℝ) (b : Fin 4) (h : Fin 16) (n : Fin 2048) (d : Fin 64) : ℝ :=
  ∑ i : Fin 1024, xr (ix3 b n i) * wr (ix2 (headCol h d) i)

theorem proj_up (wr : WS.Idx → ℝ) : proj (up xr) (up wr) b h n d = ((projR xr wr b h n d : ℝ) : EReal) :=
  sum_coe_mul_coe Finset.univ (fun i => xr (ix3 b n i)) (fun i => wr (ix2 (headCol h d) i))

/-- The score of real arrays, in the reals. -/
def scoreR (b : Fin 4) (h : Fin 16) (n m : Fin 2048) : ℝ :=
  (∑ d : Fin 64, projR xr wqr b h n d * projR xr wkr b h m d) * (1 / 8)

theorem score_up : score (up xr) (up wqr) (up wkr) b h n m = ((scoreR xr wqr wkr b h n m : ℝ) : EReal) := by
  unfold score scoreR
  simp only [proj_up]
  rw [sum_coe_mul_coe, ofBits_f32_64, sqrt_64, Ideal.div_coe (by norm_num : (8 : ℝ) ≠ 0), ← EReal.coe_mul]

/-- With real inputs the maximum of the masked scores is a real. -/
theorem gmax_up : ∃ g : ℝ, gmax (up xr) (up wqr) (up wkr) = (g : EReal) := by
  have e : gmax (up xr) (up wqr) (up wkr)
      = ⨆ p : Fin 4 × Fin 16 × Fin 2048 × Fin 2048, masked (up xr) (up wqr) (up wkr) p.1 p.2.1 p.2.2.1 p.2.2.2 := by
    unfold gmax; simp only [iSup_prod]
  rw [e]
  refine iSup_real_of_finite _ (fun p => ?_) (0, 0, 0, 0) ?_
  · unfold masked
    split_ifs
    · rw [score_up]; exact EReal.coe_ne_top _
    · exact bot_ne_top
  · rw [masked_of_le _ _ _ _ _ _ _ (le_refl _), score_up]; exact EReal.coe_ne_bot _

variable {g : ℝ} (hg : gmax (up xr) (up wqr) (up wkr) = (g : EReal))

/-- The weight of real arrays, in the reals, given the real maximum g: the exponential where the key is at or before
    the query, zero after it. -/
def weightR (g : ℝ) (b : Fin 4) (h : Fin 16) (n m : Fin 2048) : ℝ :=
  if m.val ≤ n.val then Real.exp (scoreR xr wqr wkr b h n m - g) else 0

include hg in
theorem weight_up : weight (up xr) (up wqr) (up wkr) b h n m = ((weightR xr wqr wkr g b h n m : ℝ) : EReal) := by
  unfold weight weightR masked
  rw [hg]
  split_ifs
  · rw [score_up, exp_coe_sub_coe]
  · rw [exp_bot_sub_coe, EReal.coe_zero]

theorem weightR_nonneg : 0 ≤ weightR xr wqr wkr g b h n m := by
  unfold weightR; split_ifs
  · exact (Real.exp_pos _).le
  · exact le_rfl

theorem weightR_diag_pos : 0 < weightR xr wqr wkr g b h n n := by
  unfold weightR; rw [if_pos (le_refl _)]; exact Real.exp_pos _

theorem denomR_pos : 0 < ∑ m : Fin 2048, weightR xr wqr wkr g b h n m :=
  sum_pos_of_nonneg_of_pos Finset.univ _ (fun m _ => weightR_nonneg xr wqr wkr b h n m) (Finset.mem_univ n)
    (weightR_diag_pos xr wqr wkr b h n)

include hg in
theorem denom_up :
    denom (up xr) (up wqr) (up wkr) b h n = ((∑ m : Fin 2048, weightR xr wqr wkr g b h n m : ℝ) : EReal) := by
  unfold denom
  simp only [weight_up xr wqr wkr b h n _ hg]
  exact (coe_finset_sum _ _).symm

include hg in
/-- With real inputs the context is the unnormalised sum divided by the denominator. -/
theorem ctx_up :
    ctx (up xr) (up wqr) (up wkr) (up wvr) b h n d
      = Ideal.div (∑ m : Fin 2048, weight (up xr) (up wqr) (up wkr) b h n m * proj (up xr) (up wvr) b h m d)
          (denom (up xr) (up wqr) (up wkr) b h n) := by
  unfold ctx attn
  simp only [weight_up xr wqr wkr b h n _ hg, denom_up xr wqr wkr b h n hg, proj_up]
  exact (div_sum_mul_eq_sum_div_mul Finset.univ _ _ (denomR_pos xr wqr wkr b h n).ne').symm

end Real

/-! ## The same, for extended-real inputs every entry of which is a real -/

section Finite
variable (x : XS.Idx → EReal) (wq wk wv : WS.Idx → EReal)
  (hx : ∀ i, ∃ r : ℝ, x i = (r : EReal)) (hwq : ∀ i, ∃ r : ℝ, wq i = (r : EReal))
  (hwk : ∀ i, ∃ r : ℝ, wk i = (r : EReal)) (hwv : ∀ i, ∃ r : ℝ, wv i = (r : EReal))
  (b : Fin 4) (h : Fin 16) (n m : Fin 2048) (d : Fin 64)

include hx in
/-- A projection of real inputs is a real. -/
theorem proj_real (w : WS.Idx → EReal) (hw : ∀ i, ∃ r : ℝ, w i = (r : EReal)) :
    ∃ r : ℝ, proj x w b h n d = (r : EReal) := by
  obtain ⟨xr, rfl⟩ := exists_up x hx
  obtain ⟨wr, rfl⟩ := exists_up w hw
  exact ⟨_, proj_up xr b h n d wr⟩

include hx hwq hwk in
/-- A score of real inputs is a real. -/
theorem score_real : ∃ r : ℝ, score x wq wk b h n m = (r : EReal) := by
  obtain ⟨xr, rfl⟩ := exists_up x hx
  obtain ⟨wqr, rfl⟩ := exists_up wq hwq
  obtain ⟨wkr, rfl⟩ := exists_up wk hwk
  exact ⟨_, score_up xr wqr wkr b h n m⟩

include hx hwq hwk in
/-- The maximum of the masked scores of real inputs is a real. -/
theorem gmax_real : ∃ g : ℝ, gmax x wq wk = (g : EReal) := by
  obtain ⟨xr, rfl⟩ := exists_up x hx
  obtain ⟨wqr, rfl⟩ := exists_up wq hwq
  obtain ⟨wkr, rfl⟩ := exists_up wk hwk
  exact gmax_up xr wqr wkr

include hx hwq hwk in
/-- A weight of real inputs is a real that is not negative. -/
theorem weight_real : ∃ r : ℝ, 0 ≤ r ∧ weight x wq wk b h n m = (r : EReal) := by
  obtain ⟨xr, rfl⟩ := exists_up x hx
  obtain ⟨wqr, rfl⟩ := exists_up wq hwq
  obtain ⟨wkr, rfl⟩ := exists_up wk hwk
  obtain ⟨g, hg⟩ := gmax_up xr wqr wkr
  exact ⟨_, weightR_nonneg xr wqr wkr b h n m, weight_up xr wqr wkr b h n m hg⟩

include hx hwq hwk in
/-- The weight of a key after the query is zero. -/
theorem weight_of_not_le (hmn : ¬m.val ≤ n.val) : weight x wq wk b h n m = 0 := by
  obtain ⟨g, hg⟩ := gmax_real x wq wk hx hwq hwk
  unfold weight
  rw [masked_of_not_le x wq wk b h n m hmn, hg, exp_bot_sub_coe]

/-- The weight of a key at or before the query is exp of the score less the maximum. -/
theorem weight_of_le (hmn : m.val ≤ n.val) :
    weight x wq wk b h n m = Ideal.exp (score x wq wk b h n m - gmax x wq wk) := by
  unfold weight; rw [masked_of_le x wq wk b h n m hmn]

include hx hwq hwk in
/-- A denominator of real inputs is a positive real. -/
theorem denom_real_pos : ∃ L : ℝ, 0 < L ∧ denom x wq wk b h n = (L : EReal) := by
  obtain ⟨xr, rfl⟩ := exists_up x hx
  obtain ⟨wqr, rfl⟩ := exists_up wq hwq
  obtain ⟨wkr, rfl⟩ := exists_up wk hwk
  obtain ⟨g, hg⟩ := gmax_up xr wqr wkr
  exact ⟨_, denomR_pos xr wqr wkr b h n, denom_up xr wqr wkr b h n hg⟩

include hx hwq hwk hwv in
/-- NORMALISING AFTER THE PRODUCT WITH THE VALUES: with real inputs the context is the sum of the weights times the
    values, divided once by the denominator. -/
theorem ctx_eq_div_sum :
    ctx x wq wk wv b h n d
      = Ideal.div (∑ m : Fin 2048, weight x wq wk b h n m * proj x wv b h m d) (denom x wq wk b h n) := by
  obtain ⟨xr, rfl⟩ := exists_up x hx
  obtain ⟨wqr, rfl⟩ := exists_up wq hwq
  obtain ⟨wkr, rfl⟩ := exists_up wk hwk
  obtain ⟨wvr, rfl⟩ := exists_up wv hwv
  obtain ⟨g, hg⟩ := gmax_up xr wqr wkr
  exact ctx_up xr wqr wkr wvr b h n d hg

include hx hwq hwk in
/-- The sums over the keys may stop at any bound that covers the keys at or before the query: the later terms are
    zero. Stated for the weighted values (the numerator) and for the weights (the denominator). -/
theorem sum_weight_mul_restrict (p : Fin 2048 → Prop) [DecidablePred p] (hp : ∀ m : Fin 2048, m.val ≤ n.val → p m)
    (v : Fin 2048 → EReal) :
    ∑ m : Fin 2048, weight x wq wk b h n m * v m = ∑ m ∈ Finset.univ.filter p, weight x wq wk b h n m * v m :=
  sum_eq_sum_filter_of_zero_off p _ fun m hm => by
    rw [weight_of_not_le x wq wk hx hwq hwk b h n m (fun hmn => hm (hp m hmn)), zero_mul]

include hx hwq hwk in
theorem denom_restrict (p : Fin 2048 → Prop) [DecidablePred p] (hp : ∀ m : Fin 2048, m.val ≤ n.val → p m) :
    denom x wq wk b h n = ∑ m ∈ Finset.univ.filter p, weight x wq wk b h n m :=
  sum_eq_sum_filter_of_zero_off p _ fun m hm =>
    weight_of_not_le x wq wk hx hwq hwk b h n m (fun hmn => hm (hp m hmn))

end Finite

end Cert.AttnSpec

end
-- ==== Proof.AttnTiles.lean ====
/-
  The attention specification (Cert.AttnSpec) in the arrangement of a kernel that works on 512 x 512 tiles
  of the 2048 x 2048 score matrix and visits only the tile pairs at or below the diagonal. Positions are written
  n = 512 i + p (query tile i, row p) and m = 512 j + q (key tile j, column q).
  * The score scaled by the exact dyadic one eighth is the specification's score, on every extended real.
  * The maximum over the visited tiles is the maximum over the whole array: in a skipped tile (j above i) every key
    is after every query, so every entry is minus infinity, the identity of the maximum. No finiteness is needed.
  * With real inputs, the sum of weight times value over the visited tiles, divided ONCE by the sum of the weights
    over the visited tiles, is the specification's context: the skipped tiles' weights are zero, and the real
    distributive law moves the division out of the sum.
-/
import proofs.«157401_j56521769615696_2_alg».proof.Proof.AttnSpecFinite

noncomputable section

namespace Cert.AttnTiles

open Idealize.ShloMosaic Idealize.ShloMosaic.ValueIdx AttnNormalize Cert.AttnSpec
open scoped BigOperators

/-! ## Positions and tiles -/

/-- Row p of tile i is position 512 i + p. -/
abbrev pos (i : Fin 4) (p : Fin 512) : Fin 2048 := ⟨512 * i.val + p.val, by omega⟩
/-- The tile of a position. -/
abbrev tileOf (n : Fin 2048) : Fin 4 := ⟨n.val / 512, by omega⟩
/-- The row of a position inside its tile. -/
abbrev rowOf (n : Fin 2048) : Fin 512 := ⟨n.val % 512, by omega⟩

theorem pos_tileOf_rowOf (n : Fin 2048) : pos (tileOf n) (rowOf n) = n :=
  Fin.ext (by show 512 * (n.val / 512) + n.val % 512 = n.val; omega)

/-- A key in a tile above the query's tile is after the query. -/
theorem not_le_of_tile_lt {i j : Fin 4} (hij : ¬j.val ≤ i.val) (p q : Fin 512) : ¬(pos j q).val ≤ (pos i p).val := by
  show ¬512 * j.val + q.val ≤ 512 * i.val + p.val; omega

/-- A key at or before the query lies in a tile at or below the query's tile. -/
theorem tile_le_of_le {n m : Fin 2048} (hmn : m.val ≤ n.val) : (tileOf m).val ≤ (tileOf n).val := by
  show m.val / 512 ≤ n.val / 512; omega

/-- A sum over the 2048 positions is the sum over the 4 tiles of the sums over the 512 positions of each. -/
theorem sum_pos {M : Type*} [AddCommMonoid M] (f : Fin 2048 → M) :
    ∑ m, f m = ∑ j : Fin 4, ∑ q : Fin 512, f (pos j q) := by
  rw [sum_fin_mul 4 512 f]
  refine Finset.sum_congr rfl fun j _ => Finset.sum_congr rfl fun q _ => congrArg f (Fin.ext ?_)
  show q.val + 512 * j.val = 512 * j.val + q.val; omega

/-- A supremum over the 2048 positions is the supremum over the 4 tiles of the suprema over the 512 positions of
    each. -/
theorem iSup_pos (f : Fin 2048 → EReal) : (⨆ m, f m) = ⨆ j : Fin 4, ⨆ q : Fin 512, f (pos j q) := by
  rw [iSup_fin_mul 4 512 f]
  refine iSup_congr fun j => iSup_congr fun q => congrArg f (Fin.ext ?_)
  show q.val + 512 * j.val = 512 * j.val + q.val; omega

variable (x : XS.Idx → EReal) (wq wk wv : WS.Idx → EReal)

/-! ## The score scaled by one eighth, the mask, and the maximum over the visited tiles -/

/-- The score as a kernel computes it: the query-key product times the exact dyadic one eighth. -/
def scoreK (b : Fin 4) (h : Fin 16) (n m : Fin 2048) : EReal :=
  (∑ d : Fin 64, proj x wq b h n d * proj x wk b h m d) * Ideal.ofBits .f32 0x3E000000#32

theorem scoreK_eq (b : Fin 4) (h : Fin 16) (n m : Fin 2048) : scoreK x wq wk b h n m = score x wq wk b h n m :=
  mul_eighth_eq_div_sqrt_64 _

/-- The causal mask applied to the kernel's score. -/
def maskedK (b : Fin 4) (h : Fin 16) (n m : Fin 2048) : EReal :=
  if m.val ≤ n.val then scoreK x wq wk b h n m else ⊥

theorem maskedK_eq (b : Fin 4) (h : Fin 16) (n m : Fin 2048) : maskedK x wq wk b h n m = masked x wq wk b h n m := by
  unfold maskedK masked; rw [scoreK_eq]

/-- The maximum of the masked scores over the visited tiles only: key tile at or below the query tile. -/
def gmaxK : EReal :=
  ⨆ (b : Fin 4) (h : Fin 16) (i : Fin 4) (j : Fin 4) (_ : j.val ≤ i.val) (p : Fin 512) (q : Fin 512),
    maskedK x wq wk b h (pos i p) (pos j q)

/-- The maximum over the visited tiles is the maximum over the whole array. -/
theorem gmaxK_eq : gmaxK x wq wk = gmax x wq wk := by
  unfold gmaxK gmax
  simp only [maskedK_eq]
  apply le_antisymm
  · exact iSup_le fun b => iSup_le fun h => iSup_le fun i => iSup_le fun j => iSup_le fun _ => iSup_le fun p =>
      iSup_le fun q => le_iSup_of_le b (le_iSup_of_le h (le_iSup_of_le (pos i p) (le_iSup_of_le (pos j q) le_rfl)))
  · refine iSup_le fun b => iSup_le fun h => iSup_le fun n => iSup_le fun m => ?_
    by_cases hmn : m.val ≤ n.val
    · have key : masked x wq wk b h (pos (tileOf n) (rowOf n)) (pos (tileOf m) (rowOf m))
          ≤ ⨆ (b : Fin 4) (h : Fin 16) (i : Fin 4) (j : Fin 4) (_ : j.val ≤ i.val) (p : Fin 512) (q : Fin 512),
              masked x wq wk b h (pos i p) (pos j q) :=
        le_iSup_of_le b (le_iSup_of_le h (le_iSup_of_le (tileOf n) (le_iSup_of_le (tileOf m)
          (le_iSup_of_le (tile_le_of_le hmn) (le_iSup_of_le (rowOf n) (le_iSup_of_le (rowOf m) le_rfl))))))
      rw [pos_tileOf_rowOf, pos_tileOf_rowOf] at key
      exact key
    · rw [masked_of_not_le x wq wk b h n m hmn]; exact bot_le

/-! ## The weights, and the sums over the visited tiles -/

/-- The softmax weight as a kernel computes it: exp of the kernel's masked score less the global maximum. -/
def weightK (b : Fin 4) (h : Fin 16) (n m : Fin 2048) : EReal :=
  Ideal.exp (maskedK x wq wk b h n m - gmax x wq wk)

theorem weightK_eq (b : Fin 4) (h : Fin 16) (n m : Fin 2048) : weightK x wq wk b h n m = weight x wq wk b h n m := by
  unfold weightK weight; rw [maskedK_eq]

/-- The unnormalised context of row p of query tile i: weight times value summed over the visited key tiles. -/
def accK (b : Fin 4) (h : Fin 16) (i : Fin 4) (p : Fin 512) (d : Fin 64) : EReal :=
  ∑ j ∈ Finset.univ.filter (fun j : Fin 4 => j.val ≤ i.val), ∑ q : Fin 512,
    weightK x wq wk b h (pos i p) (pos j q) * proj x wv b h (pos j q) d

/-- The denominator of row p of query tile i: the weights summed over the visited key tiles. -/
def lK (b : Fin 4) (h : Fin 16) (i : Fin 4) (p : Fin 512) : EReal :=
  ∑ j ∈ Finset.univ.filter (fun j : Fin 4 => j.val ≤ i.val), ∑ q : Fin 512, weightK x wq wk b h (pos i p) (pos j q)

section Finite
variable (hx : ∀ i, ∃ r : ℝ, x i = (r : EReal)) (hwq : ∀ i, ∃ r : ℝ, wq i = (r : EReal))
  (hwk : ∀ i, ∃ r : ℝ, wk i = (r : EReal)) (hwv : ∀ i, ∃ r : ℝ, wv i = (r : EReal))
  (b : Fin 4) (h : Fin 16) (i : Fin 4) (p : Fin 512) (d : Fin 64)

include hx hwq hwk in
/-- With real inputs the sum over the visited tiles is the sum over all the keys: a skipped tile's weights are
    zero. -/
theorem accK_eq :
    accK x wq wk wv b h i p d = ∑ m : Fin 2048, weight x wq wk b h (pos i p) m * proj x wv b h m d := by
  rw [sum_pos]
  unfold accK
  simp only [weightK_eq]
  exact (sum_eq_sum_filter_of_zero_off (fun j : Fin 4 => j.val ≤ i.val) _ fun j hj =>
    Finset.sum_eq_zero fun q _ => by
      rw [weight_of_not_le x wq wk hx hwq hwk b h (pos i p) (pos j q) (not_le_of_tile_lt hj p q), zero_mul]).symm

include hx hwq hwk in
/-- With real inputs the weights summed over the visited tiles are the specification's denominator. -/
theorem lK_eq : lK x wq wk b h i p = denom x wq wk b h (pos i p) := by
  unfold denom
  rw [sum_pos]
  unfold lK
  simp only [weightK_eq]
  exact (sum_eq_sum_filter_of_zero_off (fun j : Fin 4 => j.val ≤ i.val) _ fun j hj =>
    Finset.sum_eq_zero fun q _ =>
      weight_of_not_le x wq wk hx hwq hwk b h (pos i p) (pos j q) (not_le_of_tile_lt hj p q)).symm

include hx hwq hwk in
/-- With real inputs the denominator over the visited tiles is a positive real. -/
theorem lK_real_pos : ∃ L : ℝ, 0 < L ∧ lK x wq wk b h i p = (L : EReal) := by
  rw [lK_eq x wq wk hx hwq hwk]; exact denom_real_pos x wq wk hx hwq hwk b h (pos i p)

include hx hwq hwk hwv in
/-- THE KERNEL'S ARRANGEMENT IS THE SPECIFICATION'S CONTEXT: with real inputs, the unnormalised context over the
    visited tiles divided once by the denominator over the visited tiles is the context of the specification. -/
theorem div_accK_lK :
    Ideal.div (accK x wq wk wv b h i p d) (lK x wq wk b h i p) = ctx x wq wk wv b h (pos i p) d := by
  rw [accK_eq x wq wk wv hx hwq hwk, lK_eq x wq wk hx hwq hwk, ctx_eq_div_sum x wq wk wv hx hwq hwk hwv]

end Finite

end Cert.AttnTiles

end
-- ==== Proof.GlobalMaxValue.lean ====
/-
  The global-maximum pass's value. The call's grid has 64 x 4 x 4 points (head, query tile, key tile); its [64, 128]
  result is cut into [8, 128] blocks, one per group of eight heads, each visited at 128 consecutive points and written
  back after the last. At the ideal values the block's running contents after a point are, on row r, the supremum of
  the largest masked, scaled scores of the tile pairs visited so far for head 8 g + r (stated through upper bounds: the
  running entry is below z exactly when every such tile's largest score is); so after the last point of a group, row r
  holds the supremum over all tile pairs at or below the diagonal of head 8 g + r — in every lane — and the result
  array ends holding, at (head, lane), the supremum of that head's masked, scaled scores over the visited tiles.
-/
import proofs.«157401_j56521769615696_2_alg».proof.Proof.GlobalMaxPieces
import proofs.«157401_j56521769615696_2_alg».proof.Proof.GlobalMaxTile
import proofs.«157401_j56521769615696_2_alg».proof.Proof.AttnTiles

set_option maxRecDepth 16384

noncomputable section

namespace Cert.KernelIdeal.GlobalMaxValue

open Cert.KernelIdeal Cert.KernelIdeal.Gen Cert.KernelIdeal.GlobalMax Cert.KernelIdeal.GlobalMaxPieces
open Cert.KernelIdeal.GlobalMaxTile Cert.AttnTiles
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The queries as the call finds them: 64 heads of 2048 positions of width 64, as extended reals. -/
abbrev arrQ (c : Dev nD) : S64x2048x64.Idx → EReal := V c main_v6
/-- The keys as the call finds them. -/
abbrev arrK (c : Dev nD) : S64x2048x64.Idx → EReal := V c main_v9

/-- The masked, scaled score of head R at query position 512 i + p and key position 512 j + q. -/
def scoreTerm (c : Dev nD) (R : Fin 64) (i j : Fin 4) (p q : Fin 512) : EReal :=
  if (pos j q).val ≤ (pos i p).val then
    (∑ d : Fin 64, arrQ V c (ix3 R (pos i p) d) * arrK V c (ix3 R (pos j q) d)) * Ideal.ofBits .f32 0x3E000000#32
  else ⊥

theorem scoreTerm_congr (c : Dev nD) {R R' : Fin 64} {i i' j j' : Fin 4} (hR : R.val = R'.val) (hi : i.val = i'.val)
    (hj : j.val = j'.val) (p q : Fin 512) : scoreTerm V c R i j p q = scoreTerm V c R' i' j' p q := by
  obtain rfl := Fin.ext hR; obtain rfl := Fin.ext hi; obtain rfl := Fin.ext hj; rfl

/-- The largest masked, scaled score of head R over the tile pairs at or below the diagonal. -/
def gmaxRow (c : Dev nD) (R : Fin 64) : EReal :=
  ⨆ (i : Fin 4) (j : Fin 4) (_ : j.val ≤ i.val) (p : Fin 512) (q : Fin 512), scoreTerm V c R i j p q

/-- The result array: every lane of row R holds head R's largest masked, scaled score. -/
def gmaxArr (c : Dev nD) : S64x128.Idx → EReal := fun idx => gmaxRow V c (idx 0)

/-! ## The grid's coordinates and the windows' blocks, decided over the grid -/

theorem coords_facts : ∀ t : Fin cfg1.N, (grid1.coords t 0).val = t.val / 16 ∧ (grid1.coords t 1).val = t.val / 4 % 4
    ∧ (grid1.coords t 2).val = t.val % 4 :=
  (by decide +kernel : ∀ t : Fin grid1.N, _)

theorem idx_facts : ∀ t : Fin cfg1.N, win1_0.index t (0 : Fin 3) = t.val / 16 ∧ win1_0.index t (1 : Fin 3) = t.val / 4 % 4
    ∧ win1_0.index t (2 : Fin 3) = 0
    ∧ win1_1.index t (0 : Fin 3) = t.val / 16 ∧ win1_1.index t (1 : Fin 3) = min (t.val % 4) (t.val / 4 % 4)
    ∧ win1_1.index t (2 : Fin 3) = 0
    ∧ win1_2.index t (0 : Fin 2) = t.val / 128 ∧ win1_2.index t (1 : Fin 2) = 0 :=
  (by decide +kernel : ∀ t : Fin grid1.N, _)

/-- The largest masked, scaled score of the tile pair visited at point s. -/
def Tpt (c : Dev nD) (s : Fin cfg1.N) : EReal :=
  tileMax ⟨s.val / 4 % 4, by omega⟩ ⟨s.val % 4, by omega⟩ (iblk V c 0 s) (iblk V c 1 s)

/-- At a point whose key tile is at or below its query tile, the tile pair's largest score is the supremum of the
    head's score terms over the tile pair, read off the two arrays. -/
theorem Tpt_eq (c : Dev nD) (s : Fin cfg1.N) (hN : s.val < 1024) (hc : s.val % 4 ≤ s.val / 4 % 4) :
    Tpt V c s = ⨆ (p : Fin 512) (q : Fin 512),
      scoreTerm V c ⟨s.val / 16, by omega⟩ ⟨s.val / 4 % 4, by omega⟩ ⟨s.val % 4, by omega⟩ p q := by
  unfold Tpt tileMax scoreTerm
  obtain ⟨e00, e01, e02, e10, e11, e12, -, -⟩ := idx_facts s
  refine iSup_congr fun p => iSup_congr fun q => ?_
  have hp := p.isLt; have hq := q.isLt
  refine if_congr (by show 512 * (s.val % 4) + q.val ≤ 512 * (s.val / 4 % 4) + p.val ↔ 512 * (s.val % 4) + q.val ≤ 512 * (s.val / 4 % 4) + p.val; exact Iff.rfl) ?_ rfl
  refine congrArg (· * _) (Finset.sum_congr rfl fun d _ => ?_)
  congr 1
  · show V c main_v6 (((cfg1.win 0).blk s).view.emb (ix3 (0 : Fin 1) p d)) = V c main_v6 _
    congr 1
    funext a; apply Fin.ext
    match a with
    | ⟨0, _⟩ => show win1_0.index s (0 : Fin 3) * 1 + 1 * 0 = s.val / 16; omega
    | ⟨1, _⟩ => show win1_0.index s (1 : Fin 3) * 512 + 1 * p.val = 512 * (s.val / 4 % 4) + p.val; omega
    | ⟨2, _⟩ => show win1_0.index s (2 : Fin 3) * 64 + 1 * d.val = d.val; omega
  · show V c main_v9 (((cfg1.win 1).blk s).view.emb (ix3 (0 : Fin 1) q d)) = V c main_v9 _
    congr 1
    funext a; apply Fin.ext
    match a with
    | ⟨0, _⟩ => show win1_1.index s (0 : Fin 3) * 1 + 1 * 0 = s.val / 16; omega
    | ⟨1, _⟩ => show win1_1.index s (1 : Fin 3) * 512 + 1 * q.val = 512 * (s.val % 4) + q.val; rw [e11, Nat.min_eq_left hc]; omega
    | ⟨2, _⟩ => show win1_1.index s (2 : Fin 3) * 64 + 1 * d.val = d.val; omega

/-! ## The block's running contents, point by point -/

/-- The payload at point t, at (r, lane): the running entry raised, on row (head mod 8), to the tile pair's largest
    score. -/
theorem pay_at (c : Dev nD) (t : Fin cfg1.N) (xo : Vec Ideal S8x128 .f32) (r : Fin 8) (lane : Fin 128) :
    k1_pay2 (F := Ideal) (grid1.coords t) (iblk V c 0 t) (iblk V c 1 t) xo (ix2 r lane)
      = max (xo (ix2 r lane)) (if r.val = t.val / 16 % 8 then Tpt V c t else ⊥) := by
  rw [k1_pay2_apply]
  obtain ⟨e0, e1, e2⟩ := coords_facts t
  unfold Tpt
  have hT : tileMax ⟨(grid1.coords t 1).val, (grid1.coords t 1).isLt⟩ ⟨(grid1.coords t 2).val, (grid1.coords t 2).isLt⟩
      (iblk V c 0 t) (iblk V c 1 t)
      = tileMax ⟨t.val / 4 % 4, by omega⟩ ⟨t.val % 4, by omega⟩ (iblk V c 0 t) (iblk V c 1 t) := by
    congr 1 <;> exact Fin.ext (by assumption)
  rw [hT, e0]

theorem k1_pay1_apply (y : S8x128.Idx) : k1_pay1 (F := Ideal) y = ⊥ := by
  unfold k1_pay1
  simp only [broadcast]
  exact AttnNormalize.ofBits_f32_neg_inf

theorem outsAt_at_reset (c : Dev nD) (t : Fin cfg1.N) (h0 : t.val % 128 = 0) (r : Fin 8) (lane : Fin 128) :
    outsAt V c t.val t.isLt (ix2 r lane) = if r.val = t.val / 16 % 8 then Tpt V c t else ⊥ := by
  rw [outsAt_reset V c t h0 (by omega), outReset_eq, pay_at, k1_pay1_apply, max_eq_right bot_le]

theorem outsAt_at_raise (c : Dev nD) (t : Fin cfg1.N) (h0 : ¬t.val % 128 = 0) (h1 : t.val % 4 ≤ t.val / 4 % 4)
    (r : Fin 8) (lane : Fin 128) :
    outsAt V c t.val t.isLt (ix2 r lane)
      = max (outsAt V c (t.val - 1) (Nat.lt_of_le_of_lt (Nat.sub_le _ _) t.isLt) (ix2 r lane))
          (if r.val = t.val / 16 % 8 then Tpt V c t else ⊥) := by
  rw [outsAt_raise V c t h0 h1, outRaise_eq, pay_at]

/-- THE RUNNING CONTENTS, through upper bounds: after point n, the entry on row r is below z exactly when the largest
    score of every tile pair visited so far in n's group of heads, for the head on row r, is below z. -/
theorem outsAt_le_iff (c : Dev nD) : ∀ (n : ℕ) (hn : n < cfg1.N) (r : Fin 8) (lane : Fin 128) (z : EReal),
    outsAt V c n hn (ix2 r lane) ≤ z ↔ ∀ (s : ℕ) (hs : s < cfg1.N), s ≤ n → s / 128 = n / 128 → s / 16 % 8 = r.val →
      s % 4 ≤ s / 4 % 4 → Tpt V c ⟨s, hs⟩ ≤ z := by
  intro n
  induction n with
  | zero =>
    intro hn r lane z
    rw [show outsAt V c 0 hn (ix2 r lane) = outsAt V c (⟨0, hn⟩ : Fin cfg1.N).val (⟨0, hn⟩ : Fin cfg1.N).isLt (ix2 r lane) from rfl,
      outsAt_at_reset V c ⟨0, hn⟩ rfl]
    constructor
    · intro h s hs hsn hg hr hc
      obtain rfl : s = 0 := by omega
      rwa [if_pos (by show r.val = 0 / 16 % 8; omega)] at h
    · intro h
      split_ifs with hr
      · exact h 0 hn le_rfl rfl (by have : r.val = 0 / 16 % 8 := hr; omega) (by omega)
      · exact bot_le
  | succ m ih =>
    intro hn r lane z
    have hm : m < cfg1.N := Nat.lt_of_succ_lt hn
    by_cases h0 : (m + 1) % 128 = 0
    · rw [show outsAt V c (m + 1) hn (ix2 r lane) = outsAt V c (⟨m + 1, hn⟩ : Fin cfg1.N).val (⟨m + 1, hn⟩ : Fin cfg1.N).isLt (ix2 r lane) from rfl,
        outsAt_at_reset V c ⟨m + 1, hn⟩ h0]
      constructor
      · intro h s hs hsn hg hr hc
        obtain rfl : s = m + 1 := by omega
        rwa [if_pos (by show r.val = (m + 1) / 16 % 8; omega)] at h
      · intro h
        split_ifs with hr
        · exact h (m + 1) hn le_rfl rfl (by have : r.val = (m + 1) / 16 % 8 := hr; omega) (by omega)
        · exact bot_le
    · by_cases h1 : (m + 1) % 4 ≤ (m + 1) / 4 % 4
      · rw [show outsAt V c (m + 1) hn (ix2 r lane) = outsAt V c (⟨m + 1, hn⟩ : Fin cfg1.N).val (⟨m + 1, hn⟩ : Fin cfg1.N).isLt (ix2 r lane) from rfl,
          outsAt_at_raise V c ⟨m + 1, hn⟩ h0 h1, max_le_iff]
        show outsAt V c m _ (ix2 r lane) ≤ z ∧ _ ↔ _
        rw [ih hm r lane z]
        constructor
        · rintro ⟨ha, hb⟩ s hs hsn hg hr hc
          rcases Nat.lt_or_ge s (m + 1) with hlt | hge
          · exact ha s hs (by omega) (by omega) hr hc
          · obtain rfl : s = m + 1 := by omega
            rwa [if_pos (by show r.val = (m + 1) / 16 % 8; omega)] at hb
        · intro h
          refine ⟨fun s hs hsm hg hr hc => h s hs (by omega) (by omega) hr hc, ?_⟩
          split_ifs with hr
          · exact h (m + 1) hn le_rfl rfl (by have : r.val = (m + 1) / 16 % 8 := hr; omega) h1
          · exact bot_le
      · rw [show outsAt V c (m + 1) hn = outsAt V c (⟨m + 1, hn⟩ : Fin cfg1.N).val (⟨m + 1, hn⟩ : Fin cfg1.N).isLt from rfl,
          outsAt_skip V c ⟨m + 1, hn⟩ h0 h1]
        show outsAt V c m _ (ix2 r lane) ≤ z ↔ _
        rw [ih hm r lane z]
        constructor
        · intro ha s hs hsn hg hr hc
          rcases Nat.lt_or_ge s (m + 1) with hlt | hge
          · exact ha s hs (by omega) (by omega) hr hc
          · obtain rfl : s = m + 1 := by omega
            exact absurd hc h1
        · intro h s hs hsm hg hr hc
          exact h s hs (by omega) (by omega) hr hc

/-! ## From blocks to the array -/

theorem scoreTerm_le_of_eq (c : Dev nD) (z : EReal) (p q : Fin 512) (R R' : Fin 64) (i i' j j' : Fin 4)
    (hR : R.val = R'.val) (hi : i.val = i'.val) (hj : j.val = j'.val) (h : scoreTerm V c R i j p q ≤ z) :
    scoreTerm V c R' i' j' p q ≤ z := by
  rwa [← scoreTerm_congr V c hR hi hj p q]

/-- An index of the result array is in point t's block iff each coordinate is in the block's range on its axis. -/
theorem mem_blk (t : Fin cfg1.N) (i : S64x128.Idx) :
    i ∈ ((cfg1.win 2).blk t).view.set ↔ ∀ a : Fin 2, win1_2.index t a * S8x128.size a ≤ (i a).val
      ∧ (i a).val < win1_2.index t a * S8x128.size a + S8x128.size a := by
  show i ∈ ((View.whole main_v13).slice (win1_2.rect t)).set ↔ _
  rw [View.set_slice_whole, Rect.mem_set_unit]
  exact Iff.rfl

/-- What the last point of a group writes back is the group's block of the array of largest scores. -/
theorem flushed_eq (c : Dev nD) (t : Fin cfg1.N) (hf : (cfg1.win 2).flush t = true) :
    (dat (F := Ideal) V c).flushed 2 t = ((cfg1.win 2).blk t).view.read (Elt Ideal) (gmaxArr V c) := by
  have h127 : t.val % 128 = 127 := (flush1_2 t).mp hf
  have hN : cfg1.N = 1024 := N_1
  have ht : t.val < 1024 := hN ▸ t.isLt
  show (cfg1.win 2).cut (grid1.coords t) ((dat (F := Ideal) V c).after 2 t) = _
  rw [after_2]
  obtain ⟨-, -, -, -, -, -, e20, e21⟩ := idx_facts t
  funext y
  obtain ⟨r, lane, rfl⟩ : ∃ (r : Fin 8) (lane : Fin 128), y = ix2 r lane := ⟨y 0, y 1, eq_ix2 y⟩
  have hr := r.isLt
  show outsAt V c t.val t.isLt (ix2 r lane) = gmaxArr V c (((cfg1.win 2).blk t).view.emb (ix2 r lane))
  have hemb : ((cfg1.win 2).blk t).view.emb (ix2 r lane)
      = ix2 (⟨t.val / 128 * 8 + r.val, by omega⟩ : Fin 64) lane := by
    funext a; apply Fin.ext
    match a with
    | ⟨0, _⟩ => show win1_2.index t (0 : Fin 2) * 8 + 1 * r.val = t.val / 128 * 8 + r.val; omega
    | ⟨1, _⟩ => show win1_2.index t (1 : Fin 2) * 128 + 1 * lane.val = lane.val; omega
  rw [hemb]
  show _ = gmaxRow V c ⟨t.val / 128 * 8 + r.val, _⟩
  refine eq_of_forall_ge_iff fun z => ?_
  rw [outsAt_le_iff]
  unfold gmaxRow
  simp only [iSup_le_iff]
  constructor
  · intro h i j hji p q
    have hi := i.isLt; have hj := j.isLt
    have hs : 16 * (t.val / 128 * 8 + r.val) + 4 * i.val + j.val < cfg1.N :=
      lt_of_lt_of_eq (by omega : 16 * (t.val / 128 * 8 + r.val) + 4 * i.val + j.val < 1024) hN.symm
    have h1 := h (16 * (t.val / 128 * 8 + r.val) + 4 * i.val + j.val) hs (by omega) (by omega) (by omega) (by omega)
    rw [Tpt_eq V c ⟨_, hs⟩ (by dsimp only; omega) (by dsimp only; omega)] at h1
    simp only [iSup_le_iff] at h1
    exact scoreTerm_le_of_eq V c z p q _ _ _ _ _ _ (by dsimp only; omega) (by dsimp only; omega) (by dsimp only; omega) (h1 p q)
  · intro h s hs hst hg hr' hc
    have hs' : s < 1024 := hN ▸ hs
    rw [Tpt_eq V c ⟨s, hs⟩ hs' hc]
    simp only [iSup_le_iff]
    intro p q
    exact scoreTerm_le_of_eq V c z p q _ _ _ _ _ _ (by dsimp only; omega) rfl rfl (h ⟨s / 4 % 4, by omega⟩ ⟨s % 4, by omega⟩ hc p q)

/-- Every index of the result array lies in the block of the last point of its group of heads, which writes back. -/
theorem cover (i : S64x128.Idx) :
    ∃ t : Fin cfg1.N, (cfg1.win 2).flush t = true ∧ i ∈ ((cfg1.win 2).blk t).view.set := by
  have hi0 : (i 0).val < 64 := (i 0).isLt
  have hi1 : (i 1).val < 128 := (i 1).isLt
  have hN : cfg1.N = 1024 := N_1
  obtain ⟨t, ht⟩ : ∃ t : Fin cfg1.N, t.val = 128 * ((i 0).val / 8) + 127 :=
    ⟨⟨128 * ((i 0).val / 8) + 127, by rw [hN]; omega⟩, rfl⟩
  obtain ⟨-, -, -, -, -, -, e20, e21⟩ := idx_facts t
  refine ⟨t, (flush1_2 t).mpr (by omega), ?_⟩
  rw [mem_blk]
  intro a
  match a with
  | ⟨0, _⟩ =>
    show win1_2.index t (0 : Fin 2) * 8 ≤ (i 0).val ∧ (i 0).val < win1_2.index t (0 : Fin 2) * 8 + 8
    rw [e20, ht]; omega
  | ⟨1, _⟩ =>
    show win1_2.index t (1 : Fin 2) * 128 ≤ (i 1).val ∧ (i 1).val < win1_2.index t (1 : Fin 2) * 128 + 128
    rw [e21]; omega

/-- THE RESULT ARRAY after the call: every lane of row R holds the largest masked, scaled score of head R over the
    tile pairs at or below the diagonal. -/
theorem final (c : Dev nD) : (dat (F := Ideal) V c).arrAt 2 cfg1.N = gmaxArr V c :=
  (dat (F := Ideal) V c).arrAt_eq_of_cover 2 (gmaxArr V c) (flushed_eq V c) cover

/-- The result read at an index given by its coordinates. -/
theorem gmaxArr_ix2 (c : Dev nD) (R : Fin 64) (lane : Fin 128) : gmaxArr V c (ix2 R lane) = gmaxRow V c R := rfl

/-- The two input arrays are unchanged by the call. -/
theorem kept_0 (c : Dev nD) : (dat (F := Ideal) V c).arrAt 0 cfg1.N = V c main_v6 :=
  ((dat (F := Ideal) V c).arrAt_in 0 rfl _).trans (A_eq V c 0)
theorem kept_1 (c : Dev nD) : (dat (F := Ideal) V c).arrAt 1 cfg1.N = V c main_v9 :=
  ((dat (F := Ideal) V c).arrAt_in 1 rfl _).trans (A_eq V c 1)

end Cert.KernelIdeal.GlobalMaxValue

end
-- ==== Proof.AttentionPiecesIdeal.lean ====
/-
  The attention pass: what each case leaves, read as the body's arithmetic.

  The accumulator after a key tile is the previous accumulator (zero at the first tile) plus the
  tile's weights times its values; the weight sums likewise plus the weights' row sums; the output
  tile is the accumulator divided, row by row, by the weight sum.
-/
import proofs.«157401_j56521769615696_2_alg».proof.Proof.AttentionIdeal
import Idealize.ShloMosaic.Lib.Pipeline.Value

set_option maxRecDepth 16384

noncomputable section

namespace Cert.KernelIdeal.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

theorem accFirst_eq (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : condInit i) (hc1 : condCausal i) (hc2 : ¬condLast i) (xm : Vec F S1x1 .f32) (xq xk : Vec F S1x512x64 .f32) (xv : Vec F S1x512x64 .bf16) :
    accFirst (F := F) c i arg3 harg3 arg4 harg4 arg5 harg5 arg6 harg6 arg7 harg7 arg8 harg8 arg9 harg9 hc0 hc1 hc2 xm xq xk xv = k2_pay6 (BitVec.ofNat 32 (i 1).val) (BitVec.ofNat 32 (i 2).val) xq xk xv xm k2_pay1 := by
  unfold accFirst
  rw [View.read_writes_eq_canon _ _ _ (cover_accFirst c i arg3 harg3 arg4 harg4 arg5 harg5 arg6 harg6 arg7 harg7 arg8 harg8 arg9 harg9 hc0 hc1 hc2 xm xq xk xv)]
  unfold runFirst
  dsimp only
  sl_unfold_words
  rw [View.canon_cons_unit_zero (S := S512x64) hz2, View.readCov_unit_zero (S := S512x64) _ hz2]
  simp only [View.readAt_eq_ld, harg3.read_unread, harg4.read_unread, harg5.read_unread, harg6.read_unread, harg8.read_unread, harg9.read_unread,
    View.ld_unit_zero (S := S1x512x64) hz3, View.ld_unit_zero (S := S1x1) hz2, View.ld_unit_zero (S := S512x64) hz2, View.ld_unit_zero (S := S512x1) hz2]

theorem lFirst_eq (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : condInit i) (hc1 : condCausal i) (hc2 : ¬condLast i) (xm : Vec F S1x1 .f32) (xq xk : Vec F S1x512x64 .f32) (xv : Vec F S1x512x64 .bf16) :
    lFirst (F := F) c i arg3 harg3 arg4 harg4 arg5 harg5 arg6 harg6 arg7 harg7 arg8 harg8 arg9 harg9 hc0 hc1 hc2 xm xq xk xv = k2_pay3 k2_pay2 (k2_pay7 (BitVec.ofNat 32 (i 1).val) (BitVec.ofNat 32 (i 2).val) xq xk xm) := by
  unfold lFirst
  rw [View.read_writes_eq_canon _ _ _ (cover_lFirst c i arg3 harg3 arg4 harg4 arg5 harg5 arg6 harg6 arg7 harg7 arg8 harg8 arg9 harg9 hc0 hc1 hc2 xm xq xk xv)]
  unfold runFirst
  dsimp only
  sl_unfold_words
  rw [View.canon_cons_unit_zero (S := S512x1) hz2, View.readCov_unit_zero (S := S512x1) _ hz2]
  simp only [View.readAt_eq_ld, harg3.read_unread, harg4.read_unread, harg5.read_unread, harg6.read_unread, harg8.read_unread, harg9.read_unread,
    View.ld_unit_zero (S := S1x512x64) hz3, View.ld_unit_zero (S := S1x1) hz2, View.ld_unit_zero (S := S512x64) hz2, View.ld_unit_zero (S := S512x1) hz2]

theorem accAdv_eq (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) :
    accAdv (F := F) c i arg3 harg3 arg4 harg4 arg5 harg5 arg6 harg6 arg7 harg7 arg8 harg8 arg9 harg9 hc0 hc1 hc2 xm xq xk xv xa xl = k2_pay6 (BitVec.ofNat 32 (i 1).val) (BitVec.ofNat 32 (i 2).val) xq xk xv xm xa := by
  unfold accAdv
  rw [View.read_writes_eq_canon _ _ _ (cover_accAdv c i arg3 harg3 arg4 harg4 arg5 harg5 arg6 harg6 arg7 harg7 arg8 harg8 arg9 harg9 hc0 hc1 hc2 xm xq xk xv xa xl)]
  unfold runAdvance
  dsimp only
  sl_unfold_words
  rw [View.canon_unit_zero (S := S512x64) hz2]
  simp only [View.readAt_eq_ld, harg3.read_unread, harg4.read_unread, harg5.read_unread, harg6.read_unread, harg8.read_unread, harg9.read_unread,
    View.ld_unit_zero (S := S1x512x64) hz3, View.ld_unit_zero (S := S1x1) hz2, View.ld_unit_zero (S := S512x64) hz2, View.ld_unit_zero (S := S512x1) hz2]

theorem lAdv_eq (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : ¬condLast i) (xm : Vec F S1x1 .f32) (xq xk : Vec F S1x512x64 .f32) (xv : Vec F S1x512x64 .bf16) (xa : Vec F S512x64 .f32) (xl : Vec F S512x1 .f32) :
    lAdv (F := F) c i arg3 harg3 arg4 harg4 arg5 harg5 arg6 harg6 arg7 harg7 arg8 harg8 arg9 harg9 hc0 hc1 hc2 xm xq xk xv xa xl = k2_pay3 xl (k2_pay7 (BitVec.ofNat 32 (i 1).val) (BitVec.ofNat 32 (i 2).val) xq xk xm) := by
  unfold lAdv
  rw [View.read_writes_eq_canon _ _ _ (cover_lAdv c i arg3 harg3 arg4 harg4 arg5 harg5 arg6 harg6 arg7 harg7 arg8 harg8 arg9 harg9 hc0 hc1 hc2 xm xq xk xv xa xl)]
  unfold runAdvance
  dsimp only
  sl_unfold_words
  rw [View.canon_unit_zero (S := S512x1) hz2]
  simp only [View.readAt_eq_ld, harg3.read_unread, harg4.read_unread, harg5.read_unread, harg6.read_unread, harg8.read_unread, harg9.read_unread,
    View.ld_unit_zero (S := S1x512x64) hz3, View.ld_unit_zero (S := S1x1) hz2, View.ld_unit_zero (S := S512x64) hz2, View.ld_unit_zero (S := S512x1) hz2]

theorem accLastAdv_eq (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) :
    accLastAdv (F := F) c i arg3 harg3 arg4 harg4 arg5 harg5 arg6 harg6 arg7 harg7 arg8 harg8 arg9 harg9 hc0 hc1 hc2 xm xq xk xv xa xl = k2_pay6 (BitVec.ofNat 32 (i 1).val) (BitVec.ofNat 32 (i 2).val) xq xk xv xm xa := by
  unfold accLastAdv
  rw [View.read_writes_eq_canon _ _ _ (cover_accLastAdv c i arg3 harg3 arg4 harg4 arg5 harg5 arg6 harg6 arg7 harg7 arg8 harg8 arg9 harg9 hc0 hc1 hc2 xm xq xk xv xa xl)]
  unfold runLastAdvance
  dsimp only
  sl_unfold_words
  rw [View.canon_unit_zero (S := S512x64) hz2]
  simp only [View.readAt_eq_ld, harg3.read_unread, harg4.read_unread, harg5.read_unread, harg6.read_unread, harg8.read_unread, harg9.read_unread,
    View.ld_unit_zero (S := S1x512x64) hz3, View.ld_unit_zero (S := S1x1) hz2, View.ld_unit_zero (S := S512x64) hz2, View.ld_unit_zero (S := S512x1) hz2]

theorem lLastAdv_eq (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) :
    lLastAdv (F := F) c i arg3 harg3 arg4 harg4 arg5 harg5 arg6 harg6 arg7 harg7 arg8 harg8 arg9 harg9 hc0 hc1 hc2 xm xq xk xv xa xl = k2_pay3 xl (k2_pay7 (BitVec.ofNat 32 (i 1).val) (BitVec.ofNat 32 (i 2).val) xq xk xm) := by
  unfold lLastAdv
  rw [View.read_writes_eq_canon _ _ _ (cover_lLastAdv c i arg3 harg3 arg4 harg4 arg5 harg5 arg6 harg6 arg7 harg7 arg8 harg8 arg9 harg9 hc0 hc1 hc2 xm xq xk xv xa xl)]
  unfold runLastAdvance
  dsimp only
  sl_unfold_words
  rw [View.canon_unit_zero (S := S512x1) hz2]
  simp only [View.readAt_eq_ld, harg3.read_unread, harg4.read_unread, harg5.read_unread, harg6.read_unread, harg8.read_unread, harg9.read_unread,
    View.ld_unit_zero (S := S1x512x64) hz3, View.ld_unit_zero (S := S1x1) hz2, View.ld_unit_zero (S := S512x64) hz2, View.ld_unit_zero (S := S512x1) hz2]

theorem outLastAdv_eq (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : condCausal i) (hc2 : condLast i) (xm : Vec F S1x1 .f32) (xq xk : Vec F S1x512x64 .f32) (xv : Vec F S1x512x64 .bf16) (xa : Vec F S512x64 .f32) (xl : Vec F S512x1 .f32) :
    outLastAdv (F := F) c i arg3 harg3 arg4 harg4 arg5 harg5 arg6 harg6 arg7 harg7 arg8 harg8 arg9 harg9 hc0 hc1 hc2 xm xq xk xv xa xl
      = k2_pay4 (k2_pay6 (BitVec.ofNat 32 (i 1).val) (BitVec.ofNat 32 (i 2).val) xq xk xv xm xa) (k2_pay3 xl (k2_pay7 (BitVec.ofNat 32 (i 1).val) (BitVec.ofNat 32 (i 2).val) xq xk xm)) := by
  unfold outLastAdv
  rw [View.read_writes_eq_canon _ _ _ (cover_outLastAdv c i arg3 harg3 arg4 harg4 arg5 harg5 arg6 harg6 arg7 harg7 arg8 harg8 arg9 harg9 hc0 hc1 hc2 xm xq xk xv xa xl)]
  unfold runLastAdvance
  dsimp only
  sl_unfold_words
  rw [View.canon_unit_zero (S := S1x512x64) hz3, View.readCov_unit_zero (S := S512x64) _ hz2, View.readCov_unit_zero (S := S512x1) _ hz2]
  simp only [View.readAt_eq_ld, harg3.read_unread, harg4.read_unread, harg5.read_unread, harg6.read_unread, harg8.read_unread, harg9.read_unread,
    View.ld_unit_zero (S := S1x512x64) hz3, View.ld_unit_zero (S := S1x1) hz2, View.ld_unit_zero (S := S512x64) hz2, View.ld_unit_zero (S := S512x1) hz2]

theorem outLastStore_eq (c : Dev nD) (i : grid2.Coords) (arg3 : Memref sig .tc .vmem S1x1 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .bf16) (harg6 : arg6.IsWhole) (arg7 : Memref sig .tc .vmem S1x512x64 .bf16) (harg7 : arg7.IsWhole) (arg8 : Memref sig .tc .vmem S512x64 .f32) (harg8 : arg8.IsWhole) (arg9 : Memref sig .tc .vmem S512x1 .f32) (harg9 : arg9.IsWhole)
    (hc0 : ¬condInit i) (hc1 : ¬condCausal i) (hc2 : condLast i) (xm : Vec F S1x1 .f32) (xq xk : Vec F S1x512x64 .f32) (xv : Vec F S1x512x64 .bf16) (xa : Vec F S512x64 .f32) (xl : Vec F S512x1 .f32) :
    outLastStore (F := F) c i arg3 harg3 arg4 harg4 arg5 harg5 arg6 harg6 arg7 harg7 arg8 harg8 arg9 harg9 hc0 hc1 hc2 xm xq xk xv xa xl = k2_pay4 xa xl := by
  unfold outLastStore
  rw [View.read_writes_eq_canon _ _ _ (cover_outLastStore c i arg3 harg3 arg4 harg4 arg5 harg5 arg6 harg6 arg7 harg7 arg8 harg8 arg9 harg9 hc0 hc1 hc2 xm xq xk xv xa xl)]
  unfold runLastStore
  dsimp only
  sl_unfold_words
  rw [View.canon_unit_zero (S := S1x512x64) hz3]
  simp only [View.readAt_eq_ld, harg3.read_unread, harg4.read_unread, harg5.read_unread, harg6.read_unread, harg8.read_unread, harg9.read_unread,
    View.ld_unit_zero (S := S1x512x64) hz3, View.ld_unit_zero (S := S1x1) hz2, View.ld_unit_zero (S := S512x64) hz2, View.ld_unit_zero (S := S512x1) hz2]

end Cert.KernelIdeal.Attention

end
-- ==== Proof.AttentionPayloads.lean ====
/-
  The attention pass's arithmetic read at an index, at the ideal values.

  With P the tile's [512, 512] weights: the accumulator step adds, at (p, d), the sum over the key
  column q of P[p, q] times the value tile's [q, d]; the weight-sum step adds the row sum of P; the
  stored tile is the accumulator divided by the weight sum of its row.  Narrowings of the float
  format and casts between [1, a, b] and [a, b] change nothing at the ideal values.
-/
import proofs.«157401_j56521769615696_2_alg».proof.Proof.AttentionPiecesIdeal
import proofs.«157401_j56521769615696_2_alg».proof.Proof.MaskedTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttentionValue

open Cert.KernelIdeal Cert.KernelIdeal.Gen
open Idealize.ShloMosaic Idealize.ShloMosaic.TcCoe Idealize.ShloMosaic.ValueIdx Idealize.SL.Sem
open scoped BigOperators

/-! ## The weights-times-values product at an index -/

theorem lhs_0 (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_1 (i : S512x64.Idx) (q : dot_S512x512_S512x64_S512x64_1_0_0_1_n_n.contr.Idx) : (dot_S512x512_S512x64_S512x64_1_0_0_1_n_n.lhsIdx i q 1).val = (q ⟨0, by decide⟩).val :=
  dot_S512x512_S512x64_S512x64_1_0_0_1_n_n.lhsIdx_val_of_single rfl i q
theorem rhs_0 (i : S512x64.Idx) (q : dot_S512x512_S512x64_S512x64_1_0_0_1_n_n.contr.Idx) : (dot_S512x512_S512x64_S512x64_1_0_0_1_n_n.rhsIdx i q 0).val = (q ⟨0, by decide⟩).val :=
  dot_S512x512_S512x64_S512x64_1_0_0_1_n_n.rhsIdx_val_of_single rfl i q
theorem rhs_1 (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- A [512, 512] block times a [512, 64] block into zero, at (p, d): row p against column d. -/
theorem pv_apply {φ₁ φ₂ : FTy} (prec : Option ContractPrecision) (lhs : FVec Ideal S512x512 φ₁) (rhs : FVec Ideal S512x64 φ₂)
    (p : Fin 512) (d : Fin 64) :
    FloatOps.matmul dot_S512x512_S512x64_S512x64_1_0_0_1_n_n prec lhs rhs (constant S512x64 .f32 0x00000000#32) (ix2 p d) = ∑ q : Fin 512, lhs (ix2 p q) * rhs (ix2 q d) := by
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 p d) ((contrEquiv1 dot_S512x512_S512x64_S512x64_1_0_0_1_n_n 512 rfl rfl).symm k) = ix2 p k := funext fun a => Fin.ext (by
    match a with
    | ⟨0, _⟩ => exact lhs_0 _ _
    | ⟨1, _⟩ => exact (lhs_1 _ _).trans hk)
  have er : dot_S512x512_S512x64_S512x64_1_0_0_1_n_n.rhsIdx (ix2 p d) ((contrEquiv1 dot_S512x512_S512x64_S512x64_1_0_0_1_n_n 512 rfl rfl).symm k) = ix2 k d := funext fun a => Fin.ext (by
    match a with
    | ⟨0, _⟩ => exact (rhs_0 _ _).trans hk
    | ⟨1, _⟩ => exact rhs_1 _ _)
  rw [el, er]

/-! ## The payloads -/

/-- The tile's weights are the exponential of the masked scaled scores less the global maximum's word. -/
theorem k2_pay5_eq {F : FTy → Type} [FloatOps F] [Named F] (a1 a2 : BitVec 32) (v9 v11 : Vec F S1x512x64 .f32) (v29 : Vec F S1x1 .f32) :
    k2_pay5 a1 a2 v9 v11 v29 = exp (subf (MaskedTile.maskedTile a1 a2 v9 v11) (broadcast S512x512 (extractAt ![0, 0] v29 inpos_S1x1_p0_0))) := rfl

/-- At (p, q), for query tile i and key tile j: exp of the scaled score (least where the key position
    512 j + q is after the query position 512 i + p) less the maximum. -/
theorem k2_pay5_apply (i j : Fin 4) (v9 v11 : Vec Ideal S1x512x64 .f32) (v29 : Vec Ideal S1x1 .f32) (p q : Fin 512) :
    k2_pay5 (F := Ideal) (BitVec.ofNat 32 i.val) (BitVec.ofNat 32 j.val) v9 v11 v29 (ix2 p q)
      = Ideal.exp ((if 512 * j.val + q.val ≤ 512 * i.val + p.val then (∑ d : Fin 64, v9 (ix3 (0 : Fin 1) p d) * v11 (ix3 (0 : Fin 1) q d)) * Ideal.ofBits .f32 0x3E000000#32 else ⊥)
          - v29 (ix2 (0 : Fin 1) (0 : Fin 1))) := by
  rw [k2_pay5_eq]
  show Ideal.exp (MaskedTile.maskedTile (F := Ideal) (BitVec.ofNat 32 i.val) (BitVec.ofNat 32 j.val) v9 v11 (ix2 p q) - extractAt ![0, 0] v29 inpos_S1x1_p0_0) = _
  rw [MaskedTile.maskedTile_apply]
  have e : extractAt ![0, 0] v29 inpos_S1x1_p0_0 = v29 (ix2 (0 : Fin 1) (0 : Fin 1)) := by
    unfold extractAt
    exact congrArg v29 (funext fun a => Fin.ext (by match a with | ⟨0, _⟩ => rfl | ⟨1, _⟩ => rfl))
  rw [e]

/-- The accumulator step at (p, d): the previous value plus the row of weights against the column of values. -/
theorem k2_pay6_apply (a1 a2 : BitVec 32) (v9 v11 : Vec Ideal S1x512x64 .f32) (v13 : Vec Ideal S1x512x64 .bf16) (v29 : Vec Ideal S1x1 .f32)
    (v34 : Vec Ideal S512x64 .f32) (p : Fin 512) (d : Fin 64) :
    k2_pay6 (F := Ideal) a1 a2 v9 v11 v13 v29 v34 (ix2 p d)
      = v34 (ix2 p d) + ∑ q : Fin 512, k2_pay5 (F := Ideal) a1 a2 v9 v11 v29 (ix2 p q) * v13 (ix3 (0 : Fin 1) q d) := by
  unfold k2_pay6
  generalize k2_pay5 (F := Ideal) a1 a2 v9 v11 v29 = P
  simp only [shapeCast_self, matmul]
  rw [addf_apply, pv_apply]
  refine congrArg (v34 (ix2 p d) + ·) (Finset.sum_congr rfl fun q _ => ?_)
  rw [truncf_apply, shapeCast_1ab_ab_apply]

/-- The row sum of the weights at row p. -/
theorem k2_pay7_apply (a1 a2 : BitVec 32) (v9 v11 : Vec Ideal S1x512x64 .f32) (v29 : Vec Ideal S1x1 .f32) (p : Fin 512) (u : Fin 1) :
    k2_pay7 (F := Ideal) a1 a2 v9 v11 v29 (ix2 p u) = ∑ q : Fin 512, k2_pay5 (F := Ideal) a1 a2 v9 v11 v29 (ix2 p q) := by
  unfold k2_pay7
  generalize k2_pay5 (F := Ideal) a1 a2 v9 v11 v29 = P
  dsimp only
  rw [shapeCast_apply _ shapeCasts_S512_S512x1 (ix2 p u) (ix1 p) (by
    rw [Shape.rowMajor_val_one, Shape.rowMajor_val_two]
    have hu : u.val = 0 := by omega
    show p.val = p.val * 1 + u.val
    omega)]
  refine (Ideal.multiReduction_add_single P 0x00000000#32 reduces_S512x512_S512 (.inl rfl) rfl (ix1 p)).trans ?_
  refine Finset.sum_congr rfl fun q _ => ?_
  exact congrArg P (funext fun a => Fin.ext (by match a with | ⟨0, _⟩ => rfl | ⟨1, _⟩ => rfl))

/-- The weight-sum step: the previous sums plus the tile's row sums. -/
theorem k2_pay3_apply (v41 : Vec Ideal S512x1 .f32) (v43 : FVec Ideal S512x1 .f32) (j : S512x1.Idx) :
    k2_pay3 (F := Ideal) v41 v43 j = v41 j + v43 j := by
  unfold k2_pay3
  simp only [shapeCast_self]
  rfl

/-- The zero fills of the first key tile. -/
theorem k2_pay1_apply (j : S512x64.Idx) : k2_pay1 (F := Ideal) j = 0 := by
  unfold k2_pay1
  simp only [shapeCast_self]
  exact Ideal.ofBits_zero_f32
theorem k2_pay2_apply (j : S512x1.Idx) : k2_pay2 (F := Ideal) j = 0 := by
  unfold k2_pay2
  simp only [shapeCast_self]
  exact Ideal.ofBits_zero_f32

/-- The stored tile at (p, d): the accumulator over the weight sum of row p. -/
theorem k2_pay4_apply (v9 : Vec Ideal S512x64 .f32) (v10 : Vec Ideal S512x1 .f32) (u : Fin 1) (p : Fin 512) (d : Fin 64) :
    k2_pay4 (F := Ideal) v9 v10 (ix3 u p d) = Ideal.div (v9 (ix2 p d)) (v10 (ix2 p (0 : Fin 1))) := by
  unfold k2_pay4
  rw [shapeCast_ab_1ab_apply, truncf_apply, divf_apply]
  refine congrArg (Ideal.div (v9 (ix2 p d))) ?_
  exact broadcastTo_apply v10 broadcasts_S512x1_S512x64 (ix2 p d) (ix2 p (0 : Fin 1)) (fun a => by
    match a with
    | ⟨0, _⟩ => rfl
    | ⟨1, _⟩ => rfl)

end Cert.KernelIdeal.AttentionValue

end
-- ==== Proof.LibRunningFold.lean ====
/-
  Running accumulations, as a loop computes them, are the sum, the maximum, the supremum of what was
  accumulated: a left-nested running sum from zero is the finite sum; a running maximum from minus infinity is the
  supremum; a left fold of max from minus infinity over a list is the supremum over the list's members. General facts
  (an additive commutative monoid for the sums; the extended reals for the maxima): no program is mentioned.
-/
import Mathlib.Data.EReal.Inv
import Mathlib.Algebra.BigOperators.Group.Finset.Basic

noncomputable section

namespace AttnNormalize

open scoped BigOperators

/-- The running sum of a sequence: zero, then each term added on the right of what was accumulated. -/
def runSum {M : Type*} [AddCommMonoid M] (f : ℕ → M) : ℕ → M
  | 0 => 0
  | n + 1 => runSum f n + f n

/-- The running sum after n steps is the sum of the first n terms. -/
theorem runSum_eq {M : Type*} [AddCommMonoid M] (f : ℕ → M) (n : ℕ) : runSum f n = ∑ k ∈ Finset.range n, f k := by
  induction n with
  | zero => rfl
  | succ n ih => rw [runSum, ih, Finset.sum_range_succ]

/-- The running maximum of a sequence of extended reals: minus infinity, then the maximum of what was accumulated and
    each term. -/
def runMax (f : ℕ → EReal) : ℕ → EReal
  | 0 => ⊥
  | n + 1 => max (runMax f n) (f n)

/-- The running maximum after n steps is the supremum of the first n terms (as a finite supremum). -/
theorem runMax_eq_sup (f : ℕ → EReal) (n : ℕ) : runMax f n = (Finset.range n).sup f := by
  induction n with
  | zero => rfl
  | succ n ih => rw [runMax, ih, Finset.range_add_one, Finset.sup_insert, max_comm]

/-- The running maximum after n steps is the supremum of the first n terms. -/
theorem runMax_eq_iSup (f : ℕ → EReal) (n : ℕ) : runMax f n = ⨆ k ∈ Finset.range n, f k := by
  rw [runMax_eq_sup, Finset.sup_eq_iSup]

/-- The running maximum after n steps is the supremum of the terms below n. -/
theorem runMax_eq_iSup_lt (f : ℕ → EReal) (n : ℕ) : runMax f n = ⨆ (k : ℕ) (_ : k < n), f k := by
  rw [runMax_eq_iSup]; simp only [Finset.mem_range]

/-- A left fold of max over a list, from any start z, is the maximum of z and the supremum over the members. -/
theorem foldl_max_eq {ι : Type*} (f : ι → EReal) (l : List ι) (z : EReal) :
    l.foldl (fun r a => max r (f a)) z = max z (⨆ a ∈ l, f a) := by
  induction l generalizing z with
  | nil => simp
  | cons x l ih =>
    rw [List.foldl_cons, ih]
    simp only [List.mem_cons, iSup_or, iSup_sup_eq, iSup_iSup_eq_left]
    exact max_assoc _ _ _

/-- A left fold of max from minus infinity over a list is the supremum over the list's members. -/
theorem foldl_max_bot_eq_iSup {ι : Type*} (f : ι → EReal) (l : List ι) :
    l.foldl (fun r a => max r (f a)) ⊥ = ⨆ a ∈ l, f a := by
  rw [foldl_max_eq, bot_sup_eq]

/-- The same for the list of values: a left fold of max from minus infinity over the mapped list. -/
theorem foldl_max_bot_map_eq_iSup {ι : Type*} (f : ι → EReal) (l : List ι) :
    (l.map f).foldl max ⊥ = ⨆ a ∈ l, f a := by
  rw [List.foldl_map]; exact foldl_max_bot_eq_iSup f l

end AttnNormalize

end
-- ==== Proof.AttentionTileStep.lean ====
/-
  What the attention pass leaves in its [64, 2048, 64] result array, at the ideal values.

  Fix a head bh, a query tile i and a row p of it (query position 512 i + p).  For a key tile j let
  w(q) = exp(masked scaled score of (512 i + p, 512 j + q) - M), M the one word of the maximum array,
  S_j(d) = sum over q of w(q) * value[512 j + q, d] and R_j = sum over q of w(q).  The two scratch
  buffers hold, after the key tile j of the group, the running sums ((0 + S_0) + S_1) + ... and
  ((0 + R_0) + R_1) + ... over the tiles up to min(j, i): tiles after the query tile touch nothing.  At
  the last key tile the stored tile is their quotient, and that block is written back; every row of the
  result lies in exactly one such block.
-/
import proofs.«157401_j56521769615696_2_alg».proof.Proof.AttentionPayloads
import proofs.«157401_j56521769615696_2_alg».proof.Proof.LibRunningFold
import Idealize.ShloMosaic.Lib.Pipeline.Value

set_option maxRecDepth 16384

noncomputable section

namespace Cert.KernelIdeal.AttentionValue

open Cert.KernelIdeal Cert.KernelIdeal.Gen Cert.KernelIdeal.Attention
open Idealize.ShloMosaic Idealize.ShloMosaic.TcCoe Idealize.ShloMosaic.ValueIdx Idealize.SL.Sem
open Idealize.ShloMosaic.Pipeline (Dat)
open AttnNormalize
open scoped BigOperators

variable (V : (c : Dev nD) → (b : Ref sig .tc) → Buf (Elt Ideal) ((c : Thread nD τ).loc b))

/-- The four arrays the call reads, as it finds them. -/
abbrev arrM (c : Dev nD) : S1x1.Idx → EReal := V c main_v15
abbrev arrQ (c : Dev nD) : S64x2048x64.Idx → EReal := V c main_v6
abbrev arrK (c : Dev nD) : S64x2048x64.Idx → EReal := V c main_v9
abbrev arrV (c : Dev nD) : S64x2048x64.Idx → EReal := V c main_v12

/-- Position 512 i + p of tile i (taken mod 4) and row p; head bh (taken mod 64). -/
abbrev pos (i : ℕ) (p : Fin 512) : Fin 2048 := ⟨512 * (i % 4) + p.val, by omega⟩
abbrev head (bh : ℕ) : Fin 64 := ⟨bh % 64, Nat.mod_lt _ (by decide)⟩

/-- The weight of key position (j, q) for query position (i, p) of head bh. -/
def wt (c : Dev nD) (bh i j : ℕ) (p q : Fin 512) : EReal :=
  Ideal.exp ((if 512 * (j % 4) + q.val ≤ 512 * (i % 4) + p.val then
      (∑ d : Fin 64, arrQ V c (ix3 (head bh) (pos i p) d) * arrK V c (ix3 (head bh) (pos j q) d)) * Ideal.ofBits .f32 0x3E000000#32 else ⊥)
    - arrM V c (ix2 (0 : Fin 1) (0 : Fin 1)))
/-- Key tile j's weights against its values, at lane d; and the weights' sum. -/
def Sf (c : Dev nD) (bh i : ℕ) (p : Fin 512) (d : Fin 64) (j : ℕ) : EReal := ∑ q : Fin 512, wt V c bh i j p q * arrV V c (ix3 (head bh) (pos j q) d)
def Rf (c : Dev nD) (bh i : ℕ) (p : Fin 512) (j : ℕ) : EReal := ∑ q : Fin 512, wt V c bh i j p q

/-- The result array: at (bh, n, d), with i = n / 512 and p = n % 512, the running sum of S over the key
    tiles 0 .. i divided by the running sum of R over the same tiles. -/
def result (c : Dev nD) : S64x2048x64.Idx → EReal := fun idx =>
  Ideal.div (runSum (Sf V c (idx 0).val ((idx 1).val / 512) ⟨(idx 1).val % 512, Nat.mod_lt _ (by decide)⟩ (idx 2)) ((idx 1).val / 512 + 1))
    (runSum (Rf V c (idx 0).val ((idx 1).val / 512) ⟨(idx 1).val % 512, Nat.mod_lt _ (by decide)⟩) ((idx 1).val / 512 + 1))

/-! ## The index maps and the grid's coordinates, decided over the grid -/

theorem idx_facts : ∀ t : Fin cfg2.N,
    (win2_0.index t (0 : Fin 2) = 0 ∧ win2_0.index t (1 : Fin 2) = 0)
    ∧ (win2_1.index t (0 : Fin 3) = t.val / 16 ∧ win2_1.index t (1 : Fin 3) = t.val / 4 % 4 ∧ win2_1.index t (2 : Fin 3) = 0)
    ∧ (win2_2.index t (0 : Fin 3) = t.val / 16 ∧ win2_2.index t (1 : Fin 3) = min (t.val % 4) (t.val / 4 % 4) ∧ win2_2.index t (2 : Fin 3) = 0)
    ∧ (win2_3.index t (0 : Fin 3) = t.val / 16 ∧ win2_3.index t (1 : Fin 3) = min (t.val % 4) (t.val / 4 % 4) ∧ win2_3.index t (2 : Fin 3) = 0)
    ∧ (win2_4.index t (0 : Fin 3) = t.val / 16 ∧ win2_4.index t (1 : Fin 3) = t.val / 4 % 4 ∧ win2_4.index t (2 : Fin 3) = 0)
    ∧ ((grid2.coords t 1).val = t.val / 4 % 4 ∧ (grid2.coords t 2).val = t.val % 4) :=
  (by decide +kernel : ∀ t : Fin grid2.N, _)

theorem lt_N (s : Fin cfg2.N) : s.val < 1024 := lt_of_lt_of_eq s.isLt (show cfg2.N = 1024 from N_2)

/-! ## The blocks at a point -/

theorem blkM (c : Dev nD) (s : Fin cfg2.N) (y : S1x1.Idx) : (iblk V c 0 s : Vec Ideal S1x1 .f32) y = arrM V c (ix2 (0 : Fin 1) (0 : Fin 1)) := by
  obtain ⟨⟨e0, e1⟩, -⟩ := idx_facts s
  have hy0 : (y 0).val = 0 := by have := (y 0).isLt; simp at this; omega
  have hy1 : (y 1).val = 0 := by have := (y 1).isLt; simp at this; omega
  show V c main_v15 (((cfg2.win 0).blk s).view.emb y) = V c main_v15 _
  congr 1
  funext a; apply Fin.ext
  match a with
  | ⟨0, _⟩ => show win2_0.index s (0 : Fin 2) * 1 + 1 * (y 0).val = 0; omega
  | ⟨1, _⟩ => show win2_0.index s (1 : Fin 2) * 1 + 1 * (y 1).val = 0; omega

theorem blkQ (c : Dev nD) (s : Fin cfg2.N) (p : Fin 512) (d : Fin 64) :
    (iblk V c 1 s : Vec Ideal S1x512x64 .f32) (ix3 (0 : Fin 1) p d) = arrQ V c (ix3 (head (s.val / 16)) (pos (s.val / 4 % 4) p) d) := by
  obtain ⟨-, ⟨e0, e1, e2⟩, -⟩ := idx_facts s
  have hs := lt_N s
  show V c main_v6 (((cfg2.win 1).blk s).view.emb (ix3 (0 : Fin 1) p d)) = V c main_v6 _
  congr 1
  funext a; apply Fin.ext
  match a with
  | ⟨0, _⟩ => show win2_1.index s (0 : Fin 3) * 1 + 1 * 0 = s.val / 16 % 64; omega
  | ⟨1, _⟩ => show win2_1.index s (1 : Fin 3) * 512 + 1 * p.val = 512 * (s.val / 4 % 4 % 4) + p.val; omega
  | ⟨2, _⟩ => show win2_1.index s (2 : Fin 3) * 64 + 1 * d.val = d.val; omega

theorem blkK (c : Dev nD) (s : Fin cfg2.N) (hc : s.val % 4 ≤ s.val / 4 % 4) (q : Fin 512) (d : Fin 64) :
    (iblk V c 2 s : Vec Ideal S1x512x64 .f32) (ix3 (0 : Fin 1) q d) = arrK V c (ix3 (head (s.val / 16)) (pos (s.val % 4) q) d) := by
  obtain ⟨-, -, ⟨e0, e1, e2⟩, -⟩ := idx_facts s
  have hs := lt_N s
  show V c main_v9 (((cfg2.win 2).blk s).view.emb (ix3 (0 : Fin 1) q d)) = V c main_v9 _
  congr 1
  funext a; apply Fin.ext
  match a with
  | ⟨0, _⟩ => show win2_2.index s (0 : Fin 3) * 1 + 1 * 0 = s.val / 16 % 64; omega
  | ⟨1, _⟩ => show win2_2.index s (1 : Fin 3) * 512 + 1 * q.val = 512 * (s.val % 4 % 4) + q.val; omega
  | ⟨2, _⟩ => show win2_2.index s (2 : Fin 3) * 64 + 1 * d.val = d.val; omega

theorem blkV (c : Dev nD) (s : Fin cfg2.N) (hc : s.val % 4 ≤ s.val / 4 % 4) (q : Fin 512) (d : Fin 64) :
    (iblk V c 3 s : Vec Ideal S1x512x64 .bf16) (ix3 (0 : Fin 1) q d) = arrV V c (ix3 (head (s.val / 16)) (pos (s.val % 4) q) d) := by
  obtain ⟨-, -, -, ⟨e0, e1, e2⟩, -⟩ := idx_facts s
  have hs := lt_N s
  show V c main_v12 (((cfg2.win 3).blk s).view.emb (ix3 (0 : Fin 1) q d)) = V c main_v12 _
  congr 1
  funext a; apply Fin.ext
  match a with
  | ⟨0, _⟩ => show win2_3.index s (0 : Fin 3) * 1 + 1 * 0 = s.val / 16 % 64; omega
  | ⟨1, _⟩ => show win2_3.index s (1 : Fin 3) * 512 + 1 * q.val = 512 * (s.val % 4 % 4) + q.val; omega
  | ⟨2, _⟩ => show win2_3.index s (2 : Fin 3) * 64 + 1 * d.val = d.val; omega

/-! ## One key tile's step -/

/-- The weights the body forms at a point with j <= i. -/
theorem weights_at (c : Dev nD) (s : Fin cfg2.N) (hc : s.val % 4 ≤ s.val / 4 % 4) (p q : Fin 512) :
    k2_pay5 (F := Ideal) (BitVec.ofNat 32 (grid2.coords s 1).val) (BitVec.ofNat 32 (grid2.coords s 2).val) (iblk V c 1 s) (iblk V c 2 s) (iblk V c 0 s) (ix2 p q)
      = wt V c (s.val / 16) (s.val / 4 % 4) (s.val % 4) p q := by
  obtain ⟨-, -, -, -, -, ⟨g1, g2⟩⟩ := idx_facts s
  rw [g1, g2]
  refine (k2_pay5_apply ⟨s.val / 4 % 4, by omega⟩ ⟨s.val % 4, by omega⟩ _ _ _ p q).trans ?_
  unfold wt
  rw [blkM]
  refine congrArg (fun z => Ideal.exp (z - arrM V c (ix2 (0 : Fin 1) (0 : Fin 1)))) ?_
  refine if_congr (by show 512 * (s.val % 4) + q.val ≤ 512 * (s.val / 4 % 4) + p.val ↔ _; omega) ?_ rfl
  refine congrArg (· * _) (Finset.sum_congr rfl fun d _ => ?_)
  rw [blkQ, blkK V c s hc]

theorem acc_step (c : Dev nD) (s : Fin cfg2.N) (hc : s.val % 4 ≤ s.val / 4 % 4) (xa : Vec Ideal S512x64 .f32) (p : Fin 512) (d : Fin 64) :
    k2_pay6 (F := Ideal) (BitVec.ofNat 32 (grid2.coords s 1).val) (BitVec.ofNat 32 (grid2.coords s 2).val) (iblk V c 1 s) (iblk V c 2 s) (iblk V c 3 s) (iblk V c 0 s) xa (ix2 p d)
      = xa (ix2 p d) + Sf V c (s.val / 16) (s.val / 4 % 4) p d (s.val % 4) := by
  rw [k2_pay6_apply]
  unfold Sf
  refine congrArg (xa (ix2 p d) + ·) (Finset.sum_congr rfl fun q _ => ?_)
  rw [weights_at V c s hc, blkV V c s hc]

theorem l_step (c : Dev nD) (s : Fin cfg2.N) (hc : s.val % 4 ≤ s.val / 4 % 4) (xl : Vec Ideal S512x1 .f32) (p : Fin 512) (u : Fin 1) :
    k2_pay3 (F := Ideal) xl (k2_pay7 (F := Ideal) (BitVec.ofNat 32 (grid2.coords s 1).val) (BitVec.ofNat 32 (grid2.coords s 2).val) (iblk V c 1 s) (iblk V c 2 s) (iblk V c 0 s)) (ix2 p u)
      = xl (ix2 p u) + Rf V c (s.val / 16) (s.val / 4 % 4) p (s.val % 4) := by
  rw [k2_pay3_apply, k2_pay7_apply]
  unfold Rf
  refine congrArg (xl (ix2 p u) + ·) (Finset.sum_congr rfl fun q _ => ?_)
  exact weights_at V c s hc p q

end Cert.KernelIdeal.AttentionValue

end
-- ==== Proof.AttentionResult.lean ====
/-
  The attention pass's result array.

  By induction on the point: after key tile j of a group the accumulator holds the running sum of the
  tile terms S over the tiles 0 .. min(j, i), and the weight sums that of R; the first tile starts
  both from zero, a tile at or below the query tile adds its term, a tile above it changes nothing.
  At the last key tile the stored tile is the quotient, row by row, and that block is written back;
  the block of the point 16 bh + 4 i + 3 is rows [512 i, 512 i + 512) of head bh.
-/
import proofs.«157401_j56521769615696_2_alg».proof.Proof.AttentionTileStep

set_option maxRecDepth 16384

noncomputable section

namespace Cert.KernelIdeal.AttentionValue

open Cert.KernelIdeal Cert.KernelIdeal.Gen Cert.KernelIdeal.Attention
open Idealize.ShloMosaic Idealize.ShloMosaic.TcCoe Idealize.ShloMosaic.ValueIdx Idealize.SL.Sem
open Idealize.ShloMosaic.Pipeline (Dat)
open AttnNormalize
open scoped BigOperators

variable (V : (c : Dev nD) → (b : Ref sig .tc) → Buf (Elt Ideal) ((c : Thread nD τ).loc b))

/-- The two accumulators after position n are the running sums over the key tiles 0 .. min(j, i). -/
def ScratchAt (c : Dev nD) (n : ℕ) (hn : n < cfg2.N) : Prop :=
  (∀ (p : Fin 512) (d : Fin 64), (outsAt V c n hn).2.1 (ix2 p d) = runSum (Sf V c (n / 16) (n / 4 % 4) p d) (min (n % 4) (n / 4 % 4) + 1))
  ∧ (∀ (p : Fin 512) (u : Fin 1), (outsAt V c n hn).2.2 (ix2 p u) = runSum (Rf V c (n / 16) (n / 4 % 4) p) (min (n % 4) (n / 4 % 4) + 1))

theorem scratch_first (c : Dev nD) (t : Fin cfg2.N) (h0 : t.val % 4 = 0) : ScratchAt V c t.val t.isLt := by
  have hc : t.val % 4 ≤ t.val / 4 % 4 := by omega
  have h3 : ¬t.val % 4 = 3 := by omega
  have hm : min (t.val % 4) (t.val / 4 % 4) + 1 = 0 + 1 := by omega
  unfold ScratchAt
  rw [outsAt_first V c t h0 hc h3, hm]
  refine ⟨fun p d => ?_, fun p u => ?_⟩
  · dsimp only
    rw [accFirst_eq, acc_step V c t hc, k2_pay1_apply, h0]
    rfl
  · dsimp only
    rw [lFirst_eq, l_step V c t hc, k2_pay2_apply, h0]
    rfl

theorem scratch_step (c : Dev nD) (t : Fin cfg2.N) (h0 : ¬t.val % 4 = 0)
    (ih : ScratchAt V c (t.val - 1) (Nat.lt_of_le_of_lt (Nat.sub_le _ _) t.isLt)) : ScratchAt V c t.val t.isLt := by
  obtain ⟨ihA, ihL⟩ := ih
  have e1 : (t.val - 1) / 16 = t.val / 16 := by omega
  have e2 : (t.val - 1) / 4 % 4 = t.val / 4 % 4 := by omega
  rw [e1, e2] at ihA ihL
  unfold ScratchAt
  by_cases hc : t.val % 4 ≤ t.val / 4 % 4
  · have hk : min ((t.val - 1) % 4) (t.val / 4 % 4) + 1 = t.val % 4 := by omega
    have hm : min (t.val % 4) (t.val / 4 % 4) + 1 = t.val % 4 + 1 := by omega
    rw [hk] at ihA ihL
    rw [hm]
    by_cases h3 : t.val % 4 = 3
    · rw [outsAt_lastAdvance V c t h0 hc h3]
      refine ⟨fun p d => ?_, fun p u => ?_⟩
      · dsimp only
        rw [accLastAdv_eq, acc_step V c t hc, ihA p d]
        rfl
      · dsimp only
        rw [lLastAdv_eq, l_step V c t hc, ihL p u]
        rfl
    · rw [outsAt_advance V c t h0 hc h3]
      refine ⟨fun p d => ?_, fun p u => ?_⟩
      · dsimp only
        rw [accAdv_eq, acc_step V c t hc, ihA p d]
        rfl
      · dsimp only
        rw [lAdv_eq, l_step V c t hc, ihL p u]
        rfl
  · have hm : min ((t.val - 1) % 4) (t.val / 4 % 4) + 1 = min (t.val % 4) (t.val / 4 % 4) + 1 := by omega
    rw [hm] at ihA ihL
    by_cases h3 : t.val % 4 = 3
    · rw [outsAt_lastStore V c t h0 hc h3]
      exact ⟨fun p d => ihA p d, fun p u => ihL p u⟩
    · rw [outsAt_idle V c t h0 hc h3]
      exact ⟨fun p d => ihA p d, fun p u => ihL p u⟩

theorem scratch_eq (c : Dev nD) : ∀ (n : ℕ) (hn : n < cfg2.N), ScratchAt V c n hn
  | 0, hn => scratch_first V c ⟨0, hn⟩ rfl
  | n + 1, hn => by
    by_cases h0 : (n + 1) % 4 = 0
    · exact scratch_first V c ⟨n + 1, hn⟩ h0
    · exact scratch_step V c ⟨n + 1, hn⟩ h0 (scratch_eq c n (Nat.lt_of_succ_lt hn))

/-- At the last key tile the stored tile is the quotient of the two accumulators as they then stand. -/
theorem out_eq (c : Dev nD) (t : Fin cfg2.N) (h3 : t.val % 4 = 3) :
    (outsAt V c t.val t.isLt).1 = k2_pay4 (F := Ideal) (outsAt V c t.val t.isLt).2.1 (outsAt V c t.val t.isLt).2.2 := by
  have h0 : ¬t.val % 4 = 0 := by omega
  by_cases hc : t.val % 4 ≤ t.val / 4 % 4
  · rw [outsAt_lastAdvance V c t h0 hc h3]
    dsimp only
    rw [outLastAdv_eq, accLastAdv_eq, lLastAdv_eq]
  · rw [outsAt_lastStore V c t h0 hc h3]
    dsimp only
    rw [outLastStore_eq]

/-- What a writing-back point writes is its block of the result. -/
theorem flushed_eq (c : Dev nD) (t : Fin cfg2.N) (hf : (cfg2.win 4).flush t = true) :
    (dat (F := Ideal) V c).flushed 4 t = ((cfg2.win 4).blk t).view.read (Elt Ideal) (result V c) := by
  have h3 : t.val % 4 = 3 := (flush2_4 t).mp hf
  have hs := lt_N t
  obtain ⟨sA, sL⟩ := scratch_eq V c t.val t.isLt
  obtain ⟨-, -, -, -, ⟨e0, e1, e2⟩, -⟩ := idx_facts t
  show (cfg2.win 4).cut (grid2.coords t) ((dat (F := Ideal) V c).after 4 t) = _
  rw [after_4, out_eq V c t h3]
  funext j
  obtain ⟨u, p, d, rfl⟩ : ∃ (u : Fin 1) (p : Fin 512) (d : Fin 64), j = ix3 u p d := ⟨j 0, j 1, j 2, eq_ix3 j⟩
  show k2_pay4 (F := Ideal) _ _ (ix3 u p d) = result V c (((cfg2.win 4).blk t).view.emb (ix3 u p d))
  rw [k2_pay4_apply, sA p d, sL p 0]
  have hu : u.val = 0 := by omega
  have hi0 : ((((cfg2.win 4).blk t).view.emb (ix3 u p d)) 0).val = t.val / 16 := by
    show win2_4.index t (0 : Fin 3) * 1 + 1 * u.val = _; omega
  have hi1 : ((((cfg2.win 4).blk t).view.emb (ix3 u p d)) 1).val = 512 * (t.val / 4 % 4) + p.val := by
    show win2_4.index t (1 : Fin 3) * 512 + 1 * p.val = _; omega
  have hi2 : (((cfg2.win 4).blk t).view.emb (ix3 u p d)) 2 = d := Fin.ext (by
    show win2_4.index t (2 : Fin 3) * 64 + 1 * d.val = d.val; omega)
  generalize ((cfg2.win 4).blk t).view.emb (ix3 u p d) = idx at hi0 hi1 hi2
  unfold result
  have hp : (⟨(idx 1).val % 512, Nat.mod_lt _ (by decide)⟩ : Fin 512) = p := Fin.ext (by show (idx 1).val % 512 = p.val; omega)
  have hq : (idx 1).val / 512 = t.val / 4 % 4 := by omega
  have hm : min (t.val % 4) (t.val / 4 % 4) + 1 = t.val / 4 % 4 + 1 := by omega
  rw [hp, hq, hi0, hi2, hm]

/-- Membership in a point's block of the result, coordinate by coordinate. -/
theorem mem_blk (t : Fin cfg2.N) (i : S64x2048x64.Idx) :
    i ∈ ((cfg2.win 4).blk t).view.set ↔ ∀ a : Fin 3, win2_4.index t a * S1x512x64.size a ≤ (i a).val
      ∧ (i a).val < win2_4.index t a * S1x512x64.size a + S1x512x64.size a := by
  show i ∈ ((View.whole main_v16).slice (win2_4.rect t)).set ↔ _
  rw [View.set_slice_whole, Rect.mem_set_unit]
  exact Iff.rfl

/-- Every index of the result lies in the block of the point 16 bh + 4 (n / 512) + 3, which writes back. -/
theorem cover (i : S64x2048x64.Idx) :
    ∃ t : Fin cfg2.N, (cfg2.win 4).flush t = true ∧ i ∈ ((cfg2.win 4).blk t).view.set := by
  have hi0 : (i 0).val < 64 := (i 0).isLt
  have hi1 : (i 1).val < 2048 := (i 1).isLt
  have hi2 : (i 2).val < 64 := (i 2).isLt
  have hN : cfg2.N = 1024 := N_2
  obtain ⟨t, ht⟩ : ∃ t : Fin cfg2.N, t.val = 16 * (i 0).val + 4 * ((i 1).val / 512) + 3 :=
    ⟨⟨16 * (i 0).val + 4 * ((i 1).val / 512) + 3, by rw [hN]; omega⟩, rfl⟩
  obtain ⟨-, -, -, -, ⟨e0, e1, e2⟩, -⟩ := idx_facts t
  refine ⟨t, (flush2_4 t).mpr (by omega), ?_⟩
  rw [mem_blk]
  intro a
  match a with
  | ⟨0, _⟩ =>
    show win2_4.index t (0 : Fin 3) * 1 ≤ (i 0).val ∧ (i 0).val < win2_4.index t (0 : Fin 3) * 1 + 1
    rw [e0, ht]; omega
  | ⟨1, _⟩ =>
    show win2_4.index t (1 : Fin 3) * 512 ≤ (i 1).val ∧ (i 1).val < win2_4.index t (1 : Fin 3) * 512 + 512
    rw [e1, ht]; omega
  | ⟨2, _⟩ =>
    show win2_4.index t (2 : Fin 3) * 64 ≤ (i 2).val ∧ (i 2).val < win2_4.index t (2 : Fin 3) * 64 + 64
    rw [e2]; omega

/-- THE RESULT ARRAY after the call. -/
theorem final (c : Dev nD) : (dat (F := Ideal) V c).arrAt 4 cfg2.N = result V c :=
  (dat (F := Ideal) V c).arrAt_eq_of_cover 4 (result V c) (fun t hf => flushed_eq V c t hf) cover

/-- The four input arrays are unchanged by the call. -/
theorem kept_0 (c : Dev nD) : (dat (F := Ideal) V c).arrAt 0 cfg2.N = V c main_v15 :=
  ((dat (F := Ideal) V c).arrAt_in 0 rfl _).trans (A_eq V c 0)
theorem kept_1 (c : Dev nD) : (dat (F := Ideal) V c).arrAt 1 cfg2.N = V c main_v6 :=
  ((dat (F := Ideal) V c).arrAt_in 1 rfl _).trans (A_eq V c 1)
theorem kept_2 (c : Dev nD) : (dat (F := Ideal) V c).arrAt 2 cfg2.N = V c main_v9 :=
  ((dat (F := Ideal) V c).arrAt_in 2 rfl _).trans (A_eq V c 2)
theorem kept_3 (c : Dev nD) : (dat (F := Ideal) V c).arrAt 3 cfg2.N = V c main_v12 :=
  ((dat (F := Ideal) V c).arrAt_in 3 rfl _).trans (A_eq V c 3)

end Cert.KernelIdeal.AttentionValue

end
-- ==== Proof.OutProjValue.lean ====
/-
  The output projection's value. The call's grid has 16 points; point t multiplies rows [512 t, 512 t + 512) of its first
  array by the transposed second array, into zero, and writes the same rows of the result. At the ideal values a matrix
  product read at an index is the sum over the contracted axis of the products; every row of the result lies in exactly
  the block of the point (row / 512); so the result array ends holding, at (r, o), the sum over k of O[r, k] · W[o, k]
  of the two arrays as the call finds them, and the two input arrays end unchanged.
-/
import proofs.«157401_j56521769615696_2_alg».proof.Proof.OutProjIdeal
import Idealize.ShloMosaic.Lib.Pipeline.Value
import Idealize.ShloMosaic.Lib.ValueIdx
import Idealize.ShloMosaic.PureOps.Ideal.Laws

set_option maxRecDepth 16384

noncomputable section

namespace Cert.KernelIdeal.OutProjValue

open Cert.KernelIdeal Cert.KernelIdeal.Gen Cert.KernelIdeal.OutProj
open Idealize.ShloMosaic Idealize.ShloMosaic.TcCoe Idealize.ShloMosaic.ValueIdx Idealize.SL.Sem
open Idealize.ShloMosaic.Pipeline (Dat)
open scoped BigOperators

/-! ## The product read at an index -/

theorem hz : (![0, 0] : Fin 2 → Nat) = fun _ => 0 := funext fun a => by fin_cases a <;> rfl

theorem lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The body's payload at (r, o): the row r of the first block against the row o of the second, summed over the
    contracted axis. -/
theorem pay_apply (x0 : Vec Ideal S512x1024 .bf16) (x1 : Vec Ideal S1024x1024 .bf16) (r : Fin 512) (o : Fin 1024) :
    k3_pay1 (F := Ideal) x0 x1 (ix2 r o) = ∑ k : Fin 1024, x0 (ix2 r k) * x1 (ix2 o k) := by
  unfold k3_pay1
  simp only [shapeCast_self, matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r o) ((contrEquiv1 dot_S512x1024_S1024x1024_S512x1024_1_1_0_0_n_n 1024 rfl rfl).symm k) = ix2 r k := funext fun a => Fin.ext (by
    match a with
    | ⟨0, _⟩ => exact lhs_0 _ _
    | ⟨1, _⟩ => exact (lhs_1 _ _).trans hk)
  have er : dot_S512x1024_S1024x1024_S512x1024_1_1_0_0_n_n.rhsIdx (ix2 r o) ((contrEquiv1 dot_S512x1024_S1024x1024_S512x1024_1_1_0_0_n_n 1024 rfl rfl).symm k) = ix2 o k := funext fun a => Fin.ext (by
    match a with
    | ⟨0, _⟩ => exact rhs_0 _ _
    | ⟨1, _⟩ => exact (rhs_1 _ _).trans hk)
  rw [el, er]

/-! ## From blocks to the array -/

variable (V : (c : Dev nD) → (b : Ref sig .tc) → Buf (Elt Ideal) ((c : Thread nD τ).loc b))

/-- The call's first array as it finds it: 8192 rows of width 1024, as extended reals. -/
abbrev arrO (c : Dev nD) : S8192x1024.Idx → EReal := V c main_v19
/-- The call's second array as it finds it: the 1024 x 1024 weight, as extended reals. -/
abbrev arrW (c : Dev nD) : S1024x1024.Idx → EReal := V c main_v2

/-- The result at row r, column o: row r of the first array against row o of the second. -/
def prodAt (c : Dev nD) (r : Fin 8192) (o : Fin 1024) : EReal :=
  ∑ k : Fin 1024, arrO V c (ix2 r k) * arrW V c (ix2 o k)

/-- The whole result array as one function of the two arrays the call finds. -/
def prod (c : Dev nD) : S8192x1024.Idx → EReal := fun idx => prodAt V c (idx 0) (idx 1)

/-- The printed index maps, decided over the grid: the row blocks of the first array and of the result move with the
    point, the second array's one block stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the two arrays. -/
theorem flushed_eq (c : Dev nD) (t : Fin cfg3.N) :
    (dat (F := Ideal) V c).flushed 2 t = ((cfg3.win 2).blk t).view.read (Elt Ideal) (prod V c) := by
  show (cfg3.win 2).cut (grid3.coords t) ((dat (F := Ideal) V c).after 2 t) = _
  rw [after_2]
  unfold outBlock
  rw [View.canon_unit_zero hz]
  simp only [View.ld_unit_zero (S := S512x1024) hz, View.ld_unit_zero (S := S1024x1024) hz]
  obtain ⟨e00, e01, e10, e11, e20, e21⟩ := idx_facts t
  funext j
  obtain ⟨r, o, rfl⟩ : ∃ (r : Fin 512) (o : Fin 1024), j = ix2 r o := ⟨j 0, j 1, eq_ix2 j⟩
  show k3_pay1 (F := Ideal) (iblk V c 0 t) (iblk V c 1 t) (ix2 r o) = prod V c (((cfg3.win 2).blk t).view.emb (ix2 r o))
  rw [pay_apply]
  unfold prod prodAt
  refine Finset.sum_congr rfl fun k _ => ?_
  congr 1
  · show V c main_v19 (((cfg3.win 0).blk t).view.emb (ix2 r k)) = V c main_v19 _
    congr 1
    funext a; apply Fin.ext
    match a with
    | ⟨0, _⟩ => show win3_0.index t (0 : Fin 2) * 512 + 1 * r.val = win3_2.index t (0 : Fin 2) * 512 + 1 * r.val; omega
    | ⟨1, _⟩ => show win3_0.index t (1 : Fin 2) * 1024 + 1 * k.val = k.val; omega
  · show V c main_v2 (((cfg3.win 1).blk t).view.emb (ix2 o k)) = V c main_v2 _
    congr 1
    funext a; apply Fin.ext
    match a with
    | ⟨0, _⟩ => show win3_1.index t (0 : Fin 2) * 1024 + 1 * o.val = win3_2.index t (1 : Fin 2) * 1024 + 1 * o.val; omega
    | ⟨1, _⟩ => show win3_1.index t (1 : Fin 2) * 1024 + 1 * k.val = k.val; omega

/-- An index of the result array is in point t's block iff each coordinate is in the block's range on its axis. -/
theorem mem_blk (t : Fin cfg3.N) (i : S8192x1024.Idx) :
    i ∈ ((cfg3.win 2).blk t).view.set ↔ ∀ a : Fin 2, win3_2.index t a * S512x1024.size a ≤ (i a).val
      ∧ (i a).val < win3_2.index t a * S512x1024.size a + S512x1024.size a := by
  show i ∈ ((View.whole main_v20).slice (win3_2.rect t)).set ↔ _
  rw [View.set_slice_whole, Rect.mem_set_unit]
  exact Iff.rfl

/-- Every index of the result array lies in the block of the point (row / 512), which writes back. -/
theorem cover (i : S8192x1024.Idx) :
    ∃ t : Fin cfg3.N, (cfg3.win 2).flush t = true ∧ i ∈ ((cfg3.win 2).blk t).view.set := by
  have hi0 : (i 0).val < 8192 := (i 0).isLt
  have hi1 : (i 1).val < 1024 := (i 1).isLt
  have hN : cfg3.N = 16 := N_3
  obtain ⟨t, ht⟩ : ∃ t : Fin cfg3.N, t.val = (i 0).val / 512 := ⟨⟨(i 0).val / 512, by rw [hN]; omega⟩, rfl⟩
  obtain ⟨-, -, -, -, e20, e21⟩ := idx_facts t
  refine ⟨t, flush3_2 t, ?_⟩
  rw [mem_blk]
  intro a
  match a with
  | ⟨0, _⟩ =>
    show win3_2.index t (0 : Fin 2) * 512 ≤ (i 0).val ∧ (i 0).val < win3_2.index t (0 : Fin 2) * 512 + 512
    rw [e20, ht]; omega
  | ⟨1, _⟩ =>
    show win3_2.index t (1 : Fin 2) * 1024 ≤ (i 1).val ∧ (i 1).val < win3_2.index t (1 : Fin 2) * 1024 + 1024
    rw [e21]; omega

/-- THE RESULT ARRAY after the call: at (r, o) the sum over k of the first array's (r, k) times the second's (o, k). -/
theorem final (c : Dev nD) : (dat (F := Ideal) V c).arrAt 2 cfg3.N = prod V c :=
  (dat (F := Ideal) V c).arrAt_eq_of_cover 2 (prod V c) (fun t _ => flushed_eq V c t) cover

/-- The result read at an index given by its coordinates. -/
theorem prod_ix2 (c : Dev nD) (r : Fin 8192) (o : Fin 1024) : prod V c (ix2 r o) = prodAt V c r o := rfl

/-- The first input array is unchanged by the call. -/
theorem kept_0 (c : Dev nD) : (dat (F := Ideal) V c).arrAt 0 cfg3.N = V c main_v19 :=
  ((dat (F := Ideal) V c).arrAt_in 0 rfl _).trans (A_eq V c 0)

/-- The second input array is unchanged by the call. -/
theorem kept_1 (c : Dev nD) : (dat (F := Ideal) V c).arrAt 1 cfg3.N = V c main_v2 :=
  ((dat (F := Ideal) V c).arrAt_in 1 rfl _).trans (A_eq V c 1)

end Cert.KernelIdeal.OutProjValue

end
-- ==== Proof.RefIsSpec.lean ====
/-
  The plain jnp reference's result IS the specification. The generated stage lemmas read each operation of
  the reference at an index; chained from the last operation back to the arguments they give, coordinate by
  coordinate, exactly the terms of the specification (Cert.AttnSpec): three projections split into heads, the scaled
  and masked scores, the maximum over the whole array, the weights, their sums, the probabilities, the contexts and
  the output projection. Three steps are not a mere reading:
  * the lower-triangular mask is built from two iotas compared as signed 32-bit words; on positions below 2048 the
    comparison is the comparison of the positions (tril_select);
  * the maximum over all four axes is a fold of max from the f32 pattern of minus infinity over every index; a fold of
    max from the bottom element is the supremum, which regroups into the iterated supremum over the four coordinates
    (reduce_max_total, iSup_idx4);
  * the sums start from the f32 pattern of zero, which is the extended real zero.
-/
import proofs.«157401_j56521769615696_2_alg».proof.Proof.Gen.ReferenceIdeal.Read
import proofs.«157401_j56521769615696_2_alg».proof.Proof.LibAttnNormalize
import proofs.«157401_j56521769615696_2_alg».proof.Proof.AttnSpec

noncomputable section

namespace Cert.RefIsSpec

open Cert.ReferenceIdeal Cert.ReferenceIdeal.Gen Cert.ReferenceIdeal.Read Idealize.ShloMosaic Idealize.ShloMosaic.ValueIdx
open Cert.AttnSpec
open scoped BigOperators

/-! ## The causal mask -/

/-- A position below 2048, as a 32-bit word read signed, is the position. -/
theorem toInt_ofNat_pos (n : ℕ) (hn : n < 2048) : (BitVec.ofNat 32 n).toInt = (n : ℤ) := by
  have h1 : (BitVec.ofNat 32 n).toNat = n := by rw [BitVec.toNat_ofNat]; omega
  rw [BitVec.toInt_eq_toNat_of_lt (by rw [h1]; omega), h1]

/-- The lower-triangular mask as the reference builds it — row iota plus zero compared signed-greater-or-equal with the
    column iota, selecting true or false — then selecting between two values, is the choice by the comparison of the
    positions: the first value where the column is at most the row. -/
theorem tril_select {α : Type} (n m : ℕ) (hn : n < 2048) (hm : m < 2048) (a c : α) :
    Scalar.select (Scalar.select (IntOp.cmpi .sge (IntOp.addi (BitVec.ofNat 32 n) 0#32) (BitVec.ofNat 32 m)) 1#1 0#1) a c
      = if m ≤ n then a else c := by
  have e0 : IntOp.addi (BitVec.ofNat 32 n) 0#32 = BitVec.ofNat 32 n := BitVec.add_zero _
  rw [e0]
  by_cases h : m ≤ n
  · have hc : IntOp.cmpi .sge (BitVec.ofNat 32 n) (BitVec.ofNat 32 m) = 1#1 :=
      IntOp.cmpi_sge.mpr (by rw [toInt_ofNat_pos n hn, toInt_ofNat_pos m hm]; exact_mod_cast h)
    rw [hc, if_pos h]; rfl
  · have hc : ¬IntOp.cmpi .sge (BitVec.ofNat 32 n) (BitVec.ofNat 32 m) = (1 : BitVec 1) := fun hc =>
      h (by have := IntOp.cmpi_sge.mp hc; rw [toInt_ofNat_pos n hn, toInt_ofNat_pos m hm] at this; exact_mod_cast this)
    rw [if_neg h]
    unfold Scalar.select
    rw [if_neg hc, if_neg (show ¬(0#1 : BitVec 1) = 1 by decide)]

/-! ## The maximum over a whole array -/

/-- A reduce by maximum from minus infinity into a result of one index is the supremum of the operand over all its
    indices: every index reduces into the one result, a fold of max from the bottom element is the supremum. -/
theorem reduce_max_total {s t u : Shape} {axes : List (Fin s.rank)} [Subsingleton t.Idx] (y : s.Idx → EReal)
    (init : u.Idx → EReal) (h : s.ReducesTo axes t) (hu : 0 < u.numel) (hinit : init (Shape.Idx.first hu) = ⊥)
    (j : t.Idx) :
    Host.reduce (FloatOps.maximumf (F := Ideal) (φ := .f32)) y init h hu j = ⨆ i, y i := by
  rw [Host.reduce_eq_fold, hinit, Finset.filter_true_of_mem (fun i _ => Subsingleton.elim _ _)]
  exact AttnNormalize.fold_max_bot_univ_eq_iSup y

/-- The supremum over the indices of a rank-4 array is the iterated supremum over its four coordinates. -/
theorem iSup_idx4 {n0 n1 n2 n3 : ℕ} (y : (⟨4, ![n0, n1, n2, n3]⟩ : Shape).Idx → EReal) :
    (⨆ i, y i) = ⨆ (a : Fin n0) (b : Fin n1) (c : Fin n2) (d : Fin n3), y (ix4 a b c d) := by
  apply le_antisymm
  · refine iSup_le fun i => ?_
    rw [eq_ix4 i]
    exact le_iSup_of_le (i 0) (le_iSup_of_le (i 1) (le_iSup_of_le (i 2) (le_iSup_of_le (i 3) le_rfl)))
  · exact iSup_le fun a => iSup_le fun b => iSup_le fun c => iSup_le fun d => le_iSup y (ix4 a b c d)

instance : Subsingleton S_.Idx := ⟨fun a b => funext fun d => d.elim0⟩

variable (x0 : (⟨S4x2048x1024, .f32⟩ : BufTy).Contents (Elt Ideal))
  (x1 x2 x3 x4 : (⟨S1024x1024, .f32⟩ : BufTy).Contents (Elt Ideal))

/-! ## The projections, split into heads -/

section Proj
variable (b : Fin 4) (h : Fin 16) (n : Fin 2048) (d : Fin 64) (k : Fin 1024)

/-- Position (b, h, n, d) of a projection split into heads and transposed is element (b, n, 64 h + d) of the
    projection: the row-major position ((b·2048 + n)·16 + h)·64 + d read back in the shape 4 x 2048 x 1024. -/
theorem head_lidx_q : lidx_main_v0 (idx_main_v1 (idx_main_v2 (ix4 b h n d))) k = ix3 b n k := by
  funext a; apply Fin.ext
  have hb := b.isLt; have hh := h.isLt; have hn := n.isLt; have hd := d.isLt
  match a with
  | ⟨0, _⟩ => show (((b.val * 2048 + n.val) * 16 + h.val) * 64 + d.val) / 2097152 = b.val; omega
  | ⟨1, _⟩ => show (((b.val * 2048 + n.val) * 16 + h.val) * 64 + d.val) / 1024 % 2048 = n.val; omega
  | ⟨2, _⟩ => rfl
theorem head_ridx_q : ridx_main_v0 (idx_main_v1 (idx_main_v2 (ix4 b h n d))) k = ix2 (headCol h d) k := by
  funext a; apply Fin.ext
  have hb := b.isLt; have hh := h.isLt; have hn := n.isLt; have hd := d.isLt
  match a with
  | ⟨0, _⟩ => show (((b.val * 2048 + n.val) * 16 + h.val) * 64 + d.val) % 1024 = h.val * 64 + d.val; omega
  | ⟨1, _⟩ => rfl
theorem head_lidx_k : lidx_main_v3 (idx_main_v4 (idx_main_v5 (ix4 b h n d))) k = ix3 b n k := by
  funext a; apply Fin.ext
  have hb := b.isLt; have hh := h.isLt; have hn := n.isLt; have hd := d.isLt
  match a with
  | ⟨0, _⟩ => show (((b.val * 2048 + n.val) * 16 + h.val) * 64 + d.val) / 2097152 = b.val; omega
  | ⟨1, _⟩ => show (((b.val * 2048 + n.val) * 16 + h.val) * 64 + d.val) / 1024 % 2048 = n.val; omega
  | ⟨2, _⟩ => rfl
theorem head_ridx_k : ridx_main_v3 (idx_main_v4 (idx_main_v5 (ix4 b h n d))) k = ix2 (headCol h d) k := by
  funext a; apply Fin.ext
  have hb := b.isLt; have hh := h.isLt; have hn := n.isLt; have hd := d.isLt
  match a with
  | ⟨0, _⟩ => show (((b.val * 2048 + n.val) * 16 + h.val) * 64 + d.val) % 1024 = h.val * 64 + d.val; omega
  | ⟨1, _⟩ => rfl
theorem head_lidx_v : lidx_main_v6 (idx_main_v7 (idx_main_v8 (ix4 b h n d))) k = ix3 b n k := by
  funext a; apply Fin.ext
  have hb := b.isLt; have hh := h.isLt; have hn := n.isLt; have hd := d.isLt
  match a with
  | ⟨0, _⟩ => show (((b.val * 2048 + n.val) * 16 + h.val) * 64 + d.val) / 2097152 = b.val; omega
  | ⟨1, _⟩ => show (((b.val * 2048 + n.val) * 16 + h.val) * 64 + d.val) / 1024 % 2048 = n.val; omega
  | ⟨2, _⟩ => rfl
theorem head_ridx_v : ridx_main_v6 (idx_main_v7 (idx_main_v8 (ix4 b h n d))) k = ix2 (headCol h d) k := by
  funext a; apply Fin.ext
  have hb := b.isLt; have hh := h.isLt; have hn := n.isLt; have hd := d.isLt
  match a with
  | ⟨0, _⟩ => show (((b.val * 2048 + n.val) * 16 + h.val) * 64 + d.val) % 1024 = h.val * 64 + d.val; omega
  | ⟨1, _⟩ => rfl

/-- The reference's queries are the specification's projection by the first weight matrix. -/
theorem proj_q : val_main_v2 (F := Ideal) x0 x1 (ix4 b h n d) = proj x0 x1 b h n d := by
  rw [val_main_v2_apply, val_main_v1_apply, val_main_v0_apply]
  exact Finset.sum_congr rfl fun k _ => by rw [head_lidx_q, head_ridx_q]
/-- The reference's keys are the specification's projection by the second weight matrix. -/
theorem proj_k : val_main_v5 (F := Ideal) x0 x2 (ix4 b h n d) = proj x0 x2 b h n d := by
  rw [val_main_v5_apply, val_main_v4_apply, val_main_v3_apply]
  exact Finset.sum_congr rfl fun k _ => by rw [head_lidx_k, head_ridx_k]
/-- The reference's values are the specification's projection by the third weight matrix. -/
theorem proj_v : val_main_v8 (F := Ideal) x0 x3 (ix4 b h n d) = proj x0 x3 b h n d := by
  rw [val_main_v8_apply, val_main_v7_apply, val_main_v6_apply]
  exact Finset.sum_congr rfl fun k _ => by rw [head_lidx_v, head_ridx_v]

end Proj

/-! ## Scores, mask, maximum, weights, probabilities -/

section Scores
variable (b : Fin 4) (h : Fin 16) (n m : Fin 2048)

theorem score_lidx (k : Fin 64) : lidx_main_v9 (ix4 b h n m) k = ix4 b h n k := by
  funext a; match a with | ⟨0, _⟩ => rfl | ⟨1, _⟩ => rfl | ⟨2, _⟩ => rfl | ⟨3, _⟩ => rfl
theorem score_ridx (k : Fin 64) : ridx_main_v9 (ix4 b h n m) k = ix4 b h m k := by
  funext a; match a with | ⟨0, _⟩ => rfl | ⟨1, _⟩ => rfl | ⟨2, _⟩ => rfl | ⟨3, _⟩ => rfl

/-- The reference's scaled scores: the queries against the keys over the head's width, divided by the square root of
    the constant 64. -/
theorem score_eq : val_main_v12 (F := Ideal) x0 x1 x2 (ix4 b h n m) = score x0 x1 x2 b h n m := by
  rw [val_main_v12_apply, val_main_v9_apply, val_main_v11_apply, val_main_v10_apply, val_main_cst_apply]
  unfold score
  simp only [score_lidx, score_ridx, proj_q, proj_k, Ideal.hostDivf_def, Ideal.hostUnary_sqrt_def, Ideal.ofBits_def]

theorem mask_idx : idx_main_call1_v1 (ix4 b h n m) = ix2 n m := by
  funext a; match a with | ⟨0, _⟩ => rfl | ⟨1, _⟩ => rfl

/-- The reference's masked scores: the score where the key is at or before the query, minus infinity after it. -/
theorem masked_eq : val_main_v15 (F := Ideal) x0 x1 x2 (ix4 b h n m) = masked x0 x1 x2 b h n m := by
  rw [val_main_v15_apply, val_main_call1_v1_apply, mask_idx, val_main_v14_apply, val_main_call0_v4_apply,
    val_main_call0_v2_apply, val_main_call0_v0_apply, val_main_call0_v1_apply, val_main_call0_c_apply,
    val_main_call0_v3_apply, val_main_v13_apply, val_main_c_apply, val_main_call0_v5_apply, val_main_call0_c_0_apply,
    val_main_call1_v2_apply, val_main_call1_v0_apply, val_main_cst_0_apply, score_eq, Ideal.ofBits_def,
    AttnNormalize.ofBits_f32_neg_inf]
  exact tril_select n.val m.val n.isLt m.isLt _ _

/-- The reference's maximum over all four axes is the specification's supremum of the masked scores. -/
theorem gmax_eq (j : S_.Idx) : val_main_v16 (F := Ideal) x0 x1 x2 j = gmax x0 x1 x2 := by
  unfold val_main_v16
  refine (reduce_max_total (t := S_) _ _ _ _ ?_ _).trans ?_
  · rw [val_main_cst_1_apply, Ideal.ofBits_def, AttnNormalize.ofBits_f32_neg_inf]
  · rw [iSup_idx4]
    unfold gmax
    simp only [masked_eq]

/-- The reference's weights: exp of the masked score less the maximum. -/
theorem weight_eq : val_main_v19 (F := Ideal) x0 x1 x2 (ix4 b h n m) = weight x0 x1 x2 b h n m := by
  rw [val_main_v19_apply, val_main_v18_apply, val_main_v17_apply, masked_eq, gmax_eq, Ideal.hostUnary_exp_def,
    Ideal.subf_def]
  rfl

theorem denom_idx (k : Fin 2048) : idx_main_v20 (ix3 b h n) k = ix4 b h n k := by
  funext a; match a with | ⟨0, _⟩ => rfl | ⟨1, _⟩ => rfl | ⟨2, _⟩ => rfl | ⟨3, _⟩ => rfl

/-- The reference's denominators: zero plus the sum of a query's weights over the keys. -/
theorem denom_eq : val_main_v20 (F := Ideal) x0 x1 x2 (ix3 b h n) = denom x0 x1 x2 b h n := by
  rw [val_main_v20_apply, val_main_cst_2_apply, Ideal.ofBits_def, Ideal.ofBits_zero_f32, zero_add]
  exact Finset.sum_congr rfl fun k _ => by rw [denom_idx, weight_eq]

theorem attn_idx : idx_main_v21 (idx_main_v22 (ix4 b h n m)) = ix3 b h n := by
  funext a; match a with | ⟨0, _⟩ => rfl | ⟨1, _⟩ => rfl | ⟨2, _⟩ => rfl

/-- The reference's probabilities: each weight divided by its query's denominator. -/
theorem attn_eq : val_main_v23 (F := Ideal) x0 x1 x2 (ix4 b h n m) = attn x0 x1 x2 b h n m := by
  rw [val_main_v23_apply, val_main_v22_apply, val_main_v21_apply, attn_idx, weight_eq, denom_eq, Ideal.hostDivf_def]
  rfl

theorem ctx_lidx (d : Fin 64) (k : Fin 2048) : lidx_main_v24 (ix4 b h n d) k = ix4 b h n k := by
  funext a; match a with | ⟨0, _⟩ => rfl | ⟨1, _⟩ => rfl | ⟨2, _⟩ => rfl | ⟨3, _⟩ => rfl
theorem ctx_ridx (d : Fin 64) (k : Fin 2048) : ridx_main_v24 (ix4 b h n d) k = ix4 b h k d := by
  funext a; match a with | ⟨0, _⟩ => rfl | ⟨1, _⟩ => rfl | ⟨2, _⟩ => rfl | ⟨3, _⟩ => rfl

/-- The reference's contexts: the probabilities applied to the values. -/
theorem ctx_eq (d : Fin 64) : val_main_v24 (F := Ideal) x0 x1 x2 x3 (ix4 b h n d) = ctx x0 x1 x2 x3 b h n d := by
  rw [val_main_v24_apply]
  exact Finset.sum_congr rfl fun k _ => by rw [ctx_lidx, ctx_ridx, attn_eq, proj_v]

end Scores

/-! ## The output projection -/

section Out
variable (b : Fin 4) (s : Fin 2048) (j c : Fin 1024)

/-- Element (b, s, c) of the heads' contexts laid side by side is the context of head c / 64 at coordinate c % 64:
    the row-major position (b·2048 + s)·1024 + c read back in the shape 4 x 2048 x 16 x 64, then transposed. -/
theorem out_lidx : idx_main_v25 (idx_main_v26 (lidx_main_v27 (ix3 b s j) c)) = ix4 b (colHead c) s (colLane c) := by
  funext a; apply Fin.ext
  have hb := b.isLt; have hs := s.isLt; have hc := c.isLt
  match a with
  | ⟨0, _⟩ => show ((b.val * 2048 + s.val) * 1024 + c.val) / 2097152 = b.val; omega
  | ⟨1, _⟩ => show ((b.val * 2048 + s.val) * 1024 + c.val) / 64 % 16 = c.val / 64; omega
  | ⟨2, _⟩ => show ((b.val * 2048 + s.val) * 1024 + c.val) / 1024 % 2048 = s.val; omega
  | ⟨3, _⟩ => show ((b.val * 2048 + s.val) * 1024 + c.val) % 64 = c.val % 64; omega
theorem out_ridx : ridx_main_v27 (ix3 b s j) c = ix2 j c := by
  funext a; match a with | ⟨0, _⟩ => rfl | ⟨1, _⟩ => rfl

/-- The reference's result at (b, s, j). -/
theorem out_eq : val_main_v27 (F := Ideal) x0 x1 x2 x3 x4 (ix3 b s j) = outAt x0 x1 x2 x3 x4 b s j := by
  rw [val_main_v27_apply]
  exact Finset.sum_congr rfl fun c _ => by
    rw [val_main_v26_apply, val_main_v25_apply, out_lidx, out_ridx, ctx_eq]

end Out

/-- THE REFERENCE IS THE SPECIFICATION: the last stage of the reference, as a function of the five argument arrays, is
    the specification's result array. -/
theorem ref_eq_spec : val_main_v27 (F := Ideal) x0 x1 x2 x3 x4 = out x0 x1 x2 x3 x4 := by
  funext i
  obtain ⟨b, s, j, rfl⟩ : ∃ (b : Fin 4) (s : Fin 2048) (j : Fin 1024), i = ix3 b s j := ⟨i 0, i 1, i 2, eq_ix3 i⟩
  rw [out_ix3]
  exact out_eq x0 x1 x2 x3 x4 b s j

end Cert.RefIsSpec

end
-- ==== Proof.BridgeTail.lean ====
/-
  From the global-maximum call to the end of @main, at the ideal values.

  The maximum call leaves the per-head maxima in a [64, 128] array; the third stretch reduces it by
  maximum from the least value to one number and lays it out as [1, 1]: the supremum of the array.
  The three head arrays pass through that call and that stretch unchanged, so the attention call
  reads them and the number; its result passes through the fourth stretch's head merge into the
  output projection, whose weight has come unchanged from the first stretch; the last stretch
  unflattens the product.
-/
import proofs.«157401_j56521769615696_2_alg».proof.Proof.BridgeHeads
import proofs.«157401_j56521769615696_2_alg».proof.Proof.GlobalMaxValue
import proofs.«157401_j56521769615696_2_alg».proof.Proof.AttentionResult
import proofs.«157401_j56521769615696_2_alg».proof.Proof.OutProjValue
import proofs.«157401_j56521769615696_2_alg».proof.Proof.RefIsSpec

set_option maxRecDepth 16384

noncomputable section

namespace Cert.KernelIdeal.Bridge

open Cert.KernelIdeal Cert.KernelIdeal.Gen Cert.KernelIdeal.Run
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg) (c : Dev nD)

/-! ## Through the global-maximum call -/

theorem W4_v13 : (W4 m ρ c (Proc.devRef .tc main_v13) : S64x128.Idx → EReal) = GlobalMaxValue.gmaxArr (V3 m ρ) c :=
  (W4_arr m ρ c 2).trans (GlobalMaxValue.final (V3 m ρ) c)
theorem W4_v6 : W4 m ρ c (Proc.devRef .tc main_v6) = W3 m ρ c (Proc.devRef .tc main_v6) :=
  (W4_arr m ρ c 0).trans (GlobalMaxValue.kept_0 (V3 m ρ) c)
theorem W4_v9 : W4 m ρ c (Proc.devRef .tc main_v9) = W3 m ρ c (Proc.devRef .tc main_v9) :=
  (W4_arr m ρ c 1).trans (GlobalMaxValue.kept_1 (V3 m ρ) c)
theorem W4_v12 : W4 m ρ c (Proc.devRef .tc main_v12) = W3 m ρ c (Proc.devRef .tc main_v12) := W4_of_ne m ρ c main_v12 (by decide)
theorem W4_v2 : W4 m ρ c (Proc.devRef .tc main_v2) = W3 m ρ c (Proc.devRef .tc main_v2) := W4_of_ne m ρ c main_v2 (by decide)

/-! ## The third stretch: the maximum as one word; the head arrays unchanged -/

theorem W5_v15 : (W5 m ρ c (Proc.devRef .tc main_v15) : S1x1.Idx → EReal)
    = shapeCast S1x1 (Host.reduce (FloatOps.maximumf (F := Ideal) (φ := .f32)) (W4 m ρ c (Proc.devRef .tc main_v13) : S64x128.Idx → EReal)
        (constant (F := Ideal) S_ .f32 0xFF800000#32) reducesTo_S64x128_S_d0_1 h_S_) shapeCasts_S_S1x1 := by
  show StableHlo.after hostOps2 (W4 m ρ c) (Proc.devRef .tc main_v15) = _
  after_results
  rfl

instance subsingleton_S_ : Subsingleton S_.Idx := ⟨fun a b => funext fun d => d.elim0⟩

/-- The maximum array after its call, as extended reals. -/
abbrev maxArr : S64x128.Idx → EReal := W4 m ρ c (Proc.devRef .tc main_v13)

/-- The one word is the supremum of the maximum array. -/
theorem W5_max (j : S1x1.Idx) : (W5 m ρ c (Proc.devRef .tc main_v15) : S1x1.Idx → EReal) j = ⨆ idx : S64x128.Idx, maxArr m ρ c idx := by
  rw [W5_v15]
  unfold shapeCast
  exact Cert.RefIsSpec.reduce_max_total (maxArr m ρ c) (constant (F := Ideal) S_ .f32 0xFF800000#32) reducesTo_S64x128_S_d0_1 h_S_
    (show constant (F := Ideal) S_ .f32 0xFF800000#32 (Shape.Idx.first h_S_) = ⊥ from AttnNormalize.ofBits_f32_neg_inf) _

theorem W5_v6 : W5 m ρ c (Proc.devRef .tc main_v6) = W3 m ρ c (Proc.devRef .tc main_v6) :=
  (StableHlo.after_of_writes_sub hostOps2 _ hostOps2_writes (show main_v6 ∉ hostOps2_W by decide)).trans (W4_v6 m ρ c)
theorem W5_v9 : W5 m ρ c (Proc.devRef .tc main_v9) = W3 m ρ c (Proc.devRef .tc main_v9) :=
  (StableHlo.after_of_writes_sub hostOps2 _ hostOps2_writes (show main_v9 ∉ hostOps2_W by decide)).trans (W4_v9 m ρ c)
theorem W5_v12 : W5 m ρ c (Proc.devRef .tc main_v12) = W3 m ρ c (Proc.devRef .tc main_v12) :=
  (StableHlo.after_of_writes_sub hostOps2 _ hostOps2_writes (show main_v12 ∉ hostOps2_W by decide)).trans (W4_v12 m ρ c)
theorem W5_v2 : W5 m ρ c (Proc.devRef .tc main_v2) = W3 m ρ c (Proc.devRef .tc main_v2) :=
  (StableHlo.after_of_writes_sub hostOps2 _ hostOps2_writes (show main_v2 ∉ hostOps2_W by decide)).trans (W4_v2 m ρ c)

/-! ## Through the attention call and the fourth stretch -/

theorem W6_v16 : (W6 m ρ c (Proc.devRef .tc main_v16) : S64x2048x64.Idx → EReal) = AttentionValue.result (V5 m ρ) c :=
  (W6_arr m ρ c 4).trans (AttentionValue.final (V5 m ρ) c)

theorem W7_v19 : (W7 m ρ c (Proc.devRef .tc main_v19) : S8192x1024.Idx → EReal)
    = shapeCast S8192x1024 (transpose S4x2048x16x64 [0, 2, 1, 3]
        (shapeCast S4x16x2048x64 (W6 m ρ c (Proc.devRef .tc main_v16) : S64x2048x64.Idx → EReal) shapeCasts_S64x2048x64_S4x16x2048x64)
        transposes_S4x16x2048x64_S4x2048x16x64_0_2_1_3) shapeCasts_S4x2048x16x64_S8192x1024 := by
  show StableHlo.after hostOps3 (W6 m ρ c) (Proc.devRef .tc main_v19) = _
  after_results
  rfl

/-- The output weight reaches the last call as launched. -/
theorem W7_v2 : (W7 m ρ c (Proc.devRef .tc main_v2) : S1024x1024.Idx → EReal) = aWo m c :=
  calc W7 m ρ c (Proc.devRef .tc main_v2)
    _ = W6 m ρ c (Proc.devRef .tc main_v2) := StableHlo.after_of_writes_sub hostOps3 _ hostOps3_writes (show main_v2 ∉ hostOps3_W by decide)
    _ = W5 m ρ c (Proc.devRef .tc main_v2) := W6_of_ne m ρ c main_v2 (by decide)
    _ = W3 m ρ c (Proc.devRef .tc main_v2) := W5_v2 m ρ c
    _ = W2 m ρ c (Proc.devRef .tc main_v2) := StableHlo.after_of_writes_sub hostOps1 _ hostOps1_writes (show main_v2 ∉ hostOps1_W by decide)
    _ = W1 m ρ c (Proc.devRef .tc main_v2) := W2_of_ne m ρ c main_v2 (by decide)
    _ = aWo m c := W1_v2 m ρ c

/-! ## The output projection and the last stretch -/

theorem W8_v20 : (W8 m ρ c (Proc.devRef .tc main_v20) : S8192x1024.Idx → EReal) = OutProjValue.prod (V7 m ρ) c :=
  (W8_arr m ρ c 2).trans (OutProjValue.final (V7 m ρ) c)

theorem W9_v21 : (W9 m ρ c (Proc.devRef .tc main_v21) : S4x2048x1024.Idx → EReal)
    = shapeCast S4x2048x1024 (W8 m ρ c (Proc.devRef .tc main_v20) : S8192x1024.Idx → EReal) shapeCasts_S8192x1024_S4x2048x1024 := by
  show StableHlo.after hostOps4 (W8 m ρ c) (Proc.devRef .tc main_v21) = _
  after_results
  rfl

end Cert.KernelIdeal.Bridge

end
-- ==== Proof.GlobalMaxSpec.lean ====
/-
  The global-maximum pass's result against the specification. When the call's two arrays are the queries and the keys
  of the specification laid out head by head (head number 16 b + h), each row of the result array holds the largest
  masked score of its head over the visited tiles, and the maximum of the whole result array — which the next call
  subtracts — is the specification's global maximum: the visited tiles hold every entry that is not minus infinity.
-/
import proofs.«157401_j56521769615696_2_alg».proof.Proof.GlobalMaxValue

set_option maxRecDepth 16384

noncomputable section

namespace Cert.KernelIdeal.GlobalMaxSpec

open Cert.KernelIdeal Cert.KernelIdeal.Gen Cert.KernelIdeal.GlobalMax Cert.KernelIdeal.GlobalMaxValue
open Cert.KernelIdeal.GlobalMaxTile Cert.AttnTiles Cert.AttnSpec
open Idealize.ShloMosaic Idealize.ShloMosaic.TcCoe Idealize.ShloMosaic.ValueIdx
open scoped BigOperators

/-- Head h of batch b is head number 16 b + h of the flattened layout. -/
abbrev headOf (b : Fin 4) (h : Fin 16) : Fin 64 := ⟨16 * b.val + h.val, by omega⟩

theorem headOf_div_mod (R : Fin 64) : headOf ⟨R.val / 16, by omega⟩ ⟨R.val % 16, by omega⟩ = R :=
  Fin.ext (by show 16 * (R.val / 16) + R.val % 16 = R.val; omega)

/-- A supremum over the 64 heads is the supremum over the batches of the suprema over each batch's heads. -/
theorem iSup_heads (f : Fin 64 → EReal) : (⨆ R, f R) = ⨆ (b : Fin 4) (h : Fin 16), f (headOf b h) := by
  apply le_antisymm
  · refine iSup_le fun R => ?_
    rw [← headOf_div_mod R]
    exact le_iSup_of_le _ (le_iSup_of_le _ le_rfl)
  · exact iSup_le fun b => iSup_le fun h => le_iSup f (headOf b h)

variable (V : (c : Dev nD) → (b : Ref sig .tc) → Buf (Elt Ideal) ((c : Thread nD τ).loc b)) (c : Dev nD)
variable (x : XS.Idx → EReal) (wq wk : WS.Idx → EReal)
variable (hQ : ∀ (b : Fin 4) (h : Fin 16) (n : Fin 2048) (d : Fin 64), arrQ V c (ix3 (headOf b h) n d) = proj x wq b h n d)
variable (hK : ∀ (b : Fin 4) (h : Fin 16) (n : Fin 2048) (d : Fin 64), arrK V c (ix3 (headOf b h) n d) = proj x wk b h n d)

include hQ hK in
/-- With the queries and keys laid out head by head, a score term of head 16 b + h is the specification's masked
    score in the kernel's spelling. -/
theorem scoreTerm_eq (b : Fin 4) (h : Fin 16) (i j : Fin 4) (p q : Fin 512) :
    scoreTerm V c (headOf b h) i j p q = maskedK x wq wk b h (pos i p) (pos j q) := by
  unfold scoreTerm maskedK scoreK
  simp only [hQ, hK]

include hQ hK in
/-- The maximum over the heads of the rows' largest scores is the specification's global maximum. -/
theorem iSup_gmaxRow : (⨆ R : Fin 64, gmaxRow V c R) = gmax x wq wk := by
  rw [iSup_heads, ← gmaxK_eq]
  unfold gmaxRow gmaxK
  simp only [scoreTerm_eq V c x wq wk hQ hK]

include hQ hK in
/-- THE MAXIMUM OF THE WHOLE RESULT ARRAY is the specification's global maximum. -/
theorem iSup_gmaxArr : (⨆ idx : S64x128.Idx, gmaxArr V c idx) = gmax x wq wk := by
  rw [iSup_idx2]
  unfold gmaxArr
  show (⨆ (R : Fin 64) (lane : Fin 128), gmaxRow V c R) = _
  simp only [iSup_const]
  exact iSup_gmaxRow V c x wq wk hQ hK

end Cert.KernelIdeal.GlobalMaxSpec

end
-- ==== Proof.BridgeMath.lean ====
/-
  The kernel's two results against the specification, as mathematics over the arrays the calls find. When the
  queries, keys and values are laid out head by head (head number 16 b + h) and the one word the attention pass
  subtracts is the specification's global maximum:
  * the maximum of the global-maximum pass's whole result array is the specification's global maximum (no finiteness:
    the visited tiles hold every entry that is not minus infinity);
  * the attention pass's result — the running sum over the key tiles up to the query's tile of weight times value,
    divided once by the running sum of the weights — is the specification's context, for real inputs: a running sum
    is the sum, the tiles up to the query's tile are the visited tiles, the weights and values are the
    specification's read through the layout, and dividing after the product is dividing before it for reals.
-/
import proofs.«157401_j56521769615696_2_alg».proof.Proof.GlobalMaxSpec
import proofs.«157401_j56521769615696_2_alg».proof.Proof.AttentionResult
import proofs.«157401_j56521769615696_2_alg».proof.Proof.AttnTiles
import proofs.«157401_j56521769615696_2_alg».proof.Proof.LibRunningFold

set_option maxRecDepth 16384

noncomputable section

namespace Cert.KernelIdeal.BridgeMath

open Cert.KernelIdeal Cert.KernelIdeal.Gen
open Cert.AttnTiles Cert.AttnSpec AttnNormalize
open Idealize.ShloMosaic Idealize.ShloMosaic.TcCoe Idealize.ShloMosaic.ValueIdx
open scoped BigOperators

/-- A sum over the first i + 1 naturals is the sum over the members of Fin N that are at most i, for i below N. -/
theorem sum_range_succ_eq_sum_filter_fin {M : Type*} [AddCommMonoid M] (N i : ℕ) (hi : i < N) (F : ℕ → M) :
    ∑ k ∈ Finset.range (i + 1), F k = ∑ j ∈ Finset.univ.filter (fun j : Fin N => j.val ≤ i), F j.val := by
  rw [Finset.sum_filter, Fin.sum_univ_eq_sum_range (fun k => if k ≤ i then F k else 0) N, ← Finset.sum_filter]
  refine Finset.sum_congr ?_ fun _ _ => rfl
  ext k
  simp only [Finset.mem_range, Finset.mem_filter]
  omega

variable (V : (c : Dev nD) → (b : Ref sig .tc) → Buf (Elt Ideal) ((c : Thread nD τ).loc b)) (c : Dev nD)
variable (x : XS.Idx → EReal) (wq wk wv : WS.Idx → EReal)

/-- The batch and the head inside it of a head number. -/
abbrev batchOf (bh : Fin 64) : Fin 4 := ⟨bh.val / 16, by omega⟩
abbrev headIn (bh : Fin 64) : Fin 16 := ⟨bh.val % 16, Nat.mod_lt _ (by decide)⟩

section Max
variable (hq : ∀ (bh : Fin 64) (n : Fin 2048) (d : Fin 64),
    GlobalMaxValue.arrQ V c (ix3 bh n d) = proj x wq (batchOf bh) (headIn bh) n d)
variable (hk : ∀ (bh : Fin 64) (n : Fin 2048) (d : Fin 64),
    GlobalMaxValue.arrK V c (ix3 bh n d) = proj x wk (batchOf bh) (headIn bh) n d)

include hq hk in
/-- THE MAXIMUM OF THE GLOBAL-MAXIMUM PASS'S RESULT ARRAY is the specification's global maximum. -/
theorem gmax_of_heads : (⨆ idx : S64x128.Idx, GlobalMaxValue.gmaxArr V c idx) = gmax x wq wk := by
  refine GlobalMaxSpec.iSup_gmaxArr V c x wq wk (fun b h n d => ?_) (fun b h n d => ?_)
  · rw [hq]
    have hb := b.isLt; have hh := h.isLt
    congr 1 <;> exact Fin.ext (by dsimp only; omega)
  · rw [hk]
    have hb := b.isLt; have hh := h.isLt
    congr 1 <;> exact Fin.ext (by dsimp only; omega)

end Max

section Ctx
variable (hq : ∀ (bh : Fin 64) (n : Fin 2048) (d : Fin 64),
    AttentionValue.arrQ V c (ix3 bh n d) = proj x wq (batchOf bh) (headIn bh) n d)
variable (hk : ∀ (bh : Fin 64) (n : Fin 2048) (d : Fin 64),
    AttentionValue.arrK V c (ix3 bh n d) = proj x wk (batchOf bh) (headIn bh) n d)
variable (hv : ∀ (bh : Fin 64) (n : Fin 2048) (d : Fin 64),
    AttentionValue.arrV V c (ix3 bh n d) = proj x wv (batchOf bh) (headIn bh) n d)
variable (hm : AttentionValue.arrM V c (ix2 (0 : Fin 1) (0 : Fin 1)) = gmax x wq wk)

theorem head_val (bh : Fin 64) : AttentionValue.head bh.val = bh := Fin.ext (Nat.mod_eq_of_lt bh.isLt)

theorem pos_val (i : Fin 4) (p : Fin 512) : AttentionValue.pos i.val p = pos i p :=
  Fin.ext (by show 512 * (i.val % 4) + p.val = 512 * i.val + p.val; have := i.isLt; omega)

include hq hk hm in
/-- The attention pass's weight is the specification's weight in the kernel's spelling. -/
theorem wt_eq (bh : Fin 64) (i j : Fin 4) (p q : Fin 512) :
    AttentionValue.wt V c bh.val i.val j.val p q
      = weightK x wq wk (batchOf bh) (headIn bh) (pos i p) (pos j q) := by
  unfold AttentionValue.wt weightK maskedK scoreK
  rw [hm, head_val, pos_val, pos_val]
  simp only [hq, hk]
  have hc : (512 * (j.val % 4) + q.val ≤ 512 * (i.val % 4) + p.val) ↔ (pos j q).val ≤ (pos i p).val := by
    show _ ↔ 512 * j.val + q.val ≤ 512 * i.val + p.val
    have := i.isLt; have := j.isLt; omega
  rw [if_congr hc rfl rfl]

include hq hk hv hm in
/-- One key tile's weights against its values is the specification's, read through the layout. -/
theorem Sf_eq (bh : Fin 64) (i j : Fin 4) (p : Fin 512) (d : Fin 64) :
    AttentionValue.Sf V c bh.val i.val p d j.val
      = ∑ q : Fin 512, weightK x wq wk (batchOf bh) (headIn bh) (pos i p) (pos j q)
          * proj x wv (batchOf bh) (headIn bh) (pos j q) d := by
  unfold AttentionValue.Sf
  refine Finset.sum_congr rfl fun q _ => ?_
  rw [wt_eq V c x wq wk hq hk hm, head_val, pos_val, hv]

include hq hk hm in
theorem Rf_eq (bh : Fin 64) (i j : Fin 4) (p : Fin 512) :
    AttentionValue.Rf V c bh.val i.val p j.val
      = ∑ q : Fin 512, weightK x wq wk (batchOf bh) (headIn bh) (pos i p) (pos j q) := by
  unfold AttentionValue.Rf
  exact Finset.sum_congr rfl fun q _ => wt_eq V c x wq wk hq hk hm bh i j p q

variable (hx : ∀ i, ∃ r : ℝ, x i = (r : EReal)) (hwq : ∀ i, ∃ r : ℝ, wq i = (r : EReal))
  (hwk : ∀ i, ∃ r : ℝ, wk i = (r : EReal)) (hwv : ∀ i, ∃ r : ℝ, wv i = (r : EReal))

include hq hk hv hm hx hwq hwk hwv in
/-- THE ATTENTION PASS'S RESULT IS THE SPECIFICATION'S CONTEXT, for real inputs. -/
theorem ctx_of_heads (bh : Fin 64) (n : Fin 2048) (d : Fin 64) :
    AttentionValue.result V c (ix3 bh n d) = ctx x wq wk wv (batchOf bh) (headIn bh) n d := by
  have hn := n.isLt
  have key := div_accK_lK x wq wk wv hx hwq hwk hwv (batchOf bh) (headIn bh) (tileOf n) (rowOf n) d
  rw [pos_tileOf_rowOf] at key
  rw [← key]
  show Ideal.div (runSum (AttentionValue.Sf V c bh.val (tileOf n).val (rowOf n) d) ((tileOf n).val + 1))
      (runSum (AttentionValue.Rf V c bh.val (tileOf n).val (rowOf n)) ((tileOf n).val + 1)) = _
  rw [runSum_eq, runSum_eq, sum_range_succ_eq_sum_filter_fin 4 _ (tileOf n).isLt,
    sum_range_succ_eq_sum_filter_fin 4 _ (tileOf n).isLt]
  unfold accK lK
  congr 1
  · exact Finset.sum_congr rfl fun j _ => Sf_eq V c x wq wk wv hq hk hv hm bh (tileOf n) j (rowOf n) d
  · exact Finset.sum_congr rfl fun j _ => Rf_eq V c x wq wk hq hk hm bh (tileOf n) j (rowOf n)

end Ctx

end Cert.KernelIdeal.BridgeMath

end
-- ==== Proof.BridgeFinal.lean ====
/-
  The idealized kernel's result is the specification.

  Reading the last stage of the fold backwards: the result at (b, s, j) is row 2048 b + s of the
  output projection, the sum over columns c of the merged attention result at (2048 b + s, c) times
  the output weight's [j, c]; the merged result there is the attention call's result at head
  16 b + c / 64, position s, lane c % 64; and that, the head arrays being the projections of x and the
  subtracted word the global maximum, is the specification's context vector, given finite inputs.
-/
import proofs.«157401_j56521769615696_2_alg».proof.Proof.BridgeTail
import proofs.«157401_j56521769615696_2_alg».proof.Proof.BridgeMath

set_option maxRecDepth 16384

noncomputable section

namespace Cert.KernelIdeal.Bridge

open Cert.KernelIdeal Cert.KernelIdeal.Gen Cert.KernelIdeal.Run
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-- The buffers of the last stages, as arrays of extended reals. -/
abbrev out21 : S4x2048x1024.Idx → EReal := W9 m ρ c (Proc.devRef .tc main_v21)
abbrev arr20 : S8192x1024.Idx → EReal := W8 m ρ c (Proc.devRef .tc main_v20)
abbrev arr16 : S64x2048x64.Idx → EReal := W6 m ρ c (Proc.devRef .tc main_v16)

/-- The head arrays as the attention call finds them. -/
theorem hq5 (bh : Fin 64) (n : Fin 2048) (d : Fin 64) : AttentionValue.arrQ (V5 m ρ) c (ix3 bh n d)
    = AttnSpec.proj (aX m c) (aWq m c) (BridgeMath.batchOf bh) (BridgeMath.headIn bh) n d := by
  have h : AttentionValue.arrQ (V5 m ρ) c = W3 m ρ c (Proc.devRef .tc main_v6) := W5_v6 m ρ c
  rw [h]; exact q_heads m ρ c bh n d
theorem hk5 (bh : Fin 64) (n : Fin 2048) (d : Fin 64) : AttentionValue.arrK (V5 m ρ) c (ix3 bh n d)
    = AttnSpec.proj (aX m c) (aWk m c) (BridgeMath.batchOf bh) (BridgeMath.headIn bh) n d := by
  have h : AttentionValue.arrK (V5 m ρ) c = W3 m ρ c (Proc.devRef .tc main_v9) := W5_v9 m ρ c
  rw [h]; exact k_heads m ρ c bh n d
theorem hv5 (bh : Fin 64) (n : Fin 2048) (d : Fin 64) : AttentionValue.arrV (V5 m ρ) c (ix3 bh n d)
    = AttnSpec.proj (aX m c) (aWv m c) (BridgeMath.batchOf bh) (BridgeMath.headIn bh) n d := by
  have h : AttentionValue.arrV (V5 m ρ) c = W3 m ρ c (Proc.devRef .tc main_v12) := W5_v12 m ρ c
  rw [h]; exact v_heads m ρ c bh n d

/-- The word the attention call subtracts is the specification's global maximum. -/
theorem max_word : AttentionValue.arrM (V5 m ρ) c (ix2 (0 : Fin 1) (0 : Fin 1)) = AttnSpec.gmax (aX m c) (aWq m c) (aWk m c) := by
  refine (W5_max m ρ c (ix2 (0 : Fin 1) (0 : Fin 1))).trans ?_
  have hm : maxArr m ρ c = GlobalMaxValue.gmaxArr (V3 m ρ) c := W4_v13 m ρ c
  rw [hm]
  exact BridgeMath.gmax_of_heads (V3 m ρ) c (aX m c) (aWq m c) (aWk m c) (q_heads m ρ c) (k_heads m ρ c)

/-- THE RESULT: the kernel's result buffer at the end is the specification of the five arguments. -/
theorem result_eq (hx : ∀ i, ∃ r : ℝ, aX m c i = (r : EReal)) (hwq : ∀ i, ∃ r : ℝ, aWq m c i = (r : EReal))
    (hwk : ∀ i, ∃ r : ℝ, aWk m c i = (r : EReal)) (hwv : ∀ i, ∃ r : ℝ, aWv m c i = (r : EReal)) :
    out21 m ρ c = AttnSpec.out (aX m c) (aWq m c) (aWk m c) (aWv m c) (aWo m c) := by
  funext idx
  obtain ⟨b, s, j, rfl⟩ : ∃ (b : Fin 4) (s : Fin 2048) (j : Fin 1024), idx = ix3 b s j := ⟨idx 0, idx 1, idx 2, eq_ix3 idx⟩
  have h21 : out21 m ρ c = shapeCast S4x2048x1024 (arr20 m ρ c) shapeCasts_S8192x1024_S4x2048x1024 := W9_v21 m ρ c
  have h20 : arr20 m ρ c = OutProjValue.prod (V7 m ρ) c := W8_v20 m ρ c
  have h19 : OutProjValue.arrO (V7 m ρ) c = shapeCast S8192x1024 (transpose S4x2048x16x64 [0, 2, 1, 3]
      (shapeCast S4x16x2048x64 (arr16 m ρ c) shapeCasts_S64x2048x64_S4x16x2048x64)
      transposes_S4x16x2048x64_S4x2048x16x64_0_2_1_3) shapeCasts_S4x2048x16x64_S8192x1024 := W7_v19 m ρ c
  have h16 : arr16 m ρ c = AttentionValue.result (V5 m ρ) c := W6_v16 m ρ c
  have h2 : OutProjValue.arrW (V7 m ρ) c = aWo m c := W7_v2 m ρ c
  have hb := b.isLt; have hs := s.isLt
  rw [h21, HeadLayout.unflat_apply, h20, OutProjValue.prod_ix2, AttnSpec.out_ix3]
  unfold OutProjValue.prodAt AttnSpec.outAt
  refine Finset.sum_congr rfl fun col _ => ?_
  have hc := col.isLt
  rw [h19, HeadLayout.unheads_apply, h16, h2,
    BridgeMath.ctx_of_heads (V5 m ρ) c (aX m c) (aWq m c) (aWk m c) (aWv m c) (hq5 m ρ c) (hk5 m ρ c) (hv5 m ρ c) (max_word m ρ c) hx hwq hwk hwv]
  congr 1
  congr 1
  · exact Fin.ext (by show (16 * ((2048 * b.val + s.val) / 2048) + col.val / 64) / 16 = b.val; omega)
  · exact Fin.ext (by show (16 * ((2048 * b.val + s.val) / 2048) + col.val / 64) % 16 = col.val / 64; omega)
  · exact Fin.ext (by show (2048 * b.val + s.val) % 2048 = s.val; omega)

end Cert.KernelIdeal.Bridge

end
-- ==== Proof.FiniteInputs.lean ====
/-
  The precondition "every float input is finite", read back. The printed predicate compares the absolute
  value of each entry of the five argument arrays with plus infinity, reduces each comparison array by "and" over
  all its axes, and conjoins the five results. If the predicate is true then every comparison holds at every entry,
  and an extended real whose absolute value is below plus infinity is neither infinity: it is a real number.
-/
import proofs.«157401_j56521769615696_2_alg».proof.Pre_finite_inputs
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

/-- The scalar shape has one index. -/
instance : Subsingleton S_.Idx := ⟨fun a b => funext fun d => d.elim0⟩

/-- An extended real whose absolute value compares below the f32 pattern of plus infinity is a real: plus infinity
    fails the comparison itself, and minus infinity fails it through its absolute value, which is plus infinity. -/
theorem real_of_abs_lt_inf (z : EReal)
    (h : FloatOps.cmpf (F := Ideal) (φ := .f32) .olt (FloatOps.hostAbsf z) (FloatOps.ofBits .f32 0x7F800000#32) = 1#1) :
    ∃ r : ℝ, z = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction z using EReal.rec with
  | bot => exfalso; revert h; simp [Ideal.cmp]
  | coe r => exact ⟨r, rfl⟩
  | top => exfalso; revert h; simp [Ideal.cmp]

/-- One array's part of the predicate: if the reduce by "and" of the comparison array is true, every entry is a
    real. -/
theorem real_of_all {s : Shape} {axes : List (Fin s.rank)} (a : FVec Ideal s .f32) (hb : S_.BroadcastsInDim s ![])
    (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) :=
  real_of_abs_lt_inf (a i) (Host.reduce_andi_all _ _ hr hu ValueIdx.ix0 e i)

/-- THE PRECONDITION READ BACK: if the printed predicate is true of five arrays of extended reals, every entry of
    each of them is a real number. -/
theorem inputs_real [Facts] (a0 : FVec Ideal S4x2048x1024 .f32) (a1 a2 a3 a4 : FVec Ideal S1024x1024 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨real_of_all a0 _ _ _ e0, real_of_all a1 _ _ _ e1, real_of_all a2 _ _ _ e2, real_of_all a3 _ _ _ e3,
    real_of_all a4 _ _ _ e4⟩

end Cert.FiniteInputs

end
-- ==== Proof.lean ====
/-
  The certificate: the multi-head attention kernel (four pipelined calls: fused query / key / value
  projection, global maximum of the causally masked scaled scores, attention with that fixed maximum,
  output projection) against its plain reference, equal as extended reals under finite inputs.

  The three programs terminate, fault nowhere and keep their five arguments: for the two kernel
  programs because @main is nine items (host stretches and calls) each of which runs from the
  contents the one before left, and no item writes an argument; for the reference because it is a
  straight line of host operations.  The idealized kernel differs from the printed one only in
  reading the finite mask value as the least extended real.

  Both idealized programs end with the same function of the arguments, the specification: with
  q, k, v the head-split projections of x, s = q k^T / 8 masked to the least value above the diagonal,
  M the maximum of all of s, w = exp(s - M), the result is ((sum_m w v) / (sum_m w)) merged over heads
  and projected by the output weight.  The reference computes it in this arrangement.  The kernel
  multiplies by the dyadic 1/8 instead of dividing by the square root of 64 (the same number), takes
  the maximum tile by tile over the tiles at or below the diagonal only (the others hold only the
  least value, which is the maximum's identity), and divides the accumulated weighted values by the
  accumulated weights once at the end instead of normalising each weight first: for finite inputs
  every weight is a nonnegative real and every row's weight sum a positive real, so the two quotients
  agree, and the tiles above the diagonal contribute zeros.
-/
import proofs.«157401_j56521769615696_2_alg».proof.Defs
import proofs.«157401_j56521769615696_2_alg».proof.Proof.Gen.Kernel
import proofs.«157401_j56521769615696_2_alg».proof.Proof.Gen.KernelIdeal
import proofs.«157401_j56521769615696_2_alg».proof.Proof.Gen.ReferenceIdeal
import proofs.«157401_j56521769615696_2_alg».proof.Proof.Gen.Pre_finite_inputs
import proofs.«157401_j56521769615696_2_alg».proof.Proof.SmallClaims
import proofs.«157401_j56521769615696_2_alg».proof.Proof.RunWord
import proofs.«157401_j56521769615696_2_alg».proof.Proof.RunIdeal
import proofs.«157401_j56521769615696_2_alg».proof.Proof.BridgeFinal
import proofs.«157401_j56521769615696_2_alg».proof.Proof.FiniteInputs
import proofs.«157401_j56521769615696_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_word : Cert.frame_Kernel := fun m ρ _ => Cert.Kernel.Run.frame (F := Bits) m ρ

theorem frame_ideal : Cert.frame_KernelIdeal := fun m ρ _ => Cert.KernelIdeal.Run.frame (F := Ideal) m ρ

/-- Both idealized programs end at the specification of the (agreeing) arguments. -/
theorem algebraic : Cert.algebraic_KernelIdeal_ReferenceIdeal := by
  intro m ρ m' ρ' hpre hagree
  refine ⟨fun c => Cert.AttnSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Run.run (F := Ideal) m ρ)
    obtain ⟨hx, hwq, hwk, hwv, -⟩ := Cert.FiniteInputs.inputs_real _ _ _ _ _ (hpre c)
    exact ⟨(h c _ (Cert.KernelIdeal.Run.mem_uc Cert.KernelIdeal.main_v21 (by decide))).trans (Cert.KernelIdeal.Bridge.result_eq m ρ c hx hwq hwk hwv),
      (h c _ (Cert.KernelIdeal.Run.mem_uc Cert.KernelIdeal.main_arg0 (by decide))).trans (Cert.KernelIdeal.Run.W9_main_arg0 m ρ c),
      (h c _ (Cert.KernelIdeal.Run.mem_uc Cert.KernelIdeal.main_arg1 (by decide))).trans (Cert.KernelIdeal.Run.W9_main_arg1 m ρ c),
      (h c _ (Cert.KernelIdeal.Run.mem_uc Cert.KernelIdeal.main_arg2 (by decide))).trans (Cert.KernelIdeal.Run.W9_main_arg2 m ρ c),
      (h c _ (Cert.KernelIdeal.Run.mem_uc Cert.KernelIdeal.main_arg3 (by decide))).trans (Cert.KernelIdeal.Run.W9_main_arg3 m ρ c),
      (h c _ (Cert.KernelIdeal.Run.mem_uc Cert.KernelIdeal.main_arg4 (by decide))).trans (Cert.KernelIdeal.Run.W9_main_arg4 m ρ c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v27_eq, Cert.RefIsSpec.ref_eq_spec,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_word, frame_ideal, Cert.Proof.SmallClaims.frame_reference, Cert.Proof.SmallClaims.preserves, algebraic⟩

end Cert.Proof

end
